-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x128 : Shape := ⟨2, ![100000, 128]⟩
abbrev S200x128 : Shape := ⟨2, ![200, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200x128 : S_.BroadcastsInDim S200x128 (![] : Fin 0 → Fin S200x128.rank)
  reducesTo_S200x128_S_d0_1 : S200x128.ReducesTo [0, 1] S_
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S100000x128 .f32) (main_arg2 : FVec F S200x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S200x128 .f32 := Host.absf main_arg2
  let main_cst_0 : FVec F S_ .f32 := constant S_ .f32 0x7F800000#32
  let main_v5 : FVec F S200x128 .f32 := broadcastInDim S200x128 ![] bcast_S_S200x128 main_cst_0
  let main_v6 : IVec S200x128 1 := cmpf .olt main_v4 main_v5
  let main_c_1 : IVec S_ 1 := constantI S_ 1 1#1
  let main_v7 : IVec S_ 1 := (fun x v => Host.reduce IntOp.andi x v reducesTo_S200x128_S_d0_1 h_S_) main_v6 main_c_1
  let main_v8 : IVec S_ 1 := andi main_v3 main_v7
  let main_c_2 : IVec S_ 32 := constantI S_ 32 0#32
  let main_v9 : IVec S4096x200 32 := broadcastInDim S4096x200 ![] bcast_S_S4096x200 main_c_2
  let main_v10 : IVec S4096x200 1 := cmpi .sge main_arg0 main_v9
  let main_c_3 : IVec S_ 32 := constantI S_ 32 99999#32
  let main_v11 : IVec S4096x200 32 := broadcastInDim S4096x200 ![] bcast_S_S4096x200 main_c_3
  let main_v12 : IVec S4096x200 1 := cmpi .sle main_arg0 main_v11
  let main_v13 : IVec S4096x200 1 := andi main_v10 main_v12
  let main_c_4 : IVec S_ 1 := constantI S_ 1 1#1
  let main_v14 : IVec S_ 1 := (fun x v => Host.reduce IntOp.andi x v reducesTo_S4096x200_S_d0_1 h_S_) main_v13 main_c_4
  let main_v15 : IVec S_ 1 := andi main_v8 main_v14
  main_v15
-- ==== Kernel.lean ====
abbrev S4096x200 : Shape := ⟨2, ![4096, 200]⟩
abbrev S100000x128 : Shape := ⟨2, ![100000, 128]⟩
abbrev S200x128 : Shape := ⟨2, ![200, 128]⟩
abbrev S200x4096 : Shape := ⟨2, ![200, 4096]⟩
abbrev S4096x200x128 : Shape := ⟨3, ![4096, 200, 128]⟩
abbrev S128x128 : Shape := ⟨2, ![128, 128]⟩
abbrev S_ : Shape := ⟨0, ![]⟩
abbrev S1x128 : Shape := ⟨2, ![1, 128]⟩
abbrev S128 : Shape := ⟨1, ![128]⟩
abbrev S1x16 : Shape := ⟨2, ![1, 16]⟩
abbrev S16 : Shape := ⟨1, ![16]⟩
abbrev S128x1x128 : Shape := ⟨3, ![128, 1, 128]⟩

abbrev nBuf : Table → Nat
  | .hbm => 5
  | .local .scVector .vmem => 6
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S200x128, .f32⟩
  | .hbm, ⟨3, _⟩ => ⟨S200x4096, .i32⟩
  | .hbm, ⟨4, _⟩ => ⟨S4096x200x128, .f32⟩
  | .local .scVector .vmem, ⟨0, _⟩ => ⟨S200x128, .i32⟩
  | .local .scVector .vmem, ⟨1, _⟩ => ⟨S200x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v0_scv : Ref sig .scVector := ⟨.hbm, 3, rfl⟩
abbrev main_arg1_scv : Ref sig .scVector := ⟨.hbm, 1, rfl⟩
abbrev main_arg2_scv : Ref sig .scVector := ⟨.hbm, 2, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_14_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
@[reducible] def k0_t1_loop : Scf.Loop 32 :=
  let c0_i32_7 : BitVec 32 := 0#32
  let c50_i32 : BitVec 32 := 50#32
  let v9 : BitVec 32 := Scalar.addi c0_i32_7 c50_i32
  let c1_i32_8 : BitVec 32 := 1#32
  ⟨c0_i32_7, v9, c1_i32_8⟩
def k0_off2 (k0_t1 : Fin k0_t1_loop.trips) (c0_i32_14 : BitVec 32) : Fin 2 → Nat :=
  let c4_i32 : BitVec 32 := 4#32
  let c0_i32_7 : BitVec 32 := 0#32
  let c1_i32_8 : BitVec 32 := 1#32
  let arg20 : BitVec 32 := Scf.iv c0_i32_7 c1_i32_8 k0_t1
  let v18 : BitVec 32 := Scalar.muli c4_i32 arg20
  let v19 : BitVec 32 := Scalar.addi v18 c0_i32_14
  let c0_i32_15 : BitVec 32 := 0#32
  ![v19.toNat, 0]
def k0_off3 (k0_t1 : Fin k0_t1_loop.trips) (c0_i32_14 : BitVec 32) : Fin 2 → Nat :=
  let c4_i32 : BitVec 32 := 4#32
  let c0_i32_7 : BitVec 32 := 0#32
  let c1_i32_8 : BitVec 32 := 1#32
  let arg20 : BitVec 32 := Scf.iv c0_i32_7 c1_i32_8 k0_t1
  let v18 : BitVec 32 := Scalar.muli c4_i32 arg20
  let v19 : BitVec 32 := Scalar.addi v18 c0_i32_14
  let v23 : Index := Scalar.indexCast v19
  let c0 : Index := 0#32
  ![v23.toNat, 0]
def k0_off4 (k0_t1 : Fin k0_t1_loop.trips) (c0_i32_14 : BitVec 32) : Fin 2 → Nat :=
  let c4_i32 : BitVec 32 := 4#32
  let c0_i32_7 : BitVec 32 := 0#32
  let c1_i32_8 : BitVec 32 := 1#32
  let arg20 : BitVec 32 := Scf.iv c0_i32_7 c1_i32_8 k0_t1
  let v18 : BitVec 32 := Scalar.muli c4_i32 arg20
  let v19 : BitVec 32 := Scalar.addi v18 c0_i32_14
  let v26 : Index := Scalar.indexCast v19
  let c16 : Index := 16#32
  ![v26.toNat, 16]
def k0_off5 (k0_t1 : Fin k0_t1_loop.trips) (c0_i32_14 : BitVec 32) : Fin 2 → Nat :=
  let c4_i32 : BitVec 32 := 4#32
  let c0_i32_7 : BitVec 32 := 0#32
  let c1_i32_8 : BitVec 32 := 1#32
  let arg20 : BitVec 32 := Scf.iv c0_i32_7 c1_i32_8 k0_t1
  let v18 : BitVec 32 := Scalar.muli c4_i32 arg20
  let v19 : BitVec 32 := Scalar.addi v18 c0_i32_14
  let v29 : Index := Scalar.indexCast v19
  let c32 : Index := 32#32
  ![v29.toNat, 32]
def k0_off6 (k0_t1 : Fin k0_t1_loop.trips) (c0_i32_14 : BitVec 32) : Fin 2 → Nat :=
  let c4_i32 : BitVec 32 := 4#32
  let c0_i32_7 : BitVec 32 := 0#32
  let c1_i32_8 : BitVec 32 := 1#32
  let arg20 : BitVec 32 := Scf.iv c0_i32_7 c1_i32_8 k0_t1
  let v18 : BitVec 32 := Scalar.muli c4_i32 arg20
  let v19 : BitVec 32 := Scalar.addi v18 c0_i32_14
  let v32 : Index := Scalar.indexCast v19
  let c48 : Index := 48#32
  ![v32.toNat, 48]
def k0_off7 (k0_t1 : Fin k0_t1_loop.trips) (c0_i32_14 : BitVec 32) : Fin 2 → Nat :=
  let c4_i32 : BitVec 32 := 4#32
  let c0_i32_7 : BitVec 32 := 0#32
  let c1_i32_8 : BitVec 32 := 1#32
  let arg20 : BitVec 32 := Scf.iv c0_i32_7 c1_i32_8 k0_t1
  let v18 : BitVec 32 := Scalar.muli c4_i32 arg20
  let v19 : BitVec 32 := Scalar.addi v18 c0_i32_14
  let v35 : Index := Scalar.indexCast v19
  let c64 : Index := 64#32
  ![v35.toNat, 64]
def k0_off8 (k0_t1 : Fin k0_t1_loop.trips) (c0_i32_14 : BitVec 32) : Fin 2 → Nat :=
  let c4_i32 : BitVec 32 := 4#32
  let c0_i32_7 : BitVec 32 := 0#32
  let c1_i32_8 : BitVec 32 := 1#32
  let arg20 : BitVec 32 := Scf.iv c0_i32_7 c1_i32_8 k0_t1
  let v18 : BitVec 32 := Scalar.muli c4_i32 arg20
  let v19 : BitVec 32 := Scalar.addi v18 c0_i32_14
  let v38 : Index := Scalar.indexCast v19
  let c80 : Index := 80#32
  ![v38.toNat, 80]
def k0_off9 (k0_t1 : Fin k0_t1_loop.trips) (c0_i32_14 : BitVec 32) : Fin 2 → Nat :=
  let c4_i32 : BitVec 32 := 4#32
  let c0_i32_7 : BitVec 32 := 0#32
  let c1_i32_8 : BitVec 32 := 1#32
  let arg20 : BitVec 32 := Scf.iv c0_i32_7 c1_i32_8 k0_t1
  let v18 : BitVec 32 := Scalar.muli c4_i32 arg20
  let v19 : BitVec 32 := Scalar.addi v18 c0_i32_14
  let v41 : Index := Scalar.indexCast v19
  let c96 : Index := 96#32
  ![v41.toNat, 96]
def k0_off10 (k0_t1 : Fin k0_t1_loop.trips) (c0_i32_14 : BitVec 32) : Fin 2 → Nat :=
  let c4_i32 : BitVec 32 := 4#32
  let c0_i32_7 : BitVec 32 := 0#32
  let c1_i32_8 : BitVec 32 := 1#32
  let arg20 : BitVec 32 := Scf.iv c0_i32_7 c1_i32_8 k0_t1
  let v18 : BitVec 32 := Scalar.muli c4_i32 arg20
  let v19 : BitVec 32 := Scalar.addi v18 c0_i32_14
  let v44 : Index := Scalar.indexCast v19
  let c112 : Index := 112#32
  ![v44.toNat, 112]
@[reducible] def k0_t2_loop : Scf.Loop 32 :=
  let c0_i32_19 : BitVec 32 := 0#32
  let c128_i32_20 : BitVec 32 := 128#32
  let v47 : BitVec 32 := Scalar.addi c0_i32_19 c128_i32_20
  let c1_i32_21 : BitVec 32 := 1#32
  ⟨c0_i32_19, v47, c1_i32_21⟩
def k0_off11 (k0_t2 : Fin k0_t2_loop.trips) : Fin 2 → Nat :=
  let c0_i32_19 : BitVec 32 := 0#32
  let c1_i32_21 : BitVec 32 := 1#32
  let arg21 : BitVec 32 := Scf.iv c0_i32_19 c1_i32_21 k0_t2
  let v178 : Index := Scalar.indexCast arg21
  let c0_100 : Index := 0#32
  ![v178.toNat, 0]
def k0_off12 (k0_t2 : Fin k0_t2_loop.trips) : Fin 2 → Nat :=
  let c0_i32_19 : BitVec 32 := 0#32
  let c1_i32_21 : BitVec 32 := 1#32
  let arg21 : BitVec 32 := Scf.iv c0_i32_19 c1_i32_21 k0_t2
  let v186 : Index := Scalar.indexCast arg21
  let c16_102 : Index := 16#32
  ![v186.toNat, 16]
def k0_off13 (k0_t2 : Fin k0_t2_loop.trips) : Fin 2 → Nat :=
  let c0_i32_19 : BitVec 32 := 0#32
  let c1_i32_21 : BitVec 32 := 1#32
  let arg21 : BitVec 32 := Scf.iv c0_i32_19 c1_i32_21 k0_t2
  let v194 : Index := Scalar.indexCast arg21
  let c32_104 : Index := 32#32
  ![v194.toNat, 32]
def k0_off14 (k0_t2 : Fin k0_t2_loop.trips) : Fin 2 → Nat :=
  let c0_i32_19 : BitVec 32 := 0#32
  let c1_i32_21 : BitVec 32 := 1#32
  let arg21 : BitVec 32 := Scf.iv c0_i32_19 c1_i32_21 k0_t2
  let v202 : Index := Scalar.indexCast arg21
  let c48_106 : Index := 48#32
  ![v202.toNat, 48]
def k0_off15 (k0_t2 : Fin k0_t2_loop.trips) : Fin 2 → Nat :=
  let c0_i32_19 : BitVec 32 := 0#32
  let c1_i32_21 : BitVec 32 := 1#32
  let arg21 : BitVec 32 := Scf.iv c0_i32_19 c1_i32_21 k0_t2
  let v210 : Index := Scalar.indexCast arg21
  let c64_108 : Index := 64#32
  ![v210.toNat, 64]
def k0_off16 (k0_t2 : Fin k0_t2_loop.trips) : Fin 2 → Nat :=
  let c0_i32_19 : BitVec 32 := 0#32
  let c1_i32_21 : BitVec 32 := 1#32
  let arg21 : BitVec 32 := Scf.iv c0_i32_19 c1_i32_21 k0_t2
  let v218 : Index := Scalar.indexCast arg21
  let c80_110 : Index := 80#32
  ![v218.toNat, 80]
def k0_off17 (k0_t2 : Fin k0_t2_loop.trips) : Fin 2 → Nat :=
  let c0_i32_19 : BitVec 32 := 0#32
  let c1_i32_21 : BitVec 32 := 1#32
  let arg21 : BitVec 32 := Scf.iv c0_i32_19 c1_i32_21 k0_t2
  let v226 : Index := Scalar.indexCast arg21
  let c96_112 : Index := 96#32
  ![v226.toNat, 96]
def k0_off18 (k0_t2 : Fin k0_t2_loop.trips) : Fin 2 → Nat :=
  let c0_i32_19 : BitVec 32 := 0#32
  let c1_i32_21 : BitVec 32 := 1#32
  let arg21 : BitVec 32 := Scf.iv c0_i32_19 c1_i32_21 k0_t2
  let v234 : Index := Scalar.indexCast arg21
  let c112_114 : Index := 112#32
  ![v234.toNat, 112]
def k0_off19 (i : grid0.Coords) (k0_t1 : Fin k0_t1_loop.trips) (c0_i32_14 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32 : BitVec 32 := 4#32
  let c0_i32_7 : BitVec 32 := 0#32
  let c1_i32_8 : BitVec 32 := 1#32
  let arg20 : BitVec 32 := Scf.iv c0_i32_7 c1_i32_8 k0_t1
  let v18 : BitVec 32 := Scalar.muli c4_i32 arg20
  let v19 : BitVec 32 := Scalar.addi v18 c0_i32_14
  let c0_i32_23 : BitVec 32 := 0#32
  ![v2.toNat, v19.toNat, 0]
def k0_cond1 (k0_t1 : Fin k0_t1_loop.trips) : BitVec 1 :=
  let c4_i32 : BitVec 32 := 4#32
  let c0_i32_7 : BitVec 32 := 0#32
  let c1_i32_8 : BitVec 32 := 1#32
  let arg20 : BitVec 32 := Scf.iv c0_i32_7 c1_i32_8 k0_t1
  let v18 : BitVec 32 := Scalar.muli c4_i32 arg20
  let c0_i32_14 : BitVec 32 := 0#32
  let v19 : BitVec 32 := Scalar.addi v18 c0_i32_14
  let c2_i32_25 : BitVec 32 := 2#32
  let v52 : BitVec 1 := Scalar.cmpi .sge v19 c2_i32_25
  let v53 : BitVec 32 := Scalar.extui v52
  let c0_i32_26 : BitVec 32 := 0#32
  let v54 : BitVec 1 := Scalar.cmpi .ne v53 c0_i32_26
  v54

def k0_off20 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32 : BitVec 32 := 4#32
  let c0_i32_7 : BitVec 32 := 0#32
  let c1_i32_8 : BitVec 32 := 1#32
  let arg20 : BitVec 32 := Scf.iv c0_i32_7 c1_i32_8 k0_t1
  let v18 : BitVec 32 := Scalar.muli c4_i32 arg20
  let c0_i32_14 : BitVec 32 := 0#32
  let v19 : BitVec 32 := Scalar.addi v18 c0_i32_14
  let c2_i32_100 : BitVec 32 := 2#32
  let v178 : BitVec 32 := Scalar.subi v19 c2_i32_100
  let c0_i32_101 : BitVec 32 := 0#32
  ![v2.toNat, v178.toNat, 0]
def k0_cond2 (k0_t1 : Fin k0_t1_loop.trips) : BitVec 1 :=
  let c4_i32 : BitVec 32 := 4#32
  let c0_i32_7 : BitVec 32 := 0#32
  let c1_i32_8 : BitVec 32 := 1#32
  let arg20 : BitVec 32 := Scf.iv c0_i32_7 c1_i32_8 k0_t1
  let v18 : BitVec 32 := Scalar.muli c4_i32 arg20
  let c0_i32_14 : BitVec 32 := 0#32
  let v19 : BitVec 32 := Scalar.addi v18 c0_i32_14
  let c198_i32_27 : BitVec 32 := 198#32
  let v55 : BitVec 1 := Scalar.cmpi .slt v19 c198_i32_27
  let v56 : BitVec 32 := Scalar.extui v55
  let c0_i32_28 : BitVec 32 := 0#32
  let v57 : BitVec 1 := Scalar.cmpi .ne v56 c0_i32_28
  v57

def k0_off21 (k0_t1 : Fin k0_t1_loop.trips) : Fin 2 → Nat :=
  let c4_i32 : BitVec 32 := 4#32
  let c0_i32_7 : BitVec 32 := 0#32
  let c1_i32_8 : BitVec 32 := 1#32
  let arg20 : BitVec 32 := Scf.iv c0_i32_7 c1_i32_8 k0_t1
  let v18 : BitVec 32 := Scalar.muli c4_i32 arg20
  let c0_i32_14 : BitVec 32 := 0#32
  let v19 : BitVec 32 := Scalar.addi v18 c0_i32_14
  let c2_i32_100 : BitVec 32 := 2#32
  let v178 : BitVec 32 := Scalar.addi v19 c2_i32_100
  let c0_i32_101 : BitVec 32 := 0#32
  ![v178.toNat, 0]
@[reducible] def k0_t3_loop : Scf.Loop 32 :=
  let c0_i32_43 : BitVec 32 := 0#32
  let c128_i32_44 : BitVec 32 := 128#32
  let v87 : BitVec 32 := Scalar.addi c0_i32_43 c128_i32_44
  let c1_i32_45 : BitVec 32 := 1#32
  ⟨c0_i32_43, v87, c1_i32_45⟩
def k0_off22 (k0_t3 : Fin k0_t3_loop.trips) : Fin 2 → Nat :=
  let c0_i32_43 : BitVec 32 := 0#32
  let c1_i32_45 : BitVec 32 := 1#32
  let arg21 : BitVec 32 := Scf.iv c0_i32_43 c1_i32_45 k0_t3
  let v178 : Index := Scalar.indexCast arg21
  let c0_100 : Index := 0#32
  ![v178.toNat, 0]
def k0_off23 (k0_t3 : Fin k0_t3_loop.trips) : Fin 2 → Nat :=
  let c0_i32_43 : BitVec 32 := 0#32
  let c1_i32_45 : BitVec 32 := 1#32
  let arg21 : BitVec 32 := Scf.iv c0_i32_43 c1_i32_45 k0_t3
  let v186 : Index := Scalar.indexCast arg21
  let c16_102 : Index := 16#32
  ![v186.toNat, 16]
def k0_off24 (k0_t3 : Fin k0_t3_loop.trips) : Fin 2 → Nat :=
  let c0_i32_43 : BitVec 32 := 0#32
  let c1_i32_45 : BitVec 32 := 1#32
  let arg21 : BitVec 32 := Scf.iv c0_i32_43 c1_i32_45 k0_t3
  let v194 : Index := Scalar.indexCast arg21
  let c32_104 : Index := 32#32
  ![v194.toNat, 32]
def k0_off25 (k0_t3 : Fin k0_t3_loop.trips) : Fin 2 → Nat :=
  let c0_i32_43 : BitVec 32 := 0#32
  let c1_i32_45 : BitVec 32 := 1#32
  let arg21 : BitVec 32 := Scf.iv c0_i32_43 c1_i32_45 k0_t3
  let v202 : Index := Scalar.indexCast arg21
  let c48_106 : Index := 48#32
  ![v202.toNat, 48]
def k0_off26 (k0_t3 : Fin k0_t3_loop.trips) : Fin 2 → Nat :=
  let c0_i32_43 : BitVec 32 := 0#32
  let c1_i32_45 : BitVec 32 := 1#32
  let arg21 : BitVec 32 := Scf.iv c0_i32_43 c1_i32_45 k0_t3
  let v210 : Index := Scalar.indexCast arg21
  let c64_108 : Index := 64#32
  ![v210.toNat, 64]
def k0_off27 (k0_t3 : Fin k0_t3_loop.trips) : Fin 2 → Nat :=
  let c0_i32_43 : BitVec 32 := 0#32
  let c1_i32_45 : BitVec 32 := 1#32
  let arg21 : BitVec 32 := Scf.iv c0_i32_43 c1_i32_45 k0_t3
  let v218 : Index := Scalar.indexCast arg21
  let c80_110 : Index := 80#32
  ![v218.toNat, 80]
def k0_off28 (k0_t3 : Fin k0_t3_loop.trips) : Fin 2 → Nat :=
  let c0_i32_43 : BitVec 32 := 0#32
  let c1_i32_45 : BitVec 32 := 1#32
  let arg21 : BitVec 32 := Scf.iv c0_i32_43 c1_i32_45 k0_t3
  let v226 : Index := Scalar.indexCast arg21
  let c96_112 : Index := 96#32
  ![v226.toNat, 96]
def k0_off29 (k0_t3 : Fin k0_t3_loop.trips) : Fin 2 → Nat :=
  let c0_i32_43 : BitVec 32 := 0#32
  let c1_i32_45 : BitVec 32 := 1#32
  let arg21 : BitVec 32 := Scf.iv c0_i32_43 c1_i32_45 k0_t3
  let v234 : Index := Scalar.indexCast arg21
  let c112_114 : Index := 112#32
  ![v234.toNat, 112]
def k0_cond3 (k0_t1 : Fin k0_t1_loop.trips) : BitVec 1 :=
  let c4_i32_29 : BitVec 32 := 4#32
  let c0_i32_7 : BitVec 32 := 0#32
  let c1_i32_8 : BitVec 32 := 1#32
  let arg20 : BitVec 32 := Scf.iv c0_i32_7 c1_i32_8 k0_t1
  let v58 : BitVec 32 := Scalar.muli c4_i32_29 arg20
  let c1_i32_30 : BitVec 32 := 1#32
  let v59 : BitVec 32 := Scalar.addi v58 c1_i32_30
  let c2_i32_49 : BitVec 32 := 2#32
  let v92 : BitVec 1 := Scalar.cmpi .sge v59 c2_i32_49
  let v93 : BitVec 32 := Scalar.extui v92
  let c0_i32_50 : BitVec 32 := 0#32
  let v94 : BitVec 1 := Scalar.cmpi .ne v93 c0_i32_50
  v94

def k0_off30 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_29 : BitVec 32 := 4#32
  let c0_i32_7 : BitVec 32 := 0#32
  let c1_i32_8 : BitVec 32 := 1#32
  let arg20 : BitVec 32 := Scf.iv c0_i32_7 c1_i32_8 k0_t1
  let v58 : BitVec 32 := Scalar.muli c4_i32_29 arg20
  let c1_i32_30 : BitVec 32 := 1#32
  let v59 : BitVec 32 := Scalar.addi v58 c1_i32_30
  let c2_i32_100 : BitVec 32 := 2#32
  let v178 : BitVec 32 := Scalar.subi v59 c2_i32_100
  let c0_i32_101 : BitVec 32 := 0#32
  ![v2.toNat, v178.toNat, 0]
def k0_cond4 (k0_t1 : Fin k0_t1_loop.trips) : BitVec 1 :=
  let c4_i32_29 : BitVec 32 := 4#32
  let c0_i32_7 : BitVec 32 := 0#32
  let c1_i32_8 : BitVec 32 := 1#32
  let arg20 : BitVec 32 := Scf.iv c0_i32_7 c1_i32_8 k0_t1
  let v58 : BitVec 32 := Scalar.muli c4_i32_29 arg20
  let c1_i32_30 : BitVec 32 := 1#32
  let v59 : BitVec 32 := Scalar.addi v58 c1_i32_30
  let c198_i32_51 : BitVec 32 := 198#32
  let v95 : BitVec 1 := Scalar.cmpi .slt v59 c198_i32_51
  let v96 : BitVec 32 := Scalar.extui v95
  let c0_i32_52 : BitVec 32 := 0#32
  let v97 : BitVec 1 := Scalar.cmpi .ne v96 c0_i32_52
  v97

def k0_off31 (k0_t1 : Fin k0_t1_loop.trips) : Fin 2 → Nat :=
  let c4_i32_29 : BitVec 32 := 4#32
  let c0_i32_7 : BitVec 32 := 0#32
  let c1_i32_8 : BitVec 32 := 1#32
  let arg20 : BitVec 32 := Scf.iv c0_i32_7 c1_i32_8 k0_t1
  let v58 : BitVec 32 := Scalar.muli c4_i32_29 arg20
  let c1_i32_30 : BitVec 32 := 1#32
  let v59 : BitVec 32 := Scalar.addi v58 c1_i32_30
  let c2_i32_100 : BitVec 32 := 2#32
  let v178 : BitVec 32 := Scalar.addi v59 c2_i32_100
  let c0_i32_101 : BitVec 32 := 0#32
  ![v178.toNat, 0]
@[reducible] def k0_t4_loop : Scf.Loop 32 :=
  let c0_i32_67 : BitVec 32 := 0#32
  let c128_i32_68 : BitVec 32 := 128#32
  let v127 : BitVec 32 := Scalar.addi c0_i32_67 c128_i32_68
  let c1_i32_69 : BitVec 32 := 1#32
  ⟨c0_i32_67, v127, c1_i32_69⟩
def k0_off32 (k0_t4 : Fin k0_t4_loop.trips) : Fin 2 → Nat :=
  let c0_i32_67 : BitVec 32 := 0#32
  let c1_i32_69 : BitVec 32 := 1#32
  let arg21 : BitVec 32 := Scf.iv c0_i32_67 c1_i32_69 k0_t4
  let v178 : Index := Scalar.indexCast arg21
  let c0_100 : Index := 0#32
  ![v178.toNat, 0]
def k0_off33 (k0_t4 : Fin k0_t4_loop.trips) : Fin 2 → Nat :=
  let c0_i32_67 : BitVec 32 := 0#32
  let c1_i32_69 : BitVec 32 := 1#32
  let arg21 : BitVec 32 := Scf.iv c0_i32_67 c1_i32_69 k0_t4
  let v186 : Index := Scalar.indexCast arg21
  let c16_102 : Index := 16#32
  ![v186.toNat, 16]
def k0_off34 (k0_t4 : Fin k0_t4_loop.trips) : Fin 2 → Nat :=
  let c0_i32_67 : BitVec 32 := 0#32
  let c1_i32_69 : BitVec 32 := 1#32
  let arg21 : BitVec 32 := Scf.iv c0_i32_67 c1_i32_69 k0_t4
  let v194 : Index := Scalar.indexCast arg21
  let c32_104 : Index := 32#32
  ![v194.toNat, 32]
def k0_off35 (k0_t4 : Fin k0_t4_loop.trips) : Fin 2 → Nat :=
  let c0_i32_67 : BitVec 32 := 0#32
  let c1_i32_69 : BitVec 32 := 1#32
  let arg21 : BitVec 32 := Scf.iv c0_i32_67 c1_i32_69 k0_t4
  let v202 : Index := Scalar.indexCast arg21
  let c48_106 : Index := 48#32
  ![v202.toNat, 48]
def k0_off36 (k0_t4 : Fin k0_t4_loop.trips) : Fin 2 → Nat :=
  let c0_i32_67 : BitVec 32 := 0#32
  let c1_i32_69 : BitVec 32 := 1#32
  let arg21 : BitVec 32 := Scf.iv c0_i32_67 c1_i32_69 k0_t4
  let v210 : Index := Scalar.indexCast arg21
  let c64_108 : Index := 64#32
  ![v210.toNat, 64]
def k0_off37 (k0_t4 : Fin k0_t4_loop.trips) : Fin 2 → Nat :=
  let c0_i32_67 : BitVec 32 := 0#32
  let c1_i32_69 : BitVec 32 := 1#32
  let arg21 : BitVec 32 := Scf.iv c0_i32_67 c1_i32_69 k0_t4
  let v218 : Index := Scalar.indexCast arg21
  let c80_110 : Index := 80#32
  ![v218.toNat, 80]
def k0_off38 (k0_t4 : Fin k0_t4_loop.trips) : Fin 2 → Nat :=
  let c0_i32_67 : BitVec 32 := 0#32
  let c1_i32_69 : BitVec 32 := 1#32
  let arg21 : BitVec 32 := Scf.iv c0_i32_67 c1_i32_69 k0_t4
  let v226 : Index := Scalar.indexCast arg21
  let c96_112 : Index := 96#32
  ![v226.toNat, 96]
def k0_off39 (k0_t4 : Fin k0_t4_loop.trips) : Fin 2 → Nat :=
  let c0_i32_67 : BitVec 32 := 0#32
  let c1_i32_69 : BitVec 32 := 1#32
  let arg21 : BitVec 32 := Scf.iv c0_i32_67 c1_i32_69 k0_t4
  let v234 : Index := Scalar.indexCast arg21
  let c112_114 : Index := 112#32
  ![v234.toNat, 112]
def k0_cond5 (k0_t1 : Fin k0_t1_loop.trips) : BitVec 1 :=
  let c4_i32_53 : BitVec 32 := 4#32
  let c0_i32_7 : BitVec 32 := 0#32
  let c1_i32_8 : BitVec 32 := 1#32
  let arg20 : BitVec 32 := Scf.iv c0_i32_7 c1_i32_8 k0_t1
  let v98 : BitVec 32 := Scalar.muli c4_i32_53 arg20
  let c2_i32_54 : BitVec 32 := 2#32
  let v99 : BitVec 32 := Scalar.addi v98 c2_i32_54
  let c2_i32_73 : BitVec 32 := 2#32
  let v132 : BitVec 1 := Scalar.cmpi .sge v99 c2_i32_73
  let v133 : BitVec 32 := Scalar.extui v132
  let c0_i32_74 : BitVec 32 := 0#32
  let v134 : BitVec 1 := Scalar.cmpi .ne v133 c0_i32_74
  v134

def k0_off40 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_53 : BitVec 32 := 4#32
  let c0_i32_7 : BitVec 32 := 0#32
  let c1_i32_8 : BitVec 32 := 1#32
  let arg20 : BitVec 32 := Scf.iv c0_i32_7 c1_i32_8 k0_t1
  let v98 : BitVec 32 := Scalar.muli c4_i32_53 arg20
  let c2_i32_54 : BitVec 32 := 2#32
  let v99 : BitVec 32 := Scalar.addi v98 c2_i32_54
  let c2_i32_100 : BitVec 32 := 2#32
  let v178 : BitVec 32 := Scalar.subi v99 c2_i32_100
  let c0_i32_101 : BitVec 32 := 0#32
  ![v2.toNat, v178.toNat, 0]
def k0_cond6 (k0_t1 : Fin k0_t1_loop.trips) : BitVec 1 :=
  let c4_i32_53 : BitVec 32 := 4#32
  let c0_i32_7 : BitVec 32 := 0#32
  let c1_i32_8 : BitVec 32 := 1#32
  let arg20 : BitVec 32 := Scf.iv c0_i32_7 c1_i32_8 k0_t1
  let v98 : BitVec 32 := Scalar.muli c4_i32_53 arg20
  let c2_i32_54 : BitVec 32 := 2#32
  let v99 : BitVec 32 := Scalar.addi v98 c2_i32_54
  let c198_i32_75 : BitVec 32 := 198#32
  let v135 : BitVec 1 := Scalar.cmpi .slt v99 c198_i32_75
  let v136 : BitVec 32 := Scalar.extui v135
  let c0_i32_76 : BitVec 32 := 0#32
  let v137 : BitVec 1 := Scalar.cmpi .ne v136 c0_i32_76
  v137

def k0_off41 (k0_t1 : Fin k0_t1_loop.trips) : Fin 2 → Nat :=
  let c4_i32_53 : BitVec 32 := 4#32
  let c0_i32_7 : BitVec 32 := 0#32
  let c1_i32_8 : BitVec 32 := 1#32
  let arg20 : BitVec 32 := Scf.iv c0_i32_7 c1_i32_8 k0_t1
  let v98 : BitVec 32 := Scalar.muli c4_i32_53 arg20
  let c2_i32_54 : BitVec 32 := 2#32
  let v99 : BitVec 32 := Scalar.addi v98 c2_i32_54
  let c2_i32_100 : BitVec 32 := 2#32
  let v178 : BitVec 32 := Scalar.addi v99 c2_i32_100
  let c0_i32_101 : BitVec 32 := 0#32
  ![v178.toNat, 0]
@[reducible] def k0_t5_loop : Scf.Loop 32 :=
  let c0_i32_90 : BitVec 32 := 0#32
  let c128_i32_91 : BitVec 32 := 128#32
  let v167 : BitVec 32 := Scalar.addi c0_i32_90 c128_i32_91
  let c1_i32_92 : BitVec 32 := 1#32
  ⟨c0_i32_90, v167, c1_i32_92⟩
def k0_off42 (k0_t5 : Fin k0_t5_loop.trips) : Fin 2 → Nat :=
  let c0_i32_90 : BitVec 32 := 0#32
  let c1_i32_92 : BitVec 32 := 1#32
  let arg21 : BitVec 32 := Scf.iv c0_i32_90 c1_i32_92 k0_t5
  let v178 : Index := Scalar.indexCast arg21
  let c0_100 : Index := 0#32
  ![v178.toNat, 0]
def k0_off43 (k0_t5 : Fin k0_t5_loop.trips) : Fin 2 → Nat :=
  let c0_i32_90 : BitVec 32 := 0#32
  let c1_i32_92 : BitVec 32 := 1#32
  let arg21 : BitVec 32 := Scf.iv c0_i32_90 c1_i32_92 k0_t5
  let v186 : Index := Scalar.indexCast arg21
  let c16_102 : Index := 16#32
  ![v186.toNat, 16]
def k0_off44 (k0_t5 : Fin k0_t5_loop.trips) : Fin 2 → Nat :=
  let c0_i32_90 : BitVec 32 := 0#32
  let c1_i32_92 : BitVec 32 := 1#32
  let arg21 : BitVec 32 := Scf.iv c0_i32_90 c1_i32_92 k0_t5
  let v194 : Index := Scalar.indexCast arg21
  let c32_104 : Index := 32#32
  ![v194.toNat, 32]
def k0_off45 (k0_t5 : Fin k0_t5_loop.trips) : Fin 2 → Nat :=
  let c0_i32_90 : BitVec 32 := 0#32
  let c1_i32_92 : BitVec 32 := 1#32
  let arg21 : BitVec 32 := Scf.iv c0_i32_90 c1_i32_92 k0_t5
  let v202 : Index := Scalar.indexCast arg21
  let c48_106 : Index := 48#32
  ![v202.toNat, 48]
def k0_off46 (k0_t5 : Fin k0_t5_loop.trips) : Fin 2 → Nat :=
  let c0_i32_90 : BitVec 32 := 0#32
  let c1_i32_92 : BitVec 32 := 1#32
  let arg21 : BitVec 32 := Scf.iv c0_i32_90 c1_i32_92 k0_t5
  let v210 : Index := Scalar.indexCast arg21
  let c64_108 : Index := 64#32
  ![v210.toNat, 64]
def k0_off47 (k0_t5 : Fin k0_t5_loop.trips) : Fin 2 → Nat :=
  let c0_i32_90 : BitVec 32 := 0#32
  let c1_i32_92 : BitVec 32 := 1#32
  let arg21 : BitVec 32 := Scf.iv c0_i32_90 c1_i32_92 k0_t5
  let v218 : Index := Scalar.indexCast arg21
  let c80_110 : Index := 80#32
  ![v218.toNat, 80]
def k0_off48 (k0_t5 : Fin k0_t5_loop.trips) : Fin 2 → Nat :=
  let c0_i32_90 : BitVec 32 := 0#32
  let c1_i32_92 : BitVec 32 := 1#32
  let arg21 : BitVec 32 := Scf.iv c0_i32_90 c1_i32_92 k0_t5
  let v226 : Index := Scalar.indexCast arg21
  let c96_112 : Index := 96#32
  ![v226.toNat, 96]
def k0_off49 (k0_t5 : Fin k0_t5_loop.trips) : Fin 2 → Nat :=
  let c0_i32_90 : BitVec 32 := 0#32
  let c1_i32_92 : BitVec 32 := 1#32
  let arg21 : BitVec 32 := Scf.iv c0_i32_90 c1_i32_92 k0_t5
  let v234 : Index := Scalar.indexCast arg21
  let c112_114 : Index := 112#32
  ![v234.toNat, 112]
def k0_cond7 (k0_t1 : Fin k0_t1_loop.trips) : BitVec 1 :=
  let c4_i32_77 : BitVec 32 := 4#32
  let c0_i32_7 : BitVec 32 := 0#32
  let c1_i32_8 : BitVec 32 := 1#32
  let arg20 : BitVec 32 := Scf.iv c0_i32_7 c1_i32_8 k0_t1
  let v138 : BitVec 32 := Scalar.muli c4_i32_77 arg20
  let c3_i32 : BitVec 32 := 3#32
  let v139 : BitVec 32 := Scalar.addi v138 c3_i32
  let c2_i32_96 : BitVec 32 := 2#32
  let v172 : BitVec 1 := Scalar.cmpi .sge v139 c2_i32_96
  let v173 : BitVec 32 := Scalar.extui v172
  let c0_i32_97 : BitVec 32 := 0#32
  let v174 : BitVec 1 := Scalar.cmpi .ne v173 c0_i32_97
  v174

def k0_off50 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_77 : BitVec 32 := 4#32
  let c0_i32_7 : BitVec 32 := 0#32
  let c1_i32_8 : BitVec 32 := 1#32
  let arg20 : BitVec 32 := Scf.iv c0_i32_7 c1_i32_8 k0_t1
  let v138 : BitVec 32 := Scalar.muli c4_i32_77 arg20
  let c3_i32 : BitVec 32 := 3#32
  let v139 : BitVec 32 := Scalar.addi v138 c3_i32
  let c2_i32_100 : BitVec 32 := 2#32
  let v178 : BitVec 32 := Scalar.subi v139 c2_i32_100
  let c0_i32_101 : BitVec 32 := 0#32
  ![v2.toNat, v178.toNat, 0]
def k0_cond8 (k0_t1 : Fin k0_t1_loop.trips) : BitVec 1 :=
  let c4_i32_77 : BitVec 32 := 4#32
  let c0_i32_7 : BitVec 32 := 0#32
  let c1_i32_8 : BitVec 32 := 1#32
  let arg20 : BitVec 32 := Scf.iv c0_i32_7 c1_i32_8 k0_t1
  let v138 : BitVec 32 := Scalar.muli c4_i32_77 arg20
  let c3_i32 : BitVec 32 := 3#32
  let v139 : BitVec 32 := Scalar.addi v138 c3_i32
  let c198_i32_98 : BitVec 32 := 198#32
  let v175 : BitVec 1 := Scalar.cmpi .slt v139 c198_i32_98
  let v176 : BitVec 32 := Scalar.extui v175
  let c0_i32_99 : BitVec 32 := 0#32
  let v177 : BitVec 1 := Scalar.cmpi .ne v176 c0_i32_99
  v177

def k0_off51 (k0_t1 : Fin k0_t1_loop.trips) : Fin 2 → Nat :=
  let c4_i32_77 : BitVec 32 := 4#32
  let c0_i32_7 : BitVec 32 := 0#32
  let c1_i32_8 : BitVec 32 := 1#32
  let arg20 : BitVec 32 := Scf.iv c0_i32_7 c1_i32_8 k0_t1
  let v138 : BitVec 32 := Scalar.muli c4_i32_77 arg20
  let c3_i32 : BitVec 32 := 3#32
  let v139 : BitVec 32 := Scalar.addi v138 c3_i32
  let c2_i32_100 : BitVec 32 := 2#32
  let v178 : BitVec 32 := Scalar.addi v139 c2_i32_100
  let c0_i32_101 : BitVec 32 := 0#32
  ![v178.toNat, 0]
def k0_off52 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c198_i32 : BitVec 32 := 198#32
  let c0_i32_10 : BitVec 32 := 0#32
  ![v2.toNat, 198, 0]
def k0_off53 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c199_i32 : BitVec 32 := 199#32
  let c0_i32_12 : BitVec 32 := 0#32
  ![v2.toNat, 199, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x200_S200x4096_1_0 : S4096x200.Transposes [1, 0] S200x4096
  inb_S200x128_S1x128_0_0 : ∀ a, (![0, 0] : Fin 2 → Nat) a + S1x128.size a ≤ S200x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S200x128_S1x128_1_0 : ∀ a, (![1, 0] : Fin 2 → Nat) a + S1x128.size a ≤ S200x128.size a
  h_S1x16 : 0 < S1x16.numel
  shapeCasts_S1x16_S16 : S1x16.ShapeCasts S16
  shapeCasts_S16_S1x16 : S16.ShapeCasts S1x16
  squeezes_S128x1x128_S128x128 : S128x1x128.Squeezes S128x128
  hcc0_scratch6 : 0 + S_.numel ≤ 10
  hcc0_scratch7 : 1 + S_.numel ≤ 10
  hcc0_scratch8 : 2 + S_.numel ≤ 10
  hcc0_scratch9 : 3 + S_.numel ≤ 10
  hcc0_scratch10 : 4 + S_.numel ≤ 10
  hcc0_scratch11 : 5 + S_.numel ≤ 10
  hcc0_scratch12 : 6 + S_.numel ≤ 10
  hcc0_scratch13 : 7 + S_.numel ≤ 10
  hcc0_scoped0 : 8 + S_.numel ≤ 10
  hcc0_scoped1 : 9 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S200x128.size a ≤ S200x4096.size a
  k0_t1_ok : k0_t1_loop.OK
  k0_off2_inb : ∀ k0_t1 : Fin k0_t1_loop.trips, ∀ (r : Fin 4), ∀ a, (k0_off2 k0_t1 (BitVec.ofNat 32 r.val)) a + S1x128.size a ≤ S200x128.size a
  k0_off3_inb : ∀ k0_t1 : Fin k0_t1_loop.trips, ∀ (r : Fin 4), ∀ a, (k0_off3 k0_t1 (BitVec.ofNat 32 r.val)) a + S1x16.size a ≤ S200x128.size a
  k0_off4_inb : ∀ k0_t1 : Fin k0_t1_loop.trips, ∀ (r : Fin 4), ∀ a, (k0_off4 k0_t1 (BitVec.ofNat 32 r.val)) a + S1x16.size a ≤ S200x128.size a
  k0_off5_inb : ∀ k0_t1 : Fin k0_t1_loop.trips, ∀ (r : Fin 4), ∀ a, (k0_off5 k0_t1 (BitVec.ofNat 32 r.val)) a + S1x16.size a ≤ S200x128.size a
  k0_off6_inb : ∀ k0_t1 : Fin k0_t1_loop.trips, ∀ (r : Fin 4), ∀ a, (k0_off6 k0_t1 (BitVec.ofNat 32 r.val)) a + S1x16.size a ≤ S200x128.size a
  k0_off7_inb : ∀ k0_t1 : Fin k0_t1_loop.trips, ∀ (r : Fin 4), ∀ a, (k0_off7 k0_t1 (BitVec.ofNat 32 r.val)) a + S1x16.size a ≤ S200x128.size a
  k0_off8_inb : ∀ k0_t1 : Fin k0_t1_loop.trips, ∀ (r : Fin 4), ∀ a, (k0_off8 k0_t1 (BitVec.ofNat 32 r.val)) a + S1x16.size a ≤ S200x128.size a
  k0_off9_inb : ∀ k0_t1 : Fin k0_t1_loop.trips, ∀ (r : Fin 4), ∀ a, (k0_off9 k0_t1 (BitVec.ofNat 32 r.val)) a + S1x16.size a ≤ S200x128.size a
  k0_off10_inb : ∀ k0_t1 : Fin k0_t1_loop.trips, ∀ (r : Fin 4), ∀ a, (k0_off10 k0_t1 (BitVec.ofNat 32 r.val)) a + S1x16.size a ≤ S200x128.size a
  k0_t2_ok : k0_t2_loop.OK
  k0_off11_inb : ∀ k0_t2 : Fin k0_t2_loop.trips, ∀ a, (k0_off11 k0_t2) a + S1x16.size a ≤ S128x128.size a
  k0_off12_inb : ∀ k0_t2 : Fin k0_t2_loop.trips, ∀ a, (k0_off12 k0_t2) a + S1x16.size a ≤ S128x128.size a
  k0_off13_inb : ∀ k0_t2 : Fin k0_t2_loop.trips, ∀ a, (k0_off13 k0_t2) a + S1x16.size a ≤ S128x128.size a
  k0_off14_inb : ∀ k0_t2 : Fin k0_t2_loop.trips, ∀ a, (k0_off14 k0_t2) a + S1x16.size a ≤ S128x128.size a
  k0_off15_inb : ∀ k0_t2 : Fin k0_t2_loop.trips, ∀ a, (k0_off15 k0_t2) a + S1x16.size a ≤ S128x128.size a
  k0_off16_inb : ∀ k0_t2 : Fin k0_t2_loop.trips, ∀ a, (k0_off16 k0_t2) a + S1x16.size a ≤ S128x128.size a
  k0_off17_inb : ∀ k0_t2 : Fin k0_t2_loop.trips, ∀ a, (k0_off17 k0_t2) a + S1x16.size a ≤ S128x128.size a
  k0_off18_inb : ∀ k0_t2 : Fin k0_t2_loop.trips, ∀ a, (k0_off18 k0_t2) a + S1x16.size a ≤ S128x128.size a
  k0_off19_inb : ∀ (i : grid0.Coords) (k0_t1 : Fin k0_t1_loop.trips), ∀ (r : Fin 4), ∀ a, (k0_off19 i k0_t1 (BitVec.ofNat 32 r.val)) a + S128x1x128.size a ≤ S4096x200x128.size a
  k0_off20_inb : ∀ (i : grid0.Coords) (k0_t1 : Fin k0_t1_loop.trips), ∀ (k0_h1 : k0_cond1 k0_t1 = 1#1), ∀ a, (k0_off20 i k0_t1) a + S128x1x128.size a ≤ S4096x200x128.size a
  k0_off21_inb : ∀ k0_t1 : Fin k0_t1_loop.trips, ∀ (k0_h2 : k0_cond2 k0_t1 = 1#1), ∀ a, (k0_off21 k0_t1) a + S1x128.size a ≤ S200x128.size a
  k0_t3_ok : k0_t3_loop.OK
  k0_off22_inb : ∀ k0_t3 : Fin k0_t3_loop.trips, ∀ a, (k0_off22 k0_t3) a + S1x16.size a ≤ S128x128.size a
  k0_off23_inb : ∀ k0_t3 : Fin k0_t3_loop.trips, ∀ a, (k0_off23 k0_t3) a + S1x16.size a ≤ S128x128.size a
  k0_off24_inb : ∀ k0_t3 : Fin k0_t3_loop.trips, ∀ a, (k0_off24 k0_t3) a + S1x16.size a ≤ S128x128.size a
  k0_off25_inb : ∀ k0_t3 : Fin k0_t3_loop.trips, ∀ a, (k0_off25 k0_t3) a + S1x16.size a ≤ S128x128.size a
  k0_off26_inb : ∀ k0_t3 : Fin k0_t3_loop.trips, ∀ a, (k0_off26 k0_t3) a + S1x16.size a ≤ S128x128.size a
  k0_off27_inb : ∀ k0_t3 : Fin k0_t3_loop.trips, ∀ a, (k0_off27 k0_t3) a + S1x16.size a ≤ S128x128.size a
  k0_off28_inb : ∀ k0_t3 : Fin k0_t3_loop.trips, ∀ a, (k0_off28 k0_t3) a + S1x16.size a ≤ S128x128.size a
  k0_off29_inb : ∀ k0_t3 : Fin k0_t3_loop.trips, ∀ a, (k0_off29 k0_t3) a + S1x16.size a ≤ S128x128.size a
  k0_off30_inb : ∀ (i : grid0.Coords) (k0_t1 : Fin k0_t1_loop.trips), ∀ (k0_h3 : k0_cond3 k0_t1 = 1#1), ∀ a, (k0_off30 i k0_t1) a + S128x1x128.size a ≤ S4096x200x128.size a
  k0_off31_inb : ∀ k0_t1 : Fin k0_t1_loop.trips, ∀ (k0_h4 : k0_cond4 k0_t1 = 1#1), ∀ a, (k0_off31 k0_t1) a + S1x128.size a ≤ S200x128.size a
  k0_t4_ok : k0_t4_loop.OK
  k0_off32_inb : ∀ k0_t4 : Fin k0_t4_loop.trips, ∀ a, (k0_off32 k0_t4) a + S1x16.size a ≤ S128x128.size a
  k0_off33_inb : ∀ k0_t4 : Fin k0_t4_loop.trips, ∀ a, (k0_off33 k0_t4) a + S1x16.size a ≤ S128x128.size a
  k0_off34_inb : ∀ k0_t4 : Fin k0_t4_loop.trips, ∀ a, (k0_off34 k0_t4) a + S1x16.size a ≤ S128x128.size a
  k0_off35_inb : ∀ k0_t4 : Fin k0_t4_loop.trips, ∀ a, (k0_off35 k0_t4) a + S1x16.size a ≤ S128x128.size a
  k0_off36_inb : ∀ k0_t4 : Fin k0_t4_loop.trips, ∀ a, (k0_off36 k0_t4) a + S1x16.size a ≤ S128x128.size a
  k0_off37_inb : ∀ k0_t4 : Fin k0_t4_loop.trips, ∀ a, (k0_off37 k0_t4) a + S1x16.size a ≤ S128x128.size a
  k0_off38_inb : ∀ k0_t4 : Fin k0_t4_loop.trips, ∀ a, (k0_off38 k0_t4) a + S1x16.size a ≤ S128x128.size a
  k0_off39_inb : ∀ k0_t4 : Fin k0_t4_loop.trips, ∀ a, (k0_off39 k0_t4) a + S1x16.size a ≤ S128x128.size a
  k0_off40_inb : ∀ (i : grid0.Coords) (k0_t1 : Fin k0_t1_loop.trips), ∀ (k0_h5 : k0_cond5 k0_t1 = 1#1), ∀ a, (k0_off40 i k0_t1) a + S128x1x128.size a ≤ S4096x200x128.size a
  k0_off41_inb : ∀ k0_t1 : Fin k0_t1_loop.trips, ∀ (k0_h6 : k0_cond6 k0_t1 = 1#1), ∀ a, (k0_off41 k0_t1) a + S1x128.size a ≤ S200x128.size a
  k0_t5_ok : k0_t5_loop.OK
  k0_off42_inb : ∀ k0_t5 : Fin k0_t5_loop.trips, ∀ a, (k0_off42 k0_t5) a + S1x16.size a ≤ S128x128.size a
  k0_off43_inb : ∀ k0_t5 : Fin k0_t5_loop.trips, ∀ a, (k0_off43 k0_t5) a + S1x16.size a ≤ S128x128.size a
  k0_off44_inb : ∀ k0_t5 : Fin k0_t5_loop.trips, ∀ a, (k0_off44 k0_t5) a + S1x16.size a ≤ S128x128.size a
  k0_off45_inb : ∀ k0_t5 : Fin k0_t5_loop.trips, ∀ a, (k0_off45 k0_t5) a + S1x16.size a ≤ S128x128.size a
  k0_off46_inb : ∀ k0_t5 : Fin k0_t5_loop.trips, ∀ a, (k0_off46 k0_t5) a + S1x16.size a ≤ S128x128.size a
  k0_off47_inb : ∀ k0_t5 : Fin k0_t5_loop.trips, ∀ a, (k0_off47 k0_t5) a + S1x16.size a ≤ S128x128.size a
  k0_off48_inb : ∀ k0_t5 : Fin k0_t5_loop.trips, ∀ a, (k0_off48 k0_t5) a + S1x16.size a ≤ S128x128.size a
  k0_off49_inb : ∀ k0_t5 : Fin k0_t5_loop.trips, ∀ a, (k0_off49 k0_t5) a + S1x16.size a ≤ S128x128.size a
  k0_off50_inb : ∀ (i : grid0.Coords) (k0_t1 : Fin k0_t1_loop.trips), ∀ (k0_h7 : k0_cond7 k0_t1 = 1#1), ∀ a, (k0_off50 i k0_t1) a + S128x1x128.size a ≤ S4096x200x128.size a
  k0_off51_inb : ∀ k0_t1 : Fin k0_t1_loop.trips, ∀ (k0_h8 : k0_cond8 k0_t1 = 1#1), ∀ a, (k0_off51 k0_t1) a + S1x128.size a ≤ S200x128.size a
  k0_off52_inb : ∀ i : grid0.Coords, ∀ a, (k0_off52 i) a + S128x1x128.size a ≤ S4096x200x128.size a
  k0_off53_inb : ∀ i : grid0.Coords, ∀ a, (k0_off53 i) a + S128x1x128.size a ≤ S4096x200x128.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11
abbrev cc0_scratch12 : DmaSems sig S_ := SemArray.consecutive 6 S_ hcc0_scratch12
abbrev cc0_scratch13 : DmaSems sig S_ := SemArray.consecutive 7 S_ hcc0_scratch13
abbrev cc0_scoped0 : DmaSems sig S_ := SemArray.consecutive 8 S_ hcc0_scoped0
abbrev cc0_scoped1 : DmaSems sig S_ := SemArray.consecutive 9 S_ hcc0_scoped1

class Facts : Prop extends Facts₀ where

variable [Facts]
-- ==== ReferenceIdeal.lean ====
abbrev S4096x200 : Shape := ⟨2, ![4096, 200]⟩
abbrev S100000x128 : Shape := ⟨2, ![100000, 128]⟩
abbrev S200x128 : Shape := ⟨2, ![200, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩
abbrev S200 : Shape := ⟨1, ![200]⟩
abbrev S1x200 : Shape := ⟨2, ![1, 200]⟩
abbrev S1x200x1 : Shape := ⟨3, ![1, 200, 1]⟩
abbrev S1x200x128 : Shape := ⟨3, ![1, 200, 128]⟩

abbrev nBuf : Space → Nat
  | .hbm => 53
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S200x128, .f32⟩
  | .hbm, ⟨3, _⟩ => ⟨S_, .i32⟩
  | .hbm, ⟨4, _⟩ => ⟨S4096x200, .i32⟩
  | .hbm, ⟨5, _⟩ => ⟨S4096x200, .i1⟩
  | .hbm, ⟨6, _⟩ => ⟨S_, .i32⟩
  | .hbm, ⟨7, _⟩ => ⟨S4096x200, .i32⟩
  | .hbm, ⟨8, _⟩ => ⟨S4096x200, .i32⟩
  | .hbm, ⟨9, _⟩ => ⟨S4096x200, .i32⟩
  | .hbm, ⟨10, _⟩ => ⟨S4096x200x1, .i32⟩
  | .hbm, ⟨11, _⟩ => ⟨S1, .i32⟩
  | .hbm, ⟨12, _⟩ => ⟨S_, .i32⟩
  | .hbm, ⟨13, _⟩ => ⟨S4096x200x1, .i32⟩
  | .hbm, ⟨14, _⟩ => ⟨S4096x200x1, .i1⟩
  | .hbm, ⟨15, _⟩ => ⟨S1x1x1, .i32⟩
  | .hbm, ⟨16, _⟩ => ⟨S4096x200x1, .i32⟩
  | .hbm, ⟨17, _⟩ => ⟨S4096x200x1, .i1⟩
  | .hbm, ⟨18, _⟩ => ⟨S4096x200x1, .i1⟩
  | .hbm, ⟨19, _⟩ => ⟨S_, .i1⟩
  | .hbm, ⟨20, _⟩ => ⟨S4096x200, .i1⟩
  | .hbm, ⟨21, _⟩ => ⟨S4096x200x128, .f32⟩
  | .hbm, ⟨22, _⟩ => ⟨S4096x200x128, .i1⟩
  | .hbm, ⟨23, _⟩ => ⟨S_, .f32⟩
  | .hbm, ⟨24, _⟩ => ⟨S4096x200x128, .f32⟩
  | .hbm, ⟨25, _⟩ => ⟨S4096x200x128, .f32⟩
  | .hbm, ⟨26, _⟩ => ⟨S200, .i32⟩
  | .hbm, ⟨27, _⟩ => ⟨S1x200, .i32⟩
  | .hbm, ⟨28, _⟩ => ⟨S_, .i32⟩
  | .hbm, ⟨29, _⟩ => ⟨S1x200, .i32⟩
  | .hbm, ⟨30, _⟩ => ⟨S1x200, .i1⟩
  | .hbm, ⟨31, _⟩ => ⟨S_, .i32⟩
  | .hbm, ⟨32, _⟩ => ⟨S1x200, .i32⟩
  | .hbm, ⟨33, _⟩ => ⟨S1x200, .i32⟩
  | .hbm, ⟨34, _⟩ => ⟨S1x200, .i32⟩
  | .hbm, ⟨35, _⟩ => ⟨S1x200x1, .i32⟩
  | .hbm, ⟨36, _⟩ => ⟨S1, .i32⟩
  | .hbm, ⟨37, _⟩ => ⟨S_, .i32⟩
  | .hbm, ⟨38, _⟩ => ⟨S1x200x1, .i32⟩
  | .hbm, ⟨39, _⟩ => ⟨S1x200x1, .i1⟩
  | .hbm, ⟨40, _⟩ => ⟨S1x1x1, .i32⟩
  | .hbm, ⟨41, _⟩ => ⟨S1x200x1, .i32⟩
  | .hbm, ⟨42, _⟩ => ⟨S1x200x1, .i1⟩
  | .hbm, ⟨43, _⟩ => ⟨S1x200x1, .i1⟩
  | .hbm, ⟨44, _⟩ => ⟨S_, .i1⟩
  | .hbm, ⟨45, _⟩ => ⟨S1x200, .i1⟩
  | .hbm, ⟨46, _⟩ => ⟨S1x200x128, .f32⟩
  | .hbm, ⟨47, _⟩ => ⟨S1x200x128, .i1⟩
  | .hbm, ⟨48, _⟩ => ⟨S_, .f32⟩
  | .hbm, ⟨49, _⟩ => ⟨S1x200x128, .f32⟩
  | .hbm, ⟨50, _⟩ => ⟨S1x200x128, .f32⟩
  | .hbm, ⟨51, _⟩ => ⟨S4096x200x128, .f32⟩
  | .hbm, ⟨52, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  bcast_S200_S1x200_1 : S200.BroadcastsInDim S1x200 (![1] : Fin 1 → Fin S1x200.rank)
  bcast_S_S1x200 : S_.BroadcastsInDim S1x200 (![] : Fin 0 → Fin S1x200.rank)
  bcast_S1x200_S1x200x1_0_1 : S1x200.BroadcastsInDim S1x200x1 (![0, 1] : Fin 2 → Fin S1x200x1.rank)
  bcast_S_S1x200x1 : S_.BroadcastsInDim S1x200x1 (![] : Fin 0 → Fin S1x200x1.rank)
  bcast_S1x1x1_S1x200x1_0_1_2 : S1x1x1.BroadcastsInDim S1x200x1 (![0, 1, 2] : Fin 3 → Fin S1x200x1.rank)
  reducesTo_S1x200x1_S1x200_d2 : S1x200x1.ReducesTo [2] S1x200
  bcast_S1x200_S1x200x128_0_1 : S1x200.BroadcastsInDim S1x200x128 (![0, 1] : Fin 2 → Fin S1x200x128.rank)
  bcast_S_S1x200x128 : S_.BroadcastsInDim S1x200x128 (![] : Fin 0 → Fin S1x200x128.rank)
  bcast_S1x200x128_S4096x200x128_0_1_2 : S1x200x128.BroadcastsInDim S4096x200x128 (![0, 1, 2] : Fin 3 → Fin S4096x200x128.rank)
  gather_S100000x128_S4096x200x1_S4096x200x128_2_0_n_n_0_2_1128_wf : GatherDims.WF S100000x128 S4096x200x1 S4096x200x128 [2] [0] [] [0] [] 2 ![1, 128]
  gather_S200x128_S1x200x1_S1x200x128_2_0_n_n_0_2_1128_wf : GatherDims.WF S200x128 S1x200x1 S1x200x128 [2] [0] [] [0] [] 2 ![1, 128]

variable [Facts₀]

def gather_S100000x128_S4096x200x1_S4096x200x128_2_0_n_n_0_2_1128 : GatherDims S100000x128 S4096x200x1 S4096x200x128 where
  offsetDims := [2]
  collapsedSliceDims := [0]
  operandBatchingDims := []
  startIndicesBatchingDims := []
  startIndexMap := [0]
  indexVectorDim := 2
  sliceSizes := ![1, 128]
  wf := gather_S100000x128_S4096x200x1_S4096x200x128_2_0_n_n_0_2_1128_wf
def gather_S200x128_S1x200x1_S1x200x128_2_0_n_n_0_2_1128 : GatherDims S200x128 S1x200x1 S1x200x128 where
  offsetDims := [2]
  collapsedSliceDims := [0]
  operandBatchingDims := []
  startIndicesBatchingDims := []
  startIndexMap := [0]
  indexVectorDim := 2
  sliceSizes := ![1, 128]
  wf := gather_S200x128_S1x200x1_S1x200x128_2_0_n_n_0_2_1128_wf

class Facts : Prop extends Facts₀ where

variable [Facts]
-- ==== Proof.Spec.lean ====
/-
  The function both programs compute, index by index: the embedding lookup with a position term,
  out[b, s, d] = table[resp[b, s], d] + pos[s, d],
  over the argument arrays resp : i32[4096, 200], table : f32[100000, 128], pos : f32[200, 128].
  The row number is the word's value taken modulo the table's 100000 rows, so that the function is total; under
  the precondition (0 ≤ resp ≤ 99999) the word's value is below 100000 and the reduction changes nothing.
-/
import Idealize.ShloMosaic.PureOps.Ideal
import Idealize.ShloMosaic.Lib.ValueIdx

noncomputable section

namespace Cert.Spec

open Idealize.ShloMosaic Idealize.ShloMosaic.ValueIdx

abbrev SR : Shape := ⟨2, ![4096, 200]⟩
abbrev ST : Shape := ⟨2, ![100000, 128]⟩
abbrev SP : Shape := ⟨2, ![200, 128]⟩
abbrev SO : Shape := ⟨3, ![4096, 200, 128]⟩

/-- The table row a word names: its value modulo the number of rows. -/
def rowOf (w : BitVec 32) : Fin 100000 := ⟨w.toNat % 100000, Nat.mod_lt _ (by decide)⟩

theorem rowOf_val_of_lt {w : BitVec 32} (h : w.toNat < 100000) : (rowOf w).val = w.toNat := Nat.mod_eq_of_lt h

/-- out[b, s, d] = table[resp[b, s], d] + pos[s, d], at any float instance. -/
def G {F : FTy → Type} [FloatOps F] (resp : SR.Idx → BitVec 32) (table : ST.Idx → F .f32) (pos : SP.Idx → F .f32) :
    SO.Idx → F .f32 :=
  fun i => FloatOps.addf (table (ix2 (rowOf (resp (ix2 (i 0) (i 1)))) (i 2))) (pos (ix2 (i 1) (i 2)))

/-- At the ideal instance the sum is the extended reals'. -/
theorem G_ideal (resp : SR.Idx → BitVec 32) (table : ST.Idx → Ideal .f32) (pos : SP.Idx → Ideal .f32) (i : SO.Idx) :
    G (F := Ideal) resp table pos i = table (ix2 (rowOf (resp (ix2 (i 0) (i 1)))) (i 2)) + pos (ix2 (i 1) (i 2)) := rfl

end Cert.Spec

end
-- ==== Proof.KICommon.lean ====
/-
  The SparseCore lookup kernel as the launch theorem sees it, and the vocabulary of its frame: the thirty-two
  tiles (two SparseCores of sixteen vector subcores), tile (c, s) working on the 128 batch rows
  [128 (2 s + c), 128 (2 s + c) + 128) of the result; the arrays every tile reads (the transposed index array, the
  table, the position table) go out as read shares, one per tile; the result goes out by the tiles' row blocks.
-/
import proofs.«205233_g80668075753725_cont_9to1c4b_826_11_alg».proof.Defs
import proofs.«205233_g80668075753725_cont_9to1c4b_826_11_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205233_g80668075753725_cont_9to1c4b_826_11_alg».proof.Proof.Gen.KernelIdeal
import proofs.«205233_g80668075753725_cont_9to1c4b_826_11_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The index array (the responses), its transpose, the table, the position table, the result: as locations of device `d`. -/
abbrev rLoc (d : Dev nD) : Loc nD τ sig := (SparseCore.T d).loc main_arg0
abbrev iLoc (d : Dev nD) : Loc nD τ sig := (SparseCore.T d).loc main_v0
abbrev tLoc (d : Dev nD) : Loc nD τ sig := (SparseCore.T d).loc main_arg1
abbrev pLoc (d : Dev nD) : Loc nD τ sig := (SparseCore.T d).loc main_arg2
abbrev oLoc (d : Dev nD) : Loc nD τ sig := (SparseCore.T d).loc main_v1

/-- The transposed index array: entry (s, b) is the response word of batch row b at position s. -/
def FI (d : Dev nD) : Buf (Elt F) (iLoc d) := fun j : S200x4096.Idx => m (rLoc d) (ValueIdx.ix2 (j 1) (j 0))

variable [FloatOps F]

/-- The result every tile's rows agree with: the lookup of the launch arrays (Spec.lean). -/
def GT (d : Dev nD) : Buf (Elt F) (oLoc d) := Cert.Spec.G (F := F) (m (rLoc d)) (m (tLoc d)) (m (pLoc d))

/-- What the proof asks of the launch memory: every response word names a table row. -/
def PreOK : Prop := ∀ (d : Dev nD) (j : S4096x200.Idx), (m (rLoc d) j).toNat < 100000

/-! ## The tiles: their row blocks of the result, their read shares -/

/-- Tile (c, s) — SparseCore c, vector subcore s — is worker 2 s + c. -/
theorem wid_lt (c : Fin 2) (s : Fin 16) : 2 * s.val + c.val < 32 := by omega

theorem tile_inb (c : Fin 2) (s : Fin 16) :
    ∀ a, (![256 * s.val + 128 * c.val, 0, 0] : Fin 3 → Nat) a + (![128, 200, 128] : Fin 3 → Nat) a ≤ S4096x200x128.size a := by
  intro a; fin_cases a <;> simp <;> omega

/-- Its 128 batch rows of the result, every position, every lane. -/
abbrev tileRect (c : Fin 2) (s : Fin 16) : Rect S4096x200x128 :=
  Rect.unit (s := S4096x200x128) ![256 * s.val + 128 * c.val, 0, 0] ![128, 200, 128] (tile_inb c s)
abbrev tileSet (c : Fin 2) (s : Fin 16) : Finset S4096x200x128.Idx := (tileRect c s).set

/-- Its read share of an array every tile reads whole: token 2 s + c of thirty-two. -/
abbrev tokq (c : Fin 2) (s : Fin 16) : PosShare TreeShare := Transfers.shareTok fullShare 32 ⟨2 * s.val + c.val, wid_lt c s⟩

/-- What a tile is handed: its read shares of the transposed indices, the table and the position table, and its rows of
    the result at the launch contents; -/
abbrev goRes (d : Dev nD) (c : Fin 2) (s : Fin 16) : sProp 𝕄 :=
  iprop((iLoc d ↦{tokq c s} FI m d) ∗ (tLoc d ↦{tokq c s} m (tLoc d)) ∗ (pLoc d ↦{tokq c s} m (pLoc d))
    ∗ oLoc d ↦[tileSet c s]{fullShare} m (oLoc d))
/-- what it hands back: the shares, and its rows of the result at the lookup. -/
abbrev tdRes (d : Dev nD) (c : Fin 2) (s : Fin 16) : sProp 𝕄 :=
  iprop((iLoc d ↦{tokq c s} FI m d) ∗ (tLoc d ↦{tokq c s} m (tLoc d)) ∗ (pLoc d ↦{tokq c s} m (pLoc d))
    ∗ oLoc d ↦[tileSet c s]{fullShare} GT m d)

/-- The call hands each SparseCore its sixteen tiles' resources, and takes them back. -/
def P : (K (F := F)).Pay (nD := nD) (Val := Elt F) (Name := ℕ) (U := UU) where
  st := fun q d c => match q with | 0 => bigSep Finset.univ fun s : Fin 16 => goRes m d (Fin.cast nCore_zero c) s
  dn := fun q d c => match q with | 0 => bigSep Finset.univ fun s : Fin 16 => tdRes m d (Fin.cast nCore_zero c) s
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => goRes m d (Fin.cast nCore_zero c) s))
  dn q d c := match q with
    | 0 => (inferInstance : BI.Storable (upEmb : UEmb _ 𝕄) (bigSep Finset.univ fun s : Fin 16 => tdRes m d (Fin.cast nCore_zero c) s))
  go q d c i := match q with
    | 0 => (inferInstance : BI.Storable (upEmb : UEmb _ 𝕄) (goRes m d (Fin.cast nCore_zero c) (Fin.cast nSub_zero i)))
  td q d c i := match q with
    | 0 => (inferInstance : BI.Storable (upEmb : UEmb _ 𝕄) (tdRes m d (Fin.cast nCore_zero c) (Fin.cast nSub_zero i)))

end Cert.Proof.KI

end
-- ==== Proof.KISplit.lean ====
/-
  How the launch deals the arrays to the thirty-two tiles and collects them again. Worker 2 s + c is tile (c, s), so the
  thirty-two read tokens of an array every tile reads whole are indexed by the pairs (c, s); the tiles' row blocks of
  the result are pairwise disjoint (they are separated on the batch axis) and cover it (a batch row b lies in the
  block of worker b / 128). So the four arrays whole are what the TensorCore keeps (the remainder of the three read
  shares) beside the thirty-two tiles' resources, in both directions.
-/
import proofs.«205233_g80668075753725_cont_9to1c4b_826_11_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## Workers and tiles -/

/-- Worker `2 s + c` names tile `(c, s)`: the thirty-two workers are the pairs. -/
def tileEquiv : Fin 2 × Fin 16 ≃ Fin 32 where
  toFun p := ⟨2 * p.2.val + p.1.val, wid_lt p.1 p.2⟩
  invFun j := (⟨j.val % 2, Nat.mod_lt _ (by decide)⟩, ⟨j.val / 2, by have := j.isLt; omega⟩)
  left_inv p := by
    rcases p with ⟨c, s⟩
    refine Prod.ext (Fin.ext ?_) (Fin.ext ?_)
    · show (2 * s.val + c.val) % 2 = c.val
      have := c.isLt; omega
    · show (2 * s.val + c.val) / 2 = s.val
      have := c.isLt; omega
  right_inv j := Fin.ext (by show 2 * (j.val / 2) + j.val % 2 = j.val; omega)

/-! ## The read shares -/

omit m in
/-- An array at the full share is the remainder after thirty-two read tokens and the tokens, one per tile. -/
theorem toks_tiles {ℓ : Loc nD τ sig} (f : Buf (Elt F) ℓ) :
    (ℓ ↦{fullShare} f : sProp 𝕄)
      = iprop((ℓ ↦{Transfers.shareDrop fullShare 32} f) ∗ bigSep Finset.univ fun p : Fin 2 × Fin 16 => ℓ ↦{tokq p.1 p.2} f) := by
  have e : (bigSep Finset.univ fun p : Fin 2 × Fin 16 => (ℓ ↦{tokq p.1 p.2} f : sProp 𝕄))
      = bigSep Finset.univ fun j : Fin 32 => ℓ ↦{Transfers.shareTok fullShare 32 j} f :=
    (bigSep_univ_equiv tileEquiv fun j : Fin 32 => (ℓ ↦{Transfers.shareTok fullShare 32 j} f : sProp 𝕄)).symm
  rw [e]
  exact BI.Entails.antisymm (Transfers.pointsTo_toks fullShare 32).1 (Transfers.pointsTo_toks fullShare 32).2

/-! ## The tiles' row blocks of the result -/

omit m in
/-- Two tiles' blocks are separated on the batch axis. -/
theorem tiles_disjoint : ∀ p ∈ (Finset.univ : Finset (Fin 2 × Fin 16)), ∀ p' ∈ (Finset.univ : Finset (Fin 2 × Fin 16)), p ≠ p' →
    Disjoint (tileSet p.1 p.2) (tileSet p'.1 p'.2) := by
  rintro ⟨c, s⟩ - ⟨c', s'⟩ - h
  have hne : c.val ≠ c'.val ∨ s.val ≠ s'.val := by
    by_contra hc
    rw [not_or, not_not, not_not] at hc
    exact h (Prod.ext (Fin.ext hc.1) (Fin.ext hc.2))
  refine Rect.unit_disjoint (0 : Fin 3) ?_
  have := c.isLt; have := c'.isLt
  show 256 * s.val + 128 * c.val + 128 ≤ 256 * s'.val + 128 * c'.val ∨ 256 * s'.val + 128 * c'.val + 128 ≤ 256 * s.val + 128 * c.val
  omega

omit m in
/-- Batch row `b` lies in the block of worker `b / 128`: the blocks cover the result. -/
theorem tiles_cover : (Finset.univ : Finset (Fin 2 × Fin 16)).biUnion (fun p => tileSet p.1 p.2) = Finset.univ := by
  ext i
  simp only [Finset.mem_biUnion, Finset.mem_univ, true_and, iff_true]
  have h0 : (i 0).val < 4096 := (i 0).isLt
  have h1 : (i 1).val < 200 := (i 1).isLt
  have h2 : (i 2).val < 128 := (i 2).isLt
  refine ⟨(⟨(i 0).val / 128 % 2, Nat.mod_lt _ (by decide)⟩, ⟨(i 0).val / 256, by omega⟩), ?_⟩
  rw [Rect.mem_set_unit]
  intro a
  match a with
  | 0 =>
    show 256 * ((i 0).val / 256) + 128 * ((i 0).val / 128 % 2) ≤ (i 0).val
      ∧ (i 0).val < 256 * ((i 0).val / 256) + 128 * ((i 0).val / 128 % 2) + 128
    omega
  | 1 => exact ⟨Nat.zero_le _, by show (i 1).val < 0 + 200; omega⟩
  | 2 => exact ⟨Nat.zero_le _, by show (i 2).val < 0 + 128; omega⟩

omit m in
/-- The result whole is its thirty-two blocks. -/
theorem o_tiles (d : Dev nD) (f : Buf (Elt F) (oLoc d)) :
    (oLoc d ↦{fullShare} f : sProp 𝕄) = bigSep Finset.univ fun p : Fin 2 × Fin 16 => oLoc d ↦[tileSet p.1 p.2]{fullShare} f := by
  rw [← pointsTo_biUnion Finset.univ (ℓ := oLoc d) (fun p : Fin 2 × Fin 16 => tileSet p.1 p.2) tiles_disjoint, tiles_cover]

/-! ## All four arrays -/

/-- What the TensorCore keeps across the call: the remainders of the three read shares. -/
abbrev keep (d : Dev nD) : sProp 𝕄 :=
  iprop((iLoc d ↦{Transfers.shareDrop fullShare 32} FI m d) ∗ (tLoc d ↦{Transfers.shareDrop fullShare 32} m (tLoc d))
    ∗ pLoc d ↦{Transfers.shareDrop fullShare 32} m (pLoc d))

/-- A tile's resources with its rows of the result at `fo`: `goRes` at the launch contents, `tdRes` at the lookup. -/
abbrev res (d : Dev nD) (fo : Buf (Elt F) (oLoc d)) (c : Fin 2) (s : Fin 16) : sProp 𝕄 :=
  iprop((iLoc d ↦{tokq c s} FI m d) ∗ (tLoc d ↦{tokq c s} m (tLoc d)) ∗ (pLoc d ↦{tokq c s} m (pLoc d))
    ∗ oLoc d ↦[tileSet c s]{fullShare} fo)

/-- The transposed indices, the table, the position table and the result (at `fo`) whole are what the TensorCore keeps
    beside the thirty-two tiles' resources. -/
theorem arrays_tiles (d : Dev nD) (fo : Buf (Elt F) (oLoc d)) :
    iprop((iLoc d ↦{fullShare} FI m d) ∗ (tLoc d ↦{fullShare} m (tLoc d)) ∗ (pLoc d ↦{fullShare} m (pLoc d)) ∗ oLoc d ↦{fullShare} fo)
      ⊣⊢ iprop(keep m d ∗ bigSep Finset.univ fun c : Fin 2 => bigSep Finset.univ fun s : Fin 16 => res m d fo c s) := by
  rw [show (bigSep Finset.univ fun c : Fin 2 => bigSep Finset.univ fun s : Fin 16 => res m d fo c s)
      = bigSep Finset.univ fun p : Fin 2 × Fin 16 => res m d fo p.1 p.2 from (bigSep_univ_prod fun p : Fin 2 × Fin 16 => res m d fo p.1 p.2).symm,
    toks_tiles (FI m d), toks_tiles (m (tLoc d)), toks_tiles (m (pLoc d)), o_tiles d fo]
  unfold res keep
  rw [bigSep_sep', bigSep_sep', bigSep_sep']
  constructor
  · iintro ⟨⟨Hid, Hit⟩, ⟨Htd, Htt⟩, ⟨Hpd, Hpt⟩, Ho⟩
    isplitl [Hid Htd Hpd]
    · isplitl [Hid]; · iexact Hid
      isplitl [Htd]; · iexact Htd
      iexact Hpd
    isplitl [Hit]; · iexact Hit
    isplitl [Htt]; · iexact Htt
    isplitl [Hpt]; · iexact Hpt
    iexact Ho
  · iintro ⟨⟨Hid, Htd, Hpd⟩, Hit, Htt, Hpt, Ho⟩
    isplitl [Hid Hit]
    · isplitl [Hid]; · iexact Hid
      iexact Hit
    isplitl [Htd Htt]
    · isplitl [Htd]; · iexact Htd
      iexact Htt
    isplitl [Hpd Hpt]
    · isplitl [Hpd]; · iexact Hpd
      iexact Hpt
    iexact Ho

end Cert.Proof.KI

end
-- ==== Proof.RefTerm.lean ====
/-
  The reference program's result as a term of its three arguments: the two lookups (index wrap, in-range mask,
  gather, select against the fill value), the positions 0 … 199, the broadcast over the batch and the sum.
-/
import proofs.«205233_g80668075753725_cont_9to1c4b_826_11_alg».proof.Defs
import proofs.«205233_g80668075753725_cont_9to1c4b_826_11_alg».proof.Proof.Gen.ReferenceIdeal

noncomputable section

namespace Cert.RefSide

open Cert.ReferenceIdeal Cert.ReferenceIdeal.Facts₀ Idealize.ShloMosaic

variable {F : FTy → Type} [FloatOps F] [hF : Cert.ReferenceIdeal.Facts]

/-- The index array of the lookup: a negative index is wrapped by the number of rows, then the array gains a unit axis. -/
def idx0 (r : IVec S4096x200 32) : IVec S4096x200x1 32 :=
  broadcastInDim S4096x200x1 ![0, 1] bcast_S4096x200_S4096x200x1_0_1
    (select (cmpi .slt r (broadcastInDim S4096x200 ![] bcast_S_S4096x200 (constantI S_ 32 0#32)))
      (addi r (broadcastInDim S4096x200 ![] bcast_S_S4096x200 (constantI S_ 32 100000#32))) r)

/-- The in-range mask of the lookup: both comparisons, reduced by "and" over the unit axis, spread over the row. -/
def mask0 (k : IVec S4096x200x1 32) : IVec S4096x200x128 1 :=
  broadcastInDim S4096x200x128 ![0, 1] bcast_S4096x200_S4096x200x128_0_1
    (Host.reduce IntOp.andi
      (andi (cmpi .sge k (broadcastInDim S4096x200x1 ![] bcast_S_S4096x200x1 (constantI S_ 32 0#32)))
        (cmpi .sle k (broadcastInDim S4096x200x1 ![0, 1, 2] bcast_S1x1x1_S4096x200x1_0_1_2
          (broadcastInDim S1x1x1 ![2] bcast_S1_S1x1x1_2 (constantI S1 32 99999#32)))))
      (constantI S_ 1 1#1) reducesTo_S4096x200x1_S4096x200_d2 h_S_)

/-- The lookup: the gathered rows where the index is in range, the fill value elsewhere. -/
def take0 (x : FVec F S100000x128 .f32) (r : IVec S4096x200 32) : FVec F S4096x200x128 .f32 :=
  select (mask0 (idx0 r)) (Host.gather gather_S100000x128_S4096x200x1_S4096x200x128_2_0_n_n_0_2_1128 x (idx0 r))
    (broadcastInDim S4096x200x128 ![] bcast_S_S4096x200x128 (constant S_ .f32 0x7FC00000#32))

/-- The index array of the lookup: a negative index is wrapped by the number of rows, then the array gains a unit axis. -/
def idx1 (r : IVec S1x200 32) : IVec S1x200x1 32 :=
  broadcastInDim S1x200x1 ![0, 1] bcast_S1x200_S1x200x1_0_1
    (select (cmpi .slt r (broadcastInDim S1x200 ![] bcast_S_S1x200 (constantI S_ 32 0#32)))
      (addi r (broadcastInDim S1x200 ![] bcast_S_S1x200 (constantI S_ 32 200#32))) r)

/-- The in-range mask of the lookup: both comparisons, reduced by "and" over the unit axis, spread over the row. -/
def mask1 (k : IVec S1x200x1 32) : IVec S1x200x128 1 :=
  broadcastInDim S1x200x128 ![0, 1] bcast_S1x200_S1x200x128_0_1
    (Host.reduce IntOp.andi
      (andi (cmpi .sge k (broadcastInDim S1x200x1 ![] bcast_S_S1x200x1 (constantI S_ 32 0#32)))
        (cmpi .sle k (broadcastInDim S1x200x1 ![0, 1, 2] bcast_S1x1x1_S1x200x1_0_1_2
          (broadcastInDim S1x1x1 ![2] bcast_S1_S1x1x1_2 (constantI S1 32 199#32)))))
      (constantI S_ 1 1#1) reducesTo_S1x200x1_S1x200_d2 h_S_)

/-- The lookup: the gathered rows where the index is in range, the fill value elsewhere. -/
def take1 (x : FVec F S200x128 .f32) (r : IVec S1x200 32) : FVec F S1x200x128 .f32 :=
  select (mask1 (idx1 r)) (Host.gather gather_S200x128_S1x200x1_S1x200x128_2_0_n_n_0_2_1128 x (idx1 r))
    (broadcastInDim S1x200x128 ![] bcast_S_S1x200x128 (constant S_ .f32 0x7FC00000#32))

/-- The positions looked up: 0, 1, …, 199 as one row. -/
def posIdx : IVec S1x200 32 := broadcastInDim S1x200 ![1] bcast_S200_S1x200_1 (iotaInDim S200 32 0)

/-- The result of @main as a term of its three arguments. -/
def out (resp : IVec S4096x200 32) (table : FVec F S100000x128 .f32) (pos : FVec F S200x128 .f32) :
    FVec F S4096x200x128 .f32 :=
  addf (broadcastInDim S4096x200x128 ![0, 1, 2] bcast_S1x200x128_S4096x200x128_0_1_2 (take1 pos posIdx)) (take0 table resp)

end Cert.RefSide

end
-- ==== Proof.RefLib.lean ====
/-
  Three general facts the reference's value needs: a gather of whole table rows read at an index, an
  "and"-reduction of an array of ones, and words known to lie in a small nonnegative range.
-/
import Idealize.ShloMosaic.PureOps.Ideal
import Idealize.ShloMosaic.Lib.ValueIdx
import Idealize.ShloMosaic.Lib.ReduceAll
import Idealize.ShloMosaic.Lib.Affine
import Idealize.ShloMosaic.Lib.StableHlo.Run

noncomputable section

namespace Cert.RefSide

open Idealize.ShloMosaic Idealize.ShloMosaic.ValueIdx

/-! ## A gather of whole rows, read at an index -/

section Gather
variable {α : Type}

/-- The dimension numbers of `x[idx]` for a table `x : [N, D]` and an index array `idx : [R, C]` given as
    `[R, C, 1]`: the row axis collapsed and indexed, the column axis the result's last. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The gather read at `(r, c, d)`: the table at the row `idx[r, c, 0]` (read signed, clamped into `[0, N − 1]`)
    and the column `d`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowDims N D R C wf) x idx y
      = x (ix2 (⟨min (idx (ix3 (y 0) (y 1) (⟨0, Nat.one_pos⟩ : Fin 1))).toInt.toNat (N - 1), by omega⟩ : Fin N) (y 2 : Fin D)) := by
  unfold Host.gather
  congr 1
  funext a
  refine Fin.ext ?_
  match a with
  | ⟨0, _⟩ =>
    show (rowDims N D R C wf).start y idx 0 + (rowDims N D R C wf).batchCoord y 0 + (rowDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx y ⟨List.idxOf (0 : Fin 2) (rowDims N D R C wf).startIndexMap,
        List.idxOf_lt_length_iff.2 (List.mem_singleton.mpr rfl)⟩ = ix3 (y 0) (y 1) (⟨0, Nat.one_pos⟩ : Fin 1) := by
      funext b; refine Fin.ext ?_
      match b with
      | ⟨0, _⟩ => rfl
      | ⟨1, _⟩ => rfl
      | ⟨2, _⟩ => rfl
    rw [hsi]
    rfl
  | ⟨1, _⟩ =>
    show (rowDims N D R C wf).start y idx 1 + (rowDims N D R C wf).batchCoord y 1 + (rowDims N D R C wf).offCoord y 1 = _
    rw [GatherDims.batchCoord_eq_zero _ _ _ List.not_mem_nil]
    have hs : (rowDims N D R C wf).start y idx 1 = 0 := by
      unfold GatherDims.start
      rw [dif_neg (show ¬ ((1 : Fin 2) ∈ (rowDims N D R C wf).startIndexMap) from
        (by decide : (1 : Fin 2) ∉ ([0] : List (Fin 2))))]
    rw [hs]
    simp only [Nat.add_zero, Nat.zero_add]
    rfl

end Gather

/-! ## An "and"-reduction of all ones -/

theorem foldl_andi_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_all_one f l fun n hn => h n (List.mem_cons_of_mem _ hn)

/-- A reduce by "and" from the constant 1 of an array of ones is 1 everywhere. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_all_one x _ fun n _ => hx n

/-! ## Words in a range -/

/-- A word that is nonnegative read signed, and at most `n`, is the natural number its bits spell. -/
theorem toInt_toNat_of_range {w : BitVec 32} (h0 : 0 ≤ w.toInt) : w.toInt.toNat = w.toNat := by
  have := BitVec.toInt_eq_toNat_cond w
  split at this <;> omega

theorem toNat_le_of_range {w : BitVec 32} {n : Nat} (h0 : 0 ≤ w.toInt) (h1 : w.toInt ≤ n) : w.toNat ≤ n := by
  have := BitVec.toInt_eq_toNat_cond w
  split at this <;> omega

/-- A small natural number as a word reads back as itself. -/
theorem toInt_ofNat_small {n : Nat} (h : n < 2 ^ 31) : (BitVec.ofNat 32 n).toInt = n := by
  rw [BitVec.toInt_ofNat']
  exact Int.bmod_eq_of_le (by omega) (by omega)

end Cert.RefSide

end
-- ==== Proof.RefValue.lean ====
/-
  The reference's result, read at an index. Under the precondition every looked-up row number lies in
  [0, 99999]: the negative-index wrap leaves it, the in-range mask is all ones, the select against the fill value
  takes the gathered row, and the gather's clamp changes nothing; the positions 0 … 199 are in range by
  computation. So the result at (b, s, d) is pos[s, d] + table[resp[b, s], d].
-/
import proofs.«205233_g80668075753725_cont_9to1c4b_826_11_alg».proof.Defs
import proofs.«205233_g80668075753725_cont_9to1c4b_826_11_alg».proof.Proof.Gen.ReferenceIdeal
import proofs.«205233_g80668075753725_cont_9to1c4b_826_11_alg».proof.Proof.Gen.Pre_input_domain
import proofs.«205233_g80668075753725_cont_9to1c4b_826_11_alg».proof.Proof.Spec
import proofs.«205233_g80668075753725_cont_9to1c4b_826_11_alg».proof.Proof.RefTerm
import proofs.«205233_g80668075753725_cont_9to1c4b_826_11_alg».proof.Proof.RefLib

noncomputable section

namespace Cert.RefSide

open Cert.ReferenceIdeal Cert.ReferenceIdeal.Facts₀ Idealize.ShloMosaic Idealize.ShloMosaic.ValueIdx

variable {F : FTy → Type} [FloatOps F] [hF : Cert.ReferenceIdeal.Facts]

/-! ## A broadcast read at an index -/

/-- `broadcast_in_dim` at `j` reads the operand at any index with the coordinates the operation prescribes. -/
theorem broadcastInDim_apply_of {α : Type} {s t : Shape} {dims : Fin s.rank → Fin t.rank} (h : s.BroadcastsInDim t dims)
    (x : s.Idx → α) (j : t.Idx) (j' : s.Idx)
    (hj : ∀ a, (j' a).val = if s.size a = 1 then 0 else (j (dims a)).val) : broadcastInDim t dims h x j = x j' := by
  unfold broadcastInDim
  congr 1
  funext a
  refine Fin.ext ?_
  rw [hj a]
  by_cases h1 : s.size a = 1
  · rw [dif_pos h1, if_pos h1]
  · rw [dif_neg h1, if_neg h1]

/-! ## Row numbers in range -/

/-- Every entry, read signed, lies in `[0, n]`. -/
def InRange (n : Nat) {s : Shape} (r : IVec s 32) : Prop := ∀ j, 0 ≤ (r j).toInt ∧ (r j).toInt ≤ (n : Int)

theorem toInt_0 : (0#32 : BitVec 32).toInt = 0 := by decide
theorem toInt_99999 : (99999#32 : BitVec 32).toInt = 99999 := by decide
theorem toInt_199 : (199#32 : BitVec 32).toInt = 199 := by decide

instance : Subsingleton Cert.Pre_input_domain.S_.Idx := ⟨fun a b => funext fun d => d.elim0⟩

/-- The precondition's third conjunct: every response lies in `[0, 99999]`. -/
theorem inRange_of_pre [Cert.Pre_input_domain.Facts]
    (resp : IVec S4096x200 32) (table : FVec F S100000x128 .f32) (pos : FVec F S200x128 .f32)
    (h : Cert.Pre_input_domain.fn (F := F) resp table pos = fun _ => 1#1) : InRange 99999 resp := by
  have h0 := congrFun h ValueIdx.ix0
  dsimp only [Cert.Pre_input_domain.fn] at h0
  have h14 := (IntOp.andi_eq_one.1 h0).2
  intro j
  have hj := Host.reduce_andi_all _ _ _ _ _ h14 j
  obtain ⟨h1, h2⟩ := IntOp.andi_eq_one.1 hj
  have h1' : (0#32 : BitVec 32).toInt ≤ (resp j).toInt := IntOp.cmpi_sge.1 h1
  have h2' : (resp j).toInt ≤ (99999#32 : BitVec 32).toInt := IntOp.cmpi_sle.1 h2
  rw [toInt_0] at h1'
  rw [toInt_99999] at h2'
  exact ⟨h1', by omega⟩

/-! ## The table lookup -/

theorem idx0_eq (r : IVec S4096x200 32) (hr : InRange 99999 r) (k : S4096x200x1.Idx) :
    idx0 r k = r (ix2 (n0 := 4096) (n1 := 200) (k 0) (k 1)) := by
  unfold idx0
  rw [broadcastInDim_apply_of _ _ k (ix2 (n0 := 4096) (n1 := 200) (k 0) (k 1))
    (fun a => by match a with | ⟨0, _⟩ => rfl | ⟨1, _⟩ => rfl)]
  show Scalar.select (IntOp.cmpi .slt (r (ix2 (n0 := 4096) (n1 := 200) (k 0) (k 1))) 0#32) _ _ = _
  have hc : IntOp.cmpi .slt (r (ix2 (n0 := 4096) (n1 := 200) (k 0) (k 1))) 0#32 = 0#1 :=
    eq_zero_of_ne_one (fun h => by
      have h' := IntOp.cmpi_slt.1 h
      rw [toInt_0] at h'
      have := (hr (ix2 (n0 := 4096) (n1 := 200) (k 0) (k 1))).1
      omega)
  rw [hc, select_zero]

theorem inRange_idx0 (r : IVec S4096x200 32) (hr : InRange 99999 r) : InRange 99999 (idx0 r) :=
  fun k => by rw [idx0_eq r hr k]; exact hr _

theorem mask0_eq (K : IVec S4096x200x1 32) (hK : InRange 99999 K) (i : S4096x200x128.Idx) : mask0 K i = 1#1 := by
  unfold mask0 broadcastInDim
  refine reduce_andi_of_all _ _ _ _ (fun _ => rfl) (fun k => ?_) _
  show IntOp.andi (IntOp.cmpi .sge (K k) 0#32) (IntOp.cmpi .sle (K k) 99999#32) = 1#1
  exact IntOp.andi_eq_one.2 ⟨IntOp.cmpi_sge.2 (by rw [toInt_0]; exact (hK k).1),
    IntOp.cmpi_sle.2 (by rw [toInt_99999]; exact (hK k).2)⟩

/-- The table lookup at `(b, s, d)` is the table at row `resp[b, s]`, column `d`. -/
theorem take0_apply (x : FVec F S100000x128 .f32) (r : IVec S4096x200 32) (hr : InRange 99999 r) (i : S4096x200x128.Idx) :
    take0 x r i = x (ix2 (Cert.Spec.rowOf (r (ix2 (i 0) (i 1)))) (i 2)) := by
  unfold take0
  rw [select_apply, mask0_eq _ (inRange_idx0 r hr) i, select_one]
  have hg : gather_S100000x128_S4096x200x1_S4096x200x128_2_0_n_n_0_2_1128 = rowDims 100000 128 4096 200 gather_S100000x128_S4096x200x1_S4096x200x128_2_0_n_n_0_2_1128_wf := rfl
  rw [hg, gather_rows_apply (by decide)]
  refine congrArg (fun a => x (ix2 a _)) (Fin.ext ?_)
  have h1 := toInt_toNat_of_range (hr (ix2 (i 0) (i 1))).1
  have h2 := toNat_le_of_range (hr (ix2 (i 0) (i 1))).1 (hr (ix2 (i 0) (i 1))).2
  show min (idx0 r (ix3 (i 0) (i 1) ⟨0, Nat.one_pos⟩)).toInt.toNat (100000 - 1) = (r (ix2 (i 0) (i 1))).toNat % 100000
  rw [idx0_eq r hr]
  show min (r (ix2 (i 0) (i 1))).toInt.toNat (100000 - 1) = (r (ix2 (i 0) (i 1))).toNat % 100000
  omega

/-! ## The position lookup -/

theorem posIdx_apply (j : S1x200.Idx) : posIdx j = BitVec.ofNat 32 (j 1).val := by
  unfold posIdx
  rw [broadcastInDim_apply_of _ _ j (ix1 (n := 200) (j 1)) (fun a => by match a with | ⟨0, _⟩ => rfl)]
  rfl

theorem inRange_posIdx : InRange 199 posIdx := fun j => by
  have h : (j 1).val < 200 := (j 1).isLt
  rw [posIdx_apply, toInt_ofNat_small (by omega)]
  constructor <;> omega

theorem idx1_eq (r : IVec S1x200 32) (hr : InRange 199 r) (k : S1x200x1.Idx) :
    idx1 r k = r (ix2 (n0 := 1) (n1 := 200) (k 0) (k 1)) := by
  unfold idx1
  rw [broadcastInDim_apply_of _ _ k (ix2 (n0 := 1) (n1 := 200) (k 0) (k 1))
    (fun a => by
      match a with
      | ⟨0, _⟩ => exact Nat.lt_one_iff.mp (k 0).isLt
      | ⟨1, _⟩ => rfl)]
  show Scalar.select (IntOp.cmpi .slt (r (ix2 (n0 := 1) (n1 := 200) (k 0) (k 1))) 0#32) _ _ = _
  have hc : IntOp.cmpi .slt (r (ix2 (n0 := 1) (n1 := 200) (k 0) (k 1))) 0#32 = 0#1 :=
    eq_zero_of_ne_one (fun h => by
      have h' := IntOp.cmpi_slt.1 h
      rw [toInt_0] at h'
      have := (hr (ix2 (n0 := 1) (n1 := 200) (k 0) (k 1))).1
      omega)
  rw [hc, select_zero]

theorem inRange_idx1 (r : IVec S1x200 32) (hr : InRange 199 r) : InRange 199 (idx1 r) :=
  fun k => by rw [idx1_eq r hr k]; exact hr _

theorem mask1_eq (K : IVec S1x200x1 32) (hK : InRange 199 K) (i : S1x200x128.Idx) : mask1 K i = 1#1 := by
  unfold mask1 broadcastInDim
  refine reduce_andi_of_all _ _ _ _ (fun _ => rfl) (fun k => ?_) _
  show IntOp.andi (IntOp.cmpi .sge (K k) 0#32) (IntOp.cmpi .sle (K k) 199#32) = 1#1
  exact IntOp.andi_eq_one.2 ⟨IntOp.cmpi_sge.2 (by rw [toInt_0]; exact (hK k).1),
    IntOp.cmpi_sle.2 (by rw [toInt_199]; exact (hK k).2)⟩

/-- The position lookup at `(0, s, d)` is the position table at `(s, d)`. -/
theorem take1_pos_apply (x : FVec F S200x128 .f32) (i : S1x200x128.Idx) :
    take1 x posIdx i = x (ix2 (i 1) (i 2)) := by
  unfold take1
  rw [select_apply, mask1_eq _ (inRange_idx1 posIdx inRange_posIdx) i, select_one]
  have hg : gather_S200x128_S1x200x1_S1x200x128_2_0_n_n_0_2_1128 = rowDims 200 128 1 200 gather_S200x128_S1x200x1_S1x200x128_2_0_n_n_0_2_1128_wf := rfl
  rw [hg, gather_rows_apply (by decide)]
  refine congrArg (fun a => x (ix2 a _)) (Fin.ext ?_)
  have h : (i 1).val < 200 := (i 1).isLt
  show min (idx1 posIdx (ix3 (i 0) (i 1) ⟨0, Nat.one_pos⟩)).toInt.toNat (200 - 1) = (i 1).val
  rw [idx1_eq posIdx inRange_posIdx, posIdx_apply]
  show min (BitVec.ofNat 32 (i 1).val).toInt.toNat (200 - 1) = (i 1).val
  rw [toInt_ofNat_small (by omega)]
  omega

/-! ## The result -/

/-- Under the range hypothesis the reference's result is the embedding lookup plus the position term. -/
theorem out_eq_G (resp : IVec S4096x200 32) (table : FVec Ideal S100000x128 .f32) (pos : FVec Ideal S200x128 .f32)
    (hr : InRange 99999 resp) : out (F := Ideal) resp table pos = Cert.Spec.G (F := Ideal) resp table pos := by
  funext i
  unfold out
  rw [addf_apply, broadcastInDim_apply_of _ _ i (ix3 (n0 := 1) (n1 := 200) (n2 := 128) ⟨0, Nat.one_pos⟩ (i 1) (i 2))
    (fun a => by match a with | ⟨0, _⟩ => rfl | ⟨1, _⟩ => rfl | ⟨2, _⟩ => rfl),
    take1_pos_apply, take0_apply _ _ hr, Cert.Spec.G_ideal]
  exact add_comm _ _

end Cert.RefSide

end
-- ==== Proof.KILaunch.lean ====
/-
  The launch of the lookup kernel: @main on the TensorCore transposes the index array, starts the two SparseCores and
  waits for them; each SparseCore's sequencer hands its sixteen tiles their resources and collects them. From the
  tiles' obligation (every tile, given its read shares and its rows of the result, leaves its rows at the lookup) the
  whole program runs, the result at the lookup of the launch arrays and the three arguments unchanged.
-/
import proofs.«205233_g80668075753725_cont_9to1c4b_826_11_alg».proof.Proof.KISplit
import proofs.«205233_g80668075753725_cont_9to1c4b_826_11_alg».proof.Proof.RefValue
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry, as equations -/

theorem P_st (d : Dev nD) (c : Fin ((K (F := F)).nCore 0)) :
    (P m).st 0 d c = bigSep Finset.univ fun s : Fin 16 => res m d (m (oLoc d)) (Fin.cast nCore_zero c) s := rfl
theorem P_dn (d : Dev nD) (c : Fin ((K (F := F)).nCore 0)) :
    (P m).dn 0 d c = bigSep Finset.univ fun s : Fin 16 => res m d (GT m d) (Fin.cast nCore_zero c) s := rfl
theorem P_go (d : Dev nD) (c : Fin ((K (F := F)).nCore 0)) (i : Fin ((K (F := F)).nSub 0)) :
    (P m).go 0 d c i = res m d (m (oLoc d)) (Fin.cast nCore_zero c) (Fin.cast nSub_zero i) := rfl
theorem P_td (d : Dev nD) (c : Fin ((K (F := F)).nCore 0)) (i : Fin ((K (F := F)).nSub 0)) :
    (P m).td 0 d c i = res m d (GT m d) (Fin.cast nCore_zero c) (Fin.cast nSub_zero i) := rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## A SparseCore's operands among its tiles -/

/-- What a SparseCore is handed is its sixteen tiles' resources, and what they hand back is what it returns. -/
theorem vecSplit : (K (F := F)).VecSplit' (P m) 0 := by
  intro d c
  simp only [P_st, P_dn, P_go, P_td]
  rw [bigSep_tasks (F := F) (fun s => res m d (m (oLoc d)) (Fin.cast nCore_zero c) s),
    bigSep_tasks (F := F) (fun s => res m d (GT m d) (Fin.cast nCore_zero c) s)]
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev r' : DevRef τ sig := Proc.devRef .tc (main_arg0 : Ref sig .tc)
abbrev i' : DevRef τ sig := Proc.devRef .tc (main_v0 : Ref sig .tc)
/-- @main's one host operation: the transpose of the index array. -/
abbrev opT : HloOp τ sig (Elt F) :=
  StableHlo.unary main_arg0 main_v0 ((transpose S200x4096 [1, 0] · transposes_S4096x200_S200x4096_1_0) : (⟨S4096x200, .i32⟩ : BufTy).Contents (Elt F) → (⟨S200x4096, .i32⟩ : BufTy).Contents (Elt F))
/-- Its two buffers. -/
abbrev S2 : Finset (DevRef τ sig) := {r', i'}

omit [FloatOps F] in
theorem held_S2 (d : Dev nD) (W : Valuation τ sig (Elt F)) :
    (held (T d) S2 W : sProp 𝕄) = iprop((rLoc d ↦{fullShare} W r') ∗ iLoc d ↦{fullShare} W i') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((rLoc d ↦{fullShare} W main_arg0) ∗ (tLoc d ↦{fullShare} W main_arg1) ∗ (pLoc d ↦{fullShare} W main_arg2)
      ∗ (iLoc d ↦{fullShare} W main_v0) ∗ oLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

omit [FloatOps F] in
theorem opT_r (d : Dev nD) : (opT (F := F)).result (V0 m d) r' = m (rLoc d) :=
  StableHlo.unary_result_ne main_arg0 main_v0 _ _ _ (V0 m d) (r := main_arg0) (by decide)

omit [FloatOps F] in
/-- The transpose read at `(s, b)` is the index array at `(b, s)`. -/
theorem opT_i (d : Dev nD) : (opT (F := F)).result (V0 m d) i' = FI m d := by
  refine (StableHlo.unary_result main_arg0 main_v0 _ _ _ (V0 m d)).trans ?_
  funext j
  exact transpose_apply [1, 0] _ _ j (ValueIdx.ix2 (j 1) (j 0)) fun b => match b with | ⟨0, _⟩ => rfl | ⟨1, _⟩ => rfl

omit [FloatOps F] in
theorem held_before (d : Dev nD) :
    (held (T d) S2 (V0 m d) : sProp 𝕄) = iprop((rLoc d ↦{fullShare} m (rLoc d)) ∗ iLoc d ↦{fullShare} m (iLoc d)) := by
  rw [held_S2]; rfl
omit [FloatOps F] in
theorem held_after (d : Dev nD) :
    (held (T d) S2 ((opT (F := F)).result (V0 m d)) : sProp 𝕄) = iprop((rLoc d ↦{fullShare} m (rLoc d)) ∗ iLoc d ↦{fullShare} FI m d) := by
  rw [held_S2, opT_r, opT_i]

/-- What the call takes for the two SparseCores, and what it hands back. -/
theorem st0_eq (d : Dev nD) : (bigSep Finset.univ fun c : Fin ((K (F := F)).nCore 0) => (P m).st 0 d c)
    = bigSep Finset.univ fun c : Fin 2 => bigSep Finset.univ fun s : Fin 16 => res m d (m (oLoc d)) c s := by
  simp only [P_st]
  exact bigSep_cores (F := F) fun c => bigSep Finset.univ fun s : Fin 16 => res m d (m (oLoc d)) c s
theorem dn0_eq (d : Dev nD) : (bigSep Finset.univ fun c : Fin ((K (F := F)).nCore 0) => (P m).dn 0 d c)
    = bigSep Finset.univ fun c : Fin 2 => bigSep Finset.univ fun s : Fin 16 => res m d (GT m d) c s := by
  simp only [P_dn]
  exact bigSep_cores (F := F) fun c => bigSep Finset.univ fun s : Fin 16 => res m d (GT m d) c s

/-- What @main leaves the claim: the three arguments at their launch contents, the result at the lookup. -/
abbrev FIN (d : Dev nD) : sProp 𝕄 :=
  iprop((rLoc d ↦{fullShare} m (rLoc d)) ∗ (tLoc d ↦{fullShare} m (tLoc d)) ∗ (pLoc d ↦{fullShare} m (pLoc d)) ∗ oLoc d ↦{fullShare} GT m d)

/-- @main on device `d`'s TensorCore: the transpose; the arrays dealt to the tiles; the call; the arrays collected. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hr, Ht, Hp, Hi, Ho⟩, -, -⟩, -⟩
  -- the transpose, over the index array and its result buffer
  iapply (wp_hlo_within 𝒱 (SparseCore.T d) none Set.univ (op := opT) (S := S2) (Finset.Subset.refl _) (V := V0 m d)) $$ [Hb Hr Hi]
  · isplitl [Hb]; · iexact Hb
    rw [held_before]
    isplitl [Hr]; · iexact Hr
    iexact Hi
  iintro ⟨Hb, Hheld⟩
  ihave Hh := (Entails.of_eq (held_after (F := F) m d)) $$ Hheld
  icases Hh with ⟨Hr, Hi⟩
  rw [wp_ret]; imodintro
  -- the arrays dealt: the read shares' remainders kept, the rest to the thirty-two tiles
  ihave Hall := (arrays_tiles m d (m (oLoc d))).1 $$ [Hi Ht Hp Ho]
  · isplitl [Hi]; · iexact Hi
    isplitl [Ht]; · iexact Ht
    isplitl [Hp]; · iexact Hp
    iexact Ho
  icases Hall with ⟨Hkeep, Htiles⟩
  -- the call
  iapply ((K (F := F)).wp_run (D (F := F)) 𝒱 (EH := EH) (P := P m) κ d 0) $$ [Hst Htiles Hkeep Hr]
  isplitr; · iexact Hctx
  isplitl [Hst]; · iexact Hst
  isplitl [Htiles]
  · rw [st0_eq]; iexact Htiles
  iintro ⟨Hst, Hdn⟩
  -- the arrays collected: the result whole at the lookup
  ihave Hdn' := (Entails.of_eq (dn0_eq m d)) $$ Hdn
  ihave Hall := (arrays_tiles m d (GT m d)).2 $$ [Hkeep Hdn']
  · isplitl [Hkeep]; · iexact Hkeep
    iexact Hdn'
  icases Hall with ⟨-, Ht, Hp, Ho⟩
  imodintro
  isplitl [Hst]; · iexact Hst
  isplitl [Hr]; · iexact Hr
  isplitl [Ht]; · iexact Ht
  isplitl [Hp]; · iexact Hp
  iexact Ho

/-! ## What the final memory reads -/

def fq (d : Dev nD) (s' : Phys nD τ sig (Elt F)) : Prop :=
  s'.mem.mem (oLoc d) = GT m d ∧ s'.mem.mem (rLoc d) = m (rLoc d) ∧ s'.mem.mem (tLoc d) = m (tLoc d) ∧ s'.mem.mem (pLoc d) = m (pLoc d)

set_option maxRecDepth 16384 in
theorem hfin (d : Dev nD) (s' : Phys nD τ sig (Elt F)) : iprop(FIN m d ∗ SI s') ⊢ (⌜fq m d s'⌝ : sProp 𝕄) := by
  iintro ⟨⟨Hr, Ht, Hp, Ho⟩, HSI⟩
  ihave H := (persistent_entails_right (SI_pointsTo_agree (st := s') (ℓ := rLoc d) (I := Finset.univ) (q := fullShare) (f := m (rLoc d)))) $$ [HSI Hr]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h3, HSI, -⟩
  ihave H := (SI_pointsTo_agree (st := s') (ℓ := oLoc d) (I := Finset.univ) (q := fullShare) (f := GT m d)) $$ [HSI Ho]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-! ## The program's run -/

/-- From the tiles' obligation: every weakly fair execution of the whole program terminates, nothing faulting, the
    result at the lookup of the launch arrays, the three arguments unchanged. -/
theorem run_main [∀ e, Nonempty (Elt F e)] (hpre : PreOK m)
    (htile : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD, r.2.mem (oLoc c) = GT m c ∧ r.2.mem (rLoc c) = m (rLoc c) ∧ r.2.mem (tLoc c) = m (tLoc c) ∧ r.2.mem (pLoc c) = m (pLoc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

/-! ## The precondition -/

/-- The precondition's third conjunct — `(0 ≤ responses) & (responses ≤ 99999)` elementwise, all ones — gives what the
    proof asks of the launch memory: a word in `[0, 99999]` read signed is its own value, below 100000. -/
theorem ok_of_fn [Cert.Pre_input_domain.Facts] (m : (ℓ : Loc nD τ sig) → Buf (Elt F) ℓ)
    (h : ∀ c : Dev nD, Cert.Pre_input_domain.fn (F := F) (m (rLoc c)) (m (tLoc c)) (m (pLoc c)) = fun _ => 1#1) : PreOK m := by
  intro d j
  have hr := Cert.RefSide.inRange_of_pre (F := F) (m (rLoc d)) (m (tLoc d)) (m (pLoc d)) (h d) j
  have hle : (m (rLoc d) j).toNat ≤ 99999 := Cert.RefSide.toNat_le_of_range hr.1 hr.2
  omega

theorem ok_of_pre (m : (ℓ : Loc nD τ sig) → Buf (Elt Ideal) ℓ) [Cert.Pre_input_domain.Facts] (h : Cert.Pre_KernelIdeal m) : PreOK (F := Ideal) m :=
  ok_of_fn m h

end Cert.Proof.KI

end
-- ==== Proof.KISets.lean ====
/-
  Index sets of the tile's scratch rows and of its windows of the result: the rows of the 200 × 128 index scratch, and the
  windows (128 batch rows from a base row, one position, all lanes) of the result, as sets of indices, with the facts
  that let a buffer be held row by row and window by window: the rows (windows) are pairwise disjoint and together
  they are the whole scratch (the tile's block of the result).
-/
import proofs.«205233_g80668075753725_cont_9to1c4b_826_11_alg».proof.Proof.KICommon

noncomputable section

namespace Cert.Proof.KI

open Cert.KernelIdeal Cert.KernelIdeal.Gen
open Idealize.ShloMosaic

/-- Row `n` of the index scratch. -/
def rowSetN (n : ℕ) : Finset S200x128.Idx := Finset.univ.filter fun i => (i 0).val = n
/-- The window of the result at base row `B`, position `n`: rows [B, B + 128), all lanes. -/
def winSetN (B n : ℕ) : Finset S4096x200x128.Idx := Finset.univ.filter fun i => B ≤ (i 0).val ∧ (i 0).val < B + 128 ∧ (i 1).val = n

theorem mem_rowSetN {n : ℕ} {i : S200x128.Idx} : i ∈ rowSetN n ↔ (i 0).val = n := by simp [rowSetN]
theorem mem_winSetN {B n : ℕ} {i : S4096x200x128.Idx} : i ∈ winSetN B n ↔ B ≤ (i 0).val ∧ (i 0).val < B + 128 ∧ (i 1).val = n := by
  simp [winSetN]

theorem rowSetN_disjoint {a b : ℕ} (h : a ≠ b) : Disjoint (rowSetN a) (rowSetN b) :=
  Finset.disjoint_left.mpr fun i ha hb => h ((mem_rowSetN.mp ha).symm.trans (mem_rowSetN.mp hb))
theorem winSetN_disjoint {B a b : ℕ} (h : a ≠ b) : Disjoint (winSetN B a) (winSetN B b) :=
  Finset.disjoint_left.mpr fun i ha hb => h ((mem_winSetN.mp ha).2.2.symm.trans (mem_winSetN.mp hb).2.2)

theorem rows_cover : (Finset.range 200).biUnion rowSetN = Finset.univ := by
  ext i
  simp only [Finset.mem_biUnion, Finset.mem_range, mem_rowSetN, Finset.mem_univ, iff_true]
  exact ⟨(i 0).val, (i 0).isLt, rfl⟩

/-- A unit-stride rectangle of one row of the index scratch is that row. -/
theorem set_unit_row {off : Fin 2 → ℕ} {inb} {n : ℕ} (h : off = ![n, 0]) :
    (Rect.unit (s := S200x128) off S1x128.size inb).set = rowSetN n := by
  subst h
  ext i
  rw [Rect.mem_set_unit, mem_rowSetN]
  constructor
  · intro hh; have := hh 0; simp at this; omega
  · intro hh a
    fin_cases a
    · simp; omega
    · simp; exact (i 1).isLt

/-- A unit-stride rectangle of 128 rows, one position, all lanes of the result is that window. -/
theorem set_unit_win {off : Fin 3 → ℕ} {inb} {B n : ℕ} (h : off = ![B, n, 0]) :
    (Rect.unit (s := S4096x200x128) off S128x1x128.size inb).set = winSetN B n := by
  subst h
  ext i
  rw [Rect.mem_set_unit, mem_winSetN]
  constructor
  · intro hh; have h0 := hh 0; have h1 := hh 1; simp at h0 h1; omega
  · intro hh a
    fin_cases a
    · simp; omega
    · simp; omega
    · simp; exact (i 2).isLt

/-- The tile's block of the result is its 200 windows. -/
theorem wins_cover (c : Fin 2) (s : Fin 16) :
    (Finset.range 200).biUnion (winSetN (256 * s.val + 128 * c.val)) = tileSet c s := by
  ext i
  simp only [Finset.mem_biUnion, Finset.mem_range, mem_winSetN, tileSet, tileRect, Rect.mem_set_unit]
  constructor
  · rintro ⟨n, hn, h1, h2, h3⟩ a
    fin_cases a
    · simp; omega
    · simp; exact (i 1).isLt
    · simp; exact (i 2).isLt
  · intro hh
    have h0 := hh 0
    simp at h0
    exact ⟨(i 1).val, (i 1).isLt, by omega, by omega, rfl⟩

end Cert.Proof.KI

end
-- ==== Proof.KIFam.lean ====
/-
  Holding the tile's index scratch row by row and its block of the result window by window: a buffer held whole is the
  rows (windows) held one by one, and a row (window) named as the program slices it is the same resource named by its
  index set.
-/
import proofs.«205233_g80668075753725_cont_9to1c4b_826_11_alg».proof.Proof.KISets

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S200x4096 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S4096x200x128 EltTy.f32)
local notation "s0" => (Memref.whole Cert.KernelIdeal.cc0_scratch0 : Memref Cert.KernelIdeal.sig Kind.scVector Space.vmem Cert.KernelIdeal.S200x128 EltTy.i32)
local notation "s1" => (Memref.whole Cert.KernelIdeal.cc0_scratch1 : Memref Cert.KernelIdeal.sig Kind.scVector Space.vmem Cert.KernelIdeal.S200x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

section

variable (d : Dev nD) (L : grid0.Coords)

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)
/-- The tile's base row of the result: worker 2 s + c works on rows [128 (2 s + c), + 128). -/
abbrev baseRow (L : grid0.Coords) : ℕ := 256 * (L 1).val + 128 * (L 0).val

/-- A row of the index scratch as the program slices and squeezes it, at any in-range offsets naming row `n`. -/
abbrev rowM (off : Fin 2 → ℕ) (inb : ∀ a, off a + S1x128.size a ≤ S200x128.size a) : Memref sig .scVector .vmem S128 .i32 :=
  ((s0).slice (Rect.unit (s := S200x128) off S1x128.size inb) (fun _ => rfl)).squeeze S128 squeezes_S1x128_S128
/-- A window of the result as the program slices and squeezes it. -/
abbrev winM (off : Fin 3 → ℕ) (inb : ∀ a, off a + S128x1x128.size a ≤ S4096x200x128.size a) : Memref sig .scVector .hbm S128x128 .f32 :=
  ((oV).slice (Rect.unit (s := S4096x200x128) off S128x1x128.size inb) (fun _ => rfl)).squeeze S128x128 squeezes_S128x1x128_S128x128

theorem set_rowM {off : Fin 2 → ℕ} {inb} {n : ℕ} (h : off = ![n, 0]) : (rowM off inb).view.set = rowSetN n := by
  show (((s0).view.slice (Rect.unit (s := S200x128) off S1x128.size inb)).reshape S128 squeezes_S1x128_S128.numel_eq).set = _
  rw [View.set_reshape, View.set_slice]
  exact (Finset.map_refl).trans (set_unit_row h)

theorem set_winM {off : Fin 3 → ℕ} {inb} {B n : ℕ} (h : off = ![B, n, 0]) : (winM off inb).view.set = winSetN B n := by
  show (((oV).view.slice (Rect.unit (s := S4096x200x128) off S128x1x128.size inb)).reshape S128x128 squeezes_S128x1x128_S128x128.numel_eq).set = _
  rw [View.set_reshape, View.set_slice]
  exact (Finset.map_refl).trans (set_unit_win h)

theorem pts_rowM {off : Fin 2 → ℕ} {inb} {n : ℕ} (h : off = ![n, 0]) (q : PosShare TreeShare) (f : Buf (Elt F) ((s0).view.loc (thr d L))) :
    ((rowM off inb).view.loc (thr d L) ↦[(rowM off inb).view.set]{q} f : sProp 𝕄) = (s0).view.loc (thr d L) ↦[rowSetN n]{q} f := by
  rw [set_rowM h]

theorem pts_winM {off : Fin 3 → ℕ} {inb} {B n : ℕ} (h : off = ![B, n, 0]) (q : PosShare TreeShare) (f : Buf (Elt F) ((oV).view.loc (thr d L))) :
    ((winM off inb).view.loc (thr d L) ↦[(winM off inb).view.set]{q} f : sProp 𝕄) = (oV).view.loc (thr d L) ↦[winSetN B n]{q} f := by
  rw [set_winM h]

/-- The index scratch held whole is its 200 rows. -/
theorem rows_split (f : Buf (Elt F) ((s0).view.loc (thr d L))) :
    ((s0).view.loc (thr d L) ↦{fullShare} f : sProp 𝕄) = bigSep (Finset.range 200) fun n => (s0).view.loc (thr d L) ↦[rowSetN n]{fullShare} f := by
  rw [← pointsTo_biUnion (Finset.range 200) (ℓ := (s0).view.loc (thr d L)) rowSetN (fun a _ b _ h => rowSetN_disjoint h), rows_cover]

/-- The tile's block of the result is its 200 windows. -/
theorem wins_split (c : Fin 2) (s : Fin 16) (f : Buf (Elt F) ((oV).view.loc (thr d L))) :
    ((oV).view.loc (thr d L) ↦[tileSet c s]{fullShare} f : sProp 𝕄)
      = bigSep (Finset.range 200) fun n => (oV).view.loc (thr d L) ↦[winSetN (256 * s.val + 128 * c.val) n]{fullShare} f := by
  rw [← pointsTo_biUnion (Finset.range 200) (ℓ := (oV).view.loc (thr d L)) (winSetN (256 * s.val + 128 * c.val)) (fun a _ b _ h => winSetN_disjoint h), wins_cover]

end

/-! ## Families over an initial segment and over a final segment of the positions -/

theorem bigSep_range_succ (Φ : ℕ → sProp 𝕄) (n : ℕ) : bigSep (Finset.range (n + 1)) Φ = iprop(Φ n ∗ bigSep (Finset.range n) Φ) := by
  rw [Finset.range_add_one, bigSep_insert Finset.notMem_range_self]; rfl

theorem bigSep_Ico_succ_left (Φ : ℕ → sProp 𝕄) {a b : ℕ} (h : a < b) : bigSep (Finset.Ico a b) Φ = iprop(Φ a ∗ bigSep (Finset.Ico (a + 1) b) Φ) := by
  have e : Finset.Ico a b = insert a (Finset.Ico (a + 1) b) := by
    ext x; simp only [Finset.mem_Ico, Finset.mem_insert]; omega
  rw [e, bigSep_insert (by simp)]; rfl

theorem bigSep_Ico_self (Φ : ℕ → sProp 𝕄) (a : ℕ) : bigSep (Finset.Ico a a) Φ = (iprop(emp) : sProp 𝕄) := by
  rw [Finset.Ico_self, bigSep_empty]; rfl

theorem bigSep_range_zero (Φ : ℕ → sProp 𝕄) : bigSep (Finset.range 0) Φ = (iprop(emp) : sProp 𝕄) := by
  rw [Finset.range_zero, bigSep_empty]; rfl

theorem range_eq_Ico_zero (Φ : ℕ → sProp 𝕄) (n : ℕ) : bigSep (Finset.range n) Φ = bigSep (Finset.Ico 0 n) Φ := by
  rw [Finset.range_eq_Ico]

end Cert.Proof.KI

end
-- ==== Proof.KICoreStmt.lean ====
/-
  The tile's body as a statement about its own resources: from its read shares of the transposed indices, the table and
  the position table, its block of the result, its six scratch buffers and its ten DMA semaphores at zero, the body runs
  and hands back the shares, the block at the lookup, the scratch and the semaphores at zero.
-/
import proofs.«205233_g80668075753725_cont_9to1c4b_826_11_alg».proof.Proof.KIFam

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S200x4096 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S4096x200x128 EltTy.f32)
local notation "s0" => (Memref.whole Cert.KernelIdeal.cc0_scratch0 : Memref Cert.KernelIdeal.sig Kind.scVector Space.vmem Cert.KernelIdeal.S200x128 EltTy.i32)
local notation "s1" => (Memref.whole Cert.KernelIdeal.cc0_scratch1 : Memref Cert.KernelIdeal.sig Kind.scVector Space.vmem Cert.KernelIdeal.S200x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable [FloatOps F]

theorem bound_zero : grid0.bound 0 = 2 := rfl
theorem bound_one : grid0.bound 1 = 16 := rfl
/-- The tile's SparseCore and vector subcore as the tiles' numbering names them. -/
abbrev cL (L : grid0.Coords) : Fin 2 := Fin.cast bound_zero (L 0)
abbrev sL (L : grid0.Coords) : Fin 16 := Fin.cast bound_one (L 1)

/-- The body obligation over the tile's own resources, for every tile at once. -/
def TileCore (m : (ℓ : Loc nD τ sig) → Buf (Elt F) ℓ) : Prop :=
  ∀ (d : Dev nD) (L : grid0.Coords) (O : CellTallies nD τ sig (HIx 1)) (W : Waits sig (HIx 1))
    (g0 : Buf (Elt F) ((s0).view.loc (thr d L))) (g1 : Buf (Elt F) ((s1).view.loc (thr d L)))
    (h0 : Buf (Elt F) ((b0).view.loc (thr d L))) (h1 : Buf (Elt F) ((b1).view.loc (thr d L)))
    (h2 : Buf (Elt F) ((b2).view.loc (thr d L))) (h3 : Buf (Elt F) ((b3).view.loc (thr d L))),
    (iprop(Transfers.MayWaits (thr d L) (none : HIx 1) O
        ∗ ((iV).view.loc (thr d L) ↦{tokq (cL L) (sL L)} FI m d) ∗ ((tV).view.loc (thr d L) ↦{tokq (cL L) (sL L)} m (tLoc d))
        ∗ ((pV).view.loc (thr d L) ↦{tokq (cL L) (sL L)} m (pLoc d)) ∗ ((oV).view.loc (thr d L) ↦[tileSet (cL L) (sL L)]{fullShare} m (oLoc d))
        ∗ ((s0).view.loc (thr d L) ↦{fullShare} g0) ∗ ((s1).view.loc (thr d L) ↦{fullShare} g1)
        ∗ ((b0).view.loc (thr d L) ↦{fullShare} h0) ∗ ((b1).view.loc (thr d L) ↦{fullShare} h1)
        ∗ ((b2).view.loc (thr d L) ↦{fullShare} h2) ∗ ((b3).view.loc (thr d L) ↦{fullShare} h3)
        ∗ semVal (thr d L, SemLoc.dma cc0_scoped0.sem) 0 ∗ semVal (thr d L, SemLoc.dma cc0_scoped1.sem) 0
        ∗ semVal (thr d L, SemLoc.dma cc0_scratch6.sem) 0 ∗ semVal (thr d L, SemLoc.dma cc0_scratch7.sem) 0
        ∗ semVal (thr d L, SemLoc.dma cc0_scratch8.sem) 0 ∗ semVal (thr d L, SemLoc.dma cc0_scratch9.sem) 0
        ∗ semVal (thr d L, SemLoc.dma cc0_scratch10.sem) 0 ∗ semVal (thr d L, SemLoc.dma cc0_scratch11.sem) 0
        ∗ semVal (thr d L, SemLoc.dma cc0_scratch12.sem) 0 ∗ semVal (thr d L, SemLoc.dma cc0_scratch13.sem) 0
        ∗ owes (thr d L) O W) : sProp 𝕄)
      ⊢ wp frame (wpE (defs₀ (F := F)) 𝒱₀ (thr d L) none) Set.univ
          (cc0__body (F := F) L iV (Memref.isWhole_whole _) tV (Memref.isWhole_whole _) pV (Memref.isWhole_whole _) oV (Memref.isWhole_whole _) s0 (Memref.isWhole_whole _) s1 (Memref.isWhole_whole _) b0 (Memref.isWhole_whole _) b1 (Memref.isWhole_whole _) b2 (Memref.isWhole_whole _) b3 (Memref.isWhole_whole _) cc0_scratch6 cc0_scratch7 cc0_scratch8 cc0_scratch9 cc0_scratch10 cc0_scratch11 cc0_scratch12 cc0_scratch13 cc0_scoped0 cc0_scoped1)
          fun _ => iprop(((iV).view.loc (thr d L) ↦{tokq (cL L) (sL L)} FI m d) ∗ ((tV).view.loc (thr d L) ↦{tokq (cL L) (sL L)} m (tLoc d))
            ∗ ((pV).view.loc (thr d L) ↦{tokq (cL L) (sL L)} m (pLoc d)) ∗ ((oV).view.loc (thr d L) ↦[tileSet (cL L) (sL L)]{fullShare} GT m d)
            ∗ (∃ f, (s0).view.loc (thr d L) ↦{fullShare} f) ∗ (∃ f, (s1).view.loc (thr d L) ↦{fullShare} f)
            ∗ (∃ f, (b0).view.loc (thr d L) ↦{fullShare} f) ∗ (∃ f, (b1).view.loc (thr d L) ↦{fullShare} f)
            ∗ (∃ f, (b2).view.loc (thr d L) ↦{fullShare} f) ∗ (∃ f, (b3).view.loc (thr d L) ↦{fullShare} f)
            ∗ semVal (thr d L, SemLoc.dma cc0_scoped0.sem) 0 ∗ semVal (thr d L, SemLoc.dma cc0_scoped1.sem) 0
            ∗ semVal (thr d L, SemLoc.dma cc0_scratch6.sem) 0 ∗ semVal (thr d L, SemLoc.dma cc0_scratch7.sem) 0
            ∗ semVal (thr d L, SemLoc.dma cc0_scratch8.sem) 0 ∗ semVal (thr d L, SemLoc.dma cc0_scratch9.sem) 0
            ∗ semVal (thr d L, SemLoc.dma cc0_scratch10.sem) 0 ∗ semVal (thr d L, SemLoc.dma cc0_scratch11.sem) 0
            ∗ semVal (thr d L, SemLoc.dma cc0_scratch12.sem) 0 ∗ semVal (thr d L, SemLoc.dma cc0_scratch13.sem) 0
            ∗ ∃ W', ⌜∀ p ∈ W', p ∈ W ∨ p.2 = none⌝ ∗ owes (thr d L) O W')

end Cert.Proof.KI

end
-- ==== Proof.KIObl.lean ====
/-
  The tiles' obligation of the launch theorem from the body's statement over a tile's own resources: a vector subcore's
  scoped storage is its six scratch buffers and its ten DMA semaphores; the body runs on those and the task's operands,
  and hands everything back.
-/
import proofs.«205233_g80668075753725_cont_9to1c4b_826_11_alg».proof.Proof.KICoreStmt
import proofs.«205233_g80668075753725_cont_9to1c4b_826_11_alg».proof.Proof.KISplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S200x4096 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S4096x200x128 EltTy.f32)
local notation "s0" => (Memref.whole Cert.KernelIdeal.cc0_scratch0 : Memref Cert.KernelIdeal.sig Kind.scVector Space.vmem Cert.KernelIdeal.S200x128 EltTy.i32)
local notation "s1" => (Memref.whole Cert.KernelIdeal.cc0_scratch1 : Memref Cert.KernelIdeal.sig Kind.scVector Space.vmem Cert.KernelIdeal.S200x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable (m : (ℓ : Loc nD τ sig) → Buf (Elt F) ℓ)

/-! ## A vector subcore's own storage -/

/-- The six scratch buffers, as the kernel names them. -/
abbrev S6 : Finset (Ref sig .scVector) := {cc0_scratch0, cc0_scratch1, cc0_scratch2, cc0_scratch3, cc0_scratch4, cc0_scratch5}
/-- The same as buffers of vector subcore `(c, j)`. -/
abbrev T6 (c : Fin τ.nSC) (j : Fin τ.nSub) : Finset (DevRef τ sig) :=
  S6.map ⟨(Proc.scVector c j).devRef, Proc.devRef_injective _⟩

omit m in
theorem T6_sub (c : Fin τ.nSC) (j : Fin τ.nSub) : T6 c j ⊆ ownRefs (τ := τ) (sig := sig) (.scVector c j) := by
  intro b hb
  obtain ⟨r, hr, rfl⟩ := Finset.mem_map.mp hb
  simp only [S6, Finset.mem_insert, Finset.mem_singleton] at hr
  rcases hr with rfl | rfl | rfl | rfl | rfl | rfl <;> exact SparseCore.Cfg.mem_ownRefs_of_owner rfl

omit m in
theorem bigSep_S6 (Φ : Ref sig .scVector → sProp 𝕄) :
    bigSep S6 Φ = iprop(Φ cc0_scratch0 ∗ Φ cc0_scratch1 ∗ Φ cc0_scratch2 ∗ Φ cc0_scratch3 ∗ Φ cc0_scratch4 ∗ Φ cc0_scratch5) := by
  unfold S6
  rw [SparseCore.bigSep_insert' (by decide), SparseCore.bigSep_insert' (by decide), SparseCore.bigSep_insert' (by decide),
    SparseCore.bigSep_insert' (by decide), SparseCore.bigSep_insert' (by decide), bigSep_singleton]

omit m in
/-- The six scratch buffers are among the subcore's own: they are them, at some contents, and the rest. -/
theorem ownBufs_six (d : Dev nD) (L : grid0.Coords) :
    (ownBufs (thr d L) : sProp 𝕄)
      = iprop(((∃ f, (s0).view.loc (thr d L) ↦{fullShare} f) ∗ (∃ f, (s1).view.loc (thr d L) ↦{fullShare} f)
          ∗ (∃ f, (b0).view.loc (thr d L) ↦{fullShare} f) ∗ (∃ f, (b1).view.loc (thr d L) ↦{fullShare} f)
          ∗ (∃ f, (b2).view.loc (thr d L) ↦{fullShare} f) ∗ (∃ f, (b3).view.loc (thr d L) ↦{fullShare} f))
          ∗ bigSep (ownRefs (τ := τ) (.scVector (cV L) (jV L)) \ T6 (cV L) (jV L)) fun b => iprop(∃ f, ((d, b) : Loc nD τ sig) ↦{fullShare} f)) := by
  unfold SparseCore.Cfg.ownBufs
  refine (SparseCore.bigSep_sdiff_split' (T6_sub (cV L) (jV L))).trans ?_
  rw [bigSep_map, bigSep_S6]
  rfl

omit m in
theorem scopedSems_eq : (Finset.univ.filter fun sm : SemLoc sig => sm.isScoped Kind.scVector)
    = {SemLoc.dma cc0_scoped0.sem, SemLoc.dma cc0_scoped1.sem, SemLoc.dma cc0_scratch6.sem, SemLoc.dma cc0_scratch7.sem,
        SemLoc.dma cc0_scratch8.sem, SemLoc.dma cc0_scratch9.sem, SemLoc.dma cc0_scratch10.sem, SemLoc.dma cc0_scratch11.sem,
        SemLoc.dma cc0_scratch12.sem, SemLoc.dma cc0_scratch13.sem} := by decide

omit m in
/-- A vector subcore's scoped semaphores are the ten DMA semaphores of the kernel. -/
theorem ownSems0_ten (d : Dev nD) (L : grid0.Coords) :
    (ownSems0 (thr d L) : sProp 𝕄)
      = iprop(semVal (thr d L, SemLoc.dma cc0_scoped0.sem) 0 ∗ semVal (thr d L, SemLoc.dma cc0_scoped1.sem) 0
        ∗ semVal (thr d L, SemLoc.dma cc0_scratch6.sem) 0 ∗ semVal (thr d L, SemLoc.dma cc0_scratch7.sem) 0
        ∗ semVal (thr d L, SemLoc.dma cc0_scratch8.sem) 0 ∗ semVal (thr d L, SemLoc.dma cc0_scratch9.sem) 0
        ∗ semVal (thr d L, SemLoc.dma cc0_scratch10.sem) 0 ∗ semVal (thr d L, SemLoc.dma cc0_scratch11.sem) 0
        ∗ semVal (thr d L, SemLoc.dma cc0_scratch12.sem) 0 ∗ semVal (thr d L, SemLoc.dma cc0_scratch13.sem) 0) := by
  rw [SparseCore.Cfg.ownSems0_eq]
  show bigSep (Finset.univ.filter fun sm : SemLoc sig => sm.isScoped Kind.scVector) _ = _
  rw [scopedSems_eq, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable [FloatOps F]

/-! ## The body on a tile of the launch -/

set_option maxHeartbeats 1000000 in
/-- The body on vector subcore `(L 0, L 1)` of device `d`, from the task's operands and the subcore's scoped storage. -/
theorem tile_wrap (hcore : TileCore m) (d : Dev nD) (L : grid0.Coords) (O : CellTallies nD τ sig (HIx 1)) (W : Waits sig (HIx 1)) (hO : ∀ g, O g none = 0) :
    iprop(levAts (K (F := F)).L (K (F := F)).lev ∗ emp
        ∗ res m d (m (oLoc d)) (cL L) (sL L)
        ∗ scopedBufs (thr d L) ∗ scopedSems0 (thr d L) ∗ owes (thr d L) O W)
      ⊢ wp frame (wpE (defs₀ (F := F)) 𝒱₀ (thr d L) none) Set.univ
          (cc0__body (F := F) L iV (Memref.isWhole_whole _) tV (Memref.isWhole_whole _) pV (Memref.isWhole_whole _) oV (Memref.isWhole_whole _) s0 (Memref.isWhole_whole _) s1 (Memref.isWhole_whole _) b0 (Memref.isWhole_whole _) b1 (Memref.isWhole_whole _) b2 (Memref.isWhole_whole _) b3 (Memref.isWhole_whole _) cc0_scratch6 cc0_scratch7 cc0_scratch8 cc0_scratch9 cc0_scratch10 cc0_scratch11 cc0_scratch12 cc0_scratch13 cc0_scoped0 cc0_scoped1)
          fun _ => iprop(res m d (GT m d) (cL L) (sL L)
            ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_ten, ownBufs_six]
  iintro ⟨#Hlv, -, ⟨Hi, Ht, Hp, Ho⟩, ⟨⟨⟨%g0, H0⟩, ⟨%g1, H1⟩, ⟨%h0, H2⟩, ⟨%h1, H3⟩, ⟨%h2, H4⟩, ⟨%h3, H5⟩⟩, Hbufs⟩,
    ⟨Hc0, Hc1, Hc2, Hc3, Hc4, Hc5, Hc6, Hc7, Hc8, Hc9⟩, HO⟩
  ihave Hmw := (show levAts (K (F := F)).L (K (F := F)).lev ⊢ Transfers.MayWaits (thr d L) (none : HIx 1) O from
    (K (F := F)).mayWaits_none (thr := thr d L) hO) $$ Hlv
  ihave Hwp := (hcore d L O W g0 g1 h0 h1 h2 h3) $$ [Hmw Hi Ht Hp Ho H0 H1 H2 H3 H4 H5 Hc0 Hc1 Hc2 Hc3 Hc4 Hc5 Hc6 Hc7 Hc8 Hc9 HO]
  · iframe; iexact Hmw
  iapply (wp_wand_r frame _ _) $$ [Hwp Hbufs]
  isplitl [Hwp]; · iexact Hwp
  iintro %a ⟨Hi, Ht, Hp, Ho, H0, H1, H2, H3, H4, H5, Hc0, Hc1, Hc2, Hc3, Hc4, Hc5, Hc6, Hc7, Hc8, Hc9, HW⟩
  isplitl [Hi Ht Hp Ho]
  · isplitl [Hi]; · iexact Hi
    isplitl [Ht]; · iexact Ht
    isplitl [Hp]; · iexact Hp
    iexact Ho
  isplitl [H0 H1 H2 H3 H4 H5 Hbufs]
  · isplitl [H0 H1 H2 H3 H4 H5]
    · isplitl [H0]; · iexact H0
      isplitl [H1]; · iexact H1
      isplitl [H2]; · iexact H2
      isplitl [H3]; · iexact H3
      isplitl [H4]; · iexact H4
      iexact H5
    iexact Hbufs
  isplitl [Hc0 Hc1 Hc2 Hc3 Hc4 Hc5 Hc6 Hc7 Hc8 Hc9]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    iexact Hc9
  iexact HW

/-! ## The obligation -/

/-- The grid point of a SparseCore and a vector subcore of the kernel's grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (F := F) (coordsV c s)
          iV (Memref.isWhole_whole _) tV (Memref.isWhole_whole _) pV (Memref.isWhole_whole _) oV (Memref.isWhole_whole _)
          s0 (Memref.isWhole_whole _) s1 (Memref.isWhole_whole _) b0 (Memref.isWhole_whole _) b1 (Memref.isWhole_whole _)
          b2 (Memref.isWhole_whole _) b3 (Memref.isWhole_whole _)
          cc0_scratch6 cc0_scratch7 cc0_scratch8 cc0_scratch9 cc0_scratch10 cc0_scratch11 cc0_scratch12 cc0_scratch13 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch theorem's obligation for the tiles, from the body's statement over a tile's own resources. -/
theorem tileObl (hcore : TileCore m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_wrap m hcore d (coordsV ⟨_, hci.1⟩ ⟨_, hci.2⟩) O W hO).trans (wp_mono frame _ _ fun _ => obl_post)

end Cert.Proof.KI

end
-- ==== Proof.KIAsm.lean ====
/-
  The kernel's run from the body's statement over a tile's own resources: the tiles' obligation (the body on each
  tile's operands and scoped storage) and the launch (the transpose, the deal of the arrays to the tiles, the call, the
  collection) give the whole program's run, the result at the lookup of the launch arrays and the arguments unchanged.
-/
import proofs.«205233_g80668075753725_cont_9to1c4b_826_11_alg».proof.Proof.KILaunch
import proofs.«205233_g80668075753725_cont_9to1c4b_826_11_alg».proof.Proof.KIObl

noncomputable section

namespace Cert.Proof.KI

open Cert.KernelIdeal Cert.KernelIdeal.Gen

open Idealize.ShloMosaic
open Idealize.SL Idealize.SL.Sem

variable {F : FTy → Type}

variable (m : (ℓ : Loc nD τ sig) → Buf (Elt F) ℓ) (ρ : Dev nD → PrngReg)

variable [FloatOps F]

theorem frame_of_core [∀ e, Nonempty (Elt F e)] (hpre : PreOK m) (hcore : TileCore m) :
    θ_run (Cert.KernelIdeal.defs (F := F)) (Cert.KernelIdeal.threads (F := F)) ⟨m, fun _ => 0, ρ⟩
      (fun r => ∀ c : Dev nD, r.2.mem (oLoc c) = GT m c ∧ r.2.mem (rLoc c) = m (rLoc c) ∧ r.2.mem (tLoc c) = m (tLoc c) ∧ r.2.mem (pLoc c) = m (pLoc c)) :=
  run_main m ρ hpre (tileObl m hcore)

end Cert.Proof.KI

end
-- ==== Proof.KIVal.lean ====
/-
  What the tile's buffers hold, as functions of what its scratches were filled with: the rows a gather lands
  (row r of the buffer is the table row that word (s, r) of the index scratch names), a buffer with the position row
  added to its first n rows, and the finished buffer of position s (every row with the position row added).
-/
import proofs.«205233_g80668075753725_cont_9to1c4b_826_11_alg».proof.Proof.KIFam

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S200x4096 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S4096x200x128 EltTy.f32)
local notation "s0" => (Memref.whole Cert.KernelIdeal.cc0_scratch0 : Memref Cert.KernelIdeal.sig Kind.scVector Space.vmem Cert.KernelIdeal.S200x128 EltTy.i32)
local notation "s1" => (Memref.whole Cert.KernelIdeal.cc0_scratch1 : Memref Cert.KernelIdeal.sig Kind.scVector Space.vmem Cert.KernelIdeal.S200x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable [FloatOps F]

/-- A 128 × 128 buffer with the lane vector `p` added to each of its first `n` rows. -/
def RowUpd (f : S128x128.Idx → F .f32) (p : Fin 128 → F .f32) (n : ℕ) : S128x128.Idx → F .f32 :=
  fun y => if (y 0).val < n then FloatOps.addf (f y) (p (y 1)) else f y

theorem RowUpd_zero (f : S128x128.Idx → F .f32) (p : Fin 128 → F .f32) : RowUpd f p 0 = f := by
  funext y; simp [RowUpd]

section

variable (d : Dev nD) (L : grid0.Coords)

/-- Row `s` of the position scratch, as a lane vector. -/
def posRow (PP : Buf (Elt F) ((s1).view.loc (thr d L))) (s : ℕ) : Fin 128 → F .f32 :=
  fun l => PP (ValueIdx.ix2 (⟨s % 200, Nat.mod_lt _ (by decide)⟩ : Fin 200) l)

/-- What the gather for position `s` lands in a buffer: row `r` is the table row that word `(s, r)` of the index scratch names. -/
def Gath (ft : Buf (Elt F) ((tV).view.loc (thr d L))) (II : Buf (Elt F) ((s0).view.loc (thr d L))) (s : ℕ) : S128x128.Idx → F .f32 :=
  fun y => ft (ValueIdx.ix2 (Cert.Spec.rowOf (II (ValueIdx.ix2 (⟨s % 200, Nat.mod_lt _ (by decide)⟩ : Fin 200) (y 0)))) (y 1))

/-- The finished buffer of position `s`: the gathered rows, each with the position row added. -/
def Res (ft : Buf (Elt F) ((tV).view.loc (thr d L))) (II : Buf (Elt F) ((s0).view.loc (thr d L))) (PP : Buf (Elt F) ((s1).view.loc (thr d L))) (s : ℕ) :
    S128x128.Idx → F .f32 :=
  RowUpd (Gath d L ft II s) (posRow d L PP s) 128

end

end Cert.Proof.KI

end
-- ==== Proof.KIInv.lean ====
/-
  The ring of four buffers between trips of the position loop, as an assertion: which gathers and which copy-outs are
  in flight, which rows of the index scratch and which windows of the result are in hand, at which contents.
-/
import proofs.«205233_g80668075753725_cont_9to1c4b_826_11_alg».proof.Proof.KIVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S200x4096 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S4096x200x128 EltTy.f32)
local notation "s0" => (Memref.whole Cert.KernelIdeal.cc0_scratch0 : Memref Cert.KernelIdeal.sig Kind.scVector Space.vmem Cert.KernelIdeal.S200x128 EltTy.i32)
local notation "s1" => (Memref.whole Cert.KernelIdeal.cc0_scratch1 : Memref Cert.KernelIdeal.sig Kind.scVector Space.vmem Cert.KernelIdeal.S200x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable [FloatOps F]

/-! ## The ring's state between trips of the position loop -/

section Inv

variable (d : Dev nD) (L : grid0.Coords) (qt : PosShare TreeShare)
  (ft : Buf (Elt F) ((tV).view.loc (thr d L))) (II : Buf (Elt F) ((s0).view.loc (thr d L))) (PP : Buf (Elt F) ((s1).view.loc (thr d L)))
  (fo go : Buf (Elt F) ((oV).view.loc (thr d L))) (O : CellTallies nD τ sig (HIx 1)) (W : Waits sig (HIx 1))

abbrev EC : UEmb Counters 𝕄 := countersEmb
/-- The table as every gather names it. -/
abbrev tSl : Memref sig .scVector .hbm S100000x128 .f32 :=
  (tV).slice (Rect.unit (s := S100000x128) ![0, 0] S100000x128.size inb_S100000x128_S100000x128_0_0) (fun _ => rfl)
/-- The read token of the table that gathers completing on gather cell `j` borrow. -/
abbrev Tok (j : Fin 4) : sProp 𝕄 := (tSl).view.loc (thr d L) ↦[(tSl).view.set]{Transfers.shareTok qt 4 j} ft
/-- Row `n` of the index scratch; window `n` of the tile's block of the result at contents `f`. -/
abbrev RowP (n : ℕ) : sProp 𝕄 := (s0).view.loc (thr d L) ↦[rowSetN n]{fullShare} II
abbrev WinP (f : Buf (Elt F) ((oV).view.loc (thr d L))) (n : ℕ) : sProp 𝕄 := (oV).view.loc (thr d L) ↦[winSetN (baseRow L) n]{fullShare} f
abbrev Bf0 (f : Buf (Elt F) ((b0).view.loc (thr d L))) : sProp 𝕄 := (b0).view.loc (thr d L) ↦[(b0).view.set]{fullShare} f
abbrev Bf1 (f : Buf (Elt F) ((b1).view.loc (thr d L))) : sProp 𝕄 := (b1).view.loc (thr d L) ↦[(b1).view.set]{fullShare} f
abbrev Bf2 (f : Buf (Elt F) ((b2).view.loc (thr d L))) : sProp 𝕄 := (b2).view.loc (thr d L) ↦[(b2).view.set]{fullShare} f
abbrev Bf3 (f : Buf (Elt F) ((b3).view.loc (thr d L))) : sProp 𝕄 := (b3).view.loc (thr d L) ↦[(b3).view.set]{fullShare} f
/-- The gather of position `s` in flight into buffer X: at its wait it hands back the buffer at the gathered rows, the
    row of the index scratch it read, and the table's read token. -/
abbrev FG0 (s : ℕ) : sProp 𝕄 :=
  Transfers.Flight EC (thr d L) (SemLoc.dma cc0_scratch6.sem) (none : HIx 1) 524288
    iprop((Bf0 d L (Gath d L ft II s) ∗ RowP d L II s) ∗ Tok d L qt ft 0)
abbrev FG1 (s : ℕ) : sProp 𝕄 :=
  Transfers.Flight EC (thr d L) (SemLoc.dma cc0_scratch7.sem) (none : HIx 1) 524288
    iprop((Bf1 d L (Gath d L ft II s) ∗ RowP d L II s) ∗ Tok d L qt ft 1)
abbrev FG2 (s : ℕ) : sProp 𝕄 :=
  Transfers.Flight EC (thr d L) (SemLoc.dma cc0_scratch8.sem) (none : HIx 1) 524288
    iprop((Bf2 d L (Gath d L ft II s) ∗ RowP d L II s) ∗ Tok d L qt ft 2)
abbrev FG3 (s : ℕ) : sProp 𝕄 :=
  Transfers.Flight EC (thr d L) (SemLoc.dma cc0_scratch9.sem) (none : HIx 1) 524288
    iprop((Bf3 d L (Gath d L ft II s) ∗ RowP d L II s) ∗ Tok d L qt ft 3)
/-- The copy-out of position `s` in flight from buffer X: at its wait it hands back the window at the result and the buffer. -/
abbrev FS0 (s : ℕ) : sProp 𝕄 :=
  Transfers.Flight EC (thr d L) (SemLoc.dma cc0_scratch10.sem) (none : HIx 1) 524288
    iprop(WinP d L go s ∗ Bf0 d L (Res d L ft II PP s))
abbrev FS1 (s : ℕ) : sProp 𝕄 :=
  Transfers.Flight EC (thr d L) (SemLoc.dma cc0_scratch11.sem) (none : HIx 1) 524288
    iprop(WinP d L go s ∗ Bf1 d L (Res d L ft II PP s))
abbrev FS2 (s : ℕ) : sProp 𝕄 :=
  Transfers.Flight EC (thr d L) (SemLoc.dma cc0_scratch12.sem) (none : HIx 1) 524288
    iprop(WinP d L go s ∗ Bf2 d L (Res d L ft II PP s))
abbrev FS3 (s : ℕ) : sProp 𝕄 :=
  Transfers.Flight EC (thr d L) (SemLoc.dma cc0_scratch13.sem) (none : HIx 1) 524288
    iprop(WinP d L go s ∗ Bf3 d L (Res d L ft II PP s))

/-- Before trip `k` (positions 4 k … 4 k + 3): the gathers of positions 4 k and 4 k + 1 are in flight into buffers 0 and 1
    (after the last trip those buffers are free); the copy-outs of positions 4 k − 2 and 4 k − 1 are in flight from buffers
    2 and 3 (before the first trip those are free); the rows of the index scratch below 4 k and from 4 k + 2 on are in hand,
    the windows of the result below 4 k − 2 at the result, those from 4 k on untouched. -/
def inv (k : ℕ) (_ : PUnit) : sProp 𝕄 :=
  iprop(Transfers.MayWaits (thr d L) (none : HIx 1) O ∗ ((s1).view.loc (thr d L) ↦{fullShare} PP)
    ∗ Tok d L qt ft 2 ∗ Tok d L qt ft 3
    ∗ semVal (thr d L, SemLoc.dma cc0_scratch8.sem) 0 ∗ semVal (thr d L, SemLoc.dma cc0_scratch9.sem) 0
    ∗ semVal (thr d L, SemLoc.dma cc0_scratch10.sem) 0 ∗ semVal (thr d L, SemLoc.dma cc0_scratch11.sem) 0
    ∗ (if k < 50 then iprop(FG0 d L qt ft II (4 * k) ∗ FG1 d L qt ft II (4 * k + 1))
        else iprop((∃ f, Bf0 d L f) ∗ (∃ f, Bf1 d L f) ∗ Tok d L qt ft 0 ∗ Tok d L qt ft 1
          ∗ semVal (thr d L, SemLoc.dma cc0_scratch6.sem) 0 ∗ semVal (thr d L, SemLoc.dma cc0_scratch7.sem) 0))
    ∗ (if 0 < k then iprop(FS2 d L ft II PP go (4 * k - 2) ∗ FS3 d L ft II PP go (4 * k - 1))
        else iprop((∃ f, Bf2 d L f) ∗ (∃ f, Bf3 d L f)
          ∗ semVal (thr d L, SemLoc.dma cc0_scratch12.sem) 0 ∗ semVal (thr d L, SemLoc.dma cc0_scratch13.sem) 0))
    ∗ bigSep (Finset.range (4 * k)) (RowP d L II) ∗ bigSep (Finset.Ico (4 * k + 2) 200) (RowP d L II)
    ∗ bigSep (Finset.range (4 * k - 2)) (WinP d L go) ∗ bigSep (Finset.Ico (4 * k) 200) (WinP d L fo)
    ∗ ∃ W', ⌜∀ p ∈ W', p ∈ W ∨ p.2 = none⌝ ∗ owes (thr d L) O W')

end Inv

/-! ## Four positions at a time -/

theorem Ico4 (Φ : ℕ → sProp 𝕄) (a : ℕ) (h : a + 4 ≤ 200) :
    bigSep (Finset.Ico a 200) Φ = iprop(Φ a ∗ Φ (a + 1) ∗ Φ (a + 2) ∗ Φ (a + 3) ∗ bigSep (Finset.Ico (a + 4) 200) Φ) := by
  rw [bigSep_Ico_succ_left Φ (by omega : a < 200), bigSep_Ico_succ_left Φ (by omega : a + 1 < 200),
    bigSep_Ico_succ_left Φ (by omega : a + 1 + 1 < 200), bigSep_Ico_succ_left Φ (by omega : a + 1 + 1 + 1 < 200)]

theorem range4 (Φ : ℕ → sProp 𝕄) (a : ℕ) :
    bigSep (Finset.range (a + 4)) Φ = iprop(Φ (a + 3) ∗ Φ (a + 2) ∗ Φ (a + 1) ∗ Φ a ∗ bigSep (Finset.range a) Φ) := by
  rw [show a + 4 = a + 1 + 1 + 1 + 1 from rfl, bigSep_range_succ, bigSep_range_succ, bigSep_range_succ, bigSep_range_succ]

/-! ## The trip's conditions, decided by the trip -/

theorem cond1_iff : ∀ k : Fin k0_t1_loop.trips, k0_cond1 k = 1#1 ↔ 0 < k.val := by decide +kernel
theorem cond2_iff : ∀ k : Fin k0_t1_loop.trips, k0_cond2 k = 1#1 := by decide +kernel
theorem cond3_iff : ∀ k : Fin k0_t1_loop.trips, k0_cond3 k = 1#1 ↔ 0 < k.val := by decide +kernel
theorem cond4_iff : ∀ k : Fin k0_t1_loop.trips, k0_cond4 k = 1#1 := by decide +kernel
theorem cond5_iff : ∀ k : Fin k0_t1_loop.trips, k0_cond5 k = 1#1 := by decide +kernel
theorem cond6_iff : ∀ k : Fin k0_t1_loop.trips, k0_cond6 k = 1#1 ↔ k.val < 49 := by decide +kernel
theorem cond7_iff : ∀ k : Fin k0_t1_loop.trips, k0_cond7 k = 1#1 := by decide +kernel
theorem cond8_iff : ∀ k : Fin k0_t1_loop.trips, k0_cond8 k = 1#1 ↔ k.val < 49 := by decide +kernel

theorem winsDone_mid (Φ : ℕ → sProp 𝕄) (k : ℕ) (hk : 0 < k) :
    bigSep (Finset.range (4 * k + 2)) Φ = iprop(Φ (4 * k + 1) ∗ Φ (4 * k) ∗ Φ (4 * k - 1) ∗ Φ (4 * k - 2) ∗ bigSep (Finset.range (4 * k - 2)) Φ) := by
  have e : 4 * k + 2 = (4 * k - 2) + 4 := by omega
  rw [e, range4, show 4 * k - 2 + 3 = 4 * k + 1 by omega, show 4 * k - 2 + 2 = 4 * k by omega, show 4 * k - 2 + 1 = 4 * k - 1 by omega]

theorem winsDone_first (Φ : ℕ → sProp 𝕄) (k : ℕ) (hk : k = 0) :
    bigSep (Finset.range (4 * k + 2)) Φ = iprop(Φ (4 * k + 1) ∗ Φ (4 * k) ∗ bigSep (Finset.range (4 * k - 2)) Φ) := by
  subst hk
  rw [show 4 * 0 + 2 = 0 + 1 + 1 from rfl, bigSep_range_succ, bigSep_range_succ]

theorem Ico2 (Φ : ℕ → sProp 𝕄) (a : ℕ) (h : a + 2 ≤ 200) :
    bigSep (Finset.Ico a 200) Φ = iprop(Φ a ∗ Φ (a + 1) ∗ bigSep (Finset.Ico (a + 2) 200) Φ) := by
  rw [bigSep_Ico_succ_left Φ (by omega : a < 200), bigSep_Ico_succ_left Φ (by omega : a + 1 < 200)]

theorem Ico_big (Φ : ℕ → sProp 𝕄) (a : ℕ) (h : 200 ≤ a) : bigSep (Finset.Ico a 200) Φ = (iprop(emp) : sProp 𝕄) := by
  rw [Finset.Ico_eq_empty (by omega), bigSep_empty]; rfl

theorem waits_ok {W W' : Waits sig (HIx 1)} {sm : SemLoc sig} (h : ∀ p ∈ W', p ∈ W ∨ p.2 = none) :
    ∀ p ∈ insert (sm, (none : HIx 1)) W', p ∈ W ∨ p.2 = none := by
  intro p hp
  rcases Finset.mem_insert.mp hp with rfl | hp
  · exact .inr rfl
  · exact h p hp

section HinM
variable (d : Dev nD) (L : grid0.Coords) (II : Buf (Elt F) ((s0).view.loc (thr d L)))
theorem hinM (hII : ∀ i, (II i).toNat < 100000) (off : Fin 2 → ℕ) (inb) :
    ∀ x, ((rowM off inb).view.read (Elt F) II x).toNat < 100000 := by
  intro x
  rw [show (rowM off inb).view.read (Elt F) II x = II ((rowM off inb).view.emb x) from (View.read_apply _ _).trans (cast_eq _ _)]
  exact hII _
end HinM

end Cert.Proof.KI

end
-- ==== Proof.KIPay.lean ====
/-
  Reading a 128-lane row buffer after a trip of the row loop: the trip's eight stores tile one row by sixteen-lane
  pieces, each piece the lanes it loaded plus the matching lanes of a position row, so the row reads the old row plus
  the position row and every other row is unchanged; and what a sixteen-lane load reads.
-/
import proofs.«205233_g80668075753725_cont_9to1c4b_826_11_alg».proof.Proof.KIVal
import Idealize.ShloMosaic.Lib.WritesUnit
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S200x4096 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S4096x200x128 EltTy.f32)
local notation "s0" => (Memref.whole Cert.KernelIdeal.cc0_scratch0 : Memref Cert.KernelIdeal.sig Kind.scVector Space.vmem Cert.KernelIdeal.S200x128 EltTy.i32)
local notation "s1" => (Memref.whole Cert.KernelIdeal.cc0_scratch1 : Memref Cert.KernelIdeal.sig Kind.scVector Space.vmem Cert.KernelIdeal.S200x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable [FloatOps F]

section Pure

variable {sig' : RefSig} {κ : Kind} {sp : Space}

/-- The newest store first: a store of the sixteen lanes `[c, c + 16)` of row `j` is read at its own elements, lane by
    lane, and elsewhere the earlier stores are read. -/
theorem read_cons_lanes (v : View sig' κ sp S128x128 .f32) (f : v.ty.Contents (Elt F))
    {off : Fin 2 → ℕ} (inb : ∀ a, off a + S1x16.size a ≤ S128x128.size a)
    (w : (Rect.unit (s := S128x128) off S1x16.size inb).shape.Idx → Elt F .f32) (L : List (View.Piece (Elt F) S128x128 .f32)) (y : S128x128.Idx)
    {j c : ℕ} (heq : off = ![j, c]) :
    v.read (Elt F) (v.writes (Elt F) f ((⟨Rect.unit (s := S128x128) off S1x16.size inb, w⟩ : View.Piece (Elt F) S128x128 .f32) :: L)) y
      = if h : (y 0).val = j ∧ c ≤ (y 1).val ∧ (y 1).val < c + 16 then w (ValueIdx.ix2 (0 : Fin 1) (⟨(y 1).val - c, by omega⟩ : Fin 16))
        else v.read (Elt F) (v.writes (Elt F) f L) y := by
  by_cases h : (y 0).val = j ∧ c ≤ (y 1).val ∧ (y 1).val < c + 16
  · rw [dif_pos h]
    refine View.read_writes_cons_unit_of_mem v f inb w L y _ heq ?_
    intro a
    fin_cases a
    · simp [ValueIdx.ix2]; omega
    · simp [ValueIdx.ix2]; omega
  · rw [dif_neg h]
    by_cases h0 : (y 0).val = j
    · refine View.read_writes_cons_unit_of_not_mem v f inb w L y heq 1 ?_
      simp; omega
    · refine View.read_writes_cons_unit_of_not_mem v f inb w L y heq 0 ?_
      simp; omega

/-- After eight stores that tile row `j` by sixteen-lane pieces, the pieces being lanes of one function `G` of the lane,
    row `j` reads `G` and every other row is as before. -/
theorem read_row8 (v : View sig' κ sp S128x128 .f32) (f : v.ty.Contents (Elt F)) (j : ℕ)
    {o0 o1 o2 o3 o4 o5 o6 o7 : Fin 2 → ℕ}
    (i0 : ∀ a, o0 a + S1x16.size a ≤ S128x128.size a) (w0 : (Rect.unit (s := S128x128) o0 S1x16.size i0).shape.Idx → Elt F .f32) (e0 : o0 = ![j, 0])
    (i1 : ∀ a, o1 a + S1x16.size a ≤ S128x128.size a) (w1 : (Rect.unit (s := S128x128) o1 S1x16.size i1).shape.Idx → Elt F .f32) (e1 : o1 = ![j, 16])
    (i2 : ∀ a, o2 a + S1x16.size a ≤ S128x128.size a) (w2 : (Rect.unit (s := S128x128) o2 S1x16.size i2).shape.Idx → Elt F .f32) (e2 : o2 = ![j, 32])
    (i3 : ∀ a, o3 a + S1x16.size a ≤ S128x128.size a) (w3 : (Rect.unit (s := S128x128) o3 S1x16.size i3).shape.Idx → Elt F .f32) (e3 : o3 = ![j, 48])
    (i4 : ∀ a, o4 a + S1x16.size a ≤ S128x128.size a) (w4 : (Rect.unit (s := S128x128) o4 S1x16.size i4).shape.Idx → Elt F .f32) (e4 : o4 = ![j, 64])
    (i5 : ∀ a, o5 a + S1x16.size a ≤ S128x128.size a) (w5 : (Rect.unit (s := S128x128) o5 S1x16.size i5).shape.Idx → Elt F .f32) (e5 : o5 = ![j, 80])
    (i6 : ∀ a, o6 a + S1x16.size a ≤ S128x128.size a) (w6 : (Rect.unit (s := S128x128) o6 S1x16.size i6).shape.Idx → Elt F .f32) (e6 : o6 = ![j, 96])
    (i7 : ∀ a, o7 a + S1x16.size a ≤ S128x128.size a) (w7 : (Rect.unit (s := S128x128) o7 S1x16.size i7).shape.Idx → Elt F .f32) (e7 : o7 = ![j, 112])
    (G : Fin 128 → Elt F .f32)
    (g0 : ∀ x : Fin 16, w0 (ValueIdx.ix2 (0 : Fin 1) x) = G ⟨x.val, by omega⟩)
    (g1 : ∀ x : Fin 16, w1 (ValueIdx.ix2 (0 : Fin 1) x) = G ⟨16 + x.val, by omega⟩)
    (g2 : ∀ x : Fin 16, w2 (ValueIdx.ix2 (0 : Fin 1) x) = G ⟨32 + x.val, by omega⟩)
    (g3 : ∀ x : Fin 16, w3 (ValueIdx.ix2 (0 : Fin 1) x) = G ⟨48 + x.val, by omega⟩)
    (g4 : ∀ x : Fin 16, w4 (ValueIdx.ix2 (0 : Fin 1) x) = G ⟨64 + x.val, by omega⟩)
    (g5 : ∀ x : Fin 16, w5 (ValueIdx.ix2 (0 : Fin 1) x) = G ⟨80 + x.val, by omega⟩)
    (g6 : ∀ x : Fin 16, w6 (ValueIdx.ix2 (0 : Fin 1) x) = G ⟨96 + x.val, by omega⟩)
    (g7 : ∀ x : Fin 16, w7 (ValueIdx.ix2 (0 : Fin 1) x) = G ⟨112 + x.val, by omega⟩)
    (y : S128x128.Idx) :
    v.read (Elt F) (v.writes (Elt F) f [(⟨Rect.unit (s := S128x128) o7 S1x16.size i7, w7⟩ : View.Piece (Elt F) S128x128 .f32),
      (⟨Rect.unit (s := S128x128) o6 S1x16.size i6, w6⟩ : View.Piece (Elt F) S128x128 .f32),
      (⟨Rect.unit (s := S128x128) o5 S1x16.size i5, w5⟩ : View.Piece (Elt F) S128x128 .f32),
      (⟨Rect.unit (s := S128x128) o4 S1x16.size i4, w4⟩ : View.Piece (Elt F) S128x128 .f32),
      (⟨Rect.unit (s := S128x128) o3 S1x16.size i3, w3⟩ : View.Piece (Elt F) S128x128 .f32),
      (⟨Rect.unit (s := S128x128) o2 S1x16.size i2, w2⟩ : View.Piece (Elt F) S128x128 .f32),
      (⟨Rect.unit (s := S128x128) o1 S1x16.size i1, w1⟩ : View.Piece (Elt F) S128x128 .f32),
      (⟨Rect.unit (s := S128x128) o0 S1x16.size i0, w0⟩ : View.Piece (Elt F) S128x128 .f32)]) y
      = if (y 0).val = j then G (y 1) else v.read (Elt F) f y := by
  rw [read_cons_lanes v f i7 w7 _ y e7, read_cons_lanes v f i6 w6 _ y e6, read_cons_lanes v f i5 w5 _ y e5, read_cons_lanes v f i4 w4 _ y e4,
    read_cons_lanes v f i3 w3 _ y e3, read_cons_lanes v f i2 w2 _ y e2, read_cons_lanes v f i1 w1 _ y e1, read_cons_lanes v f i0 w0 _ y e0, View.writes_nil]
  have hy : (y 1).val < 128 := (y 1).isLt
  by_cases hr : (y 0).val = j
  · rw [if_pos hr]
    split_ifs with h7 h6 h5 h4 h3 h2 h1 h0
    · rw [g7]; congr 1; apply Fin.ext; simp; omega
    · rw [g6]; congr 1; apply Fin.ext; simp; omega
    · rw [g5]; congr 1; apply Fin.ext; simp; omega
    · rw [g4]; congr 1; apply Fin.ext; simp; omega
    · rw [g3]; congr 1; apply Fin.ext; simp; omega
    · rw [g2]; congr 1; apply Fin.ext; simp; omega
    · rw [g1]; congr 1; apply Fin.ext; simp; omega
    · rw [g0]; congr 1
    · exfalso; omega
  · rw [if_neg hr]
    simp [hr]

/-- What a sixteen-lane load at row `j`, lanes `[c, c + 16)` of a buffer of 128-lane rows reads at its lane `x`. -/
theorem readAt_lanes {R : ℕ} {e : EltTy} (v : View sig' κ sp (⟨2, ![R, 128]⟩ : Shape) e) (f : v.ty.Contents (Elt F))
    {off : Fin 2 → ℕ} (inb : ∀ a, off a + S1x16.size a ≤ (⟨2, ![R, 128]⟩ : Shape).size a) {j c : ℕ} (hj : j < R) (eo : off = ![j, c])
    (x : Fin 16) (l : Fin 128) (hl : l.val = c + x.val) :
    View.readAt (Elt F) v (Rect.unit (s := (⟨2, ![R, 128]⟩ : Shape)) off S1x16.size inb).toLoadRect f (ValueIdx.ix2 (0 : Fin 1) x)
      = v.read (Elt F) f (ValueIdx.ix2 (⟨j, hj⟩ : Fin R) l) := by
  rw [View.readAt_apply]
  congr 1
  subst eo
  funext a
  apply Fin.ext
  fin_cases a
  · simp [ValueIdx.ix2]
  · simp [ValueIdx.ix2]; omega

/-- One lane of a store's payload: the loaded lane plus the position lane. -/
theorem pay_lane (ld : Vec F S1x16 .f32) (pf : FVec F S16 .f32) (x : Fin 16) :
    shapeCast S1x16 (addf (shapeCast S16 ld shapeCasts_S1x16_S16) pf) shapeCasts_S16_S1x16 (ValueIdx.ix2 (0 : Fin 1) x)
      = FloatOps.addf (ld (ValueIdx.ix2 (0 : Fin 1) x)) (pf (ValueIdx.ix1 x)) := by
  rw [ValueIdx.shapeCast_a_1a_apply]
  show FloatOps.addf (shapeCast S16 ld shapeCasts_S1x16_S16 (ValueIdx.ix1 x)) _ = _
  rw [ValueIdx.shapeCast_1a_a_apply]

/-- A position lane read through the cast to sixteen lanes. -/
theorem cast_lane (pv : Vec F S1x16 .f32) (x : Fin 16) :
    shapeCast S16 pv shapeCasts_S1x16_S16 (ValueIdx.ix1 x) = pv (ValueIdx.ix2 (0 : Fin 1) x) :=
  ValueIdx.shapeCast_1a_a_apply _ _ _

/-- Adding the position row to row `j` of a buffer whose first `j` rows have it added leaves the first `j + 1` rows with
    it added. -/
theorem RowUpd_succ (g : S128x128.Idx → F .f32) (p : Fin 128 → F .f32) (j : ℕ) (hj : j < 128) (y : S128x128.Idx) :
    (if (y 0).val = j then FloatOps.addf (RowUpd g p j (ValueIdx.ix2 (⟨j, hj⟩ : Fin 128) (y 1))) (p (y 1)) else RowUpd g p j y)
      = RowUpd g p (j + 1) y := by
  by_cases hr : (y 0).val = j
  · have ey : ValueIdx.ix2 (⟨j, hj⟩ : Fin 128) (y 1) = y :=
      (congrArg (fun a : Fin 128 => ValueIdx.ix2 a (y 1)) (Fin.ext hr.symm : (⟨j, hj⟩ : Fin 128) = y 0)).trans
        (ValueIdx.eq_ix2 (n0 := 128) (n1 := 128) y).symm
    rw [if_pos hr]
    refine (congrArg (fun z => FloatOps.addf (RowUpd g p j z) (p (y 1))) ey).trans ?_
    show FloatOps.addf (RowUpd g p j y) (p (y 1)) = RowUpd g p (j + 1) y
    unfold RowUpd
    rw [if_neg (by omega), if_pos (by omega)]
  · rw [if_neg hr]
    unfold RowUpd
    by_cases hlt : (y 0).val < j
    · rw [if_pos hlt, if_pos (by omega)]
    · rw [if_neg hlt, if_neg (by omega)]

end Pure

end Cert.Proof.KI

end
-- ==== Proof.KILand.lean ====
/-
  Where the transfers land: the indexed gather for position `n` leaves in a buffer, row by row, the table rows that the
  words of row `n` of the index scratch name; the copy of a finished buffer to a window of the result leaves, at every
  element of the window, the buffer's element of the same batch row and lane.
-/
import proofs.«205233_g80668075753725_cont_9to1c4b_826_11_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S200x4096 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S4096x200x128 EltTy.f32)
local notation "s0" => (Memref.whole Cert.KernelIdeal.cc0_scratch0 : Memref Cert.KernelIdeal.sig Kind.scVector Space.vmem Cert.KernelIdeal.S200x128 EltTy.i32)
local notation "s1" => (Memref.whole Cert.KernelIdeal.cc0_scratch1 : Memref Cert.KernelIdeal.sig Kind.scVector Space.vmem Cert.KernelIdeal.S200x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable [FloatOps F]

section

variable (d : Dev nD) (L : grid0.Coords)

/-- The whole table, as the program slices it for the gather, reads as the table. -/
theorem read_tSl (ft : Buf (Elt F) ((tV).view.loc (thr d L))) (z : S100000x128.Idx) :
    View.read (Elt F) ((tV).slice (Rect.unit (s := S100000x128) ![0, 0] S100000x128.size inb_S100000x128_S100000x128_0_0) (fun _ => rfl)).view ft z = ft z := by
  show ft ((Rect.unit (s := S100000x128) ![0, 0] S100000x128.size inb_S100000x128_S100000x128_0_0).emb z) = ft z
  congr 1
  funext a
  apply Fin.ext
  fin_cases a <;> simp

/-- Word `q` of row `n` of the index scratch, read through the row as the program slices and squeezes it. -/
theorem read_rowM (II : Buf (Elt F) ((s0).view.loc (thr d L))) {off : Fin 2 → ℕ} {inb : ∀ a, off a + S1x128.size a ≤ S200x128.size a} {n : ℕ}
    (h : off = ![n, 0]) (hn : n < 200) (q : Fin S128.numel) (hq : q.val < 128) :
    View.read (Elt F) (rowM off inb).view II (S128.rowMajor.symm q) = II (ValueIdx.ix2 (⟨n, hn⟩ : Fin 200) (⟨q.val, hq⟩ : Fin 128)) := by
  subst h
  show II ((Rect.unit (s := S200x128) ![n, 0] S1x128.size inb).emb (Shape.reshapeEquiv squeezes_S1x128_S128.numel_eq (S128.rowMajor.symm q))) = _
  rw [Shape.reshapeEquiv_eq_of_rowMajor (y := ValueIdx.ix2 (0 : Fin 1) (⟨q.val, hq⟩ : Fin 128)) squeezes_S1x128_S128.numel_eq
    (by rw [Equiv.apply_symm_apply, Shape.rowMajor_val_two]; simp)]
  congr 1
  funext a
  apply Fin.ext
  fin_cases a <;> simp [ValueIdx.ix2]

/-- What the gather's payload is at an element of the buffer: the table row the index scratch names for the element's
    row, at the element's lane. -/
theorem gath_val {off : Fin 2 → ℕ} {inb : ∀ a, off a + S1x128.size a ≤ S200x128.size a} {n : ℕ} (h : off = ![n, 0]) (hn : n < 200)
    (II : Buf (Elt F) ((s0).view.loc (thr d L))) (ft : Buf (Elt F) ((tV).view.loc (thr d L)))
    (hnum : S128.numel = S128x128.size gathers_S100000x128_S128x128.axis')
    (hin : ∀ x, (View.read (Elt F) (rowM off inb).view II x).toNat < S100000x128.size gathers_S100000x128_S128x128.axis)
    (y : S128x128.Idx) :
    SparseCore.gatherPayload gathers_S100000x128_S128x128
        (View.read (Elt F) ((tV).slice (Rect.unit (s := S100000x128) ![0, 0] S100000x128.size inb_S100000x128_S100000x128_0_0) (fun _ => rfl)).view ft)
        (SparseCore.rows (View.read (Elt F) (rowM off inb).view II) hnum hin) y
      = Gath d L ft II n y := by
  unfold SparseCore.gatherPayload
  rw [read_tSl]
  unfold Gath
  have e200 : (⟨n % 200, Nat.mod_lt _ (by decide)⟩ : Fin 200) = ⟨n, hn⟩ := Fin.ext (Nat.mod_eq_of_lt hn)
  rw [e200]
  have hword := read_rowM d L II (inb := inb) h hn ((y gathers_S100000x128_S128x128.axis').cast hnum.symm) (y 0).isLt
  have hlt := hin (S128.rowMajor.symm ((y gathers_S100000x128_S128x128.axis').cast hnum.symm))
  rw [hword] at hlt
  congr 1
  funext b
  apply Fin.ext
  fin_cases b
  · show (gathers_S100000x128_S128x128.idx _ y gathers_S100000x128_S128x128.axis).val = _
    rw [Shape.Gathers.idx_axis]
    show (View.read (Elt F) (rowM off inb).view II (S128.rowMajor.symm ((y gathers_S100000x128_S128x128.axis').cast hnum.symm))).toNat = _
    rw [hword]
    exact (Cert.Spec.rowOf_val_of_lt hlt).symm
  · exact Shape.Gathers.idx_of_ne gathers_S100000x128_S128x128 _ y 1 (by decide)

/-- The gather for position `n` lands in buffer `b0`. -/
theorem gath_b0 {off : Fin 2 → ℕ} {inb : ∀ a, off a + S1x128.size a ≤ S200x128.size a} {n : ℕ} (h : off = ![n, 0]) (hn : n < 200)
    (R : Buf (Elt F) ((b0).view.loc (thr d L))) (II : Buf (Elt F) ((s0).view.loc (thr d L))) (ft : Buf (Elt F) ((tV).view.loc (thr d L)))
    (hnum : S128.numel = S128x128.size gathers_S100000x128_S128x128.axis')
    (hin : ∀ x, (View.read (Elt F) (rowM off inb).view II x).toNat < S100000x128.size gathers_S100000x128_S128x128.axis) :
    ∀ y, ((b0).view.writes (Elt F) R [⟨Rect.whole _, SparseCore.gatherPayload gathers_S100000x128_S128x128
        (View.read (Elt F) ((tV).slice (Rect.unit (s := S100000x128) ![0, 0] S100000x128.size inb_S100000x128_S100000x128_0_0) (fun _ => rfl)).view ft)
        (SparseCore.rows (View.read (Elt F) (rowM off inb).view II) hnum hin)⟩]) y = Gath d L ft II n y := fun y =>
  (congrFun (Memref.write_access_whole_univ (Elt F) cc0_scratch2 R _) y).trans (gath_val d L h hn II ft hnum hin y)

/-- The gather for position `n` lands in buffer `b1`. -/
theorem gath_b1 {off : Fin 2 → ℕ} {inb : ∀ a, off a + S1x128.size a ≤ S200x128.size a} {n : ℕ} (h : off = ![n, 0]) (hn : n < 200)
    (R : Buf (Elt F) ((b1).view.loc (thr d L))) (II : Buf (Elt F) ((s0).view.loc (thr d L))) (ft : Buf (Elt F) ((tV).view.loc (thr d L)))
    (hnum : S128.numel = S128x128.size gathers_S100000x128_S128x128.axis')
    (hin : ∀ x, (View.read (Elt F) (rowM off inb).view II x).toNat < S100000x128.size gathers_S100000x128_S128x128.axis) :
    ∀ y, ((b1).view.writes (Elt F) R [⟨Rect.whole _, SparseCore.gatherPayload gathers_S100000x128_S128x128
        (View.read (Elt F) ((tV).slice (Rect.unit (s := S100000x128) ![0, 0] S100000x128.size inb_S100000x128_S100000x128_0_0) (fun _ => rfl)).view ft)
        (SparseCore.rows (View.read (Elt F) (rowM off inb).view II) hnum hin)⟩]) y = Gath d L ft II n y := fun y =>
  (congrFun (Memref.write_access_whole_univ (Elt F) cc0_scratch3 R _) y).trans (gath_val d L h hn II ft hnum hin y)

/-- The gather for position `n` lands in buffer `b2`. -/
theorem gath_b2 {off : Fin 2 → ℕ} {inb : ∀ a, off a + S1x128.size a ≤ S200x128.size a} {n : ℕ} (h : off = ![n, 0]) (hn : n < 200)
    (R : Buf (Elt F) ((b2).view.loc (thr d L))) (II : Buf (Elt F) ((s0).view.loc (thr d L))) (ft : Buf (Elt F) ((tV).view.loc (thr d L)))
    (hnum : S128.numel = S128x128.size gathers_S100000x128_S128x128.axis')
    (hin : ∀ x, (View.read (Elt F) (rowM off inb).view II x).toNat < S100000x128.size gathers_S100000x128_S128x128.axis) :
    ∀ y, ((b2).view.writes (Elt F) R [⟨Rect.whole _, SparseCore.gatherPayload gathers_S100000x128_S128x128
        (View.read (Elt F) ((tV).slice (Rect.unit (s := S100000x128) ![0, 0] S100000x128.size inb_S100000x128_S100000x128_0_0) (fun _ => rfl)).view ft)
        (SparseCore.rows (View.read (Elt F) (rowM off inb).view II) hnum hin)⟩]) y = Gath d L ft II n y := fun y =>
  (congrFun (Memref.write_access_whole_univ (Elt F) cc0_scratch4 R _) y).trans (gath_val d L h hn II ft hnum hin y)

/-- The gather for position `n` lands in buffer `b3`. -/
theorem gath_b3 {off : Fin 2 → ℕ} {inb : ∀ a, off a + S1x128.size a ≤ S200x128.size a} {n : ℕ} (h : off = ![n, 0]) (hn : n < 200)
    (R : Buf (Elt F) ((b3).view.loc (thr d L))) (II : Buf (Elt F) ((s0).view.loc (thr d L))) (ft : Buf (Elt F) ((tV).view.loc (thr d L)))
    (hnum : S128.numel = S128x128.size gathers_S100000x128_S128x128.axis')
    (hin : ∀ x, (View.read (Elt F) (rowM off inb).view II x).toNat < S100000x128.size gathers_S100000x128_S128x128.axis) :
    ∀ y, ((b3).view.writes (Elt F) R [⟨Rect.whole _, SparseCore.gatherPayload gathers_S100000x128_S128x128
        (View.read (Elt F) ((tV).slice (Rect.unit (s := S100000x128) ![0, 0] S100000x128.size inb_S100000x128_S100000x128_0_0) (fun _ => rfl)).view ft)
        (SparseCore.rows (View.read (Elt F) (rowM off inb).view II) hnum hin)⟩]) y = Gath d L ft II n y := fun y =>
  (congrFun (Memref.write_access_whole_univ (Elt F) cc0_scratch5 R _) y).trans (gath_val d L h hn II ft hnum hin y)

/-- An unmasked write of a 128 × 128 payload through a window of the result, as the program slices and squeezes it,
    leaves at every element of the window the payload's element of the same batch row and lane. -/
theorem win_write {off : Fin 3 → ℕ} {inb : ∀ a, off a + S128x1x128.size a ≤ S4096x200x128.size a} {B n : ℕ} (h : off = ![B, n, 0])
    (fo : Buf (Elt F) ((oV).view.loc (thr d L))) (W : S128x128.Idx → Elt F .f32) (i : S4096x200x128.Idx) (hi : i ∈ winSetN B n) :
    ((winM off inb).view.writes (Elt F) fo [⟨Rect.whole S128x128, W⟩]) i
      = W (ValueIdx.ix2 (⟨(i 0).val - B, by have := mem_winSetN.mp hi; omega⟩ : Fin 128) (i 2)) := by
  obtain ⟨h0, h1, h2⟩ := mem_winSetN.mp hi
  subst h
  have hy : ((winM ![B, n, 0] inb).view.slice (Rect.whole S128x128)).emb
      (ValueIdx.ix2 (⟨(i 0).val - B, by omega⟩ : Fin 128) (i 2)) = i := by
    show (Rect.unit (s := S4096x200x128) ![B, n, 0] S128x1x128.size inb).emb (Shape.reshapeEquiv squeezes_S128x1x128_S128x128.numel_eq
      ((Rect.whole S128x128).emb (ValueIdx.ix2 (⟨(i 0).val - B, by omega⟩ : Fin 128) (i 2)))) = i
    rw [Rect.emb_whole_apply, Shape.reshapeEquiv_eq_of_rowMajor (y := ValueIdx.ix3 (⟨(i 0).val - B, by omega⟩ : Fin 128) (0 : Fin 1) (i 2))
      squeezes_S128x1x128_S128x128.numel_eq (by rw [Shape.rowMajor_val_three, Shape.rowMajor_val_two]; simp)]
    funext a
    apply Fin.ext
    fin_cases a
    · simp [ValueIdx.ix3]; omega
    · simp [ValueIdx.ix3]; omega
    · simp [ValueIdx.ix3]
  have hw := View.write_emb_of_mem (v := (winM ![B, n, 0] inb).view.slice (Rect.whole S128x128)) (Val := Elt F) fo W
    (M := Finset.univ) (x := ValueIdx.ix2 (⟨(i 0).val - B, by omega⟩ : Fin 128) (i 2)) (Finset.mem_univ _)
  rw [hy] at hw
  exact hw

/-- The copy of buffer `b0` out to a window of the result. -/
theorem store_b0 {off : Fin 3 → ℕ} {inb : ∀ a, off a + S128x1x128.size a ≤ S4096x200x128.size a} {B n : ℕ} (h : off = ![B, n, 0])
    (fo : Buf (Elt F) ((oV).view.loc (thr d L))) (R : Buf (Elt F) ((b0).view.loc (thr d L))) (i : S4096x200x128.Idx) (hi : i ∈ winSetN B n) :
    ((winM off inb).view.writes (Elt F) fo [⟨Rect.whole S128x128, ReadAs.same.apply (View.read (Elt F) (b0).view R)⟩]) i
      = R (ValueIdx.ix2 (⟨(i 0).val - B, by have := mem_winSetN.mp hi; omega⟩ : Fin 128) (i 2)) :=
  win_write d L h fo (View.read (Elt F) (b0).view R) i hi

/-- The copy of buffer `b1` out to a window of the result. -/
theorem store_b1 {off : Fin 3 → ℕ} {inb : ∀ a, off a + S128x1x128.size a ≤ S4096x200x128.size a} {B n : ℕ} (h : off = ![B, n, 0])
    (fo : Buf (Elt F) ((oV).view.loc (thr d L))) (R : Buf (Elt F) ((b1).view.loc (thr d L))) (i : S4096x200x128.Idx) (hi : i ∈ winSetN B n) :
    ((winM off inb).view.writes (Elt F) fo [⟨Rect.whole S128x128, ReadAs.same.apply (View.read (Elt F) (b1).view R)⟩]) i
      = R (ValueIdx.ix2 (⟨(i 0).val - B, by have := mem_winSetN.mp hi; omega⟩ : Fin 128) (i 2)) :=
  win_write d L h fo (View.read (Elt F) (b1).view R) i hi

/-- The copy of buffer `b2` out to a window of the result. -/
theorem store_b2 {off : Fin 3 → ℕ} {inb : ∀ a, off a + S128x1x128.size a ≤ S4096x200x128.size a} {B n : ℕ} (h : off = ![B, n, 0])
    (fo : Buf (Elt F) ((oV).view.loc (thr d L))) (R : Buf (Elt F) ((b2).view.loc (thr d L))) (i : S4096x200x128.Idx) (hi : i ∈ winSetN B n) :
    ((winM off inb).view.writes (Elt F) fo [⟨Rect.whole S128x128, ReadAs.same.apply (View.read (Elt F) (b2).view R)⟩]) i
      = R (ValueIdx.ix2 (⟨(i 0).val - B, by have := mem_winSetN.mp hi; omega⟩ : Fin 128) (i 2)) :=
  win_write d L h fo (View.read (Elt F) (b2).view R) i hi

/-- The copy of buffer `b3` out to a window of the result. -/
theorem store_b3 {off : Fin 3 → ℕ} {inb : ∀ a, off a + S128x1x128.size a ≤ S4096x200x128.size a} {B n : ℕ} (h : off = ![B, n, 0])
    (fo : Buf (Elt F) ((oV).view.loc (thr d L))) (R : Buf (Elt F) ((b3).view.loc (thr d L))) (i : S4096x200x128.Idx) (hi : i ∈ winSetN B n) :
    ((winM off inb).view.writes (Elt F) fo [⟨Rect.whole S128x128, ReadAs.same.apply (View.read (Elt F) (b3).view R)⟩]) i
      = R (ValueIdx.ix2 (⟨(i 0).val - B, by have := mem_winSetN.mp hi; omega⟩ : Fin 128) (i 2)) :=
  win_write d L h fo (View.read (Elt F) (b3).view R) i hi

end

end Cert.Proof.KI

end
-- ==== Proof.KIConv.lean ====
/-
  A transfer in flight, as it is issued, hands back at its wait exactly what the ring's state says it will: a gather the
  buffer at the table rows the index words name, a copy-out its window of the result at the lookup (the finished buffer
  is, window by window, the result).
-/
import proofs.«205233_g80668075753725_cont_9to1c4b_826_11_alg».proof.Proof.KIInv
import proofs.«205233_g80668075753725_cont_9to1c4b_826_11_alg».proof.Proof.KILand

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S200x4096 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S4096x200x128 EltTy.f32)
local notation "s0" => (Memref.whole Cert.KernelIdeal.cc0_scratch0 : Memref Cert.KernelIdeal.sig Kind.scVector Space.vmem Cert.KernelIdeal.S200x128 EltTy.i32)
local notation "s1" => (Memref.whole Cert.KernelIdeal.cc0_scratch1 : Memref Cert.KernelIdeal.sig Kind.scVector Space.vmem Cert.KernelIdeal.S200x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable [FloatOps F]

/-! ## A transfer's flight as the executor issues it is the flight the invariant carries -/

section Conv

variable (d : Dev nD) (L : grid0.Coords) (qt : PosShare TreeShare)
  (ft : Buf (Elt F) ((tV).view.loc (thr d L))) (II : Buf (Elt F) ((s0).view.loc (thr d L))) (PP : Buf (Elt F) ((s1).view.loc (thr d L)))
  (fo go : Buf (Elt F) ((oV).view.loc (thr d L)))

/-- The result, window by window, is the finished buffers. -/
def GoOK : Prop := ∀ s, s < 200 → ∀ i ∈ winSetN (baseRow L) s, go i = Res d L ft II PP s (ValueIdx.ix2 (⟨((i 0).val - baseRow L) % 128, Nat.mod_lt _ (by decide)⟩ : Fin 128) (i 2))

theorem gathP0 {off : Fin 2 → ℕ} {inb} {s : ℕ} (h : off = ![s, 0]) (hs : s < 200) (R : Buf (Elt F) ((b0).view.loc (thr d L)))
    {hnum : S128.numel = S128x128.size (gathers_S100000x128_S128x128).axis'}
    {hin : ∀ x, ((rowM off inb).view.read (Elt F) II x).toNat < S100000x128.size (gathers_S100000x128_S128x128).axis}
    (w : S128x128.Idx → F .f32) (hw : w = SparseCore.gatherPayload gathers_S100000x128_S128x128 (View.read (Elt F) (tSl).view ft) (SparseCore.rows (View.read (Elt F) (rowM off inb).view II) hnum hin)) :
    ((b0).view.loc (thr d L) ↦[(b0).view.set]{fullShare} ((b0).view.writes (Elt F) R [⟨Rect.whole _, w⟩]) : sProp 𝕄)
      ⊢ Bf0 d L (Gath d L ft II s) := by
  subst hw
  exact Entails.of_eq (pointsTo_congr fun y _ => gath_b0 d L h hs R II ft hnum hin y)

theorem fg0 {off : Fin 2 → ℕ} {inb} {s : ℕ} (h : off = ![s, 0]) (hs : s < 200) (R : Buf (Elt F) ((b0).view.loc (thr d L)))
    {hnum : S128.numel = S128x128.size (gathers_S100000x128_S128x128).axis'}
    {hin : ∀ x, ((rowM off inb).view.read (Elt F) II x).toNat < S100000x128.size (gathers_S100000x128_S128x128).axis}
    (w : S128x128.Idx → F .f32) (hw : w = SparseCore.gatherPayload gathers_S100000x128_S128x128 (View.read (Elt F) (tSl).view ft) (SparseCore.rows (View.read (Elt F) (rowM off inb).view II) hnum hin)) :
    Transfers.Flight EC (thr d L) (SemLoc.dma cc0_scratch6.sem) (none : HIx 1) 524288
      iprop((((b0).view.loc (thr d L) ↦[(b0).view.set]{fullShare} ((b0).view.writes (Elt F) R [⟨Rect.whole _, w⟩]))
            ∗ (rowM off inb).view.loc (thr d L) ↦[(rowM off inb).view.set]{fullShare} II)
          ∗ (tSl).view.loc (thr d L) ↦[(tSl).view.set]{Transfers.shareTok qt 4 0} ft)
      ⊢ FG0 d L qt ft II s := by
  refine Transfers.Flight_mono EC (thr d L) ?_
  iintro ⟨⟨Hb, Hr⟩, Ht⟩
  isplitl [Hb Hr]
  · isplitl [Hb]
    · iapply (gathP0 d L ft II h hs R w hw) $$ Hb
    · iapply (Entails.of_eq (pts_rowM d L h fullShare II)) $$ Hr
  · iexact Ht

theorem windone0 {off : Fin 3 → ℕ} {inb} {s : ℕ} (h : off = ![baseRow L, s, 0]) (hs : s < 200) (hgo : GoOK d L ft II PP go) (n128 : ℕ) (hn : n128 = 128)
    (w : S128x128.Idx → F .f32) (hw : w = ReadAs.same.apply (View.read (Elt F) (b0).view (RowUpd (Gath d L ft II s) (posRow d L PP s) n128))) :
    ((winM off inb).view.loc (thr d L) ↦[(winM off inb).view.set]{fullShare} ((winM off inb).view.writes (Elt F) fo [⟨Rect.whole S128x128, w⟩]) : sProp 𝕄)
      ⊢ WinP d L go s := by
  subst hw hn
  rw [pts_winM d L h]
  refine Entails.of_eq (pointsTo_congr fun i hi => ?_)
  rw [store_b0 d L h fo _ i hi]
  refine Eq.trans ?_ (hgo s hs i hi).symm
  unfold Res
  congr 2
  exact Fin.ext (Nat.mod_eq_of_lt (by have := mem_winSetN.mp hi; show (i 0).val - baseRow L < 128; omega)).symm

theorem fs0 {off : Fin 3 → ℕ} {inb} {s : ℕ} (h : off = ![baseRow L, s, 0]) (hs : s < 200) (hgo : GoOK d L ft II PP go) (n128 : ℕ) (hn : n128 = 128)
    (w : S128x128.Idx → F .f32) (hw : w = ReadAs.same.apply (View.read (Elt F) (b0).view (RowUpd (Gath d L ft II s) (posRow d L PP s) n128))) :
    Transfers.Flight EC (thr d L) (SemLoc.dma cc0_scratch10.sem) (none : HIx 1) 524288
      iprop(((winM off inb).view.loc (thr d L) ↦[(winM off inb).view.set]{fullShare} ((winM off inb).view.writes (Elt F) fo [⟨Rect.whole S128x128, w⟩]))
          ∗ (b0).view.loc (thr d L) ↦[(b0).view.set]{fullShare} (RowUpd (Gath d L ft II s) (posRow d L PP s) n128))
      ⊢ FS0 d L ft II PP go s := by
  refine Transfers.Flight_mono EC (thr d L) ?_
  subst hn
  iintro ⟨Hw, Hb⟩
  isplitl [Hw]
  · iapply (windone0 d L ft II PP fo go h hs hgo 128 rfl w hw) $$ Hw
  · iexact Hb

theorem gathP1 {off : Fin 2 → ℕ} {inb} {s : ℕ} (h : off = ![s, 0]) (hs : s < 200) (R : Buf (Elt F) ((b1).view.loc (thr d L)))
    {hnum : S128.numel = S128x128.size (gathers_S100000x128_S128x128).axis'}
    {hin : ∀ x, ((rowM off inb).view.read (Elt F) II x).toNat < S100000x128.size (gathers_S100000x128_S128x128).axis}
    (w : S128x128.Idx → F .f32) (hw : w = SparseCore.gatherPayload gathers_S100000x128_S128x128 (View.read (Elt F) (tSl).view ft) (SparseCore.rows (View.read (Elt F) (rowM off inb).view II) hnum hin)) :
    ((b1).view.loc (thr d L) ↦[(b1).view.set]{fullShare} ((b1).view.writes (Elt F) R [⟨Rect.whole _, w⟩]) : sProp 𝕄)
      ⊢ Bf1 d L (Gath d L ft II s) := by
  subst hw
  exact Entails.of_eq (pointsTo_congr fun y _ => gath_b1 d L h hs R II ft hnum hin y)

theorem fg1 {off : Fin 2 → ℕ} {inb} {s : ℕ} (h : off = ![s, 0]) (hs : s < 200) (R : Buf (Elt F) ((b1).view.loc (thr d L)))
    {hnum : S128.numel = S128x128.size (gathers_S100000x128_S128x128).axis'}
    {hin : ∀ x, ((rowM off inb).view.read (Elt F) II x).toNat < S100000x128.size (gathers_S100000x128_S128x128).axis}
    (w : S128x128.Idx → F .f32) (hw : w = SparseCore.gatherPayload gathers_S100000x128_S128x128 (View.read (Elt F) (tSl).view ft) (SparseCore.rows (View.read (Elt F) (rowM off inb).view II) hnum hin)) :
    Transfers.Flight EC (thr d L) (SemLoc.dma cc0_scratch7.sem) (none : HIx 1) 524288
      iprop((((b1).view.loc (thr d L) ↦[(b1).view.set]{fullShare} ((b1).view.writes (Elt F) R [⟨Rect.whole _, w⟩]))
            ∗ (rowM off inb).view.loc (thr d L) ↦[(rowM off inb).view.set]{fullShare} II)
          ∗ (tSl).view.loc (thr d L) ↦[(tSl).view.set]{Transfers.shareTok qt 4 1} ft)
      ⊢ FG1 d L qt ft II s := by
  refine Transfers.Flight_mono EC (thr d L) ?_
  iintro ⟨⟨Hb, Hr⟩, Ht⟩
  isplitl [Hb Hr]
  · isplitl [Hb]
    · iapply (gathP1 d L ft II h hs R w hw) $$ Hb
    · iapply (Entails.of_eq (pts_rowM d L h fullShare II)) $$ Hr
  · iexact Ht

theorem windone1 {off : Fin 3 → ℕ} {inb} {s : ℕ} (h : off = ![baseRow L, s, 0]) (hs : s < 200) (hgo : GoOK d L ft II PP go) (n128 : ℕ) (hn : n128 = 128)
    (w : S128x128.Idx → F .f32) (hw : w = ReadAs.same.apply (View.read (Elt F) (b1).view (RowUpd (Gath d L ft II s) (posRow d L PP s) n128))) :
    ((winM off inb).view.loc (thr d L) ↦[(winM off inb).view.set]{fullShare} ((winM off inb).view.writes (Elt F) fo [⟨Rect.whole S128x128, w⟩]) : sProp 𝕄)
      ⊢ WinP d L go s := by
  subst hw hn
  rw [pts_winM d L h]
  refine Entails.of_eq (pointsTo_congr fun i hi => ?_)
  rw [store_b1 d L h fo _ i hi]
  refine Eq.trans ?_ (hgo s hs i hi).symm
  unfold Res
  congr 2
  exact Fin.ext (Nat.mod_eq_of_lt (by have := mem_winSetN.mp hi; show (i 0).val - baseRow L < 128; omega)).symm

theorem fs1 {off : Fin 3 → ℕ} {inb} {s : ℕ} (h : off = ![baseRow L, s, 0]) (hs : s < 200) (hgo : GoOK d L ft II PP go) (n128 : ℕ) (hn : n128 = 128)
    (w : S128x128.Idx → F .f32) (hw : w = ReadAs.same.apply (View.read (Elt F) (b1).view (RowUpd (Gath d L ft II s) (posRow d L PP s) n128))) :
    Transfers.Flight EC (thr d L) (SemLoc.dma cc0_scratch11.sem) (none : HIx 1) 524288
      iprop(((winM off inb).view.loc (thr d L) ↦[(winM off inb).view.set]{fullShare} ((winM off inb).view.writes (Elt F) fo [⟨Rect.whole S128x128, w⟩]))
          ∗ (b1).view.loc (thr d L) ↦[(b1).view.set]{fullShare} (RowUpd (Gath d L ft II s) (posRow d L PP s) n128))
      ⊢ FS1 d L ft II PP go s := by
  refine Transfers.Flight_mono EC (thr d L) ?_
  subst hn
  iintro ⟨Hw, Hb⟩
  isplitl [Hw]
  · iapply (windone1 d L ft II PP fo go h hs hgo 128 rfl w hw) $$ Hw
  · iexact Hb

theorem gathP2 {off : Fin 2 → ℕ} {inb} {s : ℕ} (h : off = ![s, 0]) (hs : s < 200) (R : Buf (Elt F) ((b2).view.loc (thr d L)))
    {hnum : S128.numel = S128x128.size (gathers_S100000x128_S128x128).axis'}
    {hin : ∀ x, ((rowM off inb).view.read (Elt F) II x).toNat < S100000x128.size (gathers_S100000x128_S128x128).axis}
    (w : S128x128.Idx → F .f32) (hw : w = SparseCore.gatherPayload gathers_S100000x128_S128x128 (View.read (Elt F) (tSl).view ft) (SparseCore.rows (View.read (Elt F) (rowM off inb).view II) hnum hin)) :
    ((b2).view.loc (thr d L) ↦[(b2).view.set]{fullShare} ((b2).view.writes (Elt F) R [⟨Rect.whole _, w⟩]) : sProp 𝕄)
      ⊢ Bf2 d L (Gath d L ft II s) := by
  subst hw
  exact Entails.of_eq (pointsTo_congr fun y _ => gath_b2 d L h hs R II ft hnum hin y)

theorem fg2 {off : Fin 2 → ℕ} {inb} {s : ℕ} (h : off = ![s, 0]) (hs : s < 200) (R : Buf (Elt F) ((b2).view.loc (thr d L)))
    {hnum : S128.numel = S128x128.size (gathers_S100000x128_S128x128).axis'}
    {hin : ∀ x, ((rowM off inb).view.read (Elt F) II x).toNat < S100000x128.size (gathers_S100000x128_S128x128).axis}
    (w : S128x128.Idx → F .f32) (hw : w = SparseCore.gatherPayload gathers_S100000x128_S128x128 (View.read (Elt F) (tSl).view ft) (SparseCore.rows (View.read (Elt F) (rowM off inb).view II) hnum hin)) :
    Transfers.Flight EC (thr d L) (SemLoc.dma cc0_scratch8.sem) (none : HIx 1) 524288
      iprop((((b2).view.loc (thr d L) ↦[(b2).view.set]{fullShare} ((b2).view.writes (Elt F) R [⟨Rect.whole _, w⟩]))
            ∗ (rowM off inb).view.loc (thr d L) ↦[(rowM off inb).view.set]{fullShare} II)
          ∗ (tSl).view.loc (thr d L) ↦[(tSl).view.set]{Transfers.shareTok qt 4 2} ft)
      ⊢ FG2 d L qt ft II s := by
  refine Transfers.Flight_mono EC (thr d L) ?_
  iintro ⟨⟨Hb, Hr⟩, Ht⟩
  isplitl [Hb Hr]
  · isplitl [Hb]
    · iapply (gathP2 d L ft II h hs R w hw) $$ Hb
    · iapply (Entails.of_eq (pts_rowM d L h fullShare II)) $$ Hr
  · iexact Ht

theorem windone2 {off : Fin 3 → ℕ} {inb} {s : ℕ} (h : off = ![baseRow L, s, 0]) (hs : s < 200) (hgo : GoOK d L ft II PP go) (n128 : ℕ) (hn : n128 = 128)
    (w : S128x128.Idx → F .f32) (hw : w = ReadAs.same.apply (View.read (Elt F) (b2).view (RowUpd (Gath d L ft II s) (posRow d L PP s) n128))) :
    ((winM off inb).view.loc (thr d L) ↦[(winM off inb).view.set]{fullShare} ((winM off inb).view.writes (Elt F) fo [⟨Rect.whole S128x128, w⟩]) : sProp 𝕄)
      ⊢ WinP d L go s := by
  subst hw hn
  rw [pts_winM d L h]
  refine Entails.of_eq (pointsTo_congr fun i hi => ?_)
  rw [store_b2 d L h fo _ i hi]
  refine Eq.trans ?_ (hgo s hs i hi).symm
  unfold Res
  congr 2
  exact Fin.ext (Nat.mod_eq_of_lt (by have := mem_winSetN.mp hi; show (i 0).val - baseRow L < 128; omega)).symm

theorem fs2 {off : Fin 3 → ℕ} {inb} {s : ℕ} (h : off = ![baseRow L, s, 0]) (hs : s < 200) (hgo : GoOK d L ft II PP go) (n128 : ℕ) (hn : n128 = 128)
    (w : S128x128.Idx → F .f32) (hw : w = ReadAs.same.apply (View.read (Elt F) (b2).view (RowUpd (Gath d L ft II s) (posRow d L PP s) n128))) :
    Transfers.Flight EC (thr d L) (SemLoc.dma cc0_scratch12.sem) (none : HIx 1) 524288
      iprop(((winM off inb).view.loc (thr d L) ↦[(winM off inb).view.set]{fullShare} ((winM off inb).view.writes (Elt F) fo [⟨Rect.whole S128x128, w⟩]))
          ∗ (b2).view.loc (thr d L) ↦[(b2).view.set]{fullShare} (RowUpd (Gath d L ft II s) (posRow d L PP s) n128))
      ⊢ FS2 d L ft II PP go s := by
  refine Transfers.Flight_mono EC (thr d L) ?_
  subst hn
  iintro ⟨Hw, Hb⟩
  isplitl [Hw]
  · iapply (windone2 d L ft II PP fo go h hs hgo 128 rfl w hw) $$ Hw
  · iexact Hb

theorem gathP3 {off : Fin 2 → ℕ} {inb} {s : ℕ} (h : off = ![s, 0]) (hs : s < 200) (R : Buf (Elt F) ((b3).view.loc (thr d L)))
    {hnum : S128.numel = S128x128.size (gathers_S100000x128_S128x128).axis'}
    {hin : ∀ x, ((rowM off inb).view.read (Elt F) II x).toNat < S100000x128.size (gathers_S100000x128_S128x128).axis}
    (w : S128x128.Idx → F .f32) (hw : w = SparseCore.gatherPayload gathers_S100000x128_S128x128 (View.read (Elt F) (tSl).view ft) (SparseCore.rows (View.read (Elt F) (rowM off inb).view II) hnum hin)) :
    ((b3).view.loc (thr d L) ↦[(b3).view.set]{fullShare} ((b3).view.writes (Elt F) R [⟨Rect.whole _, w⟩]) : sProp 𝕄)
      ⊢ Bf3 d L (Gath d L ft II s) := by
  subst hw
  exact Entails.of_eq (pointsTo_congr fun y _ => gath_b3 d L h hs R II ft hnum hin y)

theorem fg3 {off : Fin 2 → ℕ} {inb} {s : ℕ} (h : off = ![s, 0]) (hs : s < 200) (R : Buf (Elt F) ((b3).view.loc (thr d L)))
    {hnum : S128.numel = S128x128.size (gathers_S100000x128_S128x128).axis'}
    {hin : ∀ x, ((rowM off inb).view.read (Elt F) II x).toNat < S100000x128.size (gathers_S100000x128_S128x128).axis}
    (w : S128x128.Idx → F .f32) (hw : w = SparseCore.gatherPayload gathers_S100000x128_S128x128 (View.read (Elt F) (tSl).view ft) (SparseCore.rows (View.read (Elt F) (rowM off inb).view II) hnum hin)) :
    Transfers.Flight EC (thr d L) (SemLoc.dma cc0_scratch9.sem) (none : HIx 1) 524288
      iprop((((b3).view.loc (thr d L) ↦[(b3).view.set]{fullShare} ((b3).view.writes (Elt F) R [⟨Rect.whole _, w⟩]))
            ∗ (rowM off inb).view.loc (thr d L) ↦[(rowM off inb).view.set]{fullShare} II)
          ∗ (tSl).view.loc (thr d L) ↦[(tSl).view.set]{Transfers.shareTok qt 4 3} ft)
      ⊢ FG3 d L qt ft II s := by
  refine Transfers.Flight_mono EC (thr d L) ?_
  iintro ⟨⟨Hb, Hr⟩, Ht⟩
  isplitl [Hb Hr]
  · isplitl [Hb]
    · iapply (gathP3 d L ft II h hs R w hw) $$ Hb
    · iapply (Entails.of_eq (pts_rowM d L h fullShare II)) $$ Hr
  · iexact Ht

theorem windone3 {off : Fin 3 → ℕ} {inb} {s : ℕ} (h : off = ![baseRow L, s, 0]) (hs : s < 200) (hgo : GoOK d L ft II PP go) (n128 : ℕ) (hn : n128 = 128)
    (w : S128x128.Idx → F .f32) (hw : w = ReadAs.same.apply (View.read (Elt F) (b3).view (RowUpd (Gath d L ft II s) (posRow d L PP s) n128))) :
    ((winM off inb).view.loc (thr d L) ↦[(winM off inb).view.set]{fullShare} ((winM off inb).view.writes (Elt F) fo [⟨Rect.whole S128x128, w⟩]) : sProp 𝕄)
      ⊢ WinP d L go s := by
  subst hw hn
  rw [pts_winM d L h]
  refine Entails.of_eq (pointsTo_congr fun i hi => ?_)
  rw [store_b3 d L h fo _ i hi]
  refine Eq.trans ?_ (hgo s hs i hi).symm
  unfold Res
  congr 2
  exact Fin.ext (Nat.mod_eq_of_lt (by have := mem_winSetN.mp hi; show (i 0).val - baseRow L < 128; omega)).symm

theorem fs3 {off : Fin 3 → ℕ} {inb} {s : ℕ} (h : off = ![baseRow L, s, 0]) (hs : s < 200) (hgo : GoOK d L ft II PP go) (n128 : ℕ) (hn : n128 = 128)
    (w : S128x128.Idx → F .f32) (hw : w = ReadAs.same.apply (View.read (Elt F) (b3).view (RowUpd (Gath d L ft II s) (posRow d L PP s) n128))) :
    Transfers.Flight EC (thr d L) (SemLoc.dma cc0_scratch13.sem) (none : HIx 1) 524288
      iprop(((winM off inb).view.loc (thr d L) ↦[(winM off inb).view.set]{fullShare} ((winM off inb).view.writes (Elt F) fo [⟨Rect.whole S128x128, w⟩]))
          ∗ (b3).view.loc (thr d L) ↦[(b3).view.set]{fullShare} (RowUpd (Gath d L ft II s) (posRow d L PP s) n128))
      ⊢ FS3 d L ft II PP go s := by
  refine Transfers.Flight_mono EC (thr d L) ?_
  subst hn
  iintro ⟨Hw, Hb⟩
  isplitl [Hw]
  · iapply (windone3 d L ft II PP fo go h hs hgo 128 rfl w hw) $$ Hw
  · iexact Hb

end Conv

end Cert.Proof.KI

end
-- ==== Proof.KIGo.lean ====
/-
  What the tile's scratches hold after its two fetches, and why the result it owes is, window by window, its finished
  buffers; the tile's share of the table as four read tokens; the index scratch row by row and the tile's block of the
  result window by window, at the two ends of the position loop.
-/
import proofs.«205233_g80668075753725_cont_9to1c4b_826_11_alg».proof.Proof.KIConv
import proofs.«205233_g80668075753725_cont_9to1c4b_826_11_alg».proof.Proof.KICoreStmt

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S200x4096 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S4096x200x128 EltTy.f32)
local notation "s0" => (Memref.whole Cert.KernelIdeal.cc0_scratch0 : Memref Cert.KernelIdeal.sig Kind.scVector Space.vmem Cert.KernelIdeal.S200x128 EltTy.i32)
local notation "s1" => (Memref.whole Cert.KernelIdeal.cc0_scratch1 : Memref Cert.KernelIdeal.sig Kind.scVector Space.vmem Cert.KernelIdeal.S200x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable [FloatOps F]

/-! ## The result, window by window, is the finished buffers -/

section Go

variable (m : (ℓ : Loc nD τ sig) → Buf (Elt F) ℓ) (d : Dev nD) (L : grid0.Coords)
  (II : Buf (Elt F) ((s0).view.loc (thr d L))) (PP : Buf (Elt F) ((s1).view.loc (thr d L)))

theorem baseRow_lt (L : grid0.Coords) (r : Fin 128) : baseRow L + r.val < 4096 := by
  have h0 : (L 0).val < 2 := (L 0).isLt
  have h1 : (L 1).val < 16 := (L 1).isLt
  have := r.isLt
  show 256 * (L 1).val + 128 * (L 0).val + r.val < 4096
  omega

/-- The index scratch holds the tile's column block of the transposed indices. -/
def IIOK : Prop := ∀ (a : Fin 200) (r : Fin 128), II (ValueIdx.ix2 a r) = FI m d (ValueIdx.ix2 a (⟨baseRow L + r.val, baseRow_lt L r⟩ : Fin 4096))
/-- The position scratch holds the position table. -/
def PPOK : Prop := ∀ (a : Fin 200) (c : Fin 128), PP (ValueIdx.ix2 a c) = m (pLoc d) (ValueIdx.ix2 a c)

theorem hII_of (hpre : PreOK m) (hI : IIOK m d L II) : ∀ i, (II i).toNat < 100000 := by
  intro i
  obtain ⟨a, r, rfl⟩ : ∃ (a : Fin 200) (r : Fin 128), i = ValueIdx.ix2 a r := ⟨i 0, i 1, ValueIdx.eq_ix2 i⟩
  rw [hI a r]
  exact hpre d _

theorem goOK_of (hI : IIOK m d L II) (hP : PPOK m d L PP) : GoOK d L (m (tLoc d)) II PP (GT m d) := by
  intro s hs i hi
  obtain ⟨a, b, c, rfl⟩ : ∃ (a : Fin 4096) (b : Fin 200) (c : Fin 128), i = ValueIdx.ix3 a b c := ⟨i 0, i 1, i 2, ValueIdx.eq_ix3 i⟩
  obtain ⟨h1, h2, h3⟩ := mem_winSetN.mp hi
  replace h1 : baseRow L ≤ a.val := h1
  replace h2 : a.val < baseRow L + 128 := h2
  replace h3 : b.val = s := h3
  have ea : (⟨s % 200, Nat.mod_lt _ (by decide)⟩ : Fin 200) = b := Fin.ext (by show s % 200 = b.val; omega)
  have er : ((⟨(a.val - baseRow L) % 128, Nat.mod_lt _ (by decide)⟩ : Fin 128)).val = a.val - baseRow L := Nat.mod_eq_of_lt (by omega)
  have eb : (⟨baseRow L + (⟨(a.val - baseRow L) % 128, Nat.mod_lt _ (by decide)⟩ : Fin 128).val, baseRow_lt L _⟩ : Fin 4096) = a :=
    Fin.ext (by show baseRow L + (a.val - baseRow L) % 128 = a.val; omega)
  show GT m d (ValueIdx.ix3 a b c) = Res d L (m (tLoc d)) II PP s (ValueIdx.ix2 (⟨(a.val - baseRow L) % 128, Nat.mod_lt _ (by decide)⟩ : Fin 128) c)
  unfold Res RowUpd
  rw [if_pos (show (⟨(a.val - baseRow L) % 128, Nat.mod_lt _ (by decide)⟩ : Fin 128).val < 128 from Nat.mod_lt _ (by decide))]
  show Cert.Spec.G (F := F) (m (rLoc d)) (m (tLoc d)) (m (pLoc d)) (ValueIdx.ix3 a b c)
      = FloatOps.addf (Gath d L (m (tLoc d)) II s (ValueIdx.ix2 (⟨(a.val - baseRow L) % 128, Nat.mod_lt _ (by decide)⟩ : Fin 128) c)) (posRow d L PP s c)
  unfold Gath posRow
  rw [ea]
  show FloatOps.addf (m (tLoc d) (ValueIdx.ix2 (Cert.Spec.rowOf (m (rLoc d) (ValueIdx.ix2 a b))) c)) (m (pLoc d) (ValueIdx.ix2 b c))
      = FloatOps.addf (m (tLoc d) (ValueIdx.ix2 (Cert.Spec.rowOf (II (ValueIdx.ix2 b (⟨(a.val - baseRow L) % 128, Nat.mod_lt _ (by decide)⟩ : Fin 128)))) c)) (PP (ValueIdx.ix2 b c))
  rw [hI, hP]
  show _ = FloatOps.addf (m (tLoc d) (ValueIdx.ix2 (Cert.Spec.rowOf (m (rLoc d) (ValueIdx.ix2 (⟨baseRow L + (⟨(a.val - baseRow L) % 128, Nat.mod_lt _ (by decide)⟩ : Fin 128).val, baseRow_lt L _⟩ : Fin 4096) b))) c)) (m (pLoc d) (ValueIdx.ix2 b c))
  rw [eb]

/-- The index scratch after the tile's fetch of its column block, and the position scratch after its fetch of the table. -/
abbrev iSl (L : grid0.Coords) : Memref sig .scVector .hbm S200x128 .i32 :=
  (iV).slice (Rect.unit (s := S200x4096) (k0_off1 L) S200x128.size (k0_off1_inb L)) (fun _ => rfl)
abbrev IIe (g0 : Buf (Elt F) ((s0).view.loc (thr d L))) : Buf (Elt F) ((s0).view.loc (thr d L)) :=
  View.write (Elt F) (s0).view g0 (ReadAs.same.apply (View.read (Elt F) (iSl L).view (FI m d))) Finset.univ
abbrev PPe (g1 : Buf (Elt F) ((s1).view.loc (thr d L))) : Buf (Elt F) ((s1).view.loc (thr d L)) :=
  View.write (Elt F) (s1).view g1 (ReadAs.same.apply (View.read (Elt F) (pV).view (m (pLoc d)))) Finset.univ

theorem IIe_ok (g0 : Buf (Elt F) ((s0).view.loc (thr d L))) : IIOK m d L (IIe m d L g0) := by
  intro a r
  unfold IIe
  rw [View.write_whole_univ, ReadAs.apply_same]
  rw [show (iSl L).view.read (Elt F) (FI m d) (ValueIdx.ix2 a r) = FI m d ((iSl L).view.emb (ValueIdx.ix2 a r)) from (View.read_apply _ _).trans (cast_eq _ _)]
  congr 1
  funext b
  apply Fin.ext
  show ((Rect.unit (s := S200x4096) (k0_off1 L) S200x128.size (k0_off1_inb L)).emb (ValueIdx.ix2 a r) b).val = _
  rw [Rect.emb_apply]
  simp only [k0_off1_eq]
  fin_cases b <;> simp [ValueIdx.ix2, baseRow]

theorem PPe_ok (g1 : Buf (Elt F) ((s1).view.loc (thr d L))) : PPOK m d L (PPe m d L g1) := by
  intro a c
  unfold PPe
  rw [View.write_whole_univ, ReadAs.apply_same]
  show (View.whole main_arg2_scv).read (Elt F) (m (pLoc d)) (ValueIdx.ix2 a c) = _
  rw [View.read_whole]

end Go

section TokLem
variable (d : Dev nD) (L : grid0.Coords)

theorem tSl_set : (tSl).view.set = (Finset.univ : Finset S100000x128.Idx) := by
  show ((tV).view.slice (Rect.unit (s := S100000x128) ![0, 0] S100000x128.size inb_S100000x128_S100000x128_0_0)).set = _
  rw [View.set_slice]
  refine (Finset.map_refl).trans ?_
  ext i
  simp only [Rect.mem_set_unit, Finset.mem_univ, iff_true]
  intro a
  fin_cases a
  · simp; exact (i 0).isLt
  · simp; exact (i 1).isLt

/-- The tile's share of the table is a remainder and four read tokens, one per gather cell. -/
theorem toks4 (q : PosShare TreeShare) (f : Buf (Elt F) ((tV).view.loc (thr d L))) :
    ((tV).view.loc (thr d L) ↦{q} f : sProp 𝕄)
      ⊣⊢ iprop(((tV).view.loc (thr d L) ↦{Transfers.shareDrop q 4} f) ∗ Tok d L q f 0 ∗ Tok d L q f 1 ∗ Tok d L q f 2 ∗ Tok d L q f 3) := by
  have h : ((tV).view.loc (thr d L) ↦[Finset.univ]{q} f : sProp 𝕄) ⊣⊢ _ := Transfers.pointsTo_toks_range q 4
  rw [show (4 : ℕ) = 0 + 1 + 1 + 1 + 1 from rfl, bigSep_range_succ, bigSep_range_succ, bigSep_range_succ, bigSep_range_succ, bigSep_range_zero] at h
  unfold Tok
  rw [tSl_set]
  constructor
  · refine h.1.trans ?_
    iintro ⟨Hd, H3, H2, H1, H0, -⟩
    isplitl [Hd]; · iexact Hd
    isplitl [H0]; · iexact H0
    isplitl [H1]; · iexact H1
    isplitl [H2]; · iexact H2
    iexact H3
  · refine BIBase.Entails.trans ?_ h.2
    iintro ⟨Hd, H0, H1, H2, H3⟩
    isplitl [Hd]; · iexact Hd
    isplitl [H3]; · iexact H3
    isplitl [H2]; · iexact H2
    isplitl [H1]; · iexact H1
    isplitl [H0]; · iexact H0
    iempintro

end TokLem

section CoreLem
variable (d : Dev nD) (L : grid0.Coords)

theorem bf0_whole (f : Buf (Elt F) ((b0).view.loc (thr d L))) : ((b0).view.loc (thr d L) ↦{fullShare} f : sProp 𝕄) = Bf0 d L f := by
  unfold Bf0; rw [show (b0).view.set = Finset.univ from View.set_whole _]
theorem bf1_whole (f : Buf (Elt F) ((b1).view.loc (thr d L))) : ((b1).view.loc (thr d L) ↦{fullShare} f : sProp 𝕄) = Bf1 d L f := by
  unfold Bf1; rw [show (b1).view.set = Finset.univ from View.set_whole _]
theorem bf2_whole (f : Buf (Elt F) ((b2).view.loc (thr d L))) : ((b2).view.loc (thr d L) ↦{fullShare} f : sProp 𝕄) = Bf2 d L f := by
  unfold Bf2; rw [show (b2).view.set = Finset.univ from View.set_whole _]
theorem bf3_whole (f : Buf (Elt F) ((b3).view.loc (thr d L))) : ((b3).view.loc (thr d L) ↦{fullShare} f : sProp 𝕄) = Bf3 d L f := by
  unfold Bf3; rw [show (b3).view.set = Finset.univ from View.set_whole _]

/-- The index scratch less its rows 0 and 1 is its rows from 2 on. -/
theorem rows_rest (f : Buf (Elt F) ((s0).view.loc (thr d L))) :
    ((s0).view.loc (thr d L) ↦[(Finset.univ \ (rowM ![0, 0] inb_S200x128_S1x128_0_0).view.set) \ (rowM ![1, 0] inb_S200x128_S1x128_1_0).view.set]{fullShare} f : sProp 𝕄)
      = bigSep (Finset.Ico 2 200) (RowP d L f) := by
  rw [set_rowM (n := 0) rfl, set_rowM (n := 1) rfl]
  have e : (Finset.univ \ rowSetN 0) \ rowSetN 1 = (Finset.Ico 2 200).biUnion rowSetN := by
    ext i
    simp only [Finset.mem_sdiff, Finset.mem_univ, true_and, mem_rowSetN, Finset.mem_biUnion, Finset.mem_Ico]
    constructor
    · intro h; exact ⟨(i 0).val, ⟨by omega, (i 0).isLt⟩, rfl⟩
    · rintro ⟨n, ⟨h1, h2⟩, h3⟩; omega
  rw [e, pointsTo_biUnion (Finset.Ico 2 200) (ℓ := (s0).view.loc (thr d L)) rowSetN (fun a _ b _ h => rowSetN_disjoint h)]

/-- The tile's block of the result is its windows from 0 on. -/
theorem wins_all (f : Buf (Elt F) ((oV).view.loc (thr d L))) :
    ((oV).view.loc (thr d L) ↦[tileSet (cL L) (sL L)]{fullShare} f : sProp 𝕄) = bigSep (Finset.Ico 0 200) (WinP d L f) := by
  rw [wins_split d L (cL L) (sL L) f, range_eq_Ico_zero]; rfl

theorem rows_all (f : Buf (Elt F) ((s0).view.loc (thr d L))) :
    ((s0).view.loc (thr d L) ↦{fullShare} f : sProp 𝕄) = bigSep (Finset.range 200) (RowP d L f) := rows_split d L f

/-- The tile's block of the result is its last two windows and the 198 before them. -/
theorem wins_close (f : Buf (Elt F) ((oV).view.loc (thr d L))) :
    ((oV).view.loc (thr d L) ↦[tileSet (cL L) (sL L)]{fullShare} f : sProp 𝕄)
      = iprop(WinP d L f 199 ∗ WinP d L f 198 ∗ bigSep (Finset.range 198) (WinP d L f)) := by
  rw [wins_split d L (cL L) (sL L) f, show (200 : ℕ) = 198 + 1 + 1 from rfl, bigSep_range_succ, bigSep_range_succ]; rfl

end CoreLem

end Cert.Proof.KI

end
-- ==== Proof.KIInner.lean ====
/-
  The trips of the four row loops: a trip of the loop on a buffer loads row `j` sixteen lanes at a time, adds the
  matching lanes of the position row and stores them back, so a buffer whose first `j` rows have the position row
  added is left with its first `j + 1` rows so.
-/
import proofs.«205233_g80668075753725_cont_9to1c4b_826_11_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S200x4096 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S4096x200x128 EltTy.f32)
local notation "s0" => (Memref.whole Cert.KernelIdeal.cc0_scratch0 : Memref Cert.KernelIdeal.sig Kind.scVector Space.vmem Cert.KernelIdeal.S200x128 EltTy.i32)
local notation "s1" => (Memref.whole Cert.KernelIdeal.cc0_scratch1 : Memref Cert.KernelIdeal.sig Kind.scVector Space.vmem Cert.KernelIdeal.S200x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable [FloatOps F]

set_option maxHeartbeats 1600000 in
/-- One trip of the row loop on buffer `b0`: the position row `p` is added to row `j`. -/
theorem inner_t2 (d : Dev nD) (L : grid0.Coords) (k : Fin k0_t1_loop.trips) (j : Fin k0_t2_loop.trips)
    (g : Buf (Elt F) ((b0).view.loc (thr d L))) (p : Fin 128 → F .f32)
    (v24 : Vec F S1x16 .f32) (v27 : Vec F S1x16 .f32) (v30 : Vec F S1x16 .f32) (v33 : Vec F S1x16 .f32) (v36 : Vec F S1x16 .f32) (v39 : Vec F S1x16 .f32) (v42 : Vec F S1x16 .f32) (v45 : Vec F S1x16 .f32)
    (h24 : ∀ i : Fin 16, v24 (ValueIdx.ix2 (0 : Fin 1) i) = p ⟨i.val, by omega⟩)
    (h27 : ∀ i : Fin 16, v27 (ValueIdx.ix2 (0 : Fin 1) i) = p ⟨16 + i.val, by omega⟩)
    (h30 : ∀ i : Fin 16, v30 (ValueIdx.ix2 (0 : Fin 1) i) = p ⟨32 + i.val, by omega⟩)
    (h33 : ∀ i : Fin 16, v33 (ValueIdx.ix2 (0 : Fin 1) i) = p ⟨48 + i.val, by omega⟩)
    (h36 : ∀ i : Fin 16, v36 (ValueIdx.ix2 (0 : Fin 1) i) = p ⟨64 + i.val, by omega⟩)
    (h39 : ∀ i : Fin 16, v39 (ValueIdx.ix2 (0 : Fin 1) i) = p ⟨80 + i.val, by omega⟩)
    (h42 : ∀ i : Fin 16, v42 (ValueIdx.ix2 (0 : Fin 1) i) = p ⟨96 + i.val, by omega⟩)
    (h45 : ∀ i : Fin 16, v45 (ValueIdx.ix2 (0 : Fin 1) i) = p ⟨112 + i.val, by omega⟩) :
    ((b0).view.loc (thr d L) ↦[(b0).view.set]{fullShare} (RowUpd g p j.val) : sProp 𝕄)
      ⊢ wp frame (wpE (defs₀ (F := F)) 𝒱₀ (thr d L) none) Set.univ
          (k0_t2_body (F := F) L iV (Memref.isWhole_whole _) tV (Memref.isWhole_whole _) pV (Memref.isWhole_whole _) oV (Memref.isWhole_whole _) s0 (Memref.isWhole_whole _) s1 (Memref.isWhole_whole _) b0 (Memref.isWhole_whole _) b1 (Memref.isWhole_whole _) b2 (Memref.isWhole_whole _) b3 (Memref.isWhole_whole _) cc0_scratch6 cc0_scratch7 cc0_scratch8 cc0_scratch9 cc0_scratch10 cc0_scratch11 cc0_scratch12 cc0_scratch13 cc0_scoped0 cc0_scoped1 0#32 1#32 k v24 v27 v30 v33 v36 v39 v42 v45 j ⟨⟩)
          (fun _ => ((b0).view.loc (thr d L) ↦[(b0).view.set]{fullShare} (RowUpd g p (j.val + 1)) : sProp 𝕄)) := by
  have hj : j.val < 128 := Nat.lt_of_lt_of_le j.isLt k0_t2_abs.2.1
  unfold k0_t2_body
  iintro Hb
  sl_exec
  sl_step
  istop
  refine Entails.of_eq (pointsTo_congr fun i _ => ?_)
  have e : ∀ X : Buf (Elt F) ((b0).view.loc (thr d L)), (b0).view.read (Elt F) X = X := fun _ => rfl
  refine (congrFun (e _).symm i).trans ?_
  rw [read_row8 (b0).view (RowUpd g p j.val) j.val _ _ (k0_off11_eq j) _ _ (k0_off12_eq j) _ _ (k0_off13_eq j) _ _ (k0_off14_eq j) _ _ (k0_off15_eq j) _ _ (k0_off16_eq j) _ _ (k0_off17_eq j) _ _ (k0_off18_eq j)
    (fun l => FloatOps.addf (RowUpd g p j.val (ValueIdx.ix2 (⟨j.val, hj⟩ : Fin 128) l)) (p l)) ?_ ?_ ?_ ?_ ?_ ?_ ?_ ?_ i]
  · exact RowUpd_succ g p j.val hj i
  · intro x
    show shapeCast S1x16 (addf (F := F) (shapeCast S16 (View.readAt (Elt F) (b0).view (Rect.unit (s := S128x128) (k0_off11 j) S1x16.size (k0_off11_inb j)).toLoadRect (RowUpd g p j.val)) shapeCasts_S1x16_S16) (shapeCast S16 v24 shapeCasts_S1x16_S16)) shapeCasts_S16_S1x16 (ValueIdx.ix2 (0 : Fin 1) x) = _
    rw [pay_lane]
    refine congrArg₂ FloatOps.addf ?_ ?_
    · exact readAt_lanes (b0).view _ _ hj (k0_off11_eq j) x _ (Nat.zero_add _).symm
    · exact (cast_lane _ x).trans (h24 x)
  · intro x
    show shapeCast S1x16 (addf (F := F) (shapeCast S16 (View.readAt (Elt F) (b0).view (Rect.unit (s := S128x128) (k0_off12 j) S1x16.size (k0_off12_inb j)).toLoadRect (RowUpd g p j.val)) shapeCasts_S1x16_S16) (shapeCast S16 v27 shapeCasts_S1x16_S16)) shapeCasts_S16_S1x16 (ValueIdx.ix2 (0 : Fin 1) x) = _
    rw [pay_lane]
    refine congrArg₂ FloatOps.addf ?_ ?_
    · exact readAt_lanes (b0).view _ _ hj (k0_off12_eq j) x _ rfl
    · exact (cast_lane _ x).trans (h27 x)
  · intro x
    show shapeCast S1x16 (addf (F := F) (shapeCast S16 (View.readAt (Elt F) (b0).view (Rect.unit (s := S128x128) (k0_off13 j) S1x16.size (k0_off13_inb j)).toLoadRect (RowUpd g p j.val)) shapeCasts_S1x16_S16) (shapeCast S16 v30 shapeCasts_S1x16_S16)) shapeCasts_S16_S1x16 (ValueIdx.ix2 (0 : Fin 1) x) = _
    rw [pay_lane]
    refine congrArg₂ FloatOps.addf ?_ ?_
    · exact readAt_lanes (b0).view _ _ hj (k0_off13_eq j) x _ rfl
    · exact (cast_lane _ x).trans (h30 x)
  · intro x
    show shapeCast S1x16 (addf (F := F) (shapeCast S16 (View.readAt (Elt F) (b0).view (Rect.unit (s := S128x128) (k0_off14 j) S1x16.size (k0_off14_inb j)).toLoadRect (RowUpd g p j.val)) shapeCasts_S1x16_S16) (shapeCast S16 v33 shapeCasts_S1x16_S16)) shapeCasts_S16_S1x16 (ValueIdx.ix2 (0 : Fin 1) x) = _
    rw [pay_lane]
    refine congrArg₂ FloatOps.addf ?_ ?_
    · exact readAt_lanes (b0).view _ _ hj (k0_off14_eq j) x _ rfl
    · exact (cast_lane _ x).trans (h33 x)
  · intro x
    show shapeCast S1x16 (addf (F := F) (shapeCast S16 (View.readAt (Elt F) (b0).view (Rect.unit (s := S128x128) (k0_off15 j) S1x16.size (k0_off15_inb j)).toLoadRect (RowUpd g p j.val)) shapeCasts_S1x16_S16) (shapeCast S16 v36 shapeCasts_S1x16_S16)) shapeCasts_S16_S1x16 (ValueIdx.ix2 (0 : Fin 1) x) = _
    rw [pay_lane]
    refine congrArg₂ FloatOps.addf ?_ ?_
    · exact readAt_lanes (b0).view _ _ hj (k0_off15_eq j) x _ rfl
    · exact (cast_lane _ x).trans (h36 x)
  · intro x
    show shapeCast S1x16 (addf (F := F) (shapeCast S16 (View.readAt (Elt F) (b0).view (Rect.unit (s := S128x128) (k0_off16 j) S1x16.size (k0_off16_inb j)).toLoadRect (RowUpd g p j.val)) shapeCasts_S1x16_S16) (shapeCast S16 v39 shapeCasts_S1x16_S16)) shapeCasts_S16_S1x16 (ValueIdx.ix2 (0 : Fin 1) x) = _
    rw [pay_lane]
    refine congrArg₂ FloatOps.addf ?_ ?_
    · exact readAt_lanes (b0).view _ _ hj (k0_off16_eq j) x _ rfl
    · exact (cast_lane _ x).trans (h39 x)
  · intro x
    show shapeCast S1x16 (addf (F := F) (shapeCast S16 (View.readAt (Elt F) (b0).view (Rect.unit (s := S128x128) (k0_off17 j) S1x16.size (k0_off17_inb j)).toLoadRect (RowUpd g p j.val)) shapeCasts_S1x16_S16) (shapeCast S16 v42 shapeCasts_S1x16_S16)) shapeCasts_S16_S1x16 (ValueIdx.ix2 (0 : Fin 1) x) = _
    rw [pay_lane]
    refine congrArg₂ FloatOps.addf ?_ ?_
    · exact readAt_lanes (b0).view _ _ hj (k0_off17_eq j) x _ rfl
    · exact (cast_lane _ x).trans (h42 x)
  · intro x
    show shapeCast S1x16 (addf (F := F) (shapeCast S16 (View.readAt (Elt F) (b0).view (Rect.unit (s := S128x128) (k0_off18 j) S1x16.size (k0_off18_inb j)).toLoadRect (RowUpd g p j.val)) shapeCasts_S1x16_S16) (shapeCast S16 v45 shapeCasts_S1x16_S16)) shapeCasts_S16_S1x16 (ValueIdx.ix2 (0 : Fin 1) x) = _
    rw [pay_lane]
    refine congrArg₂ FloatOps.addf ?_ ?_
    · exact readAt_lanes (b0).view _ _ hj (k0_off18_eq j) x _ rfl
    · exact (cast_lane _ x).trans (h45 x)

set_option maxHeartbeats 1600000 in
/-- One trip of the row loop on buffer `b1`: the position row `p` is added to row `j`. -/
theorem inner_t3 (d : Dev nD) (L : grid0.Coords) (k : Fin k0_t1_loop.trips) (a20 a19 : BitVec 32) (a52 : BitVec 1) (j : Fin k0_t3_loop.trips)
    (g : Buf (Elt F) ((b1).view.loc (thr d L))) (p : Fin 128 → F .f32)
    (v64 : Vec F S1x16 .f32) (v67 : Vec F S1x16 .f32) (v70 : Vec F S1x16 .f32) (v73 : Vec F S1x16 .f32) (v76 : Vec F S1x16 .f32) (v79 : Vec F S1x16 .f32) (v82 : Vec F S1x16 .f32) (v85 : Vec F S1x16 .f32)
    (h64 : ∀ i : Fin 16, v64 (ValueIdx.ix2 (0 : Fin 1) i) = p ⟨i.val, by omega⟩)
    (h67 : ∀ i : Fin 16, v67 (ValueIdx.ix2 (0 : Fin 1) i) = p ⟨16 + i.val, by omega⟩)
    (h70 : ∀ i : Fin 16, v70 (ValueIdx.ix2 (0 : Fin 1) i) = p ⟨32 + i.val, by omega⟩)
    (h73 : ∀ i : Fin 16, v73 (ValueIdx.ix2 (0 : Fin 1) i) = p ⟨48 + i.val, by omega⟩)
    (h76 : ∀ i : Fin 16, v76 (ValueIdx.ix2 (0 : Fin 1) i) = p ⟨64 + i.val, by omega⟩)
    (h79 : ∀ i : Fin 16, v79 (ValueIdx.ix2 (0 : Fin 1) i) = p ⟨80 + i.val, by omega⟩)
    (h82 : ∀ i : Fin 16, v82 (ValueIdx.ix2 (0 : Fin 1) i) = p ⟨96 + i.val, by omega⟩)
    (h85 : ∀ i : Fin 16, v85 (ValueIdx.ix2 (0 : Fin 1) i) = p ⟨112 + i.val, by omega⟩) :
    ((b1).view.loc (thr d L) ↦[(b1).view.set]{fullShare} (RowUpd g p j.val) : sProp 𝕄)
      ⊢ wp frame (wpE (defs₀ (F := F)) 𝒱₀ (thr d L) none) Set.univ
          (k0_t3_body (F := F) L iV (Memref.isWhole_whole _) tV (Memref.isWhole_whole _) pV (Memref.isWhole_whole _) oV (Memref.isWhole_whole _) s0 (Memref.isWhole_whole _) s1 (Memref.isWhole_whole _) b0 (Memref.isWhole_whole _) b1 (Memref.isWhole_whole _) b2 (Memref.isWhole_whole _) b3 (Memref.isWhole_whole _) cc0_scratch6 cc0_scratch7 cc0_scratch8 cc0_scratch9 cc0_scratch10 cc0_scratch11 cc0_scratch12 cc0_scratch13 cc0_scoped0 cc0_scoped1 k a20 a19 a52 v64 v67 v70 v73 v76 v79 v82 v85 j ⟨⟩)
          (fun _ => ((b1).view.loc (thr d L) ↦[(b1).view.set]{fullShare} (RowUpd g p (j.val + 1)) : sProp 𝕄)) := by
  have hj : j.val < 128 := Nat.lt_of_lt_of_le j.isLt k0_t3_abs.2.1
  unfold k0_t3_body
  iintro Hb
  sl_exec
  sl_step
  istop
  refine Entails.of_eq (pointsTo_congr fun i _ => ?_)
  have e : ∀ X : Buf (Elt F) ((b1).view.loc (thr d L)), (b1).view.read (Elt F) X = X := fun _ => rfl
  refine (congrFun (e _).symm i).trans ?_
  rw [read_row8 (b1).view (RowUpd g p j.val) j.val _ _ (k0_off22_eq j) _ _ (k0_off23_eq j) _ _ (k0_off24_eq j) _ _ (k0_off25_eq j) _ _ (k0_off26_eq j) _ _ (k0_off27_eq j) _ _ (k0_off28_eq j) _ _ (k0_off29_eq j)
    (fun l => FloatOps.addf (RowUpd g p j.val (ValueIdx.ix2 (⟨j.val, hj⟩ : Fin 128) l)) (p l)) ?_ ?_ ?_ ?_ ?_ ?_ ?_ ?_ i]
  · exact RowUpd_succ g p j.val hj i
  · intro x
    show shapeCast S1x16 (addf (F := F) (shapeCast S16 (View.readAt (Elt F) (b1).view (Rect.unit (s := S128x128) (k0_off22 j) S1x16.size (k0_off22_inb j)).toLoadRect (RowUpd g p j.val)) shapeCasts_S1x16_S16) (shapeCast S16 v64 shapeCasts_S1x16_S16)) shapeCasts_S16_S1x16 (ValueIdx.ix2 (0 : Fin 1) x) = _
    rw [pay_lane]
    refine congrArg₂ FloatOps.addf ?_ ?_
    · exact readAt_lanes (b1).view _ _ hj (k0_off22_eq j) x _ (Nat.zero_add _).symm
    · exact (cast_lane _ x).trans (h64 x)
  · intro x
    show shapeCast S1x16 (addf (F := F) (shapeCast S16 (View.readAt (Elt F) (b1).view (Rect.unit (s := S128x128) (k0_off23 j) S1x16.size (k0_off23_inb j)).toLoadRect (RowUpd g p j.val)) shapeCasts_S1x16_S16) (shapeCast S16 v67 shapeCasts_S1x16_S16)) shapeCasts_S16_S1x16 (ValueIdx.ix2 (0 : Fin 1) x) = _
    rw [pay_lane]
    refine congrArg₂ FloatOps.addf ?_ ?_
    · exact readAt_lanes (b1).view _ _ hj (k0_off23_eq j) x _ rfl
    · exact (cast_lane _ x).trans (h67 x)
  · intro x
    show shapeCast S1x16 (addf (F := F) (shapeCast S16 (View.readAt (Elt F) (b1).view (Rect.unit (s := S128x128) (k0_off24 j) S1x16.size (k0_off24_inb j)).toLoadRect (RowUpd g p j.val)) shapeCasts_S1x16_S16) (shapeCast S16 v70 shapeCasts_S1x16_S16)) shapeCasts_S16_S1x16 (ValueIdx.ix2 (0 : Fin 1) x) = _
    rw [pay_lane]
    refine congrArg₂ FloatOps.addf ?_ ?_
    · exact readAt_lanes (b1).view _ _ hj (k0_off24_eq j) x _ rfl
    · exact (cast_lane _ x).trans (h70 x)
  · intro x
    show shapeCast S1x16 (addf (F := F) (shapeCast S16 (View.readAt (Elt F) (b1).view (Rect.unit (s := S128x128) (k0_off25 j) S1x16.size (k0_off25_inb j)).toLoadRect (RowUpd g p j.val)) shapeCasts_S1x16_S16) (shapeCast S16 v73 shapeCasts_S1x16_S16)) shapeCasts_S16_S1x16 (ValueIdx.ix2 (0 : Fin 1) x) = _
    rw [pay_lane]
    refine congrArg₂ FloatOps.addf ?_ ?_
    · exact readAt_lanes (b1).view _ _ hj (k0_off25_eq j) x _ rfl
    · exact (cast_lane _ x).trans (h73 x)
  · intro x
    show shapeCast S1x16 (addf (F := F) (shapeCast S16 (View.readAt (Elt F) (b1).view (Rect.unit (s := S128x128) (k0_off26 j) S1x16.size (k0_off26_inb j)).toLoadRect (RowUpd g p j.val)) shapeCasts_S1x16_S16) (shapeCast S16 v76 shapeCasts_S1x16_S16)) shapeCasts_S16_S1x16 (ValueIdx.ix2 (0 : Fin 1) x) = _
    rw [pay_lane]
    refine congrArg₂ FloatOps.addf ?_ ?_
    · exact readAt_lanes (b1).view _ _ hj (k0_off26_eq j) x _ rfl
    · exact (cast_lane _ x).trans (h76 x)
  · intro x
    show shapeCast S1x16 (addf (F := F) (shapeCast S16 (View.readAt (Elt F) (b1).view (Rect.unit (s := S128x128) (k0_off27 j) S1x16.size (k0_off27_inb j)).toLoadRect (RowUpd g p j.val)) shapeCasts_S1x16_S16) (shapeCast S16 v79 shapeCasts_S1x16_S16)) shapeCasts_S16_S1x16 (ValueIdx.ix2 (0 : Fin 1) x) = _
    rw [pay_lane]
    refine congrArg₂ FloatOps.addf ?_ ?_
    · exact readAt_lanes (b1).view _ _ hj (k0_off27_eq j) x _ rfl
    · exact (cast_lane _ x).trans (h79 x)
  · intro x
    show shapeCast S1x16 (addf (F := F) (shapeCast S16 (View.readAt (Elt F) (b1).view (Rect.unit (s := S128x128) (k0_off28 j) S1x16.size (k0_off28_inb j)).toLoadRect (RowUpd g p j.val)) shapeCasts_S1x16_S16) (shapeCast S16 v82 shapeCasts_S1x16_S16)) shapeCasts_S16_S1x16 (ValueIdx.ix2 (0 : Fin 1) x) = _
    rw [pay_lane]
    refine congrArg₂ FloatOps.addf ?_ ?_
    · exact readAt_lanes (b1).view _ _ hj (k0_off28_eq j) x _ rfl
    · exact (cast_lane _ x).trans (h82 x)
  · intro x
    show shapeCast S1x16 (addf (F := F) (shapeCast S16 (View.readAt (Elt F) (b1).view (Rect.unit (s := S128x128) (k0_off29 j) S1x16.size (k0_off29_inb j)).toLoadRect (RowUpd g p j.val)) shapeCasts_S1x16_S16) (shapeCast S16 v85 shapeCasts_S1x16_S16)) shapeCasts_S16_S1x16 (ValueIdx.ix2 (0 : Fin 1) x) = _
    rw [pay_lane]
    refine congrArg₂ FloatOps.addf ?_ ?_
    · exact readAt_lanes (b1).view _ _ hj (k0_off29_eq j) x _ rfl
    · exact (cast_lane _ x).trans (h85 x)

set_option maxHeartbeats 1600000 in
/-- One trip of the row loop on buffer `b2`: the position row `p` is added to row `j`. -/
theorem inner_t4 (d : Dev nD) (L : grid0.Coords) (k : Fin k0_t1_loop.trips) (a20 a99 : BitVec 32) (j : Fin k0_t4_loop.trips)
    (g : Buf (Elt F) ((b2).view.loc (thr d L))) (p : Fin 128 → F .f32)
    (v105 : FVec F S16 .f32) (v108 : FVec F S16 .f32) (v111 : FVec F S16 .f32) (v114 : FVec F S16 .f32) (v117 : FVec F S16 .f32) (v120 : FVec F S16 .f32) (v123 : FVec F S16 .f32) (v125 : Vec F S1x16 .f32)
    (h105 : ∀ i : Fin 16, v105 (ValueIdx.ix1 i) = p ⟨i.val, by omega⟩)
    (h108 : ∀ i : Fin 16, v108 (ValueIdx.ix1 i) = p ⟨16 + i.val, by omega⟩)
    (h111 : ∀ i : Fin 16, v111 (ValueIdx.ix1 i) = p ⟨32 + i.val, by omega⟩)
    (h114 : ∀ i : Fin 16, v114 (ValueIdx.ix1 i) = p ⟨48 + i.val, by omega⟩)
    (h117 : ∀ i : Fin 16, v117 (ValueIdx.ix1 i) = p ⟨64 + i.val, by omega⟩)
    (h120 : ∀ i : Fin 16, v120 (ValueIdx.ix1 i) = p ⟨80 + i.val, by omega⟩)
    (h123 : ∀ i : Fin 16, v123 (ValueIdx.ix1 i) = p ⟨96 + i.val, by omega⟩)
    (h125 : ∀ i : Fin 16, v125 (ValueIdx.ix2 (0 : Fin 1) i) = p ⟨112 + i.val, by omega⟩) :
    ((b2).view.loc (thr d L) ↦[(b2).view.set]{fullShare} (RowUpd g p j.val) : sProp 𝕄)
      ⊢ wp frame (wpE (defs₀ (F := F)) 𝒱₀ (thr d L) none) Set.univ
          (k0_t4_body (F := F) L iV (Memref.isWhole_whole _) tV (Memref.isWhole_whole _) pV (Memref.isWhole_whole _) oV (Memref.isWhole_whole _) s0 (Memref.isWhole_whole _) s1 (Memref.isWhole_whole _) b0 (Memref.isWhole_whole _) b1 (Memref.isWhole_whole _) b2 (Memref.isWhole_whole _) b3 (Memref.isWhole_whole _) cc0_scratch6 cc0_scratch7 cc0_scratch8 cc0_scratch9 cc0_scratch10 cc0_scratch11 cc0_scratch12 cc0_scratch13 cc0_scoped0 cc0_scoped1 k a20 a99 v105 v108 v111 v114 v117 v120 v123 v125 j ⟨⟩)
          (fun _ => ((b2).view.loc (thr d L) ↦[(b2).view.set]{fullShare} (RowUpd g p (j.val + 1)) : sProp 𝕄)) := by
  have hj : j.val < 128 := Nat.lt_of_lt_of_le j.isLt k0_t4_abs.2.1
  unfold k0_t4_body
  iintro Hb
  sl_exec
  sl_step
  istop
  refine Entails.of_eq (pointsTo_congr fun i _ => ?_)
  have e : ∀ X : Buf (Elt F) ((b2).view.loc (thr d L)), (b2).view.read (Elt F) X = X := fun _ => rfl
  refine (congrFun (e _).symm i).trans ?_
  rw [read_row8 (b2).view (RowUpd g p j.val) j.val _ _ (k0_off32_eq j) _ _ (k0_off33_eq j) _ _ (k0_off34_eq j) _ _ (k0_off35_eq j) _ _ (k0_off36_eq j) _ _ (k0_off37_eq j) _ _ (k0_off38_eq j) _ _ (k0_off39_eq j)
    (fun l => FloatOps.addf (RowUpd g p j.val (ValueIdx.ix2 (⟨j.val, hj⟩ : Fin 128) l)) (p l)) ?_ ?_ ?_ ?_ ?_ ?_ ?_ ?_ i]
  · exact RowUpd_succ g p j.val hj i
  · intro x
    show shapeCast S1x16 (addf (F := F) (shapeCast S16 (View.readAt (Elt F) (b2).view (Rect.unit (s := S128x128) (k0_off32 j) S1x16.size (k0_off32_inb j)).toLoadRect (RowUpd g p j.val)) shapeCasts_S1x16_S16) v105) shapeCasts_S16_S1x16 (ValueIdx.ix2 (0 : Fin 1) x) = _
    rw [pay_lane]
    refine congrArg₂ FloatOps.addf ?_ ?_
    · exact readAt_lanes (b2).view _ _ hj (k0_off32_eq j) x _ (Nat.zero_add _).symm
    · exact h105 x
  · intro x
    show shapeCast S1x16 (addf (F := F) (shapeCast S16 (View.readAt (Elt F) (b2).view (Rect.unit (s := S128x128) (k0_off33 j) S1x16.size (k0_off33_inb j)).toLoadRect (RowUpd g p j.val)) shapeCasts_S1x16_S16) v108) shapeCasts_S16_S1x16 (ValueIdx.ix2 (0 : Fin 1) x) = _
    rw [pay_lane]
    refine congrArg₂ FloatOps.addf ?_ ?_
    · exact readAt_lanes (b2).view _ _ hj (k0_off33_eq j) x _ rfl
    · exact h108 x
  · intro x
    show shapeCast S1x16 (addf (F := F) (shapeCast S16 (View.readAt (Elt F) (b2).view (Rect.unit (s := S128x128) (k0_off34 j) S1x16.size (k0_off34_inb j)).toLoadRect (RowUpd g p j.val)) shapeCasts_S1x16_S16) v111) shapeCasts_S16_S1x16 (ValueIdx.ix2 (0 : Fin 1) x) = _
    rw [pay_lane]
    refine congrArg₂ FloatOps.addf ?_ ?_
    · exact readAt_lanes (b2).view _ _ hj (k0_off34_eq j) x _ rfl
    · exact h111 x
  · intro x
    show shapeCast S1x16 (addf (F := F) (shapeCast S16 (View.readAt (Elt F) (b2).view (Rect.unit (s := S128x128) (k0_off35 j) S1x16.size (k0_off35_inb j)).toLoadRect (RowUpd g p j.val)) shapeCasts_S1x16_S16) v114) shapeCasts_S16_S1x16 (ValueIdx.ix2 (0 : Fin 1) x) = _
    rw [pay_lane]
    refine congrArg₂ FloatOps.addf ?_ ?_
    · exact readAt_lanes (b2).view _ _ hj (k0_off35_eq j) x _ rfl
    · exact h114 x
  · intro x
    show shapeCast S1x16 (addf (F := F) (shapeCast S16 (View.readAt (Elt F) (b2).view (Rect.unit (s := S128x128) (k0_off36 j) S1x16.size (k0_off36_inb j)).toLoadRect (RowUpd g p j.val)) shapeCasts_S1x16_S16) v117) shapeCasts_S16_S1x16 (ValueIdx.ix2 (0 : Fin 1) x) = _
    rw [pay_lane]
    refine congrArg₂ FloatOps.addf ?_ ?_
    · exact readAt_lanes (b2).view _ _ hj (k0_off36_eq j) x _ rfl
    · exact h117 x
  · intro x
    show shapeCast S1x16 (addf (F := F) (shapeCast S16 (View.readAt (Elt F) (b2).view (Rect.unit (s := S128x128) (k0_off37 j) S1x16.size (k0_off37_inb j)).toLoadRect (RowUpd g p j.val)) shapeCasts_S1x16_S16) v120) shapeCasts_S16_S1x16 (ValueIdx.ix2 (0 : Fin 1) x) = _
    rw [pay_lane]
    refine congrArg₂ FloatOps.addf ?_ ?_
    · exact readAt_lanes (b2).view _ _ hj (k0_off37_eq j) x _ rfl
    · exact h120 x
  · intro x
    show shapeCast S1x16 (addf (F := F) (shapeCast S16 (View.readAt (Elt F) (b2).view (Rect.unit (s := S128x128) (k0_off38 j) S1x16.size (k0_off38_inb j)).toLoadRect (RowUpd g p j.val)) shapeCasts_S1x16_S16) v123) shapeCasts_S16_S1x16 (ValueIdx.ix2 (0 : Fin 1) x) = _
    rw [pay_lane]
    refine congrArg₂ FloatOps.addf ?_ ?_
    · exact readAt_lanes (b2).view _ _ hj (k0_off38_eq j) x _ rfl
    · exact h123 x
  · intro x
    show shapeCast S1x16 (addf (F := F) (shapeCast S16 (View.readAt (Elt F) (b2).view (Rect.unit (s := S128x128) (k0_off39 j) S1x16.size (k0_off39_inb j)).toLoadRect (RowUpd g p j.val)) shapeCasts_S1x16_S16) (shapeCast S16 v125 shapeCasts_S1x16_S16)) shapeCasts_S16_S1x16 (ValueIdx.ix2 (0 : Fin 1) x) = _
    rw [pay_lane]
    refine congrArg₂ FloatOps.addf ?_ ?_
    · exact readAt_lanes (b2).view _ _ hj (k0_off39_eq j) x _ rfl
    · exact (cast_lane _ x).trans (h125 x)

set_option maxHeartbeats 1600000 in
/-- One trip of the row loop on buffer `b3`: the position row `p` is added to row `j`. -/
theorem inner_t5 (d : Dev nD) (L : grid0.Coords) (j : Fin k0_t5_loop.trips)
    (g : Buf (Elt F) ((b3).view.loc (thr d L))) (p : Fin 128 → F .f32)
    (v145 : FVec F S16 .f32) (v148 : FVec F S16 .f32) (v151 : FVec F S16 .f32) (v154 : FVec F S16 .f32) (v157 : FVec F S16 .f32) (v159 : Vec F S1x16 .f32) (v162 : Vec F S1x16 .f32) (v165 : Vec F S1x16 .f32)
    (h145 : ∀ i : Fin 16, v145 (ValueIdx.ix1 i) = p ⟨i.val, by omega⟩)
    (h148 : ∀ i : Fin 16, v148 (ValueIdx.ix1 i) = p ⟨16 + i.val, by omega⟩)
    (h151 : ∀ i : Fin 16, v151 (ValueIdx.ix1 i) = p ⟨32 + i.val, by omega⟩)
    (h154 : ∀ i : Fin 16, v154 (ValueIdx.ix1 i) = p ⟨48 + i.val, by omega⟩)
    (h157 : ∀ i : Fin 16, v157 (ValueIdx.ix1 i) = p ⟨64 + i.val, by omega⟩)
    (h159 : ∀ i : Fin 16, v159 (ValueIdx.ix2 (0 : Fin 1) i) = p ⟨80 + i.val, by omega⟩)
    (h162 : ∀ i : Fin 16, v162 (ValueIdx.ix2 (0 : Fin 1) i) = p ⟨96 + i.val, by omega⟩)
    (h165 : ∀ i : Fin 16, v165 (ValueIdx.ix2 (0 : Fin 1) i) = p ⟨112 + i.val, by omega⟩) :
    ((b3).view.loc (thr d L) ↦[(b3).view.set]{fullShare} (RowUpd g p j.val) : sProp 𝕄)
      ⊢ wp frame (wpE (defs₀ (F := F)) 𝒱₀ (thr d L) none) Set.univ
          (k0_t5_body (F := F) L iV (Memref.isWhole_whole _) tV (Memref.isWhole_whole _) pV (Memref.isWhole_whole _) oV (Memref.isWhole_whole _) s0 (Memref.isWhole_whole _) s1 (Memref.isWhole_whole _) b0 (Memref.isWhole_whole _) b1 (Memref.isWhole_whole _) b2 (Memref.isWhole_whole _) b3 (Memref.isWhole_whole _) cc0_scratch6 cc0_scratch7 cc0_scratch8 cc0_scratch9 cc0_scratch10 cc0_scratch11 cc0_scratch12 cc0_scratch13 cc0_scoped0 cc0_scoped1 v145 v148 v151 v154 v157 v159 v162 v165 j ⟨⟩)
          (fun _ => ((b3).view.loc (thr d L) ↦[(b3).view.set]{fullShare} (RowUpd g p (j.val + 1)) : sProp 𝕄)) := by
  have hj : j.val < 128 := Nat.lt_of_lt_of_le j.isLt k0_t5_abs.2.1
  unfold k0_t5_body
  iintro Hb
  sl_exec
  sl_step
  istop
  refine Entails.of_eq (pointsTo_congr fun i _ => ?_)
  have e : ∀ X : Buf (Elt F) ((b3).view.loc (thr d L)), (b3).view.read (Elt F) X = X := fun _ => rfl
  refine (congrFun (e _).symm i).trans ?_
  rw [read_row8 (b3).view (RowUpd g p j.val) j.val _ _ (k0_off42_eq j) _ _ (k0_off43_eq j) _ _ (k0_off44_eq j) _ _ (k0_off45_eq j) _ _ (k0_off46_eq j) _ _ (k0_off47_eq j) _ _ (k0_off48_eq j) _ _ (k0_off49_eq j)
    (fun l => FloatOps.addf (RowUpd g p j.val (ValueIdx.ix2 (⟨j.val, hj⟩ : Fin 128) l)) (p l)) ?_ ?_ ?_ ?_ ?_ ?_ ?_ ?_ i]
  · exact RowUpd_succ g p j.val hj i
  · intro x
    show shapeCast S1x16 (addf (F := F) (shapeCast S16 (View.readAt (Elt F) (b3).view (Rect.unit (s := S128x128) (k0_off42 j) S1x16.size (k0_off42_inb j)).toLoadRect (RowUpd g p j.val)) shapeCasts_S1x16_S16) v145) shapeCasts_S16_S1x16 (ValueIdx.ix2 (0 : Fin 1) x) = _
    rw [pay_lane]
    refine congrArg₂ FloatOps.addf ?_ ?_
    · exact readAt_lanes (b3).view _ _ hj (k0_off42_eq j) x _ (Nat.zero_add _).symm
    · exact h145 x
  · intro x
    show shapeCast S1x16 (addf (F := F) (shapeCast S16 (View.readAt (Elt F) (b3).view (Rect.unit (s := S128x128) (k0_off43 j) S1x16.size (k0_off43_inb j)).toLoadRect (RowUpd g p j.val)) shapeCasts_S1x16_S16) v148) shapeCasts_S16_S1x16 (ValueIdx.ix2 (0 : Fin 1) x) = _
    rw [pay_lane]
    refine congrArg₂ FloatOps.addf ?_ ?_
    · exact readAt_lanes (b3).view _ _ hj (k0_off43_eq j) x _ rfl
    · exact h148 x
  · intro x
    show shapeCast S1x16 (addf (F := F) (shapeCast S16 (View.readAt (Elt F) (b3).view (Rect.unit (s := S128x128) (k0_off44 j) S1x16.size (k0_off44_inb j)).toLoadRect (RowUpd g p j.val)) shapeCasts_S1x16_S16) v151) shapeCasts_S16_S1x16 (ValueIdx.ix2 (0 : Fin 1) x) = _
    rw [pay_lane]
    refine congrArg₂ FloatOps.addf ?_ ?_
    · exact readAt_lanes (b3).view _ _ hj (k0_off44_eq j) x _ rfl
    · exact h151 x
  · intro x
    show shapeCast S1x16 (addf (F := F) (shapeCast S16 (View.readAt (Elt F) (b3).view (Rect.unit (s := S128x128) (k0_off45 j) S1x16.size (k0_off45_inb j)).toLoadRect (RowUpd g p j.val)) shapeCasts_S1x16_S16) v154) shapeCasts_S16_S1x16 (ValueIdx.ix2 (0 : Fin 1) x) = _
    rw [pay_lane]
    refine congrArg₂ FloatOps.addf ?_ ?_
    · exact readAt_lanes (b3).view _ _ hj (k0_off45_eq j) x _ rfl
    · exact h154 x
  · intro x
    show shapeCast S1x16 (addf (F := F) (shapeCast S16 (View.readAt (Elt F) (b3).view (Rect.unit (s := S128x128) (k0_off46 j) S1x16.size (k0_off46_inb j)).toLoadRect (RowUpd g p j.val)) shapeCasts_S1x16_S16) v157) shapeCasts_S16_S1x16 (ValueIdx.ix2 (0 : Fin 1) x) = _
    rw [pay_lane]
    refine congrArg₂ FloatOps.addf ?_ ?_
    · exact readAt_lanes (b3).view _ _ hj (k0_off46_eq j) x _ rfl
    · exact h157 x
  · intro x
    show shapeCast S1x16 (addf (F := F) (shapeCast S16 (View.readAt (Elt F) (b3).view (Rect.unit (s := S128x128) (k0_off47 j) S1x16.size (k0_off47_inb j)).toLoadRect (RowUpd g p j.val)) shapeCasts_S1x16_S16) (shapeCast S16 v159 shapeCasts_S1x16_S16)) shapeCasts_S16_S1x16 (ValueIdx.ix2 (0 : Fin 1) x) = _
    rw [pay_lane]
    refine congrArg₂ FloatOps.addf ?_ ?_
    · exact readAt_lanes (b3).view _ _ hj (k0_off47_eq j) x _ rfl
    · exact (cast_lane _ x).trans (h159 x)
  · intro x
    show shapeCast S1x16 (addf (F := F) (shapeCast S16 (View.readAt (Elt F) (b3).view (Rect.unit (s := S128x128) (k0_off48 j) S1x16.size (k0_off48_inb j)).toLoadRect (RowUpd g p j.val)) shapeCasts_S1x16_S16) (shapeCast S16 v162 shapeCasts_S1x16_S16)) shapeCasts_S16_S1x16 (ValueIdx.ix2 (0 : Fin 1) x) = _
    rw [pay_lane]
    refine congrArg₂ FloatOps.addf ?_ ?_
    · exact readAt_lanes (b3).view _ _ hj (k0_off48_eq j) x _ rfl
    · exact (cast_lane _ x).trans (h162 x)
  · intro x
    show shapeCast S1x16 (addf (F := F) (shapeCast S16 (View.readAt (Elt F) (b3).view (Rect.unit (s := S128x128) (k0_off49 j) S1x16.size (k0_off49_inb j)).toLoadRect (RowUpd g p j.val)) shapeCasts_S1x16_S16) (shapeCast S16 v165 shapeCasts_S1x16_S16)) shapeCasts_S16_S1x16 (ValueIdx.ix2 (0 : Fin 1) x) = _
    rw [pay_lane]
    refine congrArg₂ FloatOps.addf ?_ ?_
    · exact readAt_lanes (b3).view _ _ hj (k0_off49_eq j) x _ rfl
    · exact (cast_lane _ x).trans (h165 x)

end Cert.Proof.KI

end
-- ==== Proof.KIPos.lean ====
/-
  The position loads: the eight sixteen-lane loads of row `4 k + r` of the position scratch read that position's row,
  lanes [16 c, 16 c + 16).
-/
import proofs.«205233_g80668075753725_cont_9to1c4b_826_11_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S200x4096 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S4096x200x128 EltTy.f32)
local notation "s0" => (Memref.whole Cert.KernelIdeal.cc0_scratch0 : Memref Cert.KernelIdeal.sig Kind.scVector Space.vmem Cert.KernelIdeal.S200x128 EltTy.i32)
local notation "s1" => (Memref.whole Cert.KernelIdeal.cc0_scratch1 : Memref Cert.KernelIdeal.sig Kind.scVector Space.vmem Cert.KernelIdeal.S200x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable [FloatOps F]

/-! ## The position loads -/

/-- The load of lanes [0, 16) of the position row of position `4 k + r`. -/
theorem posload_0 (d : Dev nD) (L : grid0.Coords) (PP : Buf (Elt F) ((s1).view.loc (thr d L))) (k : Fin k0_t1_loop.trips) (r : Fin 4) (i : Fin 16) :
    View.readAt (Elt F) (s1).view (Rect.unit (s := S200x128) (k0_off3 k (BitVec.ofNat 32 r.val)) S1x16.size (k0_off3_inb k r)).toLoadRect PP
        (ValueIdx.ix2 (0 : Fin 1) i)
      = posRow d L PP (4 * k.val + r.val) ⟨i.val, by omega⟩ := by
  have hk : k.val < 50 := Nat.lt_of_lt_of_le k.isLt k0_t1_abs.2.1
  have hs : 4 * k.val + r.val < 200 := by omega
  refine (readAt_lanes (s1).view PP (k0_off3_inb k r) hs (k0_off3_eq k r) i (⟨i.val, by omega⟩ : Fin 128) (Nat.zero_add _).symm).trans ?_
  exact congrArg (fun a : Fin 200 => PP (ValueIdx.ix2 a (⟨i.val, by omega⟩ : Fin 128))) (Fin.ext (Nat.mod_eq_of_lt hs).symm)

/-- The load of lanes [16, 32) of the position row of position `4 k + r`. -/
theorem posload_1 (d : Dev nD) (L : grid0.Coords) (PP : Buf (Elt F) ((s1).view.loc (thr d L))) (k : Fin k0_t1_loop.trips) (r : Fin 4) (i : Fin 16) :
    View.readAt (Elt F) (s1).view (Rect.unit (s := S200x128) (k0_off4 k (BitVec.ofNat 32 r.val)) S1x16.size (k0_off4_inb k r)).toLoadRect PP
        (ValueIdx.ix2 (0 : Fin 1) i)
      = posRow d L PP (4 * k.val + r.val) ⟨16 + i.val, by omega⟩ := by
  have hk : k.val < 50 := Nat.lt_of_lt_of_le k.isLt k0_t1_abs.2.1
  have hs : 4 * k.val + r.val < 200 := by omega
  refine (readAt_lanes (s1).view PP (k0_off4_inb k r) hs (k0_off4_eq k r) i (⟨16 + i.val, by omega⟩ : Fin 128) rfl).trans ?_
  exact congrArg (fun a : Fin 200 => PP (ValueIdx.ix2 a (⟨16 + i.val, by omega⟩ : Fin 128))) (Fin.ext (Nat.mod_eq_of_lt hs).symm)

/-- The load of lanes [32, 48) of the position row of position `4 k + r`. -/
theorem posload_2 (d : Dev nD) (L : grid0.Coords) (PP : Buf (Elt F) ((s1).view.loc (thr d L))) (k : Fin k0_t1_loop.trips) (r : Fin 4) (i : Fin 16) :
    View.readAt (Elt F) (s1).view (Rect.unit (s := S200x128) (k0_off5 k (BitVec.ofNat 32 r.val)) S1x16.size (k0_off5_inb k r)).toLoadRect PP
        (ValueIdx.ix2 (0 : Fin 1) i)
      = posRow d L PP (4 * k.val + r.val) ⟨32 + i.val, by omega⟩ := by
  have hk : k.val < 50 := Nat.lt_of_lt_of_le k.isLt k0_t1_abs.2.1
  have hs : 4 * k.val + r.val < 200 := by omega
  refine (readAt_lanes (s1).view PP (k0_off5_inb k r) hs (k0_off5_eq k r) i (⟨32 + i.val, by omega⟩ : Fin 128) rfl).trans ?_
  exact congrArg (fun a : Fin 200 => PP (ValueIdx.ix2 a (⟨32 + i.val, by omega⟩ : Fin 128))) (Fin.ext (Nat.mod_eq_of_lt hs).symm)

/-- The load of lanes [48, 64) of the position row of position `4 k + r`. -/
theorem posload_3 (d : Dev nD) (L : grid0.Coords) (PP : Buf (Elt F) ((s1).view.loc (thr d L))) (k : Fin k0_t1_loop.trips) (r : Fin 4) (i : Fin 16) :
    View.readAt (Elt F) (s1).view (Rect.unit (s := S200x128) (k0_off6 k (BitVec.ofNat 32 r.val)) S1x16.size (k0_off6_inb k r)).toLoadRect PP
        (ValueIdx.ix2 (0 : Fin 1) i)
      = posRow d L PP (4 * k.val + r.val) ⟨48 + i.val, by omega⟩ := by
  have hk : k.val < 50 := Nat.lt_of_lt_of_le k.isLt k0_t1_abs.2.1
  have hs : 4 * k.val + r.val < 200 := by omega
  refine (readAt_lanes (s1).view PP (k0_off6_inb k r) hs (k0_off6_eq k r) i (⟨48 + i.val, by omega⟩ : Fin 128) rfl).trans ?_
  exact congrArg (fun a : Fin 200 => PP (ValueIdx.ix2 a (⟨48 + i.val, by omega⟩ : Fin 128))) (Fin.ext (Nat.mod_eq_of_lt hs).symm)

/-- The load of lanes [64, 80) of the position row of position `4 k + r`. -/
theorem posload_4 (d : Dev nD) (L : grid0.Coords) (PP : Buf (Elt F) ((s1).view.loc (thr d L))) (k : Fin k0_t1_loop.trips) (r : Fin 4) (i : Fin 16) :
    View.readAt (Elt F) (s1).view (Rect.unit (s := S200x128) (k0_off7 k (BitVec.ofNat 32 r.val)) S1x16.size (k0_off7_inb k r)).toLoadRect PP
        (ValueIdx.ix2 (0 : Fin 1) i)
      = posRow d L PP (4 * k.val + r.val) ⟨64 + i.val, by omega⟩ := by
  have hk : k.val < 50 := Nat.lt_of_lt_of_le k.isLt k0_t1_abs.2.1
  have hs : 4 * k.val + r.val < 200 := by omega
  refine (readAt_lanes (s1).view PP (k0_off7_inb k r) hs (k0_off7_eq k r) i (⟨64 + i.val, by omega⟩ : Fin 128) rfl).trans ?_
  exact congrArg (fun a : Fin 200 => PP (ValueIdx.ix2 a (⟨64 + i.val, by omega⟩ : Fin 128))) (Fin.ext (Nat.mod_eq_of_lt hs).symm)

/-- The load of lanes [80, 96) of the position row of position `4 k + r`. -/
theorem posload_5 (d : Dev nD) (L : grid0.Coords) (PP : Buf (Elt F) ((s1).view.loc (thr d L))) (k : Fin k0_t1_loop.trips) (r : Fin 4) (i : Fin 16) :
    View.readAt (Elt F) (s1).view (Rect.unit (s := S200x128) (k0_off8 k (BitVec.ofNat 32 r.val)) S1x16.size (k0_off8_inb k r)).toLoadRect PP
        (ValueIdx.ix2 (0 : Fin 1) i)
      = posRow d L PP (4 * k.val + r.val) ⟨80 + i.val, by omega⟩ := by
  have hk : k.val < 50 := Nat.lt_of_lt_of_le k.isLt k0_t1_abs.2.1
  have hs : 4 * k.val + r.val < 200 := by omega
  refine (readAt_lanes (s1).view PP (k0_off8_inb k r) hs (k0_off8_eq k r) i (⟨80 + i.val, by omega⟩ : Fin 128) rfl).trans ?_
  exact congrArg (fun a : Fin 200 => PP (ValueIdx.ix2 a (⟨80 + i.val, by omega⟩ : Fin 128))) (Fin.ext (Nat.mod_eq_of_lt hs).symm)

/-- The load of lanes [96, 112) of the position row of position `4 k + r`. -/
theorem posload_6 (d : Dev nD) (L : grid0.Coords) (PP : Buf (Elt F) ((s1).view.loc (thr d L))) (k : Fin k0_t1_loop.trips) (r : Fin 4) (i : Fin 16) :
    View.readAt (Elt F) (s1).view (Rect.unit (s := S200x128) (k0_off9 k (BitVec.ofNat 32 r.val)) S1x16.size (k0_off9_inb k r)).toLoadRect PP
        (ValueIdx.ix2 (0 : Fin 1) i)
      = posRow d L PP (4 * k.val + r.val) ⟨96 + i.val, by omega⟩ := by
  have hk : k.val < 50 := Nat.lt_of_lt_of_le k.isLt k0_t1_abs.2.1
  have hs : 4 * k.val + r.val < 200 := by omega
  refine (readAt_lanes (s1).view PP (k0_off9_inb k r) hs (k0_off9_eq k r) i (⟨96 + i.val, by omega⟩ : Fin 128) rfl).trans ?_
  exact congrArg (fun a : Fin 200 => PP (ValueIdx.ix2 a (⟨96 + i.val, by omega⟩ : Fin 128))) (Fin.ext (Nat.mod_eq_of_lt hs).symm)

/-- The load of lanes [112, 128) of the position row of position `4 k + r`. -/
theorem posload_7 (d : Dev nD) (L : grid0.Coords) (PP : Buf (Elt F) ((s1).view.loc (thr d L))) (k : Fin k0_t1_loop.trips) (r : Fin 4) (i : Fin 16) :
    View.readAt (Elt F) (s1).view (Rect.unit (s := S200x128) (k0_off10 k (BitVec.ofNat 32 r.val)) S1x16.size (k0_off10_inb k r)).toLoadRect PP
        (ValueIdx.ix2 (0 : Fin 1) i)
      = posRow d L PP (4 * k.val + r.val) ⟨112 + i.val, by omega⟩ := by
  have hk : k.val < 50 := Nat.lt_of_lt_of_le k.isLt k0_t1_abs.2.1
  have hs : 4 * k.val + r.val < 200 := by omega
  refine (readAt_lanes (s1).view PP (k0_off10_inb k r) hs (k0_off10_eq k r) i (⟨112 + i.val, by omega⟩ : Fin 128) rfl).trans ?_
  exact congrArg (fun a : Fin 200 => PP (ValueIdx.ix2 a (⟨112 + i.val, by omega⟩ : Fin 128))) (Fin.ext (Nat.mod_eq_of_lt hs).symm)

end Cert.Proof.KI

end
-- ==== Proof.KITrip0.lean ====
/-
  One trip of the position loop works on four positions, one per buffer of the ring; inside it each buffer's 128 rows
  get the position row added in an inner loop, whose state after n trips is the buffer with its first n rows updated.
-/
import proofs.«205233_g80668075753725_cont_9to1c4b_826_11_alg».proof.Proof.KIConv
import proofs.«205233_g80668075753725_cont_9to1c4b_826_11_alg».proof.Proof.KIInner
import proofs.«205233_g80668075753725_cont_9to1c4b_826_11_alg».proof.Proof.KIPos

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S200x4096 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S4096x200x128 EltTy.f32)
local notation "s0" => (Memref.whole Cert.KernelIdeal.cc0_scratch0 : Memref Cert.KernelIdeal.sig Kind.scVector Space.vmem Cert.KernelIdeal.S200x128 EltTy.i32)
local notation "s1" => (Memref.whole Cert.KernelIdeal.cc0_scratch1 : Memref Cert.KernelIdeal.sig Kind.scVector Space.vmem Cert.KernelIdeal.S200x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable [FloatOps F]

section Trip

variable (d : Dev nD) (L : grid0.Coords)

abbrev invB0 (g : Buf (Elt F) ((b0).view.loc (thr d L))) (p : Fin 128 → F .f32) (n : Nat) (_ : PUnit) : sProp 𝕄 :=
  (b0).view.loc (thr d L) ↦[(b0).view.set]{fullShare} (RowUpd g p n)
abbrev invB1 (g : Buf (Elt F) ((b1).view.loc (thr d L))) (p : Fin 128 → F .f32) (n : Nat) (_ : PUnit) : sProp 𝕄 :=
  (b1).view.loc (thr d L) ↦[(b1).view.set]{fullShare} (RowUpd g p n)
abbrev invB2 (g : Buf (Elt F) ((b2).view.loc (thr d L))) (p : Fin 128 → F .f32) (n : Nat) (_ : PUnit) : sProp 𝕄 :=
  (b2).view.loc (thr d L) ↦[(b2).view.set]{fullShare} (RowUpd g p n)
abbrev invB3 (g : Buf (Elt F) ((b3).view.loc (thr d L))) (p : Fin 128 → F .f32) (n : Nat) (_ : PUnit) : sProp 𝕄 :=
  (b3).view.loc (thr d L) ↦[(b3).view.set]{fullShare} (RowUpd g p n)

end Trip

end Cert.Proof.KI

end
-- ==== Proof.KITripA.lean ====
/-
  The first trip of the position loop (positions 0 … 3): as a middle trip, except that no copy-out is outstanding yet, so
  buffers 2 and 3 are taken as they stand.
-/
import proofs.«205233_g80668075753725_cont_9to1c4b_826_11_alg».proof.Proof.KITrip0

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S200x4096 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S4096x200x128 EltTy.f32)
local notation "s0" => (Memref.whole Cert.KernelIdeal.cc0_scratch0 : Memref Cert.KernelIdeal.sig Kind.scVector Space.vmem Cert.KernelIdeal.S200x128 EltTy.i32)
local notation "s1" => (Memref.whole Cert.KernelIdeal.cc0_scratch1 : Memref Cert.KernelIdeal.sig Kind.scVector Space.vmem Cert.KernelIdeal.S200x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable [FloatOps F]
section Trip

variable (d : Dev nD) (L : grid0.Coords) (qt : PosShare TreeShare)
  (ft : Buf (Elt F) ((tV).view.loc (thr d L))) (II : Buf (Elt F) ((s0).view.loc (thr d L))) (PP : Buf (Elt F) ((s1).view.loc (thr d L)))
  (fo go : Buf (Elt F) ((oV).view.loc (thr d L))) (O : CellTallies nD τ sig (HIx 1)) (W : Waits sig (HIx 1))

set_option maxHeartbeats 4000000 in
theorem trip_first (hII : ∀ i, (II i).toNat < 100000) (hgo : GoOK d L ft II PP go) (k : Fin k0_t1_loop.trips) (hk : k.val = 0) :
    inv d L qt ft II PP fo go O W k.val ⟨⟩
      ⊢ wp frame (wpE (defs₀ (F := F)) 𝒱₀ (thr d L) none) Set.univ (k0_t1_body (F := F) L iV (Memref.isWhole_whole _) tV (Memref.isWhole_whole _) pV (Memref.isWhole_whole _) oV (Memref.isWhole_whole _) s0 (Memref.isWhole_whole _) s1 (Memref.isWhole_whole _) b0 (Memref.isWhole_whole _) b1 (Memref.isWhole_whole _) b2 (Memref.isWhole_whole _) b3 (Memref.isWhole_whole _) cc0_scratch6 cc0_scratch7 cc0_scratch8 cc0_scratch9 cc0_scratch10 cc0_scratch11 cc0_scratch12 cc0_scratch13 cc0_scoped0 cc0_scoped1 k ⟨⟩)
          (fun a => inv d L qt ft II PP fo go O W (k.val + 1) a) := by
  have h1 : ¬ k0_cond1 k = 1#1 := fun h => by have := (cond1_iff k).mp h; omega
  have h2 : k0_cond2 k = 1#1 := cond2_iff k
  have h3 : ¬ k0_cond3 k = 1#1 := fun h => by have := (cond3_iff k).mp h; omega
  have h4 : k0_cond4 k = 1#1 := cond4_iff k
  have h5 : k0_cond5 k = 1#1 := cond5_iff k
  have h6 : k0_cond6 k = 1#1 := (cond6_iff k).mpr (by omega)
  have h7 : k0_cond7 k = 1#1 := cond7_iff k
  have h8 : k0_cond8 k = 1#1 := (cond8_iff k).mpr (by omega)
  have hin := hinM d L II hII
  unfold inv
  rw [if_pos (show k.val < 50 by omega), if_neg (show ¬ 0 < k.val by omega), if_pos (show k.val + 1 < 50 by omega), if_pos (show 0 < k.val + 1 by omega)]
  rw [Ico4 (RowP d L II) (4 * k.val + 2) (by omega), Ico4 (WinP d L fo) (4 * k.val) (by omega)]
  iintro ⟨Hmw, Hpos, HT2, HT3, Hc2, Hc3, Hc4, Hc5, ⟨HF0, HF1⟩, ⟨⟨%f2, HB2⟩, ⟨%f3, HB3⟩, Hc6, Hc7⟩, Hrd, ⟨Hr2, Hr3, Hr4, Hr5, Hrp⟩, Hwd, ⟨Hw0, Hw1, Hw2, Hw3, Hwp⟩, %W', %hW', HO⟩
  ihave Hr2 := (Entails.of_eq (pts_rowM d L (inb := k0_off21_inb k h2) (k0_off21_eq k) fullShare II).symm) $$ Hr2
  ihave Hr3 := (Entails.of_eq (pts_rowM d L (inb := k0_off31_inb k h4) (k0_off31_eq k) fullShare II).symm) $$ Hr3
  ihave Hr4 := (Entails.of_eq (pts_rowM d L (inb := k0_off41_inb k h6) (k0_off41_eq k) fullShare II).symm) $$ Hr4
  ihave Hr5 := (Entails.of_eq (pts_rowM d L (inb := k0_off51_inb k h8) (k0_off51_eq k) fullShare II).symm) $$ Hr5
  ihave Hw0 := (Entails.of_eq (pts_winM d L (inb := k0_off19_inb L k 0) (k0_off19_eq L k 0) fullShare fo).symm) $$ Hw0
  ihave Hw1 := (Entails.of_eq (pts_winM d L (inb := k0_off19_inb L k 1) (k0_off19_eq L k 1) fullShare fo).symm) $$ Hw1
  ihave Hw2 := (Entails.of_eq (pts_winM d L (inb := k0_off19_inb L k 2) (k0_off19_eq L k 2) fullShare fo).symm) $$ Hw2
  ihave Hw3 := (Entails.of_eq (pts_winM d L (inb := k0_off19_inb L k 3) (k0_off19_eq L k 3) fullShare fo).symm) $$ Hw3
  unfold k0_t1_body
  sl_exec
  icases HF0_dst with ⟨Hb0, Hrow0⟩
  sl_for (invB0 d L (Gath d L ft II (4 * k.val)) (posRow d L PP (4 * k.val))) $$ [Hb0]
  case region =>
    intro j _
    exact inner_t2 d L k j _ _ _ _ _ _ _ _ _ _ (posload_0 d L PP k 0) (posload_1 d L PP k 0) (posload_2 d L PP k 0) (posload_3 d L PP k 0)
      (posload_4 d L PP k 0) (posload_5 d L PP k 0) (posload_6 d L PP k 0) (posload_7 d L PP k 0)
  · unfold invB0; rw [RowUpd_zero]; iexact Hb0
  iintro %_ Hb0
  sl_exec
  icases HF1_dst with ⟨Hb1, Hrow1⟩
  sl_for (invB1 d L (Gath d L ft II (4 * k.val + 1)) (posRow d L PP (4 * k.val + 1))) $$ [Hb1]
  case region =>
    intro j _
    exact inner_t3 d L k _ _ _ j _ _ _ _ _ _ _ _ _ _ (posload_0 d L PP k 1) (posload_1 d L PP k 1) (posload_2 d L PP k 1) (posload_3 d L PP k 1)
      (posload_4 d L PP k 1) (posload_5 d L PP k 1) (posload_6 d L PP k 1) (posload_7 d L PP k 1)
  · unfold invB1; rw [RowUpd_zero]; iexact Hb1
  iintro %_ Hb1
  sl_exec
  -- position 4 k + 2
  ihave Hb2 := (gathP2 d L ft II (s := 4 * k.val + 2) (k0_off21_eq k) (by omega) _ (trip_first.sl.gather1 d L ft II k h2 hin) rfl) $$ HB2
  sl_for (invB2 d L (Gath d L ft II (4 * k.val + 2)) (posRow d L PP (4 * k.val + 2))) $$ [Hb2]
  case region =>
    intro j _
    exact inner_t4 d L k _ _ j _ _ _ _ _ _ _ _ _ _ (fun i => (cast_lane _ i).trans (posload_0 d L PP k 2 i)) (fun i => (cast_lane _ i).trans (posload_1 d L PP k 2 i))
      (fun i => (cast_lane _ i).trans (posload_2 d L PP k 2 i)) (fun i => (cast_lane _ i).trans (posload_3 d L PP k 2 i))
      (fun i => (cast_lane _ i).trans (posload_4 d L PP k 2 i)) (fun i => (cast_lane _ i).trans (posload_5 d L PP k 2 i))
      (fun i => (cast_lane _ i).trans (posload_6 d L PP k 2 i)) (posload_7 d L PP k 2)
  · unfold invB2; rw [RowUpd_zero]; iexact Hb2
  iintro %_ Hb2
  sl_exec
  -- position 4 k + 3
  ihave Hb3 := (gathP3 d L ft II (s := 4 * k.val + 3) (k0_off31_eq k) (by omega) _ (trip_first.sl.gather1_1 d L ft II k h4 hin) rfl) $$ HB3
  sl_for (invB3 d L (Gath d L ft II (4 * k.val + 3)) (posRow d L PP (4 * k.val + 3))) $$ [Hb3]
  case region =>
    intro j _
    exact inner_t5 d L j _ _ _ _ _ _ _ _ _ _ (fun i => (cast_lane _ i).trans (posload_0 d L PP k 3 i)) (fun i => (cast_lane _ i).trans (posload_1 d L PP k 3 i))
      (fun i => (cast_lane _ i).trans (posload_2 d L PP k 3 i)) (fun i => (cast_lane _ i).trans (posload_3 d L PP k 3 i))
      (fun i => (cast_lane _ i).trans (posload_4 d L PP k 3 i)) (posload_5 d L PP k 3) (posload_6 d L PP k 3) (posload_7 d L PP k 3)
  · unfold invB3; rw [RowUpd_zero]; iexact Hb3
  iintro %_ Hb3
  sl_exec
  sl_step
  ihave Hr2 := (Entails.of_eq (pts_rowM d L (k0_off21_eq k) fullShare II)) $$ Hr2
  ihave Hr3 := (Entails.of_eq (pts_rowM d L (k0_off31_eq k) fullShare II)) $$ Hr3
  rw [show 4 * (k.val + 1) - 2 = 4 * k.val + 2 by omega, show 4 * (k.val + 1) - 1 = 4 * k.val + 3 by omega, show 4 * (k.val + 1) + 2 = 4 * k.val + 2 + 4 by omega,
    show 4 * (k.val + 1) + 1 = 4 * k.val + 5 by omega, show 4 * (k.val + 1) = 4 * k.val + 4 by omega]
  rw [range4 (RowP d L II) (4 * k.val)]
  isplitl [Hmw]; · iexact Hmw
  isplitl [Hpos]; · iexact Hpos
  isplitl [HT2]; · iexact HT2
  isplitl [HT3]; · iexact HT3
  isplitl [Hc2]; · iexact Hc2
  isplitl [Hc3]; · iexact Hc3
  isplitl [Hc4]; · iexact Hc4
  isplitl [Hc5]; · iexact Hc5
  isplitl [HF0 HF1]
  · isplitl [HF0]
    · iapply (fg0 d L qt ft II (s := 4 * k.val + 4) (k0_off41_eq k) (by omega) _ (trip_first.sl.gather1_2 d L ft II k h6 hin) rfl); iexact HF0
    · iapply (fg1 d L qt ft II (s := 4 * k.val + 5) (k0_off51_eq k) (by omega) _ (trip_first.sl.gather1_3 d L ft II k h8 hin) rfl); iexact HF1
  isplitl [Hc6 Hc7]
  · isplitl [Hc6]
    · iapply (fs2 d L ft II PP fo go (s := 4 * k.val + 2) (k0_off19_eq L k 2) (by omega) hgo (Scf.trips k0_t4_loop.lb k0_t4_loop.ub k0_t4_loop.st) rfl (trip_first.sl.dma0_2 d L ft II PP k) rfl); iexact Hc6
    · iapply (fs3 d L ft II PP fo go (s := 4 * k.val + 3) (k0_off19_eq L k 3) (by omega) hgo (Scf.trips k0_t5_loop.lb k0_t5_loop.ub k0_t5_loop.st) rfl (trip_first.sl.dma0_3 d L ft II PP k) rfl); iexact Hc7
  isplitl [Hr3 Hr2 Hrow1 Hrow0 Hrd]
  · isplitl [Hr3]; · iexact Hr3
    isplitl [Hr2]; · iexact Hr2
    isplitl [Hrow1]; · iexact Hrow1
    isplitl [Hrow0]; · iexact Hrow0
    iexact Hrd
  isplitl [Hrp]; · iexact Hrp
  rw [winsDone_first (WinP d L go) k.val hk]
  isplitl [Hw1 Hw0 Hwd]
  · isplitl [Hw1]; · iapply (windone1 d L ft II PP _ go (s := 4 * k.val + 1) (k0_off19_eq L k 1) (by omega) hgo (Scf.trips k0_t3_loop.lb k0_t3_loop.ub k0_t3_loop.st) rfl (trip_first.sl.dma0_1 d L ft II PP k) rfl); iexact Hw1
    isplitl [Hw0]; · iapply (windone0 d L ft II PP _ go (s := 4 * k.val) (k0_off19_eq L k 0) (by omega) hgo (Scf.trips k0_t2_loop.lb k0_t2_loop.ub k0_t2_loop.st) rfl (trip_first.sl.dma0 d L ft II PP k) rfl); iexact Hw0
    iexact Hwd
  isplitl [Hwp]; · iexact Hwp
  iexists _; isplitr
  swap; · iexact HO
  ipureintro
  intro p hp
  simp only [Finset.mem_insert] at hp
  rcases hp with rfl | rfl | rfl | rfl | rfl | rfl | hp
  all_goals first | exact .inr rfl | exact hW' p hp

end Trip

end Cert.Proof.KI

end
-- ==== Proof.KITripB.lean ====
/-
  A trip of the position loop in the middle of the run (positions 4 k … 4 k + 3, 0 < k < 49): the two gathers in flight
  land, each of the four buffers gets its position row added and is copied out, the copy-outs of two trips ago and of
  this trip's first two positions are waited for, and the next four gathers are issued; the ring is back in the state
  the next trip expects.
-/
import proofs.«205233_g80668075753725_cont_9to1c4b_826_11_alg».proof.Proof.KITrip0

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S200x4096 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S4096x200x128 EltTy.f32)
local notation "s0" => (Memref.whole Cert.KernelIdeal.cc0_scratch0 : Memref Cert.KernelIdeal.sig Kind.scVector Space.vmem Cert.KernelIdeal.S200x128 EltTy.i32)
local notation "s1" => (Memref.whole Cert.KernelIdeal.cc0_scratch1 : Memref Cert.KernelIdeal.sig Kind.scVector Space.vmem Cert.KernelIdeal.S200x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable [FloatOps F]
section Trip

variable (d : Dev nD) (L : grid0.Coords) (qt : PosShare TreeShare)
  (ft : Buf (Elt F) ((tV).view.loc (thr d L))) (II : Buf (Elt F) ((s0).view.loc (thr d L))) (PP : Buf (Elt F) ((s1).view.loc (thr d L)))
  (fo go : Buf (Elt F) ((oV).view.loc (thr d L))) (O : CellTallies nD τ sig (HIx 1)) (W : Waits sig (HIx 1))
set_option maxHeartbeats 4000000 in
theorem trip_mid (hII : ∀ i, (II i).toNat < 100000) (hgo : GoOK d L ft II PP go) (k : Fin k0_t1_loop.trips) (hk0 : 0 < k.val) (hk49 : k.val < 49) :
    inv d L qt ft II PP fo go O W k.val ⟨⟩
      ⊢ wp frame (wpE (defs₀ (F := F)) 𝒱₀ (thr d L) none) Set.univ (k0_t1_body (F := F) L iV (Memref.isWhole_whole _) tV (Memref.isWhole_whole _) pV (Memref.isWhole_whole _) oV (Memref.isWhole_whole _) s0 (Memref.isWhole_whole _) s1 (Memref.isWhole_whole _) b0 (Memref.isWhole_whole _) b1 (Memref.isWhole_whole _) b2 (Memref.isWhole_whole _) b3 (Memref.isWhole_whole _) cc0_scratch6 cc0_scratch7 cc0_scratch8 cc0_scratch9 cc0_scratch10 cc0_scratch11 cc0_scratch12 cc0_scratch13 cc0_scoped0 cc0_scoped1 k ⟨⟩)
          (fun a => inv d L qt ft II PP fo go O W (k.val + 1) a) := by
  have h1 : k0_cond1 k = 1#1 := (cond1_iff k).mpr hk0
  have h2 : k0_cond2 k = 1#1 := cond2_iff k
  have h3 : k0_cond3 k = 1#1 := (cond3_iff k).mpr hk0
  have h4 : k0_cond4 k = 1#1 := cond4_iff k
  have h5 : k0_cond5 k = 1#1 := cond5_iff k
  have h6 : k0_cond6 k = 1#1 := (cond6_iff k).mpr hk49
  have h7 : k0_cond7 k = 1#1 := cond7_iff k
  have h8 : k0_cond8 k = 1#1 := (cond8_iff k).mpr hk49
  have hin := hinM d L II hII
  unfold inv
  rw [if_pos (show k.val < 50 by omega), if_pos hk0, if_pos (show k.val + 1 < 50 by omega), if_pos (show 0 < k.val + 1 by omega)]
  rw [Ico4 (RowP d L II) (4 * k.val + 2) (by omega), Ico4 (WinP d L fo) (4 * k.val) (by omega)]
  iintro ⟨Hmw, Hpos, HT2, HT3, Hc2, Hc3, Hc4, Hc5, ⟨HF0, HF1⟩, ⟨HF6, HF7⟩, Hrd, ⟨Hr2, Hr3, Hr4, Hr5, Hrp⟩, Hwd, ⟨Hw0, Hw1, Hw2, Hw3, Hwp⟩, %W', %hW', HO⟩
  ihave Hr2 := (Entails.of_eq (pts_rowM d L (inb := k0_off21_inb k h2) (k0_off21_eq k) fullShare II).symm) $$ Hr2
  ihave Hr3 := (Entails.of_eq (pts_rowM d L (inb := k0_off31_inb k h4) (k0_off31_eq k) fullShare II).symm) $$ Hr3
  ihave Hr4 := (Entails.of_eq (pts_rowM d L (inb := k0_off41_inb k h6) (k0_off41_eq k) fullShare II).symm) $$ Hr4
  ihave Hr5 := (Entails.of_eq (pts_rowM d L (inb := k0_off51_inb k h8) (k0_off51_eq k) fullShare II).symm) $$ Hr5
  ihave Hw0 := (Entails.of_eq (pts_winM d L (inb := k0_off19_inb L k 0) (k0_off19_eq L k 0) fullShare fo).symm) $$ Hw0
  ihave Hw1 := (Entails.of_eq (pts_winM d L (inb := k0_off19_inb L k 1) (k0_off19_eq L k 1) fullShare fo).symm) $$ Hw1
  ihave Hw2 := (Entails.of_eq (pts_winM d L (inb := k0_off19_inb L k 2) (k0_off19_eq L k 2) fullShare fo).symm) $$ Hw2
  ihave Hw3 := (Entails.of_eq (pts_winM d L (inb := k0_off19_inb L k 3) (k0_off19_eq L k 3) fullShare fo).symm) $$ Hw3
  unfold k0_t1_body
  sl_exec
  icases HF0_dst with ⟨Hb0, Hrow0⟩
  sl_for (invB0 d L (Gath d L ft II (4 * k.val)) (posRow d L PP (4 * k.val))) $$ [Hb0]
  case region =>
    intro j _
    exact inner_t2 d L k j _ _ _ _ _ _ _ _ _ _ (posload_0 d L PP k 0) (posload_1 d L PP k 0) (posload_2 d L PP k 0) (posload_3 d L PP k 0)
      (posload_4 d L PP k 0) (posload_5 d L PP k 0) (posload_6 d L PP k 0) (posload_7 d L PP k 0)
  · unfold invB0; rw [RowUpd_zero]; iexact Hb0
  iintro %_ Hb0
  sl_exec
  -- position 4 k + 1
  icases HF1_dst with ⟨Hb1, Hrow1⟩
  sl_for (invB1 d L (Gath d L ft II (4 * k.val + 1)) (posRow d L PP (4 * k.val + 1))) $$ [Hb1]
  case region =>
    intro j _
    exact inner_t3 d L k _ _ _ j _ _ _ _ _ _ _ _ _ _ (posload_0 d L PP k 1) (posload_1 d L PP k 1) (posload_2 d L PP k 1) (posload_3 d L PP k 1)
      (posload_4 d L PP k 1) (posload_5 d L PP k 1) (posload_6 d L PP k 1) (posload_7 d L PP k 1)
  · unfold invB1; rw [RowUpd_zero]; iexact Hb1
  iintro %_ Hb1
  sl_exec
  -- position 4 k + 2
  ihave Hb2 := (gathP2 d L ft II (s := 4 * k.val + 2) (k0_off21_eq k) (by omega) _ (trip_mid.sl.gather1 d L ft II k h2 hin) rfl) $$ HF6_src
  sl_for (invB2 d L (Gath d L ft II (4 * k.val + 2)) (posRow d L PP (4 * k.val + 2))) $$ [Hb2]
  case region =>
    intro j _
    exact inner_t4 d L k _ _ j _ _ _ _ _ _ _ _ _ _ (fun i => (cast_lane _ i).trans (posload_0 d L PP k 2 i)) (fun i => (cast_lane _ i).trans (posload_1 d L PP k 2 i))
      (fun i => (cast_lane _ i).trans (posload_2 d L PP k 2 i)) (fun i => (cast_lane _ i).trans (posload_3 d L PP k 2 i))
      (fun i => (cast_lane _ i).trans (posload_4 d L PP k 2 i)) (fun i => (cast_lane _ i).trans (posload_5 d L PP k 2 i))
      (fun i => (cast_lane _ i).trans (posload_6 d L PP k 2 i)) (posload_7 d L PP k 2)
  · unfold invB2; rw [RowUpd_zero]; iexact Hb2
  iintro %_ Hb2
  sl_exec
  -- position 4 k + 3
  ihave Hb3 := (gathP3 d L ft II (s := 4 * k.val + 3) (k0_off31_eq k) (by omega) _ (trip_mid.sl.gather1_1 d L ft II k h4 hin) rfl) $$ HF7_src
  sl_for (invB3 d L (Gath d L ft II (4 * k.val + 3)) (posRow d L PP (4 * k.val + 3))) $$ [Hb3]
  case region =>
    intro j _
    exact inner_t5 d L j _ _ _ _ _ _ _ _ _ _ (fun i => (cast_lane _ i).trans (posload_0 d L PP k 3 i)) (fun i => (cast_lane _ i).trans (posload_1 d L PP k 3 i))
      (fun i => (cast_lane _ i).trans (posload_2 d L PP k 3 i)) (fun i => (cast_lane _ i).trans (posload_3 d L PP k 3 i))
      (fun i => (cast_lane _ i).trans (posload_4 d L PP k 3 i)) (posload_5 d L PP k 3) (posload_6 d L PP k 3) (posload_7 d L PP k 3)
  · unfold invB3; rw [RowUpd_zero]; iexact Hb3
  iintro %_ Hb3
  sl_exec
  sl_step
  ihave Hr2 := (Entails.of_eq (pts_rowM d L (k0_off21_eq k) fullShare II)) $$ Hr2
  ihave Hr3 := (Entails.of_eq (pts_rowM d L (k0_off31_eq k) fullShare II)) $$ Hr3
  rw [show 4 * (k.val + 1) - 2 = 4 * k.val + 2 by omega, show 4 * (k.val + 1) - 1 = 4 * k.val + 3 by omega, show 4 * (k.val + 1) + 2 = 4 * k.val + 2 + 4 by omega,
    show 4 * (k.val + 1) + 1 = 4 * k.val + 5 by omega, show 4 * (k.val + 1) = 4 * k.val + 4 by omega]
  rw [range4 (RowP d L II) (4 * k.val)]
  isplitl [Hmw]; · iexact Hmw
  isplitl [Hpos]; · iexact Hpos
  isplitl [HT2]; · iexact HT2
  isplitl [HT3]; · iexact HT3
  isplitl [Hc2]; · iexact Hc2
  isplitl [Hc3]; · iexact Hc3
  isplitl [Hc4]; · iexact Hc4
  isplitl [Hc5]; · iexact Hc5
  isplitl [HF0 HF1]
  · isplitl [HF0]
    · iapply (fg0 d L qt ft II (s := 4 * k.val + 4) (k0_off41_eq k) (by omega) _ (trip_mid.sl.gather1_2 d L ft II k h6 hin) rfl); iexact HF0
    · iapply (fg1 d L qt ft II (s := 4 * k.val + 5) (k0_off51_eq k) (by omega) _ (trip_mid.sl.gather1_3 d L ft II k h8 hin) rfl); iexact HF1
  isplitl [HF6 HF7]
  · isplitl [HF6]
    · iapply (fs2 d L ft II PP fo go (s := 4 * k.val + 2) (k0_off19_eq L k 2) (by omega) hgo (Scf.trips k0_t4_loop.lb k0_t4_loop.ub k0_t4_loop.st) rfl (trip_mid.sl.dma0_2 d L ft II PP k) rfl); iexact HF6
    · iapply (fs3 d L ft II PP fo go (s := 4 * k.val + 3) (k0_off19_eq L k 3) (by omega) hgo (Scf.trips k0_t5_loop.lb k0_t5_loop.ub k0_t5_loop.st) rfl (trip_mid.sl.dma0_3 d L ft II PP k) rfl); iexact HF7
  isplitl [Hr3 Hr2 Hrow1 Hrow0 Hrd]
  · isplitl [Hr3]; · iexact Hr3
    isplitl [Hr2]; · iexact Hr2
    isplitl [Hrow1]; · iexact Hrow1
    isplitl [Hrow0]; · iexact Hrow0
    iexact Hrd
  isplitl [Hrp]; · iexact Hrp
  rw [winsDone_mid (WinP d L go) k.val (by omega)]
  isplitl [Hw1 Hw0 HF7_dst HF6_dst Hwd]
  · isplitl [Hw1]; · iapply (windone1 d L ft II PP _ go (s := 4 * k.val + 1) (k0_off19_eq L k 1) (by omega) hgo (Scf.trips k0_t3_loop.lb k0_t3_loop.ub k0_t3_loop.st) rfl (trip_mid.sl.dma0_1 d L ft II PP k) rfl); iexact Hw1
    isplitl [Hw0]; · iapply (windone0 d L ft II PP _ go (s := 4 * k.val) (k0_off19_eq L k 0) (by omega) hgo (Scf.trips k0_t2_loop.lb k0_t2_loop.ub k0_t2_loop.st) rfl (trip_mid.sl.dma0 d L ft II PP k) rfl); iexact Hw0
    isplitl [HF7_dst]; · iexact HF7_dst
    isplitl [HF6_dst]; · iexact HF6_dst
    iexact Hwd
  isplitl [Hwp]; · iexact Hwp
  iexists _; isplitr
  swap; · iexact HO
  ipureintro
  intro p hp
  simp only [Finset.mem_insert] at hp
  rcases hp with rfl | rfl | rfl | rfl | rfl | rfl | rfl | rfl | hp
  all_goals first | exact .inr rfl | exact hW' p hp

end Trip

end Cert.Proof.KI

end
-- ==== Proof.KITripC.lean ====
/-
  The last trip of the position loop (positions 196 … 199): as a middle trip, except that no further gather is issued, so
  buffers 0 and 1 come back free.
-/
import proofs.«205233_g80668075753725_cont_9to1c4b_826_11_alg».proof.Proof.KITrip0

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S200x4096 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S4096x200x128 EltTy.f32)
local notation "s0" => (Memref.whole Cert.KernelIdeal.cc0_scratch0 : Memref Cert.KernelIdeal.sig Kind.scVector Space.vmem Cert.KernelIdeal.S200x128 EltTy.i32)
local notation "s1" => (Memref.whole Cert.KernelIdeal.cc0_scratch1 : Memref Cert.KernelIdeal.sig Kind.scVector Space.vmem Cert.KernelIdeal.S200x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable [FloatOps F]
section Trip

variable (d : Dev nD) (L : grid0.Coords) (qt : PosShare TreeShare)
  (ft : Buf (Elt F) ((tV).view.loc (thr d L))) (II : Buf (Elt F) ((s0).view.loc (thr d L))) (PP : Buf (Elt F) ((s1).view.loc (thr d L)))
  (fo go : Buf (Elt F) ((oV).view.loc (thr d L))) (O : CellTallies nD τ sig (HIx 1)) (W : Waits sig (HIx 1))

set_option maxHeartbeats 4000000 in
theorem trip_last (hII : ∀ i, (II i).toNat < 100000) (hgo : GoOK d L ft II PP go) (k : Fin k0_t1_loop.trips) (hk : k.val = 49) :
    inv d L qt ft II PP fo go O W k.val ⟨⟩
      ⊢ wp frame (wpE (defs₀ (F := F)) 𝒱₀ (thr d L) none) Set.univ (k0_t1_body (F := F) L iV (Memref.isWhole_whole _) tV (Memref.isWhole_whole _) pV (Memref.isWhole_whole _) oV (Memref.isWhole_whole _) s0 (Memref.isWhole_whole _) s1 (Memref.isWhole_whole _) b0 (Memref.isWhole_whole _) b1 (Memref.isWhole_whole _) b2 (Memref.isWhole_whole _) b3 (Memref.isWhole_whole _) cc0_scratch6 cc0_scratch7 cc0_scratch8 cc0_scratch9 cc0_scratch10 cc0_scratch11 cc0_scratch12 cc0_scratch13 cc0_scoped0 cc0_scoped1 k ⟨⟩)
          (fun a => inv d L qt ft II PP fo go O W (k.val + 1) a) := by
  have h1 : k0_cond1 k = 1#1 := (cond1_iff k).mpr (by omega)
  have h2 : k0_cond2 k = 1#1 := cond2_iff k
  have h3 : k0_cond3 k = 1#1 := (cond3_iff k).mpr (by omega)
  have h4 : k0_cond4 k = 1#1 := cond4_iff k
  have h5 : k0_cond5 k = 1#1 := cond5_iff k
  have h6 : ¬ k0_cond6 k = 1#1 := fun h => by have := (cond6_iff k).mp h; omega
  have h7 : k0_cond7 k = 1#1 := cond7_iff k
  have h8 : ¬ k0_cond8 k = 1#1 := fun h => by have := (cond8_iff k).mp h; omega
  have hin := hinM d L II hII
  unfold inv
  rw [if_pos (show k.val < 50 by omega), if_pos (show 0 < k.val by omega), if_neg (show ¬ k.val + 1 < 50 by omega), if_pos (show 0 < k.val + 1 by omega)]
  rw [Ico2 (RowP d L II) (4 * k.val + 2) (by omega), Ico4 (WinP d L fo) (4 * k.val) (by omega)]
  iintro ⟨Hmw, Hpos, HT2, HT3, Hc2, Hc3, Hc4, Hc5, ⟨HF0, HF1⟩, ⟨HF6, HF7⟩, Hrd, ⟨Hr2, Hr3, Hrp⟩, Hwd, ⟨Hw0, Hw1, Hw2, Hw3, Hwp⟩, %W', %hW', HO⟩
  ihave Hr2 := (Entails.of_eq (pts_rowM d L (inb := k0_off21_inb k h2) (k0_off21_eq k) fullShare II).symm) $$ Hr2
  ihave Hr3 := (Entails.of_eq (pts_rowM d L (inb := k0_off31_inb k h4) (k0_off31_eq k) fullShare II).symm) $$ Hr3
  ihave Hw0 := (Entails.of_eq (pts_winM d L (inb := k0_off19_inb L k 0) (k0_off19_eq L k 0) fullShare fo).symm) $$ Hw0
  ihave Hw1 := (Entails.of_eq (pts_winM d L (inb := k0_off19_inb L k 1) (k0_off19_eq L k 1) fullShare fo).symm) $$ Hw1
  ihave Hw2 := (Entails.of_eq (pts_winM d L (inb := k0_off19_inb L k 2) (k0_off19_eq L k 2) fullShare fo).symm) $$ Hw2
  ihave Hw3 := (Entails.of_eq (pts_winM d L (inb := k0_off19_inb L k 3) (k0_off19_eq L k 3) fullShare fo).symm) $$ Hw3
  unfold k0_t1_body
  sl_exec
  icases HF0_dst with ⟨Hb0, Hrow0⟩
  sl_for (invB0 d L (Gath d L ft II (4 * k.val)) (posRow d L PP (4 * k.val))) $$ [Hb0]
  case region =>
    intro j _
    exact inner_t2 d L k j _ _ _ _ _ _ _ _ _ _ (posload_0 d L PP k 0) (posload_1 d L PP k 0) (posload_2 d L PP k 0) (posload_3 d L PP k 0)
      (posload_4 d L PP k 0) (posload_5 d L PP k 0) (posload_6 d L PP k 0) (posload_7 d L PP k 0)
  · unfold invB0; rw [RowUpd_zero]; iexact Hb0
  iintro %_ Hb0
  sl_exec
  icases HF1_dst with ⟨Hb1, Hrow1⟩
  sl_for (invB1 d L (Gath d L ft II (4 * k.val + 1)) (posRow d L PP (4 * k.val + 1))) $$ [Hb1]
  case region =>
    intro j _
    exact inner_t3 d L k _ _ _ j _ _ _ _ _ _ _ _ _ _ (posload_0 d L PP k 1) (posload_1 d L PP k 1) (posload_2 d L PP k 1) (posload_3 d L PP k 1)
      (posload_4 d L PP k 1) (posload_5 d L PP k 1) (posload_6 d L PP k 1) (posload_7 d L PP k 1)
  · unfold invB1; rw [RowUpd_zero]; iexact Hb1
  iintro %_ Hb1
  sl_exec
  -- position 4 k + 2
  ihave Hb2 := (gathP2 d L ft II (s := 4 * k.val + 2) (k0_off21_eq k) (by omega) _ (trip_last.sl.gather1 d L ft II k h2 hin) rfl) $$ HF6_src
  sl_for (invB2 d L (Gath d L ft II (4 * k.val + 2)) (posRow d L PP (4 * k.val + 2))) $$ [Hb2]
  case region =>
    intro j _
    exact inner_t4 d L k _ _ j _ _ _ _ _ _ _ _ _ _ (fun i => (cast_lane _ i).trans (posload_0 d L PP k 2 i)) (fun i => (cast_lane _ i).trans (posload_1 d L PP k 2 i))
      (fun i => (cast_lane _ i).trans (posload_2 d L PP k 2 i)) (fun i => (cast_lane _ i).trans (posload_3 d L PP k 2 i))
      (fun i => (cast_lane _ i).trans (posload_4 d L PP k 2 i)) (fun i => (cast_lane _ i).trans (posload_5 d L PP k 2 i))
      (fun i => (cast_lane _ i).trans (posload_6 d L PP k 2 i)) (posload_7 d L PP k 2)
  · unfold invB2; rw [RowUpd_zero]; iexact Hb2
  iintro %_ Hb2
  sl_exec
  -- position 4 k + 3
  ihave Hb3 := (gathP3 d L ft II (s := 4 * k.val + 3) (k0_off31_eq k) (by omega) _ (trip_last.sl.gather1_1 d L ft II k h4 hin) rfl) $$ HF7_src
  sl_for (invB3 d L (Gath d L ft II (4 * k.val + 3)) (posRow d L PP (4 * k.val + 3))) $$ [Hb3]
  case region =>
    intro j _
    exact inner_t5 d L j _ _ _ _ _ _ _ _ _ _ (fun i => (cast_lane _ i).trans (posload_0 d L PP k 3 i)) (fun i => (cast_lane _ i).trans (posload_1 d L PP k 3 i))
      (fun i => (cast_lane _ i).trans (posload_2 d L PP k 3 i)) (fun i => (cast_lane _ i).trans (posload_3 d L PP k 3 i))
      (fun i => (cast_lane _ i).trans (posload_4 d L PP k 3 i)) (posload_5 d L PP k 3) (posload_6 d L PP k 3) (posload_7 d L PP k 3)
  · unfold invB3; rw [RowUpd_zero]; iexact Hb3
  iintro %_ Hb3
  sl_exec
  sl_step
  ihave Hr2 := (Entails.of_eq (pts_rowM d L (k0_off21_eq k) fullShare II)) $$ Hr2
  ihave Hr3 := (Entails.of_eq (pts_rowM d L (k0_off31_eq k) fullShare II)) $$ Hr3
  try rw [show 4 * (k.val + 1) - 2 = 4 * k.val + 2 by omega]
  try rw [show 4 * (k.val + 1) - 1 = 4 * k.val + 3 by omega]
  try rw [show 4 * (k.val + 1) + 2 = 4 * k.val + 2 + 4 by omega]
  try rw [show 4 * (k.val + 1) + 1 = 4 * k.val + 5 by omega]
  try rw [show 4 * (k.val + 1) = 4 * k.val + 4 by omega]
  rw [range4 (RowP d L II) (4 * k.val)]
  isplitl [Hmw]; · iexact Hmw
  isplitl [Hpos]; · iexact Hpos
  isplitl [HT2]; · iexact HT2
  isplitl [HT3]; · iexact HT3
  isplitl [Hc2]; · iexact Hc2
  isplitl [Hc3]; · iexact Hc3
  isplitl [Hc4]; · iexact Hc4
  isplitl [Hc5]; · iexact Hc5
  isplitl [Hb0 Hb1 HF0_src HF1_src HF0 HF1]
  · isplitl [Hb0]; · iexists _; iexact Hb0
    isplitl [Hb1]; · iexists _; iexact Hb1
    isplitl [HF0_src]; · iexact HF0_src
    isplitl [HF1_src]; · iexact HF1_src
    isplitl [HF0]; · iexact HF0
    iexact HF1
  isplitl [HF6 HF7]
  · isplitl [HF6]
    · iapply (fs2 d L ft II PP fo go (s := 4 * k.val + 2) (k0_off19_eq L k 2) (by omega) hgo (Scf.trips k0_t4_loop.lb k0_t4_loop.ub k0_t4_loop.st) rfl (trip_last.sl.dma0_2 d L ft II PP k) rfl); iexact HF6
    · iapply (fs3 d L ft II PP fo go (s := 4 * k.val + 3) (k0_off19_eq L k 3) (by omega) hgo (Scf.trips k0_t5_loop.lb k0_t5_loop.ub k0_t5_loop.st) rfl (trip_last.sl.dma0_3 d L ft II PP k) rfl); iexact HF7
  isplitl [Hr3 Hr2 Hrow1 Hrow0 Hrd]
  · isplitl [Hr3]; · iexact Hr3
    isplitl [Hr2]; · iexact Hr2
    isplitl [Hrow1]; · iexact Hrow1
    isplitl [Hrow0]; · iexact Hrow0
    iexact Hrd
  rw [Ico_big (RowP d L II) (4 * k.val + 2 + 4) (by omega)]
  isplitr; · iempintro
  rw [winsDone_mid (WinP d L go) k.val (by omega)]
  isplitl [Hw1 Hw0 HF7_dst HF6_dst Hwd]
  · isplitl [Hw1]; · iapply (windone1 d L ft II PP _ go (s := 4 * k.val + 1) (k0_off19_eq L k 1) (by omega) hgo (Scf.trips k0_t3_loop.lb k0_t3_loop.ub k0_t3_loop.st) rfl (trip_last.sl.dma0_1 d L ft II PP k) rfl); iexact Hw1
    isplitl [Hw0]; · iapply (windone0 d L ft II PP _ go (s := 4 * k.val) (k0_off19_eq L k 0) (by omega) hgo (Scf.trips k0_t2_loop.lb k0_t2_loop.ub k0_t2_loop.st) rfl (trip_last.sl.dma0 d L ft II PP k) rfl); iexact Hw0
    isplitl [HF7_dst]; · iexact HF7_dst
    isplitl [HF6_dst]; · iexact HF6_dst
    iexact Hwd
  isplitl [Hwp]; · iexact Hwp
  iexists _; isplitr
  swap; · iexact HO
  ipureintro
  intro p hp
  simp only [Finset.mem_insert] at hp
  rcases hp with rfl | rfl | rfl | rfl | rfl | rfl | rfl | rfl | hp
  all_goals first | exact .inr rfl | exact hW' p hp

end Trip

end Cert.Proof.KI

end
-- ==== Proof.KICore.lean ====
/-
  The tile's body: it fetches its column block of the transposed indices and the position table, starts the gathers of
  positions 0 and 1, runs the fifty trips of the position loop over the ring of four buffers, and waits for the last two
  copy-outs; its rows of the result end at the lookup, everything it borrowed comes back.
-/
import proofs.«205233_g80668075753725_cont_9to1c4b_826_11_alg».proof.Proof.KIGo
import proofs.«205233_g80668075753725_cont_9to1c4b_826_11_alg».proof.Proof.KITripA
import proofs.«205233_g80668075753725_cont_9to1c4b_826_11_alg».proof.Proof.KITripB
import proofs.«205233_g80668075753725_cont_9to1c4b_826_11_alg».proof.Proof.KITripC
import proofs.«205233_g80668075753725_cont_9to1c4b_826_11_alg».proof.Proof.KIAsm

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S200x4096 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S4096x200x128 EltTy.f32)
local notation "s0" => (Memref.whole Cert.KernelIdeal.cc0_scratch0 : Memref Cert.KernelIdeal.sig Kind.scVector Space.vmem Cert.KernelIdeal.S200x128 EltTy.i32)
local notation "s1" => (Memref.whole Cert.KernelIdeal.cc0_scratch1 : Memref Cert.KernelIdeal.sig Kind.scVector Space.vmem Cert.KernelIdeal.S200x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable [FloatOps F]

section Core
variable (m : (ℓ : Loc nD τ sig) → Buf (Elt F) ℓ)

theorem hin0 (hpre : PreOK m) (d : Dev nD) (L : grid0.Coords) (off : Fin 2 → ℕ) (inb) (g0 : Buf (Elt F) ((s0).view.loc (thr d L))) :
    ∀ x, ((rowM off inb).view.read (Elt F) (IIe m d L g0) x).toNat < 100000 :=
  hinM d L (IIe m d L g0) (hII_of m d L _ hpre (IIe_ok m d L g0)) off inb

set_option maxHeartbeats 4000000 in
theorem tile_core (hpre : PreOK m) : TileCore m := by
  intro d L O W g0 g1 h0 h1 h2 h3
  have hin := hin0 m hpre d L
  have hII := hII_of m d L _ hpre (IIe_ok m d L g0)
  have hgo := goOK_of m d L _ _ (IIe_ok m d L g0) (PPe_ok m d L g1)
  rw [cc0__body_eq_skeleton]; unfold cc0__body_skel
  iintro ⟨Hmw, Hi, Ht, Hp, Ho, Hs0, Hs1, Hb0, Hb1, Hb2, Hb3, Hc0, Hc1, Hg0, Hg1, Hg2, Hg3, Hz0, Hz1, Hz2, Hz3, HO⟩
  ihave Ht := (toks4 d L (tokq (cL L) (sL L)) (m (tLoc d))).1 $$ Ht
  icases Ht with ⟨Htd, HT0, HT1, HT2, HT3⟩
  sl_exec
  -- the ring before the first trip
  ihave Hwins := (Entails.of_eq (wins_all d L (m (oLoc d)))) $$ Ho
  ihave Hb2 := (Entails.of_eq (bf2_whole d L h2)) $$ Hb2
  ihave Hb3 := (Entails.of_eq (bf3_whole d L h3)) $$ Hb3
  sl_for (inv d L (tokq (cL L) (sL L)) (m (tLoc d)) (IIe m d L g0) (PPe m d L g1) (m (oLoc d)) (GT m d) O W) $$ [Hmw Hs1 HT2 HT3 Hg2 Hg3 Hz0 Hz1 Hg0 Hg1 Hb2 Hb3 Hz2 Hz3 Hs0 Hwins HO]
  case region =>
    intro k _
    have hk : k.val < 50 := lt_of_lt_of_eq k.isLt (by decide)
    by_cases hk0 : k.val = 0
    · exact trip_first d L _ _ _ _ _ _ O W hII hgo k hk0
    by_cases hk49 : k.val = 49
    · exact trip_last d L _ _ _ _ _ _ O W hII hgo k hk49
    · exact trip_mid d L _ _ _ _ _ _ O W hII hgo k (by omega) (by omega)
  · unfold inv
    rw [if_pos (show 0 < 50 by omega), if_neg (show ¬ 0 < 0 by omega)]
    rw [show 4 * 0 = 0 from rfl, show 0 + 2 = 2 from rfl, show 0 - 2 = 0 from rfl, show 0 + 1 = 1 from rfl, bigSep_range_zero, bigSep_range_zero]
    isplitl [Hmw]; · iexact Hmw
    isplitl [Hs1]; · iexact Hs1
    isplitl [HT2]; · iexact HT2
    isplitl [HT3]; · iexact HT3
    isplitl [Hg2]; · iexact Hg2
    isplitl [Hg3]; · iexact Hg3
    isplitl [Hz0]; · iexact Hz0
    isplitl [Hz1]; · iexact Hz1
    isplitl [Hg0 Hg1]
    · isplitl [Hg0]
      · iapply (fg0 d L (tokq (cL L) (sL L)) (m (tLoc d)) (IIe m d L g0) (s := 0) (off := ![0, 0]) rfl (by omega) _ (tile_core.sl.gather1 m d L g0 hin) rfl); iexact Hg0
      · iapply (fg1 d L (tokq (cL L) (sL L)) (m (tLoc d)) (IIe m d L g0) (s := 1) (off := ![1, 0]) rfl (by omega) _ (tile_core.sl.gather2 m d L g0 hin) rfl); iexact Hg1
    isplitl [Hb2 Hb3 Hz2 Hz3]
    · isplitl [Hb2]; · iexists _; iexact Hb2
      isplitl [Hb3]; · iexists _; iexact Hb3
      isplitl [Hz2] <;> iassumption
    isplitr; · iempintro
    isplitl [Hs0]; · iapply (Entails.of_eq (rows_rest d L (IIe m d L g0))); iexact Hs0
    isplitr; · iempintro
    isplitl [Hwins]; · iexact Hwins
    iexists _; isplitr
    swap; · iexact HO
    ipureintro
    intro p hp
    simp only [Finset.mem_insert] at hp
    rcases hp with rfl | rfl | hp
    all_goals first | exact .inr rfl | exact .inl hp
  iintro %_ HI
  unfold inv
  rw [if_neg (show ¬ (Scf.trips k0_t1_loop.lb k0_t1_loop.ub k0_t1_loop.st) < 50 by decide), if_pos (show 0 < (Scf.trips k0_t1_loop.lb k0_t1_loop.ub k0_t1_loop.st) by decide)]
  have e50 : Scf.trips k0_t1_loop.lb k0_t1_loop.ub k0_t1_loop.st = 50 := by decide
  rw [e50]
  rw [show 4 * 50 - 2 = 198 from rfl, show 4 * 50 - 1 = 199 from rfl, show 4 * 50 + 2 = 202 from rfl, show 4 * 50 = 200 from rfl]
  icases HI with ⟨Hmw, Hpos, HT2, HT3, Hc2, Hc3, Hc4, Hc5, ⟨⟨%e0, Hbf0⟩, ⟨%e1, Hbf1⟩, HT0', HT1', Hg0', Hg1'⟩, ⟨HF6, HF7⟩, Hrd, -, Hwd, -, %W', %hW', HO⟩
  sl_exec
  sl_step
  isplitl [Hi]; · iexact Hi
  isplitl [Htd HT0' HT1' HT2 HT3]
  · iapply (toks4 d L (tokq (cL L) (sL L)) (m (tLoc d))).2
    isplitl [Htd]; · iexact Htd
    isplitl [HT0']; · iexact HT0'
    isplitl [HT1']; · iexact HT1'
    isplitl [HT2]; · iexact HT2
    iexact HT3
  isplitl [Hp]; · iexact Hp
  isplitl [Hwd HF6_dst HF7_dst]
  · iapply (Entails.of_eq (wins_close d L (GT m d)).symm)
    isplitl [HF7_dst]; · iexact HF7_dst
    isplitl [HF6_dst]; · iexact HF6_dst
    iexact Hwd
  isplitl [Hrd]; · iexists _; iapply (Entails.of_eq (rows_all d L _).symm); iexact Hrd
  isplitl [Hpos]; · iexists _; iexact Hpos
  isplitl [Hbf0]; · iexists _; iapply (Entails.of_eq (bf0_whole d L _).symm); iexact Hbf0
  isplitl [Hbf1]; · iexists _; iapply (Entails.of_eq (bf1_whole d L _).symm); iexact Hbf1
  isplitl [HF6_src]; · iexists _; iapply (Entails.of_eq (bf2_whole d L _).symm); iexact HF6_src
  isplitl [HF7_src]; · iexists _; iapply (Entails.of_eq (bf3_whole d L _).symm); iexact HF7_src
  isplitl [Hc0]; · iexact Hc0
  isplitl [Hc1]; · iexact Hc1
  isplitl [Hg0']; · iexact Hg0'
  isplitl [Hg1']; · iexact Hg1'
  isplitl [Hc2]; · iexact Hc2
  isplitl [Hc3]; · iexact Hc3
  isplitl [Hc4]; · iexact Hc4
  isplitl [Hc5]; · iexact Hc5
  isplitl [HF6]; · iexact HF6
  isplitl [HF7]; · iexact HF7
  iexists _; isplitr
  swap; · iexact HO
  ipureintro
  intro p hp
  simp only [Finset.mem_insert] at hp
  rcases hp with rfl | rfl | hp
  all_goals first | exact .inr rfl | exact hW' p hp

end Core

end Cert.Proof.KI

end
-- ==== Proof.KBCommon.lean ====
/-
  The SparseCore lookup kernel as the launch theorem sees it, and the vocabulary of its frame: the thirty-two
  tiles (two SparseCores of sixteen vector subcores), tile (c, s) working on the 128 batch rows
  [128 (2 s + c), 128 (2 s + c) + 128) of the result; the arrays every tile reads (the transposed index array, the
  table, the position table) go out as read shares, one per tile; the result goes out by the tiles' row blocks.
-/
import proofs.«205233_g80668075753725_cont_9to1c4b_826_11_alg».proof.Defs
import proofs.«205233_g80668075753725_cont_9to1c4b_826_11_alg».proof.Proof.KICore
import proofs.«205233_g80668075753725_cont_9to1c4b_826_11_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205233_g80668075753725_cont_9to1c4b_826_11_alg».proof.Proof.Gen.Kernel
import proofs.«205233_g80668075753725_cont_9to1c4b_826_11_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The index array (the responses), its transpose, the table, the position table, the result: as locations of device `d`. -/
abbrev rLoc (d : Dev nD) : Loc nD τ sig := (SparseCore.T d).loc main_arg0
abbrev iLoc (d : Dev nD) : Loc nD τ sig := (SparseCore.T d).loc main_v0
abbrev tLoc (d : Dev nD) : Loc nD τ sig := (SparseCore.T d).loc main_arg1
abbrev pLoc (d : Dev nD) : Loc nD τ sig := (SparseCore.T d).loc main_arg2
abbrev oLoc (d : Dev nD) : Loc nD τ sig := (SparseCore.T d).loc main_v1

/-- The transposed index array: entry (s, b) is the response word of batch row b at position s. -/
def FI (d : Dev nD) : Buf (Elt F) (iLoc d) := fun j : S200x4096.Idx => m (rLoc d) (ValueIdx.ix2 (j 1) (j 0))

variable [FloatOps F]

/-- The result every tile's rows agree with: the lookup of the launch arrays (Spec.lean). -/
def GT (d : Dev nD) : Buf (Elt F) (oLoc d) := Cert.Spec.G (F := F) (m (rLoc d)) (m (tLoc d)) (m (pLoc d))

/-- What the proof asks of the launch memory: every response word names a table row. -/
def PreOK : Prop := ∀ (d : Dev nD) (j : S4096x200.Idx), (m (rLoc d) j).toNat < 100000

/-! ## The tiles: their row blocks of the result, their read shares -/

/-- Tile (c, s) — SparseCore c, vector subcore s — is worker 2 s + c. -/
theorem wid_lt (c : Fin 2) (s : Fin 16) : 2 * s.val + c.val < 32 := by omega

theorem tile_inb (c : Fin 2) (s : Fin 16) :
    ∀ a, (![256 * s.val + 128 * c.val, 0, 0] : Fin 3 → Nat) a + (![128, 200, 128] : Fin 3 → Nat) a ≤ S4096x200x128.size a := by
  intro a; fin_cases a <;> simp <;> omega

/-- Its 128 batch rows of the result, every position, every lane. -/
abbrev tileRect (c : Fin 2) (s : Fin 16) : Rect S4096x200x128 :=
  Rect.unit (s := S4096x200x128) ![256 * s.val + 128 * c.val, 0, 0] ![128, 200, 128] (tile_inb c s)
abbrev tileSet (c : Fin 2) (s : Fin 16) : Finset S4096x200x128.Idx := (tileRect c s).set

/-- Its read share of an array every tile reads whole: token 2 s + c of thirty-two. -/
abbrev tokq (c : Fin 2) (s : Fin 16) : PosShare TreeShare := Transfers.shareTok fullShare 32 ⟨2 * s.val + c.val, wid_lt c s⟩

/-- What a tile is handed: its read shares of the transposed indices, the table and the position table, and its rows of
    the result at the launch contents; -/
abbrev goRes (d : Dev nD) (c : Fin 2) (s : Fin 16) : sProp 𝕄 :=
  iprop((iLoc d ↦{tokq c s} FI m d) ∗ (tLoc d ↦{tokq c s} m (tLoc d)) ∗ (pLoc d ↦{tokq c s} m (pLoc d))
    ∗ oLoc d ↦[tileSet c s]{fullShare} m (oLoc d))
/-- what it hands back: the shares, and its rows of the result at the lookup. -/
abbrev tdRes (d : Dev nD) (c : Fin 2) (s : Fin 16) : sProp 𝕄 :=
  iprop((iLoc d ↦{tokq c s} FI m d) ∗ (tLoc d ↦{tokq c s} m (tLoc d)) ∗ (pLoc d ↦{tokq c s} m (pLoc d))
    ∗ oLoc d ↦[tileSet c s]{fullShare} GT m d)

/-- The call hands each SparseCore its sixteen tiles' resources, and takes them back. -/
def P : (K (F := F)).Pay (nD := nD) (Val := Elt F) (Name := ℕ) (U := UU) where
  st := fun q d c => match q with | 0 => bigSep Finset.univ fun s : Fin 16 => goRes m d (Fin.cast nCore_zero c) s
  dn := fun q d c => match q with | 0 => bigSep Finset.univ fun s : Fin 16 => tdRes m d (Fin.cast nCore_zero c) s
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => goRes m d (Fin.cast nCore_zero c) s))
  dn q d c := match q with
    | 0 => (inferInstance : BI.Storable (upEmb : UEmb _ 𝕄) (bigSep Finset.univ fun s : Fin 16 => tdRes m d (Fin.cast nCore_zero c) s))
  go q d c i := match q with
    | 0 => (inferInstance : BI.Storable (upEmb : UEmb _ 𝕄) (goRes m d (Fin.cast nCore_zero c) (Fin.cast nSub_zero i)))
  td q d c i := match q with
    | 0 => (inferInstance : BI.Storable (upEmb : UEmb _ 𝕄) (tdRes m d (Fin.cast nCore_zero c) (Fin.cast nSub_zero i)))

end Cert.Proof.KB

end
-- ==== Proof.KBSplit.lean ====
/-
  How the launch deals the arrays to the thirty-two tiles and collects them again. Worker 2 s + c is tile (c, s), so the
  thirty-two read tokens of an array every tile reads whole are indexed by the pairs (c, s); the tiles' row blocks of
  the result are pairwise disjoint (they are separated on the batch axis) and cover it (a batch row b lies in the
  block of worker b / 128). So the four arrays whole are what the TensorCore keeps (the remainder of the three read
  shares) beside the thirty-two tiles' resources, in both directions.
-/
import proofs.«205233_g80668075753725_cont_9to1c4b_826_11_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## Workers and tiles -/

/-- Worker `2 s + c` names tile `(c, s)`: the thirty-two workers are the pairs. -/
def tileEquiv : Fin 2 × Fin 16 ≃ Fin 32 where
  toFun p := ⟨2 * p.2.val + p.1.val, wid_lt p.1 p.2⟩
  invFun j := (⟨j.val % 2, Nat.mod_lt _ (by decide)⟩, ⟨j.val / 2, by have := j.isLt; omega⟩)
  left_inv p := by
    rcases p with ⟨c, s⟩
    refine Prod.ext (Fin.ext ?_) (Fin.ext ?_)
    · show (2 * s.val + c.val) % 2 = c.val
      have := c.isLt; omega
    · show (2 * s.val + c.val) / 2 = s.val
      have := c.isLt; omega
  right_inv j := Fin.ext (by show 2 * (j.val / 2) + j.val % 2 = j.val; omega)

/-! ## The read shares -/

omit m in
/-- An array at the full share is the remainder after thirty-two read tokens and the tokens, one per tile. -/
theorem toks_tiles {ℓ : Loc nD τ sig} (f : Buf (Elt F) ℓ) :
    (ℓ ↦{fullShare} f : sProp 𝕄)
      = iprop((ℓ ↦{Transfers.shareDrop fullShare 32} f) ∗ bigSep Finset.univ fun p : Fin 2 × Fin 16 => ℓ ↦{tokq p.1 p.2} f) := by
  have e : (bigSep Finset.univ fun p : Fin 2 × Fin 16 => (ℓ ↦{tokq p.1 p.2} f : sProp 𝕄))
      = bigSep Finset.univ fun j : Fin 32 => ℓ ↦{Transfers.shareTok fullShare 32 j} f :=
    (bigSep_univ_equiv tileEquiv fun j : Fin 32 => (ℓ ↦{Transfers.shareTok fullShare 32 j} f : sProp 𝕄)).symm
  rw [e]
  exact BI.Entails.antisymm (Transfers.pointsTo_toks fullShare 32).1 (Transfers.pointsTo_toks fullShare 32).2

/-! ## The tiles' row blocks of the result -/

omit m in
/-- Two tiles' blocks are separated on the batch axis. -/
theorem tiles_disjoint : ∀ p ∈ (Finset.univ : Finset (Fin 2 × Fin 16)), ∀ p' ∈ (Finset.univ : Finset (Fin 2 × Fin 16)), p ≠ p' →
    Disjoint (tileSet p.1 p.2) (tileSet p'.1 p'.2) := by
  rintro ⟨c, s⟩ - ⟨c', s'⟩ - h
  have hne : c.val ≠ c'.val ∨ s.val ≠ s'.val := by
    by_contra hc
    rw [not_or, not_not, not_not] at hc
    exact h (Prod.ext (Fin.ext hc.1) (Fin.ext hc.2))
  refine Rect.unit_disjoint (0 : Fin 3) ?_
  have := c.isLt; have := c'.isLt
  show 256 * s.val + 128 * c.val + 128 ≤ 256 * s'.val + 128 * c'.val ∨ 256 * s'.val + 128 * c'.val + 128 ≤ 256 * s.val + 128 * c.val
  omega

omit m in
/-- Batch row `b` lies in the block of worker `b / 128`: the blocks cover the result. -/
theorem tiles_cover : (Finset.univ : Finset (Fin 2 × Fin 16)).biUnion (fun p => tileSet p.1 p.2) = Finset.univ := by
  ext i
  simp only [Finset.mem_biUnion, Finset.mem_univ, true_and, iff_true]
  have h0 : (i 0).val < 4096 := (i 0).isLt
  have h1 : (i 1).val < 200 := (i 1).isLt
  have h2 : (i 2).val < 128 := (i 2).isLt
  refine ⟨(⟨(i 0).val / 128 % 2, Nat.mod_lt _ (by decide)⟩, ⟨(i 0).val / 256, by omega⟩), ?_⟩
  rw [Rect.mem_set_unit]
  intro a
  match a with
  | 0 =>
    show 256 * ((i 0).val / 256) + 128 * ((i 0).val / 128 % 2) ≤ (i 0).val
      ∧ (i 0).val < 256 * ((i 0).val / 256) + 128 * ((i 0).val / 128 % 2) + 128
    omega
  | 1 => exact ⟨Nat.zero_le _, by show (i 1).val < 0 + 200; omega⟩
  | 2 => exact ⟨Nat.zero_le _, by show (i 2).val < 0 + 128; omega⟩

omit m in
/-- The result whole is its thirty-two blocks. -/
theorem o_tiles (d : Dev nD) (f : Buf (Elt F) (oLoc d)) :
    (oLoc d ↦{fullShare} f : sProp 𝕄) = bigSep Finset.univ fun p : Fin 2 × Fin 16 => oLoc d ↦[tileSet p.1 p.2]{fullShare} f := by
  rw [← pointsTo_biUnion Finset.univ (ℓ := oLoc d) (fun p : Fin 2 × Fin 16 => tileSet p.1 p.2) tiles_disjoint, tiles_cover]

/-! ## All four arrays -/

/-- What the TensorCore keeps across the call: the remainders of the three read shares. -/
abbrev keep (d : Dev nD) : sProp 𝕄 :=
  iprop((iLoc d ↦{Transfers.shareDrop fullShare 32} FI m d) ∗ (tLoc d ↦{Transfers.shareDrop fullShare 32} m (tLoc d))
    ∗ pLoc d ↦{Transfers.shareDrop fullShare 32} m (pLoc d))

/-- A tile's resources with its rows of the result at `fo`: `goRes` at the launch contents, `tdRes` at the lookup. -/
abbrev res (d : Dev nD) (fo : Buf (Elt F) (oLoc d)) (c : Fin 2) (s : Fin 16) : sProp 𝕄 :=
  iprop((iLoc d ↦{tokq c s} FI m d) ∗ (tLoc d ↦{tokq c s} m (tLoc d)) ∗ (pLoc d ↦{tokq c s} m (pLoc d))
    ∗ oLoc d ↦[tileSet c s]{fullShare} fo)

/-- The transposed indices, the table, the position table and the result (at `fo`) whole are what the TensorCore keeps
    beside the thirty-two tiles' resources. -/
theorem arrays_tiles (d : Dev nD) (fo : Buf (Elt F) (oLoc d)) :
    iprop((iLoc d ↦{fullShare} FI m d) ∗ (tLoc d ↦{fullShare} m (tLoc d)) ∗ (pLoc d ↦{fullShare} m (pLoc d)) ∗ oLoc d ↦{fullShare} fo)
      ⊣⊢ iprop(keep m d ∗ bigSep Finset.univ fun c : Fin 2 => bigSep Finset.univ fun s : Fin 16 => res m d fo c s) := by
  rw [show (bigSep Finset.univ fun c : Fin 2 => bigSep Finset.univ fun s : Fin 16 => res m d fo c s)
      = bigSep Finset.univ fun p : Fin 2 × Fin 16 => res m d fo p.1 p.2 from (bigSep_univ_prod fun p : Fin 2 × Fin 16 => res m d fo p.1 p.2).symm,
    toks_tiles (FI m d), toks_tiles (m (tLoc d)), toks_tiles (m (pLoc d)), o_tiles d fo]
  unfold res keep
  rw [bigSep_sep', bigSep_sep', bigSep_sep']
  constructor
  · iintro ⟨⟨Hid, Hit⟩, ⟨Htd, Htt⟩, ⟨Hpd, Hpt⟩, Ho⟩
    isplitl [Hid Htd Hpd]
    · isplitl [Hid]; · iexact Hid
      isplitl [Htd]; · iexact Htd
      iexact Hpd
    isplitl [Hit]; · iexact Hit
    isplitl [Htt]; · iexact Htt
    isplitl [Hpt]; · iexact Hpt
    iexact Ho
  · iintro ⟨⟨Hid, Htd, Hpd⟩, Hit, Htt, Hpt, Ho⟩
    isplitl [Hid Hit]
    · isplitl [Hid]; · iexact Hid
      iexact Hit
    isplitl [Htd Htt]
    · isplitl [Htd]; · iexact Htd
      iexact Htt
    isplitl [Hpd Hpt]
    · isplitl [Hpd]; · iexact Hpd
      iexact Hpt
    iexact Ho

end Cert.Proof.KB

end
-- ==== Proof.KBLaunch.lean ====
/-
  The launch of the lookup kernel: @main on the TensorCore transposes the index array, starts the two SparseCores and
  waits for them; each SparseCore's sequencer hands its sixteen tiles their resources and collects them. From the
  tiles' obligation (every tile, given its read shares and its rows of the result, leaves its rows at the lookup) the
  whole program runs, the result at the lookup of the launch arrays and the three arguments unchanged.
-/
import proofs.«205233_g80668075753725_cont_9to1c4b_826_11_alg».proof.Proof.KBSplit
import proofs.«205233_g80668075753725_cont_9to1c4b_826_11_alg».proof.Proof.RefValue
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry, as equations -/

theorem P_st (d : Dev nD) (c : Fin ((K (F := F)).nCore 0)) :
    (P m).st 0 d c = bigSep Finset.univ fun s : Fin 16 => res m d (m (oLoc d)) (Fin.cast nCore_zero c) s := rfl
theorem P_dn (d : Dev nD) (c : Fin ((K (F := F)).nCore 0)) :
    (P m).dn 0 d c = bigSep Finset.univ fun s : Fin 16 => res m d (GT m d) (Fin.cast nCore_zero c) s := rfl
theorem P_go (d : Dev nD) (c : Fin ((K (F := F)).nCore 0)) (i : Fin ((K (F := F)).nSub 0)) :
    (P m).go 0 d c i = res m d (m (oLoc d)) (Fin.cast nCore_zero c) (Fin.cast nSub_zero i) := rfl
theorem P_td (d : Dev nD) (c : Fin ((K (F := F)).nCore 0)) (i : Fin ((K (F := F)).nSub 0)) :
    (P m).td 0 d c i = res m d (GT m d) (Fin.cast nCore_zero c) (Fin.cast nSub_zero i) := rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## A SparseCore's operands among its tiles -/

/-- What a SparseCore is handed is its sixteen tiles' resources, and what they hand back is what it returns. -/
theorem vecSplit : (K (F := F)).VecSplit' (P m) 0 := by
  intro d c
  simp only [P_st, P_dn, P_go, P_td]
  rw [bigSep_tasks (F := F) (fun s => res m d (m (oLoc d)) (Fin.cast nCore_zero c) s),
    bigSep_tasks (F := F) (fun s => res m d (GT m d) (Fin.cast nCore_zero c) s)]
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev r' : DevRef τ sig := Proc.devRef .tc (main_arg0 : Ref sig .tc)
abbrev i' : DevRef τ sig := Proc.devRef .tc (main_v0 : Ref sig .tc)
/-- @main's one host operation: the transpose of the index array. -/
abbrev opT : HloOp τ sig (Elt F) :=
  StableHlo.unary main_arg0 main_v0 ((transpose S200x4096 [1, 0] · transposes_S4096x200_S200x4096_1_0) : (⟨S4096x200, .i32⟩ : BufTy).Contents (Elt F) → (⟨S200x4096, .i32⟩ : BufTy).Contents (Elt F))
/-- Its two buffers. -/
abbrev S2 : Finset (DevRef τ sig) := {r', i'}

omit [FloatOps F] in
theorem held_S2 (d : Dev nD) (W : Valuation τ sig (Elt F)) :
    (held (T d) S2 W : sProp 𝕄) = iprop((rLoc d ↦{fullShare} W r') ∗ iLoc d ↦{fullShare} W i') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((rLoc d ↦{fullShare} W main_arg0) ∗ (tLoc d ↦{fullShare} W main_arg1) ∗ (pLoc d ↦{fullShare} W main_arg2)
      ∗ (iLoc d ↦{fullShare} W main_v0) ∗ oLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

omit [FloatOps F] in
theorem opT_r (d : Dev nD) : (opT (F := F)).result (V0 m d) r' = m (rLoc d) :=
  StableHlo.unary_result_ne main_arg0 main_v0 _ _ _ (V0 m d) (r := main_arg0) (by decide)

omit [FloatOps F] in
/-- The transpose read at `(s, b)` is the index array at `(b, s)`. -/
theorem opT_i (d : Dev nD) : (opT (F := F)).result (V0 m d) i' = FI m d := by
  refine (StableHlo.unary_result main_arg0 main_v0 _ _ _ (V0 m d)).trans ?_
  funext j
  exact transpose_apply [1, 0] _ _ j (ValueIdx.ix2 (j 1) (j 0)) fun b => match b with | ⟨0, _⟩ => rfl | ⟨1, _⟩ => rfl

omit [FloatOps F] in
theorem held_before (d : Dev nD) :
    (held (T d) S2 (V0 m d) : sProp 𝕄) = iprop((rLoc d ↦{fullShare} m (rLoc d)) ∗ iLoc d ↦{fullShare} m (iLoc d)) := by
  rw [held_S2]; rfl
omit [FloatOps F] in
theorem held_after (d : Dev nD) :
    (held (T d) S2 ((opT (F := F)).result (V0 m d)) : sProp 𝕄) = iprop((rLoc d ↦{fullShare} m (rLoc d)) ∗ iLoc d ↦{fullShare} FI m d) := by
  rw [held_S2, opT_r, opT_i]

/-- What the call takes for the two SparseCores, and what it hands back. -/
theorem st0_eq (d : Dev nD) : (bigSep Finset.univ fun c : Fin ((K (F := F)).nCore 0) => (P m).st 0 d c)
    = bigSep Finset.univ fun c : Fin 2 => bigSep Finset.univ fun s : Fin 16 => res m d (m (oLoc d)) c s := by
  simp only [P_st]
  exact bigSep_cores (F := F) fun c => bigSep Finset.univ fun s : Fin 16 => res m d (m (oLoc d)) c s
theorem dn0_eq (d : Dev nD) : (bigSep Finset.univ fun c : Fin ((K (F := F)).nCore 0) => (P m).dn 0 d c)
    = bigSep Finset.univ fun c : Fin 2 => bigSep Finset.univ fun s : Fin 16 => res m d (GT m d) c s := by
  simp only [P_dn]
  exact bigSep_cores (F := F) fun c => bigSep Finset.univ fun s : Fin 16 => res m d (GT m d) c s

/-- What @main leaves the claim: the three arguments at their launch contents, the result at the lookup. -/
abbrev FIN (d : Dev nD) : sProp 𝕄 :=
  iprop((rLoc d ↦{fullShare} m (rLoc d)) ∗ (tLoc d ↦{fullShare} m (tLoc d)) ∗ (pLoc d ↦{fullShare} m (pLoc d)) ∗ oLoc d ↦{fullShare} GT m d)

/-- @main on device `d`'s TensorCore: the transpose; the arrays dealt to the tiles; the call; the arrays collected. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hr, Ht, Hp, Hi, Ho⟩, -, -⟩, -⟩
  -- the transpose, over the index array and its result buffer
  iapply (wp_hlo_within 𝒱 (SparseCore.T d) none Set.univ (op := opT) (S := S2) (Finset.Subset.refl _) (V := V0 m d)) $$ [Hb Hr Hi]
  · isplitl [Hb]; · iexact Hb
    rw [held_before]
    isplitl [Hr]; · iexact Hr
    iexact Hi
  iintro ⟨Hb, Hheld⟩
  ihave Hh := (Entails.of_eq (held_after (F := F) m d)) $$ Hheld
  icases Hh with ⟨Hr, Hi⟩
  rw [wp_ret]; imodintro
  -- the arrays dealt: the read shares' remainders kept, the rest to the thirty-two tiles
  ihave Hall := (arrays_tiles m d (m (oLoc d))).1 $$ [Hi Ht Hp Ho]
  · isplitl [Hi]; · iexact Hi
    isplitl [Ht]; · iexact Ht
    isplitl [Hp]; · iexact Hp
    iexact Ho
  icases Hall with ⟨Hkeep, Htiles⟩
  -- the call
  iapply ((K (F := F)).wp_run (D (F := F)) 𝒱 (EH := EH) (P := P m) κ d 0) $$ [Hst Htiles Hkeep Hr]
  isplitr; · iexact Hctx
  isplitl [Hst]; · iexact Hst
  isplitl [Htiles]
  · rw [st0_eq]; iexact Htiles
  iintro ⟨Hst, Hdn⟩
  -- the arrays collected: the result whole at the lookup
  ihave Hdn' := (Entails.of_eq (dn0_eq m d)) $$ Hdn
  ihave Hall := (arrays_tiles m d (GT m d)).2 $$ [Hkeep Hdn']
  · isplitl [Hkeep]; · iexact Hkeep
    iexact Hdn'
  icases Hall with ⟨-, Ht, Hp, Ho⟩
  imodintro
  isplitl [Hst]; · iexact Hst
  isplitl [Hr]; · iexact Hr
  isplitl [Ht]; · iexact Ht
  isplitl [Hp]; · iexact Hp
  iexact Ho

/-! ## What the final memory reads -/

def fq (d : Dev nD) (s' : Phys nD τ sig (Elt F)) : Prop :=
  s'.mem.mem (oLoc d) = GT m d ∧ s'.mem.mem (rLoc d) = m (rLoc d) ∧ s'.mem.mem (tLoc d) = m (tLoc d) ∧ s'.mem.mem (pLoc d) = m (pLoc d)

set_option maxRecDepth 16384 in
theorem hfin (d : Dev nD) (s' : Phys nD τ sig (Elt F)) : iprop(FIN m d ∗ SI s') ⊢ (⌜fq m d s'⌝ : sProp 𝕄) := by
  iintro ⟨⟨Hr, Ht, Hp, Ho⟩, HSI⟩
  ihave H := (persistent_entails_right (SI_pointsTo_agree (st := s') (ℓ := rLoc d) (I := Finset.univ) (q := fullShare) (f := m (rLoc d)))) $$ [HSI Hr]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h3, HSI, -⟩
  ihave H := (SI_pointsTo_agree (st := s') (ℓ := oLoc d) (I := Finset.univ) (q := fullShare) (f := GT m d)) $$ [HSI Ho]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-! ## The program's run -/

/-- From the tiles' obligation: every weakly fair execution of the whole program terminates, nothing faulting, the
    result at the lookup of the launch arrays, the three arguments unchanged. -/
theorem run_main [∀ e, Nonempty (Elt F e)] (hpre : PreOK m)
    (htile : (K (F := F)).TileObl (D (F := F)) 𝒱 (P m) v₀ 0) :
    θ_run (Cert.Kernel.defs (F := F)) (Cert.Kernel.threads (F := F)) ⟨m, fun _ => 0, ρ⟩
      (fun r => ∀ c : Dev nD, r.2.mem (oLoc c) = GT m c ∧ r.2.mem (rLoc c) = m (rLoc c) ∧ r.2.mem (tLoc c) = m (tLoc c) ∧ r.2.mem (pLoc c) = m (pLoc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

/-! ## The precondition -/

/-- The precondition's third conjunct — `(0 ≤ responses) & (responses ≤ 99999)` elementwise, all ones — gives what the
    proof asks of the launch memory: a word in `[0, 99999]` read signed is its own value, below 100000. -/
theorem ok_of_fn [Cert.Pre_input_domain.Facts] (m : (ℓ : Loc nD τ sig) → Buf (Elt F) ℓ)
    (h : ∀ c : Dev nD, Cert.Pre_input_domain.fn (F := F) (m (rLoc c)) (m (tLoc c)) (m (pLoc c)) = fun _ => 1#1) : PreOK m := by
  intro d j
  have hr := Cert.RefSide.inRange_of_pre (F := F) (m (rLoc d)) (m (tLoc d)) (m (pLoc d)) (h d) j
  have hle : (m (rLoc d) j).toNat ≤ 99999 := Cert.RefSide.toNat_le_of_range hr.1 hr.2
  omega

theorem ok_of_pre (m : (ℓ : Loc nD τ sig) → Buf (Elt Bits) ℓ) [Cert.Pre_input_domain.Facts] (h : Cert.Pre_Kernel m) : PreOK (F := Bits) m :=
  ok_of_fn m h

end Cert.Proof.KB

end
-- ==== Proof.KBSets.lean ====
/-
  Index sets of the tile's scratch rows and of its windows of the result: the rows of the 200 × 128 index scratch, and the
  windows (128 batch rows from a base row, one position, all lanes) of the result, as sets of indices, with the facts
  that let a buffer be held row by row and window by window: the rows (windows) are pairwise disjoint and together
  they are the whole scratch (the tile's block of the result).
-/
import proofs.«205233_g80668075753725_cont_9to1c4b_826_11_alg».proof.Proof.KBCommon

noncomputable section

namespace Cert.Proof.KB

open Cert.Kernel Cert.Kernel.Gen
open Idealize.ShloMosaic

/-- Row `n` of the index scratch. -/
def rowSetN (n : ℕ) : Finset S200x128.Idx := Finset.univ.filter fun i => (i 0).val = n
/-- The window of the result at base row `B`, position `n`: rows [B, B + 128), all lanes. -/
def winSetN (B n : ℕ) : Finset S4096x200x128.Idx := Finset.univ.filter fun i => B ≤ (i 0).val ∧ (i 0).val < B + 128 ∧ (i 1).val = n

theorem mem_rowSetN {n : ℕ} {i : S200x128.Idx} : i ∈ rowSetN n ↔ (i 0).val = n := by simp [rowSetN]
theorem mem_winSetN {B n : ℕ} {i : S4096x200x128.Idx} : i ∈ winSetN B n ↔ B ≤ (i 0).val ∧ (i 0).val < B + 128 ∧ (i 1).val = n := by
  simp [winSetN]

theorem rowSetN_disjoint {a b : ℕ} (h : a ≠ b) : Disjoint (rowSetN a) (rowSetN b) :=
  Finset.disjoint_left.mpr fun i ha hb => h ((mem_rowSetN.mp ha).symm.trans (mem_rowSetN.mp hb))
theorem winSetN_disjoint {B a b : ℕ} (h : a ≠ b) : Disjoint (winSetN B a) (winSetN B b) :=
  Finset.disjoint_left.mpr fun i ha hb => h ((mem_winSetN.mp ha).2.2.symm.trans (mem_winSetN.mp hb).2.2)

theorem rows_cover : (Finset.range 200).biUnion rowSetN = Finset.univ := by
  ext i
  simp only [Finset.mem_biUnion, Finset.mem_range, mem_rowSetN, Finset.mem_univ, iff_true]
  exact ⟨(i 0).val, (i 0).isLt, rfl⟩

/-- A unit-stride rectangle of one row of the index scratch is that row. -/
theorem set_unit_row {off : Fin 2 → ℕ} {inb} {n : ℕ} (h : off = ![n, 0]) :
    (Rect.unit (s := S200x128) off S1x128.size inb).set = rowSetN n := by
  subst h
  ext i
  rw [Rect.mem_set_unit, mem_rowSetN]
  constructor
  · intro hh; have := hh 0; simp at this; omega
  · intro hh a
    fin_cases a
    · simp; omega
    · simp; exact (i 1).isLt

/-- A unit-stride rectangle of 128 rows, one position, all lanes of the result is that window. -/
theorem set_unit_win {off : Fin 3 → ℕ} {inb} {B n : ℕ} (h : off = ![B, n, 0]) :
    (Rect.unit (s := S4096x200x128) off S128x1x128.size inb).set = winSetN B n := by
  subst h
  ext i
  rw [Rect.mem_set_unit, mem_winSetN]
  constructor
  · intro hh; have h0 := hh 0; have h1 := hh 1; simp at h0 h1; omega
  · intro hh a
    fin_cases a
    · simp; omega
    · simp; omega
    · simp; exact (i 2).isLt

/-- The tile's block of the result is its 200 windows. -/
theorem wins_cover (c : Fin 2) (s : Fin 16) :
    (Finset.range 200).biUnion (winSetN (256 * s.val + 128 * c.val)) = tileSet c s := by
  ext i
  simp only [Finset.mem_biUnion, Finset.mem_range, mem_winSetN, tileSet, tileRect, Rect.mem_set_unit]
  constructor
  · rintro ⟨n, hn, h1, h2, h3⟩ a
    fin_cases a
    · simp; omega
    · simp; exact (i 1).isLt
    · simp; exact (i 2).isLt
  · intro hh
    have h0 := hh 0
    simp at h0
    exact ⟨(i 1).val, (i 1).isLt, by omega, by omega, rfl⟩

end Cert.Proof.KB

end
-- ==== Proof.KBFam.lean ====
/-
  Holding the tile's index scratch row by row and its block of the result window by window: a buffer held whole is the
  rows (windows) held one by one, and a row (window) named as the program slices it is the same resource named by its
  index set.
-/
import proofs.«205233_g80668075753725_cont_9to1c4b_826_11_alg».proof.Proof.KBSets

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S200x4096 EltTy.i32)
local notation "tV" => (Memref.whole Cert.Kernel.main_arg1_scv : Memref Cert.Kernel.sig Kind.scVector Space.hbm Cert.Kernel.S100000x128 EltTy.f32)
local notation "pV" => (Memref.whole Cert.Kernel.main_arg2_scv : Memref Cert.Kernel.sig Kind.scVector Space.hbm Cert.Kernel.S200x128 EltTy.f32)
local notation "oV" => (Memref.whole Cert.Kernel.main_v1_scv : Memref Cert.Kernel.sig Kind.scVector Space.hbm Cert.Kernel.S4096x200x128 EltTy.f32)
local notation "s0" => (Memref.whole Cert.Kernel.cc0_scratch0 : Memref Cert.Kernel.sig Kind.scVector Space.vmem Cert.Kernel.S200x128 EltTy.i32)
local notation "s1" => (Memref.whole Cert.Kernel.cc0_scratch1 : Memref Cert.Kernel.sig Kind.scVector Space.vmem Cert.Kernel.S200x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

section

variable (d : Dev nD) (L : grid0.Coords)

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)
/-- The tile's base row of the result: worker 2 s + c works on rows [128 (2 s + c), + 128). -/
abbrev baseRow (L : grid0.Coords) : ℕ := 256 * (L 1).val + 128 * (L 0).val

/-- A row of the index scratch as the program slices and squeezes it, at any in-range offsets naming row `n`. -/
abbrev rowM (off : Fin 2 → ℕ) (inb : ∀ a, off a + S1x128.size a ≤ S200x128.size a) : Memref sig .scVector .vmem S128 .i32 :=
  ((s0).slice (Rect.unit (s := S200x128) off S1x128.size inb) (fun _ => rfl)).squeeze S128 squeezes_S1x128_S128
/-- A window of the result as the program slices and squeezes it. -/
abbrev winM (off : Fin 3 → ℕ) (inb : ∀ a, off a + S128x1x128.size a ≤ S4096x200x128.size a) : Memref sig .scVector .hbm S128x128 .f32 :=
  ((oV).slice (Rect.unit (s := S4096x200x128) off S128x1x128.size inb) (fun _ => rfl)).squeeze S128x128 squeezes_S128x1x128_S128x128

theorem set_rowM {off : Fin 2 → ℕ} {inb} {n : ℕ} (h : off = ![n, 0]) : (rowM off inb).view.set = rowSetN n := by
  show (((s0).view.slice (Rect.unit (s := S200x128) off S1x128.size inb)).reshape S128 squeezes_S1x128_S128.numel_eq).set = _
  rw [View.set_reshape, View.set_slice]
  exact (Finset.map_refl).trans (set_unit_row h)

theorem set_winM {off : Fin 3 → ℕ} {inb} {B n : ℕ} (h : off = ![B, n, 0]) : (winM off inb).view.set = winSetN B n := by
  show (((oV).view.slice (Rect.unit (s := S4096x200x128) off S128x1x128.size inb)).reshape S128x128 squeezes_S128x1x128_S128x128.numel_eq).set = _
  rw [View.set_reshape, View.set_slice]
  exact (Finset.map_refl).trans (set_unit_win h)

theorem pts_rowM {off : Fin 2 → ℕ} {inb} {n : ℕ} (h : off = ![n, 0]) (q : PosShare TreeShare) (f : Buf (Elt F) ((s0).view.loc (thr d L))) :
    ((rowM off inb).view.loc (thr d L) ↦[(rowM off inb).view.set]{q} f : sProp 𝕄) = (s0).view.loc (thr d L) ↦[rowSetN n]{q} f := by
  rw [set_rowM h]

theorem pts_winM {off : Fin 3 → ℕ} {inb} {B n : ℕ} (h : off = ![B, n, 0]) (q : PosShare TreeShare) (f : Buf (Elt F) ((oV).view.loc (thr d L))) :
    ((winM off inb).view.loc (thr d L) ↦[(winM off inb).view.set]{q} f : sProp 𝕄) = (oV).view.loc (thr d L) ↦[winSetN B n]{q} f := by
  rw [set_winM h]

/-- The index scratch held whole is its 200 rows. -/
theorem rows_split (f : Buf (Elt F) ((s0).view.loc (thr d L))) :
    ((s0).view.loc (thr d L) ↦{fullShare} f : sProp 𝕄) = bigSep (Finset.range 200) fun n => (s0).view.loc (thr d L) ↦[rowSetN n]{fullShare} f := by
  rw [← pointsTo_biUnion (Finset.range 200) (ℓ := (s0).view.loc (thr d L)) rowSetN (fun a _ b _ h => rowSetN_disjoint h), rows_cover]

/-- The tile's block of the result is its 200 windows. -/
theorem wins_split (c : Fin 2) (s : Fin 16) (f : Buf (Elt F) ((oV).view.loc (thr d L))) :
    ((oV).view.loc (thr d L) ↦[tileSet c s]{fullShare} f : sProp 𝕄)
      = bigSep (Finset.range 200) fun n => (oV).view.loc (thr d L) ↦[winSetN (256 * s.val + 128 * c.val) n]{fullShare} f := by
  rw [← pointsTo_biUnion (Finset.range 200) (ℓ := (oV).view.loc (thr d L)) (winSetN (256 * s.val + 128 * c.val)) (fun a _ b _ h => winSetN_disjoint h), wins_cover]

end

/-! ## Families over an initial segment and over a final segment of the positions -/

theorem bigSep_range_succ (Φ : ℕ → sProp 𝕄) (n : ℕ) : bigSep (Finset.range (n + 1)) Φ = iprop(Φ n ∗ bigSep (Finset.range n) Φ) := by
  rw [Finset.range_add_one, bigSep_insert Finset.notMem_range_self]; rfl

theorem bigSep_Ico_succ_left (Φ : ℕ → sProp 𝕄) {a b : ℕ} (h : a < b) : bigSep (Finset.Ico a b) Φ = iprop(Φ a ∗ bigSep (Finset.Ico (a + 1) b) Φ) := by
  have e : Finset.Ico a b = insert a (Finset.Ico (a + 1) b) := by
    ext x; simp only [Finset.mem_Ico, Finset.mem_insert]; omega
  rw [e, bigSep_insert (by simp)]; rfl

theorem bigSep_Ico_self (Φ : ℕ → sProp 𝕄) (a : ℕ) : bigSep (Finset.Ico a a) Φ = (iprop(emp) : sProp 𝕄) := by
  rw [Finset.Ico_self, bigSep_empty]; rfl

theorem bigSep_range_zero (Φ : ℕ → sProp 𝕄) : bigSep (Finset.range 0) Φ = (iprop(emp) : sProp 𝕄) := by
  rw [Finset.range_zero, bigSep_empty]; rfl

theorem range_eq_Ico_zero (Φ : ℕ → sProp 𝕄) (n : ℕ) : bigSep (Finset.range n) Φ = bigSep (Finset.Ico 0 n) Φ := by
  rw [Finset.range_eq_Ico]

end Cert.Proof.KB

end
-- ==== Proof.KBCoreStmt.lean ====
/-
  The tile's body as a statement about its own resources: from its read shares of the transposed indices, the table and
  the position table, its block of the result, its six scratch buffers and its ten DMA semaphores at zero, the body runs
  and hands back the shares, the block at the lookup, the scratch and the semaphores at zero.
-/
import proofs.«205233_g80668075753725_cont_9to1c4b_826_11_alg».proof.Proof.KBFam

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S200x4096 EltTy.i32)
local notation "tV" => (Memref.whole Cert.Kernel.main_arg1_scv : Memref Cert.Kernel.sig Kind.scVector Space.hbm Cert.Kernel.S100000x128 EltTy.f32)
local notation "pV" => (Memref.whole Cert.Kernel.main_arg2_scv : Memref Cert.Kernel.sig Kind.scVector Space.hbm Cert.Kernel.S200x128 EltTy.f32)
local notation "oV" => (Memref.whole Cert.Kernel.main_v1_scv : Memref Cert.Kernel.sig Kind.scVector Space.hbm Cert.Kernel.S4096x200x128 EltTy.f32)
local notation "s0" => (Memref.whole Cert.Kernel.cc0_scratch0 : Memref Cert.Kernel.sig Kind.scVector Space.vmem Cert.Kernel.S200x128 EltTy.i32)
local notation "s1" => (Memref.whole Cert.Kernel.cc0_scratch1 : Memref Cert.Kernel.sig Kind.scVector Space.vmem Cert.Kernel.S200x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable [FloatOps F]

theorem bound_zero : grid0.bound 0 = 2 := rfl
theorem bound_one : grid0.bound 1 = 16 := rfl
/-- The tile's SparseCore and vector subcore as the tiles' numbering names them. -/
abbrev cL (L : grid0.Coords) : Fin 2 := Fin.cast bound_zero (L 0)
abbrev sL (L : grid0.Coords) : Fin 16 := Fin.cast bound_one (L 1)

/-- The body obligation over the tile's own resources, for every tile at once. -/
def TileCore (m : (ℓ : Loc nD τ sig) → Buf (Elt F) ℓ) : Prop :=
  ∀ (d : Dev nD) (L : grid0.Coords) (O : CellTallies nD τ sig (HIx 1)) (W : Waits sig (HIx 1))
    (g0 : Buf (Elt F) ((s0).view.loc (thr d L))) (g1 : Buf (Elt F) ((s1).view.loc (thr d L)))
    (h0 : Buf (Elt F) ((b0).view.loc (thr d L))) (h1 : Buf (Elt F) ((b1).view.loc (thr d L)))
    (h2 : Buf (Elt F) ((b2).view.loc (thr d L))) (h3 : Buf (Elt F) ((b3).view.loc (thr d L))),
    (iprop(Transfers.MayWaits (thr d L) (none : HIx 1) O
        ∗ ((iV).view.loc (thr d L) ↦{tokq (cL L) (sL L)} FI m d) ∗ ((tV).view.loc (thr d L) ↦{tokq (cL L) (sL L)} m (tLoc d))
        ∗ ((pV).view.loc (thr d L) ↦{tokq (cL L) (sL L)} m (pLoc d)) ∗ ((oV).view.loc (thr d L) ↦[tileSet (cL L) (sL L)]{fullShare} m (oLoc d))
        ∗ ((s0).view.loc (thr d L) ↦{fullShare} g0) ∗ ((s1).view.loc (thr d L) ↦{fullShare} g1)
        ∗ ((b0).view.loc (thr d L) ↦{fullShare} h0) ∗ ((b1).view.loc (thr d L) ↦{fullShare} h1)
        ∗ ((b2).view.loc (thr d L) ↦{fullShare} h2) ∗ ((b3).view.loc (thr d L) ↦{fullShare} h3)
        ∗ semVal (thr d L, SemLoc.dma cc0_scoped0.sem) 0 ∗ semVal (thr d L, SemLoc.dma cc0_scoped1.sem) 0
        ∗ semVal (thr d L, SemLoc.dma cc0_scratch6.sem) 0 ∗ semVal (thr d L, SemLoc.dma cc0_scratch7.sem) 0
        ∗ semVal (thr d L, SemLoc.dma cc0_scratch8.sem) 0 ∗ semVal (thr d L, SemLoc.dma cc0_scratch9.sem) 0
        ∗ semVal (thr d L, SemLoc.dma cc0_scratch10.sem) 0 ∗ semVal (thr d L, SemLoc.dma cc0_scratch11.sem) 0
        ∗ semVal (thr d L, SemLoc.dma cc0_scratch12.sem) 0 ∗ semVal (thr d L, SemLoc.dma cc0_scratch13.sem) 0
        ∗ owes (thr d L) O W) : sProp 𝕄)
      ⊢ wp frame (wpE (defs₀ (F := F)) 𝒱₀ (thr d L) none) Set.univ
          (cc0__body (F := F) L iV (Memref.isWhole_whole _) tV (Memref.isWhole_whole _) pV (Memref.isWhole_whole _) oV (Memref.isWhole_whole _) s0 (Memref.isWhole_whole _) s1 (Memref.isWhole_whole _) b0 (Memref.isWhole_whole _) b1 (Memref.isWhole_whole _) b2 (Memref.isWhole_whole _) b3 (Memref.isWhole_whole _) cc0_scratch6 cc0_scratch7 cc0_scratch8 cc0_scratch9 cc0_scratch10 cc0_scratch11 cc0_scratch12 cc0_scratch13 cc0_scoped0 cc0_scoped1)
          fun _ => iprop(((iV).view.loc (thr d L) ↦{tokq (cL L) (sL L)} FI m d) ∗ ((tV).view.loc (thr d L) ↦{tokq (cL L) (sL L)} m (tLoc d))
            ∗ ((pV).view.loc (thr d L) ↦{tokq (cL L) (sL L)} m (pLoc d)) ∗ ((oV).view.loc (thr d L) ↦[tileSet (cL L) (sL L)]{fullShare} GT m d)
            ∗ (∃ f, (s0).view.loc (thr d L) ↦{fullShare} f) ∗ (∃ f, (s1).view.loc (thr d L) ↦{fullShare} f)
            ∗ (∃ f, (b0).view.loc (thr d L) ↦{fullShare} f) ∗ (∃ f, (b1).view.loc (thr d L) ↦{fullShare} f)
            ∗ (∃ f, (b2).view.loc (thr d L) ↦{fullShare} f) ∗ (∃ f, (b3).view.loc (thr d L) ↦{fullShare} f)
            ∗ semVal (thr d L, SemLoc.dma cc0_scoped0.sem) 0 ∗ semVal (thr d L, SemLoc.dma cc0_scoped1.sem) 0
            ∗ semVal (thr d L, SemLoc.dma cc0_scratch6.sem) 0 ∗ semVal (thr d L, SemLoc.dma cc0_scratch7.sem) 0
            ∗ semVal (thr d L, SemLoc.dma cc0_scratch8.sem) 0 ∗ semVal (thr d L, SemLoc.dma cc0_scratch9.sem) 0
            ∗ semVal (thr d L, SemLoc.dma cc0_scratch10.sem) 0 ∗ semVal (thr d L, SemLoc.dma cc0_scratch11.sem) 0
            ∗ semVal (thr d L, SemLoc.dma cc0_scratch12.sem) 0 ∗ semVal (thr d L, SemLoc.dma cc0_scratch13.sem) 0
            ∗ ∃ W', ⌜∀ p ∈ W', p ∈ W ∨ p.2 = none⌝ ∗ owes (thr d L) O W')

end Cert.Proof.KB

end
-- ==== Proof.KBObl.lean ====
/-
  The tiles' obligation of the launch theorem from the body's statement over a tile's own resources: a vector subcore's
  scoped storage is its six scratch buffers and its ten DMA semaphores; the body runs on those and the task's operands,
  and hands everything back.
-/
import proofs.«205233_g80668075753725_cont_9to1c4b_826_11_alg».proof.Proof.KBCoreStmt
import proofs.«205233_g80668075753725_cont_9to1c4b_826_11_alg».proof.Proof.KBSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S200x4096 EltTy.i32)
local notation "tV" => (Memref.whole Cert.Kernel.main_arg1_scv : Memref Cert.Kernel.sig Kind.scVector Space.hbm Cert.Kernel.S100000x128 EltTy.f32)
local notation "pV" => (Memref.whole Cert.Kernel.main_arg2_scv : Memref Cert.Kernel.sig Kind.scVector Space.hbm Cert.Kernel.S200x128 EltTy.f32)
local notation "oV" => (Memref.whole Cert.Kernel.main_v1_scv : Memref Cert.Kernel.sig Kind.scVector Space.hbm Cert.Kernel.S4096x200x128 EltTy.f32)
local notation "s0" => (Memref.whole Cert.Kernel.cc0_scratch0 : Memref Cert.Kernel.sig Kind.scVector Space.vmem Cert.Kernel.S200x128 EltTy.i32)
local notation "s1" => (Memref.whole Cert.Kernel.cc0_scratch1 : Memref Cert.Kernel.sig Kind.scVector Space.vmem Cert.Kernel.S200x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable (m : (ℓ : Loc nD τ sig) → Buf (Elt F) ℓ)

/-! ## A vector subcore's own storage -/

/-- The six scratch buffers, as the kernel names them. -/
abbrev S6 : Finset (Ref sig .scVector) := {cc0_scratch0, cc0_scratch1, cc0_scratch2, cc0_scratch3, cc0_scratch4, cc0_scratch5}
/-- The same as buffers of vector subcore `(c, j)`. -/
abbrev T6 (c : Fin τ.nSC) (j : Fin τ.nSub) : Finset (DevRef τ sig) :=
  S6.map ⟨(Proc.scVector c j).devRef, Proc.devRef_injective _⟩

omit m in
theorem T6_sub (c : Fin τ.nSC) (j : Fin τ.nSub) : T6 c j ⊆ ownRefs (τ := τ) (sig := sig) (.scVector c j) := by
  intro b hb
  obtain ⟨r, hr, rfl⟩ := Finset.mem_map.mp hb
  simp only [S6, Finset.mem_insert, Finset.mem_singleton] at hr
  rcases hr with rfl | rfl | rfl | rfl | rfl | rfl <;> exact SparseCore.Cfg.mem_ownRefs_of_owner rfl

omit m in
theorem bigSep_S6 (Φ : Ref sig .scVector → sProp 𝕄) :
    bigSep S6 Φ = iprop(Φ cc0_scratch0 ∗ Φ cc0_scratch1 ∗ Φ cc0_scratch2 ∗ Φ cc0_scratch3 ∗ Φ cc0_scratch4 ∗ Φ cc0_scratch5) := by
  unfold S6
  rw [SparseCore.bigSep_insert' (by decide), SparseCore.bigSep_insert' (by decide), SparseCore.bigSep_insert' (by decide),
    SparseCore.bigSep_insert' (by decide), SparseCore.bigSep_insert' (by decide), bigSep_singleton]

omit m in
/-- The six scratch buffers are among the subcore's own: they are them, at some contents, and the rest. -/
theorem ownBufs_six (d : Dev nD) (L : grid0.Coords) :
    (ownBufs (thr d L) : sProp 𝕄)
      = iprop(((∃ f, (s0).view.loc (thr d L) ↦{fullShare} f) ∗ (∃ f, (s1).view.loc (thr d L) ↦{fullShare} f)
          ∗ (∃ f, (b0).view.loc (thr d L) ↦{fullShare} f) ∗ (∃ f, (b1).view.loc (thr d L) ↦{fullShare} f)
          ∗ (∃ f, (b2).view.loc (thr d L) ↦{fullShare} f) ∗ (∃ f, (b3).view.loc (thr d L) ↦{fullShare} f))
          ∗ bigSep (ownRefs (τ := τ) (.scVector (cV L) (jV L)) \ T6 (cV L) (jV L)) fun b => iprop(∃ f, ((d, b) : Loc nD τ sig) ↦{fullShare} f)) := by
  unfold SparseCore.Cfg.ownBufs
  refine (SparseCore.bigSep_sdiff_split' (T6_sub (cV L) (jV L))).trans ?_
  rw [bigSep_map, bigSep_S6]
  rfl

omit m in
theorem scopedSems_eq : (Finset.univ.filter fun sm : SemLoc sig => sm.isScoped Kind.scVector)
    = {SemLoc.dma cc0_scoped0.sem, SemLoc.dma cc0_scoped1.sem, SemLoc.dma cc0_scratch6.sem, SemLoc.dma cc0_scratch7.sem,
        SemLoc.dma cc0_scratch8.sem, SemLoc.dma cc0_scratch9.sem, SemLoc.dma cc0_scratch10.sem, SemLoc.dma cc0_scratch11.sem,
        SemLoc.dma cc0_scratch12.sem, SemLoc.dma cc0_scratch13.sem} := by decide

omit m in
/-- A vector subcore's scoped semaphores are the ten DMA semaphores of the kernel. -/
theorem ownSems0_ten (d : Dev nD) (L : grid0.Coords) :
    (ownSems0 (thr d L) : sProp 𝕄)
      = iprop(semVal (thr d L, SemLoc.dma cc0_scoped0.sem) 0 ∗ semVal (thr d L, SemLoc.dma cc0_scoped1.sem) 0
        ∗ semVal (thr d L, SemLoc.dma cc0_scratch6.sem) 0 ∗ semVal (thr d L, SemLoc.dma cc0_scratch7.sem) 0
        ∗ semVal (thr d L, SemLoc.dma cc0_scratch8.sem) 0 ∗ semVal (thr d L, SemLoc.dma cc0_scratch9.sem) 0
        ∗ semVal (thr d L, SemLoc.dma cc0_scratch10.sem) 0 ∗ semVal (thr d L, SemLoc.dma cc0_scratch11.sem) 0
        ∗ semVal (thr d L, SemLoc.dma cc0_scratch12.sem) 0 ∗ semVal (thr d L, SemLoc.dma cc0_scratch13.sem) 0) := by
  rw [SparseCore.Cfg.ownSems0_eq]
  show bigSep (Finset.univ.filter fun sm : SemLoc sig => sm.isScoped Kind.scVector) _ = _
  rw [scopedSems_eq, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable [FloatOps F]

/-! ## The body on a tile of the launch -/

set_option maxHeartbeats 1000000 in
/-- The body on vector subcore `(L 0, L 1)` of device `d`, from the task's operands and the subcore's scoped storage. -/
theorem tile_wrap (hcore : TileCore m) (d : Dev nD) (L : grid0.Coords) (O : CellTallies nD τ sig (HIx 1)) (W : Waits sig (HIx 1)) (hO : ∀ g, O g none = 0) :
    iprop(levAts (K (F := F)).L (K (F := F)).lev ∗ emp
        ∗ res m d (m (oLoc d)) (cL L) (sL L)
        ∗ scopedBufs (thr d L) ∗ scopedSems0 (thr d L) ∗ owes (thr d L) O W)
      ⊢ wp frame (wpE (defs₀ (F := F)) 𝒱₀ (thr d L) none) Set.univ
          (cc0__body (F := F) L iV (Memref.isWhole_whole _) tV (Memref.isWhole_whole _) pV (Memref.isWhole_whole _) oV (Memref.isWhole_whole _) s0 (Memref.isWhole_whole _) s1 (Memref.isWhole_whole _) b0 (Memref.isWhole_whole _) b1 (Memref.isWhole_whole _) b2 (Memref.isWhole_whole _) b3 (Memref.isWhole_whole _) cc0_scratch6 cc0_scratch7 cc0_scratch8 cc0_scratch9 cc0_scratch10 cc0_scratch11 cc0_scratch12 cc0_scratch13 cc0_scoped0 cc0_scoped1)
          fun _ => iprop(res m d (GT m d) (cL L) (sL L)
            ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_ten, ownBufs_six]
  iintro ⟨#Hlv, -, ⟨Hi, Ht, Hp, Ho⟩, ⟨⟨⟨%g0, H0⟩, ⟨%g1, H1⟩, ⟨%h0, H2⟩, ⟨%h1, H3⟩, ⟨%h2, H4⟩, ⟨%h3, H5⟩⟩, Hbufs⟩,
    ⟨Hc0, Hc1, Hc2, Hc3, Hc4, Hc5, Hc6, Hc7, Hc8, Hc9⟩, HO⟩
  ihave Hmw := (show levAts (K (F := F)).L (K (F := F)).lev ⊢ Transfers.MayWaits (thr d L) (none : HIx 1) O from
    (K (F := F)).mayWaits_none (thr := thr d L) hO) $$ Hlv
  ihave Hwp := (hcore d L O W g0 g1 h0 h1 h2 h3) $$ [Hmw Hi Ht Hp Ho H0 H1 H2 H3 H4 H5 Hc0 Hc1 Hc2 Hc3 Hc4 Hc5 Hc6 Hc7 Hc8 Hc9 HO]
  · iframe; iexact Hmw
  iapply (wp_wand_r frame _ _) $$ [Hwp Hbufs]
  isplitl [Hwp]; · iexact Hwp
  iintro %a ⟨Hi, Ht, Hp, Ho, H0, H1, H2, H3, H4, H5, Hc0, Hc1, Hc2, Hc3, Hc4, Hc5, Hc6, Hc7, Hc8, Hc9, HW⟩
  isplitl [Hi Ht Hp Ho]
  · isplitl [Hi]; · iexact Hi
    isplitl [Ht]; · iexact Ht
    isplitl [Hp]; · iexact Hp
    iexact Ho
  isplitl [H0 H1 H2 H3 H4 H5 Hbufs]
  · isplitl [H0 H1 H2 H3 H4 H5]
    · isplitl [H0]; · iexact H0
      isplitl [H1]; · iexact H1
      isplitl [H2]; · iexact H2
      isplitl [H3]; · iexact H3
      isplitl [H4]; · iexact H4
      iexact H5
    iexact Hbufs
  isplitl [Hc0 Hc1 Hc2 Hc3 Hc4 Hc5 Hc6 Hc7 Hc8 Hc9]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    iexact Hc9
  iexact HW

/-! ## The obligation -/

/-- The grid point of a SparseCore and a vector subcore of the kernel's grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (F := F) (coordsV c s)
          iV (Memref.isWhole_whole _) tV (Memref.isWhole_whole _) pV (Memref.isWhole_whole _) oV (Memref.isWhole_whole _)
          s0 (Memref.isWhole_whole _) s1 (Memref.isWhole_whole _) b0 (Memref.isWhole_whole _) b1 (Memref.isWhole_whole _)
          b2 (Memref.isWhole_whole _) b3 (Memref.isWhole_whole _)
          cc0_scratch6 cc0_scratch7 cc0_scratch8 cc0_scratch9 cc0_scratch10 cc0_scratch11 cc0_scratch12 cc0_scratch13 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch theorem's obligation for the tiles, from the body's statement over a tile's own resources. -/
theorem tileObl (hcore : TileCore m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_wrap m hcore d (coordsV ⟨_, hci.1⟩ ⟨_, hci.2⟩) O W hO).trans (wp_mono frame _ _ fun _ => obl_post)

end Cert.Proof.KB

end
-- ==== Proof.KBAsm.lean ====
/-
  The kernel's run from the body's statement over a tile's own resources: the tiles' obligation (the body on each
  tile's operands and scoped storage) and the launch (the transpose, the deal of the arrays to the tiles, the call, the
  collection) give the whole program's run, the result at the lookup of the launch arrays and the arguments unchanged.
-/
import proofs.«205233_g80668075753725_cont_9to1c4b_826_11_alg».proof.Proof.KBLaunch
import proofs.«205233_g80668075753725_cont_9to1c4b_826_11_alg».proof.Proof.KBObl

noncomputable section

namespace Cert.Proof.KB

open Cert.Kernel Cert.Kernel.Gen

open Idealize.ShloMosaic
open Idealize.SL Idealize.SL.Sem

variable {F : FTy → Type}

variable (m : (ℓ : Loc nD τ sig) → Buf (Elt F) ℓ) (ρ : Dev nD → PrngReg)

variable [FloatOps F]

theorem frame_of_core [∀ e, Nonempty (Elt F e)] (hpre : PreOK m) (hcore : TileCore m) :
    θ_run (Cert.Kernel.defs (F := F)) (Cert.Kernel.threads (F := F)) ⟨m, fun _ => 0, ρ⟩
      (fun r => ∀ c : Dev nD, r.2.mem (oLoc c) = GT m c ∧ r.2.mem (rLoc c) = m (rLoc c) ∧ r.2.mem (tLoc c) = m (tLoc c) ∧ r.2.mem (pLoc c) = m (pLoc c)) :=
  run_main m ρ hpre (tileObl m hcore)

end Cert.Proof.KB

end
-- ==== Proof.KBVal.lean ====
/-
  What the tile's buffers hold, as functions of what its scratches were filled with: the rows a gather lands
  (row r of the buffer is the table row that word (s, r) of the index scratch names), a buffer with the position row
  added to its first n rows, and the finished buffer of position s (every row with the position row added).
-/
import proofs.«205233_g80668075753725_cont_9to1c4b_826_11_alg».proof.Proof.KBFam

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S200x4096 EltTy.i32)
local notation "tV" => (Memref.whole Cert.Kernel.main_arg1_scv : Memref Cert.Kernel.sig Kind.scVector Space.hbm Cert.Kernel.S100000x128 EltTy.f32)
local notation "pV" => (Memref.whole Cert.Kernel.main_arg2_scv : Memref Cert.Kernel.sig Kind.scVector Space.hbm Cert.Kernel.S200x128 EltTy.f32)
local notation "oV" => (Memref.whole Cert.Kernel.main_v1_scv : Memref Cert.Kernel.sig Kind.scVector Space.hbm Cert.Kernel.S4096x200x128 EltTy.f32)
local notation "s0" => (Memref.whole Cert.Kernel.cc0_scratch0 : Memref Cert.Kernel.sig Kind.scVector Space.vmem Cert.Kernel.S200x128 EltTy.i32)
local notation "s1" => (Memref.whole Cert.Kernel.cc0_scratch1 : Memref Cert.Kernel.sig Kind.scVector Space.vmem Cert.Kernel.S200x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable [FloatOps F]

/-- A 128 × 128 buffer with the lane vector `p` added to each of its first `n` rows. -/
def RowUpd (f : S128x128.Idx → F .f32) (p : Fin 128 → F .f32) (n : ℕ) : S128x128.Idx → F .f32 :=
  fun y => if (y 0).val < n then FloatOps.addf (f y) (p (y 1)) else f y

theorem RowUpd_zero (f : S128x128.Idx → F .f32) (p : Fin 128 → F .f32) : RowUpd f p 0 = f := by
  funext y; simp [RowUpd]

section

variable (d : Dev nD) (L : grid0.Coords)

/-- Row `s` of the position scratch, as a lane vector. -/
def posRow (PP : Buf (Elt F) ((s1).view.loc (thr d L))) (s : ℕ) : Fin 128 → F .f32 :=
  fun l => PP (ValueIdx.ix2 (⟨s % 200, Nat.mod_lt _ (by decide)⟩ : Fin 200) l)

/-- What the gather for position `s` lands in a buffer: row `r` is the table row that word `(s, r)` of the index scratch names. -/
def Gath (ft : Buf (Elt F) ((tV).view.loc (thr d L))) (II : Buf (Elt F) ((s0).view.loc (thr d L))) (s : ℕ) : S128x128.Idx → F .f32 :=
  fun y => ft (ValueIdx.ix2 (Cert.Spec.rowOf (II (ValueIdx.ix2 (⟨s % 200, Nat.mod_lt _ (by decide)⟩ : Fin 200) (y 0)))) (y 1))

/-- The finished buffer of position `s`: the gathered rows, each with the position row added. -/
def Res (ft : Buf (Elt F) ((tV).view.loc (thr d L))) (II : Buf (Elt F) ((s0).view.loc (thr d L))) (PP : Buf (Elt F) ((s1).view.loc (thr d L))) (s : ℕ) :
    S128x128.Idx → F .f32 :=
  RowUpd (Gath d L ft II s) (posRow d L PP s) 128

end

end Cert.Proof.KB

end
-- ==== Proof.KBInv.lean ====
/-
  The ring of four buffers between trips of the position loop, as an assertion: which gathers and which copy-outs are
  in flight, which rows of the index scratch and which windows of the result are in hand, at which contents.
-/
import proofs.«205233_g80668075753725_cont_9to1c4b_826_11_alg».proof.Proof.KBVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S200x4096 EltTy.i32)
local notation "tV" => (Memref.whole Cert.Kernel.main_arg1_scv : Memref Cert.Kernel.sig Kind.scVector Space.hbm Cert.Kernel.S100000x128 EltTy.f32)
local notation "pV" => (Memref.whole Cert.Kernel.main_arg2_scv : Memref Cert.Kernel.sig Kind.scVector Space.hbm Cert.Kernel.S200x128 EltTy.f32)
local notation "oV" => (Memref.whole Cert.Kernel.main_v1_scv : Memref Cert.Kernel.sig Kind.scVector Space.hbm Cert.Kernel.S4096x200x128 EltTy.f32)
local notation "s0" => (Memref.whole Cert.Kernel.cc0_scratch0 : Memref Cert.Kernel.sig Kind.scVector Space.vmem Cert.Kernel.S200x128 EltTy.i32)
local notation "s1" => (Memref.whole Cert.Kernel.cc0_scratch1 : Memref Cert.Kernel.sig Kind.scVector Space.vmem Cert.Kernel.S200x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable [FloatOps F]

/-! ## The ring's state between trips of the position loop -/

section Inv

variable (d : Dev nD) (L : grid0.Coords) (qt : PosShare TreeShare)
  (ft : Buf (Elt F) ((tV).view.loc (thr d L))) (II : Buf (Elt F) ((s0).view.loc (thr d L))) (PP : Buf (Elt F) ((s1).view.loc (thr d L)))
  (fo go : Buf (Elt F) ((oV).view.loc (thr d L))) (O : CellTallies nD τ sig (HIx 1)) (W : Waits sig (HIx 1))

abbrev EC : UEmb Counters 𝕄 := countersEmb
/-- The table as every gather names it. -/
abbrev tSl : Memref sig .scVector .hbm S100000x128 .f32 :=
  (tV).slice (Rect.unit (s := S100000x128) ![0, 0] S100000x128.size inb_S100000x128_S100000x128_0_0) (fun _ => rfl)
/-- The read token of the table that gathers completing on gather cell `j` borrow. -/
abbrev Tok (j : Fin 4) : sProp 𝕄 := (tSl).view.loc (thr d L) ↦[(tSl).view.set]{Transfers.shareTok qt 4 j} ft
/-- Row `n` of the index scratch; window `n` of the tile's block of the result at contents `f`. -/
abbrev RowP (n : ℕ) : sProp 𝕄 := (s0).view.loc (thr d L) ↦[rowSetN n]{fullShare} II
abbrev WinP (f : Buf (Elt F) ((oV).view.loc (thr d L))) (n : ℕ) : sProp 𝕄 := (oV).view.loc (thr d L) ↦[winSetN (baseRow L) n]{fullShare} f
abbrev Bf0 (f : Buf (Elt F) ((b0).view.loc (thr d L))) : sProp 𝕄 := (b0).view.loc (thr d L) ↦[(b0).view.set]{fullShare} f
abbrev Bf1 (f : Buf (Elt F) ((b1).view.loc (thr d L))) : sProp 𝕄 := (b1).view.loc (thr d L) ↦[(b1).view.set]{fullShare} f
abbrev Bf2 (f : Buf (Elt F) ((b2).view.loc (thr d L))) : sProp 𝕄 := (b2).view.loc (thr d L) ↦[(b2).view.set]{fullShare} f
abbrev Bf3 (f : Buf (Elt F) ((b3).view.loc (thr d L))) : sProp 𝕄 := (b3).view.loc (thr d L) ↦[(b3).view.set]{fullShare} f
/-- The gather of position `s` in flight into buffer X: at its wait it hands back the buffer at the gathered rows, the
    row of the index scratch it read, and the table's read token. -/
abbrev FG0 (s : ℕ) : sProp 𝕄 :=
  Transfers.Flight EC (thr d L) (SemLoc.dma cc0_scratch6.sem) (none : HIx 1) 524288
    iprop((Bf0 d L (Gath d L ft II s) ∗ RowP d L II s) ∗ Tok d L qt ft 0)
abbrev FG1 (s : ℕ) : sProp 𝕄 :=
  Transfers.Flight EC (thr d L) (SemLoc.dma cc0_scratch7.sem) (none : HIx 1) 524288
    iprop((Bf1 d L (Gath d L ft II s) ∗ RowP d L II s) ∗ Tok d L qt ft 1)
abbrev FG2 (s : ℕ) : sProp 𝕄 :=
  Transfers.Flight EC (thr d L) (SemLoc.dma cc0_scratch8.sem) (none : HIx 1) 524288
    iprop((Bf2 d L (Gath d L ft II s) ∗ RowP d L II s) ∗ Tok d L qt ft 2)
abbrev FG3 (s : ℕ) : sProp 𝕄 :=
  Transfers.Flight EC (thr d L) (SemLoc.dma cc0_scratch9.sem) (none : HIx 1) 524288
    iprop((Bf3 d L (Gath d L ft II s) ∗ RowP d L II s) ∗ Tok d L qt ft 3)
/-- The copy-out of position `s` in flight from buffer X: at its wait it hands back the window at the result and the buffer. -/
abbrev FS0 (s : ℕ) : sProp 𝕄 :=
  Transfers.Flight EC (thr d L) (SemLoc.dma cc0_scratch10.sem) (none : HIx 1) 524288
    iprop(WinP d L go s ∗ Bf0 d L (Res d L ft II PP s))
abbrev FS1 (s : ℕ) : sProp 𝕄 :=
  Transfers.Flight EC (thr d L) (SemLoc.dma cc0_scratch11.sem) (none : HIx 1) 524288
    iprop(WinP d L go s ∗ Bf1 d L (Res d L ft II PP s))
abbrev FS2 (s : ℕ) : sProp 𝕄 :=
  Transfers.Flight EC (thr d L) (SemLoc.dma cc0_scratch12.sem) (none : HIx 1) 524288
    iprop(WinP d L go s ∗ Bf2 d L (Res d L ft II PP s))
abbrev FS3 (s : ℕ) : sProp 𝕄 :=
  Transfers.Flight EC (thr d L) (SemLoc.dma cc0_scratch13.sem) (none : HIx 1) 524288
    iprop(WinP d L go s ∗ Bf3 d L (Res d L ft II PP s))

/-- Before trip `k` (positions 4 k … 4 k + 3): the gathers of positions 4 k and 4 k + 1 are in flight into buffers 0 and 1
    (after the last trip those buffers are free); the copy-outs of positions 4 k − 2 and 4 k − 1 are in flight from buffers
    2 and 3 (before the first trip those are free); the rows of the index scratch below 4 k and from 4 k + 2 on are in hand,
    the windows of the result below 4 k − 2 at the result, those from 4 k on untouched. -/
def inv (k : ℕ) (_ : PUnit) : sProp 𝕄 :=
  iprop(Transfers.MayWaits (thr d L) (none : HIx 1) O ∗ ((s1).view.loc (thr d L) ↦{fullShare} PP)
    ∗ Tok d L qt ft 2 ∗ Tok d L qt ft 3
    ∗ semVal (thr d L, SemLoc.dma cc0_scratch8.sem) 0 ∗ semVal (thr d L, SemLoc.dma cc0_scratch9.sem) 0
    ∗ semVal (thr d L, SemLoc.dma cc0_scratch10.sem) 0 ∗ semVal (thr d L, SemLoc.dma cc0_scratch11.sem) 0
    ∗ (if k < 50 then iprop(FG0 d L qt ft II (4 * k) ∗ FG1 d L qt ft II (4 * k + 1))
        else iprop((∃ f, Bf0 d L f) ∗ (∃ f, Bf1 d L f) ∗ Tok d L qt ft 0 ∗ Tok d L qt ft 1
          ∗ semVal (thr d L, SemLoc.dma cc0_scratch6.sem) 0 ∗ semVal (thr d L, SemLoc.dma cc0_scratch7.sem) 0))
    ∗ (if 0 < k then iprop(FS2 d L ft II PP go (4 * k - 2) ∗ FS3 d L ft II PP go (4 * k - 1))
        else iprop((∃ f, Bf2 d L f) ∗ (∃ f, Bf3 d L f)
          ∗ semVal (thr d L, SemLoc.dma cc0_scratch12.sem) 0 ∗ semVal (thr d L, SemLoc.dma cc0_scratch13.sem) 0))
    ∗ bigSep (Finset.range (4 * k)) (RowP d L II) ∗ bigSep (Finset.Ico (4 * k + 2) 200) (RowP d L II)
    ∗ bigSep (Finset.range (4 * k - 2)) (WinP d L go) ∗ bigSep (Finset.Ico (4 * k) 200) (WinP d L fo)
    ∗ ∃ W', ⌜∀ p ∈ W', p ∈ W ∨ p.2 = none⌝ ∗ owes (thr d L) O W')

end Inv

/-! ## Four positions at a time -/

theorem Ico4 (Φ : ℕ → sProp 𝕄) (a : ℕ) (h : a + 4 ≤ 200) :
    bigSep (Finset.Ico a 200) Φ = iprop(Φ a ∗ Φ (a + 1) ∗ Φ (a + 2) ∗ Φ (a + 3) ∗ bigSep (Finset.Ico (a + 4) 200) Φ) := by
  rw [bigSep_Ico_succ_left Φ (by omega : a < 200), bigSep_Ico_succ_left Φ (by omega : a + 1 < 200),
    bigSep_Ico_succ_left Φ (by omega : a + 1 + 1 < 200), bigSep_Ico_succ_left Φ (by omega : a + 1 + 1 + 1 < 200)]

theorem range4 (Φ : ℕ → sProp 𝕄) (a : ℕ) :
    bigSep (Finset.range (a + 4)) Φ = iprop(Φ (a + 3) ∗ Φ (a + 2) ∗ Φ (a + 1) ∗ Φ a ∗ bigSep (Finset.range a) Φ) := by
  rw [show a + 4 = a + 1 + 1 + 1 + 1 from rfl, bigSep_range_succ, bigSep_range_succ, bigSep_range_succ, bigSep_range_succ]

/-! ## The trip's conditions, decided by the trip -/

theorem cond1_iff : ∀ k : Fin k0_t1_loop.trips, k0_cond1 k = 1#1 ↔ 0 < k.val := by decide +kernel
theorem cond2_iff : ∀ k : Fin k0_t1_loop.trips, k0_cond2 k = 1#1 := by decide +kernel
theorem cond3_iff : ∀ k : Fin k0_t1_loop.trips, k0_cond3 k = 1#1 ↔ 0 < k.val := by decide +kernel
theorem cond4_iff : ∀ k : Fin k0_t1_loop.trips, k0_cond4 k = 1#1 := by decide +kernel
theorem cond5_iff : ∀ k : Fin k0_t1_loop.trips, k0_cond5 k = 1#1 := by decide +kernel
theorem cond6_iff : ∀ k : Fin k0_t1_loop.trips, k0_cond6 k = 1#1 ↔ k.val < 49 := by decide +kernel
theorem cond7_iff : ∀ k : Fin k0_t1_loop.trips, k0_cond7 k = 1#1 := by decide +kernel
theorem cond8_iff : ∀ k : Fin k0_t1_loop.trips, k0_cond8 k = 1#1 ↔ k.val < 49 := by decide +kernel

theorem winsDone_mid (Φ : ℕ → sProp 𝕄) (k : ℕ) (hk : 0 < k) :
    bigSep (Finset.range (4 * k + 2)) Φ = iprop(Φ (4 * k + 1) ∗ Φ (4 * k) ∗ Φ (4 * k - 1) ∗ Φ (4 * k - 2) ∗ bigSep (Finset.range (4 * k - 2)) Φ) := by
  have e : 4 * k + 2 = (4 * k - 2) + 4 := by omega
  rw [e, range4, show 4 * k - 2 + 3 = 4 * k + 1 by omega, show 4 * k - 2 + 2 = 4 * k by omega, show 4 * k - 2 + 1 = 4 * k - 1 by omega]

theorem winsDone_first (Φ : ℕ → sProp 𝕄) (k : ℕ) (hk : k = 0) :
    bigSep (Finset.range (4 * k + 2)) Φ = iprop(Φ (4 * k + 1) ∗ Φ (4 * k) ∗ bigSep (Finset.range (4 * k - 2)) Φ) := by
  subst hk
  rw [show 4 * 0 + 2 = 0 + 1 + 1 from rfl, bigSep_range_succ, bigSep_range_succ]

theorem Ico2 (Φ : ℕ → sProp 𝕄) (a : ℕ) (h : a + 2 ≤ 200) :
    bigSep (Finset.Ico a 200) Φ = iprop(Φ a ∗ Φ (a + 1) ∗ bigSep (Finset.Ico (a + 2) 200) Φ) := by
  rw [bigSep_Ico_succ_left Φ (by omega : a < 200), bigSep_Ico_succ_left Φ (by omega : a + 1 < 200)]

theorem Ico_big (Φ : ℕ → sProp 𝕄) (a : ℕ) (h : 200 ≤ a) : bigSep (Finset.Ico a 200) Φ = (iprop(emp) : sProp 𝕄) := by
  rw [Finset.Ico_eq_empty (by omega), bigSep_empty]; rfl

theorem waits_ok {W W' : Waits sig (HIx 1)} {sm : SemLoc sig} (h : ∀ p ∈ W', p ∈ W ∨ p.2 = none) :
    ∀ p ∈ insert (sm, (none : HIx 1)) W', p ∈ W ∨ p.2 = none := by
  intro p hp
  rcases Finset.mem_insert.mp hp with rfl | hp
  · exact .inr rfl
  · exact h p hp

section HinM
variable (d : Dev nD) (L : grid0.Coords) (II : Buf (Elt F) ((s0).view.loc (thr d L)))
theorem hinM (hII : ∀ i, (II i).toNat < 100000) (off : Fin 2 → ℕ) (inb) :
    ∀ x, ((rowM off inb).view.read (Elt F) II x).toNat < 100000 := by
  intro x
  rw [show (rowM off inb).view.read (Elt F) II x = II ((rowM off inb).view.emb x) from (View.read_apply _ _).trans (cast_eq _ _)]
  exact hII _
end HinM

end Cert.Proof.KB

end
-- ==== Proof.KBPay.lean ====
/-
  Reading a 128-lane row buffer after a trip of the row loop: the trip's eight stores tile one row by sixteen-lane
  pieces, each piece the lanes it loaded plus the matching lanes of a position row, so the row reads the old row plus
  the position row and every other row is unchanged; and what a sixteen-lane load reads.
-/
import proofs.«205233_g80668075753725_cont_9to1c4b_826_11_alg».proof.Proof.KBVal
import Idealize.ShloMosaic.Lib.WritesUnit
import Idealize.ShloMosaic.Lib.ValueLayout

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S200x4096 EltTy.i32)
local notation "tV" => (Memref.whole Cert.Kernel.main_arg1_scv : Memref Cert.Kernel.sig Kind.scVector Space.hbm Cert.Kernel.S100000x128 EltTy.f32)
local notation "pV" => (Memref.whole Cert.Kernel.main_arg2_scv : Memref Cert.Kernel.sig Kind.scVector Space.hbm Cert.Kernel.S200x128 EltTy.f32)
local notation "oV" => (Memref.whole Cert.Kernel.main_v1_scv : Memref Cert.Kernel.sig Kind.scVector Space.hbm Cert.Kernel.S4096x200x128 EltTy.f32)
local notation "s0" => (Memref.whole Cert.Kernel.cc0_scratch0 : Memref Cert.Kernel.sig Kind.scVector Space.vmem Cert.Kernel.S200x128 EltTy.i32)
local notation "s1" => (Memref.whole Cert.Kernel.cc0_scratch1 : Memref Cert.Kernel.sig Kind.scVector Space.vmem Cert.Kernel.S200x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable [FloatOps F]

section Pure

variable {sig' : RefSig} {κ : Kind} {sp : Space}

/-- The newest store first: a store of the sixteen lanes `[c, c + 16)` of row `j` is read at its own elements, lane by
    lane, and elsewhere the earlier stores are read. -/
theorem read_cons_lanes (v : View sig' κ sp S128x128 .f32) (f : v.ty.Contents (Elt F))
    {off : Fin 2 → ℕ} (inb : ∀ a, off a + S1x16.size a ≤ S128x128.size a)
    (w : (Rect.unit (s := S128x128) off S1x16.size inb).shape.Idx → Elt F .f32) (L : List (View.Piece (Elt F) S128x128 .f32)) (y : S128x128.Idx)
    {j c : ℕ} (heq : off = ![j, c]) :
    v.read (Elt F) (v.writes (Elt F) f ((⟨Rect.unit (s := S128x128) off S1x16.size inb, w⟩ : View.Piece (Elt F) S128x128 .f32) :: L)) y
      = if h : (y 0).val = j ∧ c ≤ (y 1).val ∧ (y 1).val < c + 16 then w (ValueIdx.ix2 (0 : Fin 1) (⟨(y 1).val - c, by omega⟩ : Fin 16))
        else v.read (Elt F) (v.writes (Elt F) f L) y := by
  by_cases h : (y 0).val = j ∧ c ≤ (y 1).val ∧ (y 1).val < c + 16
  · rw [dif_pos h]
    refine View.read_writes_cons_unit_of_mem v f inb w L y _ heq ?_
    intro a
    fin_cases a
    · simp [ValueIdx.ix2]; omega
    · simp [ValueIdx.ix2]; omega
  · rw [dif_neg h]
    by_cases h0 : (y 0).val = j
    · refine View.read_writes_cons_unit_of_not_mem v f inb w L y heq 1 ?_
      simp; omega
    · refine View.read_writes_cons_unit_of_not_mem v f inb w L y heq 0 ?_
      simp; omega

/-- After eight stores that tile row `j` by sixteen-lane pieces, the pieces being lanes of one function `G` of the lane,
    row `j` reads `G` and every other row is as before. -/
theorem read_row8 (v : View sig' κ sp S128x128 .f32) (f : v.ty.Contents (Elt F)) (j : ℕ)
    {o0 o1 o2 o3 o4 o5 o6 o7 : Fin 2 → ℕ}
    (i0 : ∀ a, o0 a + S1x16.size a ≤ S128x128.size a) (w0 : (Rect.unit (s := S128x128) o0 S1x16.size i0).shape.Idx → Elt F .f32) (e0 : o0 = ![j, 0])
    (i1 : ∀ a, o1 a + S1x16.size a ≤ S128x128.size a) (w1 : (Rect.unit (s := S128x128) o1 S1x16.size i1).shape.Idx → Elt F .f32) (e1 : o1 = ![j, 16])
    (i2 : ∀ a, o2 a + S1x16.size a ≤ S128x128.size a) (w2 : (Rect.unit (s := S128x128) o2 S1x16.size i2).shape.Idx → Elt F .f32) (e2 : o2 = ![j, 32])
    (i3 : ∀ a, o3 a + S1x16.size a ≤ S128x128.size a) (w3 : (Rect.unit (s := S128x128) o3 S1x16.size i3).shape.Idx → Elt F .f32) (e3 : o3 = ![j, 48])
    (i4 : ∀ a, o4 a + S1x16.size a ≤ S128x128.size a) (w4 : (Rect.unit (s := S128x128) o4 S1x16.size i4).shape.Idx → Elt F .f32) (e4 : o4 = ![j, 64])
    (i5 : ∀ a, o5 a + S1x16.size a ≤ S128x128.size a) (w5 : (Rect.unit (s := S128x128) o5 S1x16.size i5).shape.Idx → Elt F .f32) (e5 : o5 = ![j, 80])
    (i6 : ∀ a, o6 a + S1x16.size a ≤ S128x128.size a) (w6 : (Rect.unit (s := S128x128) o6 S1x16.size i6).shape.Idx → Elt F .f32) (e6 : o6 = ![j, 96])
    (i7 : ∀ a, o7 a + S1x16.size a ≤ S128x128.size a) (w7 : (Rect.unit (s := S128x128) o7 S1x16.size i7).shape.Idx → Elt F .f32) (e7 : o7 = ![j, 112])
    (G : Fin 128 → Elt F .f32)
    (g0 : ∀ x : Fin 16, w0 (ValueIdx.ix2 (0 : Fin 1) x) = G ⟨x.val, by omega⟩)
    (g1 : ∀ x : Fin 16, w1 (ValueIdx.ix2 (0 : Fin 1) x) = G ⟨16 + x.val, by omega⟩)
    (g2 : ∀ x : Fin 16, w2 (ValueIdx.ix2 (0 : Fin 1) x) = G ⟨32 + x.val, by omega⟩)
    (g3 : ∀ x : Fin 16, w3 (ValueIdx.ix2 (0 : Fin 1) x) = G ⟨48 + x.val, by omega⟩)
    (g4 : ∀ x : Fin 16, w4 (ValueIdx.ix2 (0 : Fin 1) x) = G ⟨64 + x.val, by omega⟩)
    (g5 : ∀ x : Fin 16, w5 (ValueIdx.ix2 (0 : Fin 1) x) = G ⟨80 + x.val, by omega⟩)
    (g6 : ∀ x : Fin 16, w6 (ValueIdx.ix2 (0 : Fin 1) x) = G ⟨96 + x.val, by omega⟩)
    (g7 : ∀ x : Fin 16, w7 (ValueIdx.ix2 (0 : Fin 1) x) = G ⟨112 + x.val, by omega⟩)
    (y : S128x128.Idx) :
    v.read (Elt F) (v.writes (Elt F) f [(⟨Rect.unit (s := S128x128) o7 S1x16.size i7, w7⟩ : View.Piece (Elt F) S128x128 .f32),
      (⟨Rect.unit (s := S128x128) o6 S1x16.size i6, w6⟩ : View.Piece (Elt F) S128x128 .f32),
      (⟨Rect.unit (s := S128x128) o5 S1x16.size i5, w5⟩ : View.Piece (Elt F) S128x128 .f32),
      (⟨Rect.unit (s := S128x128) o4 S1x16.size i4, w4⟩ : View.Piece (Elt F) S128x128 .f32),
      (⟨Rect.unit (s := S128x128) o3 S1x16.size i3, w3⟩ : View.Piece (Elt F) S128x128 .f32),
      (⟨Rect.unit (s := S128x128) o2 S1x16.size i2, w2⟩ : View.Piece (Elt F) S128x128 .f32),
      (⟨Rect.unit (s := S128x128) o1 S1x16.size i1, w1⟩ : View.Piece (Elt F) S128x128 .f32),
      (⟨Rect.unit (s := S128x128) o0 S1x16.size i0, w0⟩ : View.Piece (Elt F) S128x128 .f32)]) y
      = if (y 0).val = j then G (y 1) else v.read (Elt F) f y := by
  rw [read_cons_lanes v f i7 w7 _ y e7, read_cons_lanes v f i6 w6 _ y e6, read_cons_lanes v f i5 w5 _ y e5, read_cons_lanes v f i4 w4 _ y e4,
    read_cons_lanes v f i3 w3 _ y e3, read_cons_lanes v f i2 w2 _ y e2, read_cons_lanes v f i1 w1 _ y e1, read_cons_lanes v f i0 w0 _ y e0, View.writes_nil]
  have hy : (y 1).val < 128 := (y 1).isLt
  by_cases hr : (y 0).val = j
  · rw [if_pos hr]
    split_ifs with h7 h6 h5 h4 h3 h2 h1 h0
    · rw [g7]; congr 1; apply Fin.ext; simp; omega
    · rw [g6]; congr 1; apply Fin.ext; simp; omega
    · rw [g5]; congr 1; apply Fin.ext; simp; omega
    · rw [g4]; congr 1; apply Fin.ext; simp; omega
    · rw [g3]; congr 1; apply Fin.ext; simp; omega
    · rw [g2]; congr 1; apply Fin.ext; simp; omega
    · rw [g1]; congr 1; apply Fin.ext; simp; omega
    · rw [g0]; congr 1
    · exfalso; omega
  · rw [if_neg hr]
    simp [hr]

/-- What a sixteen-lane load at row `j`, lanes `[c, c + 16)` of a buffer of 128-lane rows reads at its lane `x`. -/
theorem readAt_lanes {R : ℕ} {e : EltTy} (v : View sig' κ sp (⟨2, ![R, 128]⟩ : Shape) e) (f : v.ty.Contents (Elt F))
    {off : Fin 2 → ℕ} (inb : ∀ a, off a + S1x16.size a ≤ (⟨2, ![R, 128]⟩ : Shape).size a) {j c : ℕ} (hj : j < R) (eo : off = ![j, c])
    (x : Fin 16) (l : Fin 128) (hl : l.val = c + x.val) :
    View.readAt (Elt F) v (Rect.unit (s := (⟨2, ![R, 128]⟩ : Shape)) off S1x16.size inb).toLoadRect f (ValueIdx.ix2 (0 : Fin 1) x)
      = v.read (Elt F) f (ValueIdx.ix2 (⟨j, hj⟩ : Fin R) l) := by
  rw [View.readAt_apply]
  congr 1
  subst eo
  funext a
  apply Fin.ext
  fin_cases a
  · simp [ValueIdx.ix2]
  · simp [ValueIdx.ix2]; omega

/-- One lane of a store's payload: the loaded lane plus the position lane. -/
theorem pay_lane (ld : Vec F S1x16 .f32) (pf : FVec F S16 .f32) (x : Fin 16) :
    shapeCast S1x16 (addf (shapeCast S16 ld shapeCasts_S1x16_S16) pf) shapeCasts_S16_S1x16 (ValueIdx.ix2 (0 : Fin 1) x)
      = FloatOps.addf (ld (ValueIdx.ix2 (0 : Fin 1) x)) (pf (ValueIdx.ix1 x)) := by
  rw [ValueIdx.shapeCast_a_1a_apply]
  show FloatOps.addf (shapeCast S16 ld shapeCasts_S1x16_S16 (ValueIdx.ix1 x)) _ = _
  rw [ValueIdx.shapeCast_1a_a_apply]

/-- A position lane read through the cast to sixteen lanes. -/
theorem cast_lane (pv : Vec F S1x16 .f32) (x : Fin 16) :
    shapeCast S16 pv shapeCasts_S1x16_S16 (ValueIdx.ix1 x) = pv (ValueIdx.ix2 (0 : Fin 1) x) :=
  ValueIdx.shapeCast_1a_a_apply _ _ _

/-- Adding the position row to row `j` of a buffer whose first `j` rows have it added leaves the first `j + 1` rows with
    it added. -/
theorem RowUpd_succ (g : S128x128.Idx → F .f32) (p : Fin 128 → F .f32) (j : ℕ) (hj : j < 128) (y : S128x128.Idx) :
    (if (y 0).val = j then FloatOps.addf (RowUpd g p j (ValueIdx.ix2 (⟨j, hj⟩ : Fin 128) (y 1))) (p (y 1)) else RowUpd g p j y)
      = RowUpd g p (j + 1) y := by
  by_cases hr : (y 0).val = j
  · have ey : ValueIdx.ix2 (⟨j, hj⟩ : Fin 128) (y 1) = y :=
      (congrArg (fun a : Fin 128 => ValueIdx.ix2 a (y 1)) (Fin.ext hr.symm : (⟨j, hj⟩ : Fin 128) = y 0)).trans
        (ValueIdx.eq_ix2 (n0 := 128) (n1 := 128) y).symm
    rw [if_pos hr]
    refine (congrArg (fun z => FloatOps.addf (RowUpd g p j z) (p (y 1))) ey).trans ?_
    show FloatOps.addf (RowUpd g p j y) (p (y 1)) = RowUpd g p (j + 1) y
    unfold RowUpd
    rw [if_neg (by omega), if_pos (by omega)]
  · rw [if_neg hr]
    unfold RowUpd
    by_cases hlt : (y 0).val < j
    · rw [if_pos hlt, if_pos (by omega)]
    · rw [if_neg hlt, if_neg (by omega)]

end Pure

end Cert.Proof.KB

end
-- ==== Proof.KBLand.lean ====
/-
  Where the transfers land: the indexed gather for position `n` leaves in a buffer, row by row, the table rows that the
  words of row `n` of the index scratch name; the copy of a finished buffer to a window of the result leaves, at every
  element of the window, the buffer's element of the same batch row and lane.
-/
import proofs.«205233_g80668075753725_cont_9to1c4b_826_11_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S200x4096 EltTy.i32)
local notation "tV" => (Memref.whole Cert.Kernel.main_arg1_scv : Memref Cert.Kernel.sig Kind.scVector Space.hbm Cert.Kernel.S100000x128 EltTy.f32)
local notation "pV" => (Memref.whole Cert.Kernel.main_arg2_scv : Memref Cert.Kernel.sig Kind.scVector Space.hbm Cert.Kernel.S200x128 EltTy.f32)
local notation "oV" => (Memref.whole Cert.Kernel.main_v1_scv : Memref Cert.Kernel.sig Kind.scVector Space.hbm Cert.Kernel.S4096x200x128 EltTy.f32)
local notation "s0" => (Memref.whole Cert.Kernel.cc0_scratch0 : Memref Cert.Kernel.sig Kind.scVector Space.vmem Cert.Kernel.S200x128 EltTy.i32)
local notation "s1" => (Memref.whole Cert.Kernel.cc0_scratch1 : Memref Cert.Kernel.sig Kind.scVector Space.vmem Cert.Kernel.S200x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable [FloatOps F]

section

variable (d : Dev nD) (L : grid0.Coords)

/-- The whole table, as the program slices it for the gather, reads as the table. -/
theorem read_tSl (ft : Buf (Elt F) ((tV).view.loc (thr d L))) (z : S100000x128.Idx) :
    View.read (Elt F) ((tV).slice (Rect.unit (s := S100000x128) ![0, 0] S100000x128.size inb_S100000x128_S100000x128_0_0) (fun _ => rfl)).view ft z = ft z := by
  show ft ((Rect.unit (s := S100000x128) ![0, 0] S100000x128.size inb_S100000x128_S100000x128_0_0).emb z) = ft z
  congr 1
  funext a
  apply Fin.ext
  fin_cases a <;> simp

/-- Word `q` of row `n` of the index scratch, read through the row as the program slices and squeezes it. -/
theorem read_rowM (II : Buf (Elt F) ((s0).view.loc (thr d L))) {off : Fin 2 → ℕ} {inb : ∀ a, off a + S1x128.size a ≤ S200x128.size a} {n : ℕ}
    (h : off = ![n, 0]) (hn : n < 200) (q : Fin S128.numel) (hq : q.val < 128) :
    View.read (Elt F) (rowM off inb).view II (S128.rowMajor.symm q) = II (ValueIdx.ix2 (⟨n, hn⟩ : Fin 200) (⟨q.val, hq⟩ : Fin 128)) := by
  subst h
  show II ((Rect.unit (s := S200x128) ![n, 0] S1x128.size inb).emb (Shape.reshapeEquiv squeezes_S1x128_S128.numel_eq (S128.rowMajor.symm q))) = _
  rw [Shape.reshapeEquiv_eq_of_rowMajor (y := ValueIdx.ix2 (0 : Fin 1) (⟨q.val, hq⟩ : Fin 128)) squeezes_S1x128_S128.numel_eq
    (by rw [Equiv.apply_symm_apply, Shape.rowMajor_val_two]; simp)]
  congr 1
  funext a
  apply Fin.ext
  fin_cases a <;> simp [ValueIdx.ix2]

/-- What the gather's payload is at an element of the buffer: the table row the index scratch names for the element's
    row, at the element's lane. -/
theorem gath_val {off : Fin 2 → ℕ} {inb : ∀ a, off a + S1x128.size a ≤ S200x128.size a} {n : ℕ} (h : off = ![n, 0]) (hn : n < 200)
    (II : Buf (Elt F) ((s0).view.loc (thr d L))) (ft : Buf (Elt F) ((tV).view.loc (thr d L)))
    (hnum : S128.numel = S128x128.size gathers_S100000x128_S128x128.axis')
    (hin : ∀ x, (View.read (Elt F) (rowM off inb).view II x).toNat < S100000x128.size gathers_S100000x128_S128x128.axis)
    (y : S128x128.Idx) :
    SparseCore.gatherPayload gathers_S100000x128_S128x128
        (View.read (Elt F) ((tV).slice (Rect.unit (s := S100000x128) ![0, 0] S100000x128.size inb_S100000x128_S100000x128_0_0) (fun _ => rfl)).view ft)
        (SparseCore.rows (View.read (Elt F) (rowM off inb).view II) hnum hin) y
      = Gath d L ft II n y := by
  unfold SparseCore.gatherPayload
  rw [read_tSl]
  unfold Gath
  have e200 : (⟨n % 200, Nat.mod_lt _ (by decide)⟩ : Fin 200) = ⟨n, hn⟩ := Fin.ext (Nat.mod_eq_of_lt hn)
  rw [e200]
  have hword := read_rowM d L II (inb := inb) h hn ((y gathers_S100000x128_S128x128.axis').cast hnum.symm) (y 0).isLt
  have hlt := hin (S128.rowMajor.symm ((y gathers_S100000x128_S128x128.axis').cast hnum.symm))
  rw [hword] at hlt
  congr 1
  funext b
  apply Fin.ext
  fin_cases b
  · show (gathers_S100000x128_S128x128.idx _ y gathers_S100000x128_S128x128.axis).val = _
    rw [Shape.Gathers.idx_axis]
    show (View.read (Elt F) (rowM off inb).view II (S128.rowMajor.symm ((y gathers_S100000x128_S128x128.axis').cast hnum.symm))).toNat = _
    rw [hword]
    exact (Cert.Spec.rowOf_val_of_lt hlt).symm
  · exact Shape.Gathers.idx_of_ne gathers_S100000x128_S128x128 _ y 1 (by decide)

/-- The gather for position `n` lands in buffer `b0`. -/
theorem gath_b0 {off : Fin 2 → ℕ} {inb : ∀ a, off a + S1x128.size a ≤ S200x128.size a} {n : ℕ} (h : off = ![n, 0]) (hn : n < 200)
    (R : Buf (Elt F) ((b0).view.loc (thr d L))) (II : Buf (Elt F) ((s0).view.loc (thr d L))) (ft : Buf (Elt F) ((tV).view.loc (thr d L)))
    (hnum : S128.numel = S128x128.size gathers_S100000x128_S128x128.axis')
    (hin : ∀ x, (View.read (Elt F) (rowM off inb).view II x).toNat < S100000x128.size gathers_S100000x128_S128x128.axis) :
    ∀ y, ((b0).view.writes (Elt F) R [⟨Rect.whole _, SparseCore.gatherPayload gathers_S100000x128_S128x128
        (View.read (Elt F) ((tV).slice (Rect.unit (s := S100000x128) ![0, 0] S100000x128.size inb_S100000x128_S100000x128_0_0) (fun _ => rfl)).view ft)
        (SparseCore.rows (View.read (Elt F) (rowM off inb).view II) hnum hin)⟩]) y = Gath d L ft II n y := fun y =>
  (congrFun (Memref.write_access_whole_univ (Elt F) cc0_scratch2 R _) y).trans (gath_val d L h hn II ft hnum hin y)

/-- The gather for position `n` lands in buffer `b1`. -/
theorem gath_b1 {off : Fin 2 → ℕ} {inb : ∀ a, off a + S1x128.size a ≤ S200x128.size a} {n : ℕ} (h : off = ![n, 0]) (hn : n < 200)
    (R : Buf (Elt F) ((b1).view.loc (thr d L))) (II : Buf (Elt F) ((s0).view.loc (thr d L))) (ft : Buf (Elt F) ((tV).view.loc (thr d L)))
    (hnum : S128.numel = S128x128.size gathers_S100000x128_S128x128.axis')
    (hin : ∀ x, (View.read (Elt F) (rowM off inb).view II x).toNat < S100000x128.size gathers_S100000x128_S128x128.axis) :
    ∀ y, ((b1).view.writes (Elt F) R [⟨Rect.whole _, SparseCore.gatherPayload gathers_S100000x128_S128x128
        (View.read (Elt F) ((tV).slice (Rect.unit (s := S100000x128) ![0, 0] S100000x128.size inb_S100000x128_S100000x128_0_0) (fun _ => rfl)).view ft)
        (SparseCore.rows (View.read (Elt F) (rowM off inb).view II) hnum hin)⟩]) y = Gath d L ft II n y := fun y =>
  (congrFun (Memref.write_access_whole_univ (Elt F) cc0_scratch3 R _) y).trans (gath_val d L h hn II ft hnum hin y)

/-- The gather for position `n` lands in buffer `b2`. -/
theorem gath_b2 {off : Fin 2 → ℕ} {inb : ∀ a, off a + S1x128.size a ≤ S200x128.size a} {n : ℕ} (h : off = ![n, 0]) (hn : n < 200)
    (R : Buf (Elt F) ((b2).view.loc (thr d L))) (II : Buf (Elt F) ((s0).view.loc (thr d L))) (ft : Buf (Elt F) ((tV).view.loc (thr d L)))
    (hnum : S128.numel = S128x128.size gathers_S100000x128_S128x128.axis')
    (hin : ∀ x, (View.read (Elt F) (rowM off inb).view II x).toNat < S100000x128.size gathers_S100000x128_S128x128.axis) :
    ∀ y, ((b2).view.writes (Elt F) R [⟨Rect.whole _, SparseCore.gatherPayload gathers_S100000x128_S128x128
        (View.read (Elt F) ((tV).slice (Rect.unit (s := S100000x128) ![0, 0] S100000x128.size inb_S100000x128_S100000x128_0_0) (fun _ => rfl)).view ft)
        (SparseCore.rows (View.read (Elt F) (rowM off inb).view II) hnum hin)⟩]) y = Gath d L ft II n y := fun y =>
  (congrFun (Memref.write_access_whole_univ (Elt F) cc0_scratch4 R _) y).trans (gath_val d L h hn II ft hnum hin y)

/-- The gather for position `n` lands in buffer `b3`. -/
theorem gath_b3 {off : Fin 2 → ℕ} {inb : ∀ a, off a + S1x128.size a ≤ S200x128.size a} {n : ℕ} (h : off = ![n, 0]) (hn : n < 200)
    (R : Buf (Elt F) ((b3).view.loc (thr d L))) (II : Buf (Elt F) ((s0).view.loc (thr d L))) (ft : Buf (Elt F) ((tV).view.loc (thr d L)))
    (hnum : S128.numel = S128x128.size gathers_S100000x128_S128x128.axis')
    (hin : ∀ x, (View.read (Elt F) (rowM off inb).view II x).toNat < S100000x128.size gathers_S100000x128_S128x128.axis) :
    ∀ y, ((b3).view.writes (Elt F) R [⟨Rect.whole _, SparseCore.gatherPayload gathers_S100000x128_S128x128
        (View.read (Elt F) ((tV).slice (Rect.unit (s := S100000x128) ![0, 0] S100000x128.size inb_S100000x128_S100000x128_0_0) (fun _ => rfl)).view ft)
        (SparseCore.rows (View.read (Elt F) (rowM off inb).view II) hnum hin)⟩]) y = Gath d L ft II n y := fun y =>
  (congrFun (Memref.write_access_whole_univ (Elt F) cc0_scratch5 R _) y).trans (gath_val d L h hn II ft hnum hin y)

/-- An unmasked write of a 128 × 128 payload through a window of the result, as the program slices and squeezes it,
    leaves at every element of the window the payload's element of the same batch row and lane. -/
theorem win_write {off : Fin 3 → ℕ} {inb : ∀ a, off a + S128x1x128.size a ≤ S4096x200x128.size a} {B n : ℕ} (h : off = ![B, n, 0])
    (fo : Buf (Elt F) ((oV).view.loc (thr d L))) (W : S128x128.Idx → Elt F .f32) (i : S4096x200x128.Idx) (hi : i ∈ winSetN B n) :
    ((winM off inb).view.writes (Elt F) fo [⟨Rect.whole S128x128, W⟩]) i
      = W (ValueIdx.ix2 (⟨(i 0).val - B, by have := mem_winSetN.mp hi; omega⟩ : Fin 128) (i 2)) := by
  obtain ⟨h0, h1, h2⟩ := mem_winSetN.mp hi
  subst h
  have hy : ((winM ![B, n, 0] inb).view.slice (Rect.whole S128x128)).emb
      (ValueIdx.ix2 (⟨(i 0).val - B, by omega⟩ : Fin 128) (i 2)) = i := by
    show (Rect.unit (s := S4096x200x128) ![B, n, 0] S128x1x128.size inb).emb (Shape.reshapeEquiv squeezes_S128x1x128_S128x128.numel_eq
      ((Rect.whole S128x128).emb (ValueIdx.ix2 (⟨(i 0).val - B, by omega⟩ : Fin 128) (i 2)))) = i
    rw [Rect.emb_whole_apply, Shape.reshapeEquiv_eq_of_rowMajor (y := ValueIdx.ix3 (⟨(i 0).val - B, by omega⟩ : Fin 128) (0 : Fin 1) (i 2))
      squeezes_S128x1x128_S128x128.numel_eq (by rw [Shape.rowMajor_val_three, Shape.rowMajor_val_two]; simp)]
    funext a
    apply Fin.ext
    fin_cases a
    · simp [ValueIdx.ix3]; omega
    · simp [ValueIdx.ix3]; omega
    · simp [ValueIdx.ix3]
  have hw := View.write_emb_of_mem (v := (winM ![B, n, 0] inb).view.slice (Rect.whole S128x128)) (Val := Elt F) fo W
    (M := Finset.univ) (x := ValueIdx.ix2 (⟨(i 0).val - B, by omega⟩ : Fin 128) (i 2)) (Finset.mem_univ _)
  rw [hy] at hw
  exact hw

/-- The copy of buffer `b0` out to a window of the result. -/
theorem store_b0 {off : Fin 3 → ℕ} {inb : ∀ a, off a + S128x1x128.size a ≤ S4096x200x128.size a} {B n : ℕ} (h : off = ![B, n, 0])
    (fo : Buf (Elt F) ((oV).view.loc (thr d L))) (R : Buf (Elt F) ((b0).view.loc (thr d L))) (i : S4096x200x128.Idx) (hi : i ∈ winSetN B n) :
    ((winM off inb).view.writes (Elt F) fo [⟨Rect.whole S128x128, ReadAs.same.apply (View.read (Elt F) (b0).view R)⟩]) i
      = R (ValueIdx.ix2 (⟨(i 0).val - B, by have := mem_winSetN.mp hi; omega⟩ : Fin 128) (i 2)) :=
  win_write d L h fo (View.read (Elt F) (b0).view R) i hi

/-- The copy of buffer `b1` out to a window of the result. -/
theorem store_b1 {off : Fin 3 → ℕ} {inb : ∀ a, off a + S128x1x128.size a ≤ S4096x200x128.size a} {B n : ℕ} (h : off = ![B, n, 0])
    (fo : Buf (Elt F) ((oV).view.loc (thr d L))) (R : Buf (Elt F) ((b1).view.loc (thr d L))) (i : S4096x200x128.Idx) (hi : i ∈ winSetN B n) :
    ((winM off inb).view.writes (Elt F) fo [⟨Rect.whole S128x128, ReadAs.same.apply (View.read (Elt F) (b1).view R)⟩]) i
      = R (ValueIdx.ix2 (⟨(i 0).val - B, by have := mem_winSetN.mp hi; omega⟩ : Fin 128) (i 2)) :=
  win_write d L h fo (View.read (Elt F) (b1).view R) i hi

/-- The copy of buffer `b2` out to a window of the result. -/
theorem store_b2 {off : Fin 3 → ℕ} {inb : ∀ a, off a + S128x1x128.size a ≤ S4096x200x128.size a} {B n : ℕ} (h : off = ![B, n, 0])
    (fo : Buf (Elt F) ((oV).view.loc (thr d L))) (R : Buf (Elt F) ((b2).view.loc (thr d L))) (i : S4096x200x128.Idx) (hi : i ∈ winSetN B n) :
    ((winM off inb).view.writes (Elt F) fo [⟨Rect.whole S128x128, ReadAs.same.apply (View.read (Elt F) (b2).view R)⟩]) i
      = R (ValueIdx.ix2 (⟨(i 0).val - B, by have := mem_winSetN.mp hi; omega⟩ : Fin 128) (i 2)) :=
  win_write d L h fo (View.read (Elt F) (b2).view R) i hi

/-- The copy of buffer `b3` out to a window of the result. -/
theorem store_b3 {off : Fin 3 → ℕ} {inb : ∀ a, off a + S128x1x128.size a ≤ S4096x200x128.size a} {B n : ℕ} (h : off = ![B, n, 0])
    (fo : Buf (Elt F) ((oV).view.loc (thr d L))) (R : Buf (Elt F) ((b3).view.loc (thr d L))) (i : S4096x200x128.Idx) (hi : i ∈ winSetN B n) :
    ((winM off inb).view.writes (Elt F) fo [⟨Rect.whole S128x128, ReadAs.same.apply (View.read (Elt F) (b3).view R)⟩]) i
      = R (ValueIdx.ix2 (⟨(i 0).val - B, by have := mem_winSetN.mp hi; omega⟩ : Fin 128) (i 2)) :=
  win_write d L h fo (View.read (Elt F) (b3).view R) i hi

end

end Cert.Proof.KB

end
-- ==== Proof.KBConv.lean ====
/-
  A transfer in flight, as it is issued, hands back at its wait exactly what the ring's state says it will: a gather the
  buffer at the table rows the index words name, a copy-out its window of the result at the lookup (the finished buffer
  is, window by window, the result).
-/
import proofs.«205233_g80668075753725_cont_9to1c4b_826_11_alg».proof.Proof.KBInv
import proofs.«205233_g80668075753725_cont_9to1c4b_826_11_alg».proof.Proof.KBLand

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S200x4096 EltTy.i32)
local notation "tV" => (Memref.whole Cert.Kernel.main_arg1_scv : Memref Cert.Kernel.sig Kind.scVector Space.hbm Cert.Kernel.S100000x128 EltTy.f32)
local notation "pV" => (Memref.whole Cert.Kernel.main_arg2_scv : Memref Cert.Kernel.sig Kind.scVector Space.hbm Cert.Kernel.S200x128 EltTy.f32)
local notation "oV" => (Memref.whole Cert.Kernel.main_v1_scv : Memref Cert.Kernel.sig Kind.scVector Space.hbm Cert.Kernel.S4096x200x128 EltTy.f32)
local notation "s0" => (Memref.whole Cert.Kernel.cc0_scratch0 : Memref Cert.Kernel.sig Kind.scVector Space.vmem Cert.Kernel.S200x128 EltTy.i32)
local notation "s1" => (Memref.whole Cert.Kernel.cc0_scratch1 : Memref Cert.Kernel.sig Kind.scVector Space.vmem Cert.Kernel.S200x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable [FloatOps F]

/-! ## A transfer's flight as the executor issues it is the flight the invariant carries -/

section Conv

variable (d : Dev nD) (L : grid0.Coords) (qt : PosShare TreeShare)
  (ft : Buf (Elt F) ((tV).view.loc (thr d L))) (II : Buf (Elt F) ((s0).view.loc (thr d L))) (PP : Buf (Elt F) ((s1).view.loc (thr d L)))
  (fo go : Buf (Elt F) ((oV).view.loc (thr d L)))

/-- The result, window by window, is the finished buffers. -/
def GoOK : Prop := ∀ s, s < 200 → ∀ i ∈ winSetN (baseRow L) s, go i = Res d L ft II PP s (ValueIdx.ix2 (⟨((i 0).val - baseRow L) % 128, Nat.mod_lt _ (by decide)⟩ : Fin 128) (i 2))

theorem gathP0 {off : Fin 2 → ℕ} {inb} {s : ℕ} (h : off = ![s, 0]) (hs : s < 200) (R : Buf (Elt F) ((b0).view.loc (thr d L)))
    {hnum : S128.numel = S128x128.size (gathers_S100000x128_S128x128).axis'}
    {hin : ∀ x, ((rowM off inb).view.read (Elt F) II x).toNat < S100000x128.size (gathers_S100000x128_S128x128).axis}
    (w : S128x128.Idx → F .f32) (hw : w = SparseCore.gatherPayload gathers_S100000x128_S128x128 (View.read (Elt F) (tSl).view ft) (SparseCore.rows (View.read (Elt F) (rowM off inb).view II) hnum hin)) :
    ((b0).view.loc (thr d L) ↦[(b0).view.set]{fullShare} ((b0).view.writes (Elt F) R [⟨Rect.whole _, w⟩]) : sProp 𝕄)
      ⊢ Bf0 d L (Gath d L ft II s) := by
  subst hw
  exact Entails.of_eq (pointsTo_congr fun y _ => gath_b0 d L h hs R II ft hnum hin y)

theorem fg0 {off : Fin 2 → ℕ} {inb} {s : ℕ} (h : off = ![s, 0]) (hs : s < 200) (R : Buf (Elt F) ((b0).view.loc (thr d L)))
    {hnum : S128.numel = S128x128.size (gathers_S100000x128_S128x128).axis'}
    {hin : ∀ x, ((rowM off inb).view.read (Elt F) II x).toNat < S100000x128.size (gathers_S100000x128_S128x128).axis}
    (w : S128x128.Idx → F .f32) (hw : w = SparseCore.gatherPayload gathers_S100000x128_S128x128 (View.read (Elt F) (tSl).view ft) (SparseCore.rows (View.read (Elt F) (rowM off inb).view II) hnum hin)) :
    Transfers.Flight EC (thr d L) (SemLoc.dma cc0_scratch6.sem) (none : HIx 1) 524288
      iprop((((b0).view.loc (thr d L) ↦[(b0).view.set]{fullShare} ((b0).view.writes (Elt F) R [⟨Rect.whole _, w⟩]))
            ∗ (rowM off inb).view.loc (thr d L) ↦[(rowM off inb).view.set]{fullShare} II)
          ∗ (tSl).view.loc (thr d L) ↦[(tSl).view.set]{Transfers.shareTok qt 4 0} ft)
      ⊢ FG0 d L qt ft II s := by
  refine Transfers.Flight_mono EC (thr d L) ?_
  iintro ⟨⟨Hb, Hr⟩, Ht⟩
  isplitl [Hb Hr]
  · isplitl [Hb]
    · iapply (gathP0 d L ft II h hs R w hw) $$ Hb
    · iapply (Entails.of_eq (pts_rowM d L h fullShare II)) $$ Hr
  · iexact Ht

theorem windone0 {off : Fin 3 → ℕ} {inb} {s : ℕ} (h : off = ![baseRow L, s, 0]) (hs : s < 200) (hgo : GoOK d L ft II PP go) (n128 : ℕ) (hn : n128 = 128)
    (w : S128x128.Idx → F .f32) (hw : w = ReadAs.same.apply (View.read (Elt F) (b0).view (RowUpd (Gath d L ft II s) (posRow d L PP s) n128))) :
    ((winM off inb).view.loc (thr d L) ↦[(winM off inb).view.set]{fullShare} ((winM off inb).view.writes (Elt F) fo [⟨Rect.whole S128x128, w⟩]) : sProp 𝕄)
      ⊢ WinP d L go s := by
  subst hw hn
  rw [pts_winM d L h]
  refine Entails.of_eq (pointsTo_congr fun i hi => ?_)
  rw [store_b0 d L h fo _ i hi]
  refine Eq.trans ?_ (hgo s hs i hi).symm
  unfold Res
  congr 2
  exact Fin.ext (Nat.mod_eq_of_lt (by have := mem_winSetN.mp hi; show (i 0).val - baseRow L < 128; omega)).symm

theorem fs0 {off : Fin 3 → ℕ} {inb} {s : ℕ} (h : off = ![baseRow L, s, 0]) (hs : s < 200) (hgo : GoOK d L ft II PP go) (n128 : ℕ) (hn : n128 = 128)
    (w : S128x128.Idx → F .f32) (hw : w = ReadAs.same.apply (View.read (Elt F) (b0).view (RowUpd (Gath d L ft II s) (posRow d L PP s) n128))) :
    Transfers.Flight EC (thr d L) (SemLoc.dma cc0_scratch10.sem) (none : HIx 1) 524288
      iprop(((winM off inb).view.loc (thr d L) ↦[(winM off inb).view.set]{fullShare} ((winM off inb).view.writes (Elt F) fo [⟨Rect.whole S128x128, w⟩]))
          ∗ (b0).view.loc (thr d L) ↦[(b0).view.set]{fullShare} (RowUpd (Gath d L ft II s) (posRow d L PP s) n128))
      ⊢ FS0 d L ft II PP go s := by
  refine Transfers.Flight_mono EC (thr d L) ?_
  subst hn
  iintro ⟨Hw, Hb⟩
  isplitl [Hw]
  · iapply (windone0 d L ft II PP fo go h hs hgo 128 rfl w hw) $$ Hw
  · iexact Hb

theorem gathP1 {off : Fin 2 → ℕ} {inb} {s : ℕ} (h : off = ![s, 0]) (hs : s < 200) (R : Buf (Elt F) ((b1).view.loc (thr d L)))
    {hnum : S128.numel = S128x128.size (gathers_S100000x128_S128x128).axis'}
    {hin : ∀ x, ((rowM off inb).view.read (Elt F) II x).toNat < S100000x128.size (gathers_S100000x128_S128x128).axis}
    (w : S128x128.Idx → F .f32) (hw : w = SparseCore.gatherPayload gathers_S100000x128_S128x128 (View.read (Elt F) (tSl).view ft) (SparseCore.rows (View.read (Elt F) (rowM off inb).view II) hnum hin)) :
    ((b1).view.loc (thr d L) ↦[(b1).view.set]{fullShare} ((b1).view.writes (Elt F) R [⟨Rect.whole _, w⟩]) : sProp 𝕄)
      ⊢ Bf1 d L (Gath d L ft II s) := by
  subst hw
  exact Entails.of_eq (pointsTo_congr fun y _ => gath_b1 d L h hs R II ft hnum hin y)

theorem fg1 {off : Fin 2 → ℕ} {inb} {s : ℕ} (h : off = ![s, 0]) (hs : s < 200) (R : Buf (Elt F) ((b1).view.loc (thr d L)))
    {hnum : S128.numel = S128x128.size (gathers_S100000x128_S128x128).axis'}
    {hin : ∀ x, ((rowM off inb).view.read (Elt F) II x).toNat < S100000x128.size (gathers_S100000x128_S128x128).axis}
    (w : S128x128.Idx → F .f32) (hw : w = SparseCore.gatherPayload gathers_S100000x128_S128x128 (View.read (Elt F) (tSl).view ft) (SparseCore.rows (View.read (Elt F) (rowM off inb).view II) hnum hin)) :
    Transfers.Flight EC (thr d L) (SemLoc.dma cc0_scratch7.sem) (none : HIx 1) 524288
      iprop((((b1).view.loc (thr d L) ↦[(b1).view.set]{fullShare} ((b1).view.writes (Elt F) R [⟨Rect.whole _, w⟩]))
            ∗ (rowM off inb).view.loc (thr d L) ↦[(rowM off inb).view.set]{fullShare} II)
          ∗ (tSl).view.loc (thr d L) ↦[(tSl).view.set]{Transfers.shareTok qt 4 1} ft)
      ⊢ FG1 d L qt ft II s := by
  refine Transfers.Flight_mono EC (thr d L) ?_
  iintro ⟨⟨Hb, Hr⟩, Ht⟩
  isplitl [Hb Hr]
  · isplitl [Hb]
    · iapply (gathP1 d L ft II h hs R w hw) $$ Hb
    · iapply (Entails.of_eq (pts_rowM d L h fullShare II)) $$ Hr
  · iexact Ht

theorem windone1 {off : Fin 3 → ℕ} {inb} {s : ℕ} (h : off = ![baseRow L, s, 0]) (hs : s < 200) (hgo : GoOK d L ft II PP go) (n128 : ℕ) (hn : n128 = 128)
    (w : S128x128.Idx → F .f32) (hw : w = ReadAs.same.apply (View.read (Elt F) (b1).view (RowUpd (Gath d L ft II s) (posRow d L PP s) n128))) :
    ((winM off inb).view.loc (thr d L) ↦[(winM off inb).view.set]{fullShare} ((winM off inb).view.writes (Elt F) fo [⟨Rect.whole S128x128, w⟩]) : sProp 𝕄)
      ⊢ WinP d L go s := by
  subst hw hn
  rw [pts_winM d L h]
  refine Entails.of_eq (pointsTo_congr fun i hi => ?_)
  rw [store_b1 d L h fo _ i hi]
  refine Eq.trans ?_ (hgo s hs i hi).symm
  unfold Res
  congr 2
  exact Fin.ext (Nat.mod_eq_of_lt (by have := mem_winSetN.mp hi; show (i 0).val - baseRow L < 128; omega)).symm

theorem fs1 {off : Fin 3 → ℕ} {inb} {s : ℕ} (h : off = ![baseRow L, s, 0]) (hs : s < 200) (hgo : GoOK d L ft II PP go) (n128 : ℕ) (hn : n128 = 128)
    (w : S128x128.Idx → F .f32) (hw : w = ReadAs.same.apply (View.read (Elt F) (b1).view (RowUpd (Gath d L ft II s) (posRow d L PP s) n128))) :
    Transfers.Flight EC (thr d L) (SemLoc.dma cc0_scratch11.sem) (none : HIx 1) 524288
      iprop(((winM off inb).view.loc (thr d L) ↦[(winM off inb).view.set]{fullShare} ((winM off inb).view.writes (Elt F) fo [⟨Rect.whole S128x128, w⟩]))
          ∗ (b1).view.loc (thr d L) ↦[(b1).view.set]{fullShare} (RowUpd (Gath d L ft II s) (posRow d L PP s) n128))
      ⊢ FS1 d L ft II PP go s := by
  refine Transfers.Flight_mono EC (thr d L) ?_
  subst hn
  iintro ⟨Hw, Hb⟩
  isplitl [Hw]
  · iapply (windone1 d L ft II PP fo go h hs hgo 128 rfl w hw) $$ Hw
  · iexact Hb

theorem gathP2 {off : Fin 2 → ℕ} {inb} {s : ℕ} (h : off = ![s, 0]) (hs : s < 200) (R : Buf (Elt F) ((b2).view.loc (thr d L)))
    {hnum : S128.numel = S128x128.size (gathers_S100000x128_S128x128).axis'}
    {hin : ∀ x, ((rowM off inb).view.read (Elt F) II x).toNat < S100000x128.size (gathers_S100000x128_S128x128).axis}
    (w : S128x128.Idx → F .f32) (hw : w = SparseCore.gatherPayload gathers_S100000x128_S128x128 (View.read (Elt F) (tSl).view ft) (SparseCore.rows (View.read (Elt F) (rowM off inb).view II) hnum hin)) :
    ((b2).view.loc (thr d L) ↦[(b2).view.set]{fullShare} ((b2).view.writes (Elt F) R [⟨Rect.whole _, w⟩]) : sProp 𝕄)
      ⊢ Bf2 d L (Gath d L ft II s) := by
  subst hw
  exact Entails.of_eq (pointsTo_congr fun y _ => gath_b2 d L h hs R II ft hnum hin y)

theorem fg2 {off : Fin 2 → ℕ} {inb} {s : ℕ} (h : off = ![s, 0]) (hs : s < 200) (R : Buf (Elt F) ((b2).view.loc (thr d L)))
    {hnum : S128.numel = S128x128.size (gathers_S100000x128_S128x128).axis'}
    {hin : ∀ x, ((rowM off inb).view.read (Elt F) II x).toNat < S100000x128.size (gathers_S100000x128_S128x128).axis}
    (w : S128x128.Idx → F .f32) (hw : w = SparseCore.gatherPayload gathers_S100000x128_S128x128 (View.read (Elt F) (tSl).view ft) (SparseCore.rows (View.read (Elt F) (rowM off inb).view II) hnum hin)) :
    Transfers.Flight EC (thr d L) (SemLoc.dma cc0_scratch8.sem) (none : HIx 1) 524288
      iprop((((b2).view.loc (thr d L) ↦[(b2).view.set]{fullShare} ((b2).view.writes (Elt F) R [⟨Rect.whole _, w⟩]))
            ∗ (rowM off inb).view.loc (thr d L) ↦[(rowM off inb).view.set]{fullShare} II)
          ∗ (tSl).view.loc (thr d L) ↦[(tSl).view.set]{Transfers.shareTok qt 4 2} ft)
      ⊢ FG2 d L qt ft II s := by
  refine Transfers.Flight_mono EC (thr d L) ?_
  iintro ⟨⟨Hb, Hr⟩, Ht⟩
  isplitl [Hb Hr]
  · isplitl [Hb]
    · iapply (gathP2 d L ft II h hs R w hw) $$ Hb
    · iapply (Entails.of_eq (pts_rowM d L h fullShare II)) $$ Hr
  · iexact Ht

theorem windone2 {off : Fin 3 → ℕ} {inb} {s : ℕ} (h : off = ![baseRow L, s, 0]) (hs : s < 200) (hgo : GoOK d L ft II PP go) (n128 : ℕ) (hn : n128 = 128)
    (w : S128x128.Idx → F .f32) (hw : w = ReadAs.same.apply (View.read (Elt F) (b2).view (RowUpd (Gath d L ft II s) (posRow d L PP s) n128))) :
    ((winM off inb).view.loc (thr d L) ↦[(winM off inb).view.set]{fullShare} ((winM off inb).view.writes (Elt F) fo [⟨Rect.whole S128x128, w⟩]) : sProp 𝕄)
      ⊢ WinP d L go s := by
  subst hw hn
  rw [pts_winM d L h]
  refine Entails.of_eq (pointsTo_congr fun i hi => ?_)
  rw [store_b2 d L h fo _ i hi]
  refine Eq.trans ?_ (hgo s hs i hi).symm
  unfold Res
  congr 2
  exact Fin.ext (Nat.mod_eq_of_lt (by have := mem_winSetN.mp hi; show (i 0).val - baseRow L < 128; omega)).symm

theorem fs2 {off : Fin 3 → ℕ} {inb} {s : ℕ} (h : off = ![baseRow L, s, 0]) (hs : s < 200) (hgo : GoOK d L ft II PP go) (n128 : ℕ) (hn : n128 = 128)
    (w : S128x128.Idx → F .f32) (hw : w = ReadAs.same.apply (View.read (Elt F) (b2).view (RowUpd (Gath d L ft II s) (posRow d L PP s) n128))) :
    Transfers.Flight EC (thr d L) (SemLoc.dma cc0_scratch12.sem) (none : HIx 1) 524288
      iprop(((winM off inb).view.loc (thr d L) ↦[(winM off inb).view.set]{fullShare} ((winM off inb).view.writes (Elt F) fo [⟨Rect.whole S128x128, w⟩]))
          ∗ (b2).view.loc (thr d L) ↦[(b2).view.set]{fullShare} (RowUpd (Gath d L ft II s) (posRow d L PP s) n128))
      ⊢ FS2 d L ft II PP go s := by
  refine Transfers.Flight_mono EC (thr d L) ?_
  subst hn
  iintro ⟨Hw, Hb⟩
  isplitl [Hw]
  · iapply (windone2 d L ft II PP fo go h hs hgo 128 rfl w hw) $$ Hw
  · iexact Hb

theorem gathP3 {off : Fin 2 → ℕ} {inb} {s : ℕ} (h : off = ![s, 0]) (hs : s < 200) (R : Buf (Elt F) ((b3).view.loc (thr d L)))
    {hnum : S128.numel = S128x128.size (gathers_S100000x128_S128x128).axis'}
    {hin : ∀ x, ((rowM off inb).view.read (Elt F) II x).toNat < S100000x128.size (gathers_S100000x128_S128x128).axis}
    (w : S128x128.Idx → F .f32) (hw : w = SparseCore.gatherPayload gathers_S100000x128_S128x128 (View.read (Elt F) (tSl).view ft) (SparseCore.rows (View.read (Elt F) (rowM off inb).view II) hnum hin)) :
    ((b3).view.loc (thr d L) ↦[(b3).view.set]{fullShare} ((b3).view.writes (Elt F) R [⟨Rect.whole _, w⟩]) : sProp 𝕄)
      ⊢ Bf3 d L (Gath d L ft II s) := by
  subst hw
  exact Entails.of_eq (pointsTo_congr fun y _ => gath_b3 d L h hs R II ft hnum hin y)

theorem fg3 {off : Fin 2 → ℕ} {inb} {s : ℕ} (h : off = ![s, 0]) (hs : s < 200) (R : Buf (Elt F) ((b3).view.loc (thr d L)))
    {hnum : S128.numel = S128x128.size (gathers_S100000x128_S128x128).axis'}
    {hin : ∀ x, ((rowM off inb).view.read (Elt F) II x).toNat < S100000x128.size (gathers_S100000x128_S128x128).axis}
    (w : S128x128.Idx → F .f32) (hw : w = SparseCore.gatherPayload gathers_S100000x128_S128x128 (View.read (Elt F) (tSl).view ft) (SparseCore.rows (View.read (Elt F) (rowM off inb).view II) hnum hin)) :
    Transfers.Flight EC (thr d L) (SemLoc.dma cc0_scratch9.sem) (none : HIx 1) 524288
      iprop((((b3).view.loc (thr d L) ↦[(b3).view.set]{fullShare} ((b3).view.writes (Elt F) R [⟨Rect.whole _, w⟩]))
            ∗ (rowM off inb).view.loc (thr d L) ↦[(rowM off inb).view.set]{fullShare} II)
          ∗ (tSl).view.loc (thr d L) ↦[(tSl).view.set]{Transfers.shareTok qt 4 3} ft)
      ⊢ FG3 d L qt ft II s := by
  refine Transfers.Flight_mono EC (thr d L) ?_
  iintro ⟨⟨Hb, Hr⟩, Ht⟩
  isplitl [Hb Hr]
  · isplitl [Hb]
    · iapply (gathP3 d L ft II h hs R w hw) $$ Hb
    · iapply (Entails.of_eq (pts_rowM d L h fullShare II)) $$ Hr
  · iexact Ht

theorem windone3 {off : Fin 3 → ℕ} {inb} {s : ℕ} (h : off = ![baseRow L, s, 0]) (hs : s < 200) (hgo : GoOK d L ft II PP go) (n128 : ℕ) (hn : n128 = 128)
    (w : S128x128.Idx → F .f32) (hw : w = ReadAs.same.apply (View.read (Elt F) (b3).view (RowUpd (Gath d L ft II s) (posRow d L PP s) n128))) :
    ((winM off inb).view.loc (thr d L) ↦[(winM off inb).view.set]{fullShare} ((winM off inb).view.writes (Elt F) fo [⟨Rect.whole S128x128, w⟩]) : sProp 𝕄)
      ⊢ WinP d L go s := by
  subst hw hn
  rw [pts_winM d L h]
  refine Entails.of_eq (pointsTo_congr fun i hi => ?_)
  rw [store_b3 d L h fo _ i hi]
  refine Eq.trans ?_ (hgo s hs i hi).symm
  unfold Res
  congr 2
  exact Fin.ext (Nat.mod_eq_of_lt (by have := mem_winSetN.mp hi; show (i 0).val - baseRow L < 128; omega)).symm

theorem fs3 {off : Fin 3 → ℕ} {inb} {s : ℕ} (h : off = ![baseRow L, s, 0]) (hs : s < 200) (hgo : GoOK d L ft II PP go) (n128 : ℕ) (hn : n128 = 128)
    (w : S128x128.Idx → F .f32) (hw : w = ReadAs.same.apply (View.read (Elt F) (b3).view (RowUpd (Gath d L ft II s) (posRow d L PP s) n128))) :
    Transfers.Flight EC (thr d L) (SemLoc.dma cc0_scratch13.sem) (none : HIx 1) 524288
      iprop(((winM off inb).view.loc (thr d L) ↦[(winM off inb).view.set]{fullShare} ((winM off inb).view.writes (Elt F) fo [⟨Rect.whole S128x128, w⟩]))
          ∗ (b3).view.loc (thr d L) ↦[(b3).view.set]{fullShare} (RowUpd (Gath d L ft II s) (posRow d L PP s) n128))
      ⊢ FS3 d L ft II PP go s := by
  refine Transfers.Flight_mono EC (thr d L) ?_
  subst hn
  iintro ⟨Hw, Hb⟩
  isplitl [Hw]
  · iapply (windone3 d L ft II PP fo go h hs hgo 128 rfl w hw) $$ Hw
  · iexact Hb

end Conv

end Cert.Proof.KB

end
-- ==== Proof.KBGo.lean ====
/-
  What the tile's scratches hold after its two fetches, and why the result it owes is, window by window, its finished
  buffers; the tile's share of the table as four read tokens; the index scratch row by row and the tile's block of the
  result window by window, at the two ends of the position loop.
-/
import proofs.«205233_g80668075753725_cont_9to1c4b_826_11_alg».proof.Proof.KBConv
import proofs.«205233_g80668075753725_cont_9to1c4b_826_11_alg».proof.Proof.KBCoreStmt

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S200x4096 EltTy.i32)
local notation "tV" => (Memref.whole Cert.Kernel.main_arg1_scv : Memref Cert.Kernel.sig Kind.scVector Space.hbm Cert.Kernel.S100000x128 EltTy.f32)
local notation "pV" => (Memref.whole Cert.Kernel.main_arg2_scv : Memref Cert.Kernel.sig Kind.scVector Space.hbm Cert.Kernel.S200x128 EltTy.f32)
local notation "oV" => (Memref.whole Cert.Kernel.main_v1_scv : Memref Cert.Kernel.sig Kind.scVector Space.hbm Cert.Kernel.S4096x200x128 EltTy.f32)
local notation "s0" => (Memref.whole Cert.Kernel.cc0_scratch0 : Memref Cert.Kernel.sig Kind.scVector Space.vmem Cert.Kernel.S200x128 EltTy.i32)
local notation "s1" => (Memref.whole Cert.Kernel.cc0_scratch1 : Memref Cert.Kernel.sig Kind.scVector Space.vmem Cert.Kernel.S200x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable [FloatOps F]

/-! ## The result, window by window, is the finished buffers -/

section Go

variable (m : (ℓ : Loc nD τ sig) → Buf (Elt F) ℓ) (d : Dev nD) (L : grid0.Coords)
  (II : Buf (Elt F) ((s0).view.loc (thr d L))) (PP : Buf (Elt F) ((s1).view.loc (thr d L)))

theorem baseRow_lt (L : grid0.Coords) (r : Fin 128) : baseRow L + r.val < 4096 := by
  have h0 : (L 0).val < 2 := (L 0).isLt
  have h1 : (L 1).val < 16 := (L 1).isLt
  have := r.isLt
  show 256 * (L 1).val + 128 * (L 0).val + r.val < 4096
  omega

/-- The index scratch holds the tile's column block of the transposed indices. -/
def IIOK : Prop := ∀ (a : Fin 200) (r : Fin 128), II (ValueIdx.ix2 a r) = FI m d (ValueIdx.ix2 a (⟨baseRow L + r.val, baseRow_lt L r⟩ : Fin 4096))
/-- The position scratch holds the position table. -/
def PPOK : Prop := ∀ (a : Fin 200) (c : Fin 128), PP (ValueIdx.ix2 a c) = m (pLoc d) (ValueIdx.ix2 a c)

theorem hII_of (hpre : PreOK m) (hI : IIOK m d L II) : ∀ i, (II i).toNat < 100000 := by
  intro i
  obtain ⟨a, r, rfl⟩ : ∃ (a : Fin 200) (r : Fin 128), i = ValueIdx.ix2 a r := ⟨i 0, i 1, ValueIdx.eq_ix2 i⟩
  rw [hI a r]
  exact hpre d _

theorem goOK_of (hI : IIOK m d L II) (hP : PPOK m d L PP) : GoOK d L (m (tLoc d)) II PP (GT m d) := by
  intro s hs i hi
  obtain ⟨a, b, c, rfl⟩ : ∃ (a : Fin 4096) (b : Fin 200) (c : Fin 128), i = ValueIdx.ix3 a b c := ⟨i 0, i 1, i 2, ValueIdx.eq_ix3 i⟩
  obtain ⟨h1, h2, h3⟩ := mem_winSetN.mp hi
  replace h1 : baseRow L ≤ a.val := h1
  replace h2 : a.val < baseRow L + 128 := h2
  replace h3 : b.val = s := h3
  have ea : (⟨s % 200, Nat.mod_lt _ (by decide)⟩ : Fin 200) = b := Fin.ext (by show s % 200 = b.val; omega)
  have er : ((⟨(a.val - baseRow L) % 128, Nat.mod_lt _ (by decide)⟩ : Fin 128)).val = a.val - baseRow L := Nat.mod_eq_of_lt (by omega)
  have eb : (⟨baseRow L + (⟨(a.val - baseRow L) % 128, Nat.mod_lt _ (by decide)⟩ : Fin 128).val, baseRow_lt L _⟩ : Fin 4096) = a :=
    Fin.ext (by show baseRow L + (a.val - baseRow L) % 128 = a.val; omega)
  show GT m d (ValueIdx.ix3 a b c) = Res d L (m (tLoc d)) II PP s (ValueIdx.ix2 (⟨(a.val - baseRow L) % 128, Nat.mod_lt _ (by decide)⟩ : Fin 128) c)
  unfold Res RowUpd
  rw [if_pos (show (⟨(a.val - baseRow L) % 128, Nat.mod_lt _ (by decide)⟩ : Fin 128).val < 128 from Nat.mod_lt _ (by decide))]
  show Cert.Spec.G (F := F) (m (rLoc d)) (m (tLoc d)) (m (pLoc d)) (ValueIdx.ix3 a b c)
      = FloatOps.addf (Gath d L (m (tLoc d)) II s (ValueIdx.ix2 (⟨(a.val - baseRow L) % 128, Nat.mod_lt _ (by decide)⟩ : Fin 128) c)) (posRow d L PP s c)
  unfold Gath posRow
  rw [ea]
  show FloatOps.addf (m (tLoc d) (ValueIdx.ix2 (Cert.Spec.rowOf (m (rLoc d) (ValueIdx.ix2 a b))) c)) (m (pLoc d) (ValueIdx.ix2 b c))
      = FloatOps.addf (m (tLoc d) (ValueIdx.ix2 (Cert.Spec.rowOf (II (ValueIdx.ix2 b (⟨(a.val - baseRow L) % 128, Nat.mod_lt _ (by decide)⟩ : Fin 128)))) c)) (PP (ValueIdx.ix2 b c))
  rw [hI, hP]
  show _ = FloatOps.addf (m (tLoc d) (ValueIdx.ix2 (Cert.Spec.rowOf (m (rLoc d) (ValueIdx.ix2 (⟨baseRow L + (⟨(a.val - baseRow L) % 128, Nat.mod_lt _ (by decide)⟩ : Fin 128).val, baseRow_lt L _⟩ : Fin 4096) b))) c)) (m (pLoc d) (ValueIdx.ix2 b c))
  rw [eb]

/-- The index scratch after the tile's fetch of its column block, and the position scratch after its fetch of the table. -/
abbrev iSl (L : grid0.Coords) : Memref sig .scVector .hbm S200x128 .i32 :=
  (iV).slice (Rect.unit (s := S200x4096) (k0_off1 L) S200x128.size (k0_off1_inb L)) (fun _ => rfl)
abbrev IIe (g0 : Buf (Elt F) ((s0).view.loc (thr d L))) : Buf (Elt F) ((s0).view.loc (thr d L)) :=
  View.write (Elt F) (s0).view g0 (ReadAs.same.apply (View.read (Elt F) (iSl L).view (FI m d))) Finset.univ
abbrev PPe (g1 : Buf (Elt F) ((s1).view.loc (thr d L))) : Buf (Elt F) ((s1).view.loc (thr d L)) :=
  View.write (Elt F) (s1).view g1 (ReadAs.same.apply (View.read (Elt F) (pV).view (m (pLoc d)))) Finset.univ

theorem IIe_ok (g0 : Buf (Elt F) ((s0).view.loc (thr d L))) : IIOK m d L (IIe m d L g0) := by
  intro a r
  unfold IIe
  rw [View.write_whole_univ, ReadAs.apply_same]
  rw [show (iSl L).view.read (Elt F) (FI m d) (ValueIdx.ix2 a r) = FI m d ((iSl L).view.emb (ValueIdx.ix2 a r)) from (View.read_apply _ _).trans (cast_eq _ _)]
  congr 1
  funext b
  apply Fin.ext
  show ((Rect.unit (s := S200x4096) (k0_off1 L) S200x128.size (k0_off1_inb L)).emb (ValueIdx.ix2 a r) b).val = _
  rw [Rect.emb_apply]
  simp only [k0_off1_eq]
  fin_cases b <;> simp [ValueIdx.ix2, baseRow]

theorem PPe_ok (g1 : Buf (Elt F) ((s1).view.loc (thr d L))) : PPOK m d L (PPe m d L g1) := by
  intro a c
  unfold PPe
  rw [View.write_whole_univ, ReadAs.apply_same]
  show (View.whole main_arg2_scv).read (Elt F) (m (pLoc d)) (ValueIdx.ix2 a c) = _
  rw [View.read_whole]

end Go

section TokLem
variable (d : Dev nD) (L : grid0.Coords)

theorem tSl_set : (tSl).view.set = (Finset.univ : Finset S100000x128.Idx) := by
  show ((tV).view.slice (Rect.unit (s := S100000x128) ![0, 0] S100000x128.size inb_S100000x128_S100000x128_0_0)).set = _
  rw [View.set_slice]
  refine (Finset.map_refl).trans ?_
  ext i
  simp only [Rect.mem_set_unit, Finset.mem_univ, iff_true]
  intro a
  fin_cases a
  · simp; exact (i 0).isLt
  · simp; exact (i 1).isLt

/-- The tile's share of the table is a remainder and four read tokens, one per gather cell. -/
theorem toks4 (q : PosShare TreeShare) (f : Buf (Elt F) ((tV).view.loc (thr d L))) :
    ((tV).view.loc (thr d L) ↦{q} f : sProp 𝕄)
      ⊣⊢ iprop(((tV).view.loc (thr d L) ↦{Transfers.shareDrop q 4} f) ∗ Tok d L q f 0 ∗ Tok d L q f 1 ∗ Tok d L q f 2 ∗ Tok d L q f 3) := by
  have h : ((tV).view.loc (thr d L) ↦[Finset.univ]{q} f : sProp 𝕄) ⊣⊢ _ := Transfers.pointsTo_toks_range q 4
  rw [show (4 : ℕ) = 0 + 1 + 1 + 1 + 1 from rfl, bigSep_range_succ, bigSep_range_succ, bigSep_range_succ, bigSep_range_succ, bigSep_range_zero] at h
  unfold Tok
  rw [tSl_set]
  constructor
  · refine h.1.trans ?_
    iintro ⟨Hd, H3, H2, H1, H0, -⟩
    isplitl [Hd]; · iexact Hd
    isplitl [H0]; · iexact H0
    isplitl [H1]; · iexact H1
    isplitl [H2]; · iexact H2
    iexact H3
  · refine BIBase.Entails.trans ?_ h.2
    iintro ⟨Hd, H0, H1, H2, H3⟩
    isplitl [Hd]; · iexact Hd
    isplitl [H3]; · iexact H3
    isplitl [H2]; · iexact H2
    isplitl [H1]; · iexact H1
    isplitl [H0]; · iexact H0
    iempintro

end TokLem

section CoreLem
variable (d : Dev nD) (L : grid0.Coords)

theorem bf0_whole (f : Buf (Elt F) ((b0).view.loc (thr d L))) : ((b0).view.loc (thr d L) ↦{fullShare} f : sProp 𝕄) = Bf0 d L f := by
  unfold Bf0; rw [show (b0).view.set = Finset.univ from View.set_whole _]
theorem bf1_whole (f : Buf (Elt F) ((b1).view.loc (thr d L))) : ((b1).view.loc (thr d L) ↦{fullShare} f : sProp 𝕄) = Bf1 d L f := by
  unfold Bf1; rw [show (b1).view.set = Finset.univ from View.set_whole _]
theorem bf2_whole (f : Buf (Elt F) ((b2).view.loc (thr d L))) : ((b2).view.loc (thr d L) ↦{fullShare} f : sProp 𝕄) = Bf2 d L f := by
  unfold Bf2; rw [show (b2).view.set = Finset.univ from View.set_whole _]
theorem bf3_whole (f : Buf (Elt F) ((b3).view.loc (thr d L))) : ((b3).view.loc (thr d L) ↦{fullShare} f : sProp 𝕄) = Bf3 d L f := by
  unfold Bf3; rw [show (b3).view.set = Finset.univ from View.set_whole _]

/-- The index scratch less its rows 0 and 1 is its rows from 2 on. -/
theorem rows_rest (f : Buf (Elt F) ((s0).view.loc (thr d L))) :
    ((s0).view.loc (thr d L) ↦[(Finset.univ \ (rowM ![0, 0] inb_S200x128_S1x128_0_0).view.set) \ (rowM ![1, 0] inb_S200x128_S1x128_1_0).view.set]{fullShare} f : sProp 𝕄)
      = bigSep (Finset.Ico 2 200) (RowP d L f) := by
  rw [set_rowM (n := 0) rfl, set_rowM (n := 1) rfl]
  have e : (Finset.univ \ rowSetN 0) \ rowSetN 1 = (Finset.Ico 2 200).biUnion rowSetN := by
    ext i
    simp only [Finset.mem_sdiff, Finset.mem_univ, true_and, mem_rowSetN, Finset.mem_biUnion, Finset.mem_Ico]
    constructor
    · intro h; exact ⟨(i 0).val, ⟨by omega, (i 0).isLt⟩, rfl⟩
    · rintro ⟨n, ⟨h1, h2⟩, h3⟩; omega
  rw [e, pointsTo_biUnion (Finset.Ico 2 200) (ℓ := (s0).view.loc (thr d L)) rowSetN (fun a _ b _ h => rowSetN_disjoint h)]

/-- The tile's block of the result is its windows from 0 on. -/
theorem wins_all (f : Buf (Elt F) ((oV).view.loc (thr d L))) :
    ((oV).view.loc (thr d L) ↦[tileSet (cL L) (sL L)]{fullShare} f : sProp 𝕄) = bigSep (Finset.Ico 0 200) (WinP d L f) := by
  rw [wins_split d L (cL L) (sL L) f, range_eq_Ico_zero]; rfl

theorem rows_all (f : Buf (Elt F) ((s0).view.loc (thr d L))) :
    ((s0).view.loc (thr d L) ↦{fullShare} f : sProp 𝕄) = bigSep (Finset.range 200) (RowP d L f) := rows_split d L f

/-- The tile's block of the result is its last two windows and the 198 before them. -/
theorem wins_close (f : Buf (Elt F) ((oV).view.loc (thr d L))) :
    ((oV).view.loc (thr d L) ↦[tileSet (cL L) (sL L)]{fullShare} f : sProp 𝕄)
      = iprop(WinP d L f 199 ∗ WinP d L f 198 ∗ bigSep (Finset.range 198) (WinP d L f)) := by
  rw [wins_split d L (cL L) (sL L) f, show (200 : ℕ) = 198 + 1 + 1 from rfl, bigSep_range_succ, bigSep_range_succ]; rfl

end CoreLem

end Cert.Proof.KB

end
-- ==== Proof.KBInner.lean ====
/-
  The trips of the four row loops: a trip of the loop on a buffer loads row `j` sixteen lanes at a time, adds the
  matching lanes of the position row and stores them back, so a buffer whose first `j` rows have the position row
  added is left with its first `j + 1` rows so.
-/
import proofs.«205233_g80668075753725_cont_9to1c4b_826_11_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S200x4096 EltTy.i32)
local notation "tV" => (Memref.whole Cert.Kernel.main_arg1_scv : Memref Cert.Kernel.sig Kind.scVector Space.hbm Cert.Kernel.S100000x128 EltTy.f32)
local notation "pV" => (Memref.whole Cert.Kernel.main_arg2_scv : Memref Cert.Kernel.sig Kind.scVector Space.hbm Cert.Kernel.S200x128 EltTy.f32)
local notation "oV" => (Memref.whole Cert.Kernel.main_v1_scv : Memref Cert.Kernel.sig Kind.scVector Space.hbm Cert.Kernel.S4096x200x128 EltTy.f32)
local notation "s0" => (Memref.whole Cert.Kernel.cc0_scratch0 : Memref Cert.Kernel.sig Kind.scVector Space.vmem Cert.Kernel.S200x128 EltTy.i32)
local notation "s1" => (Memref.whole Cert.Kernel.cc0_scratch1 : Memref Cert.Kernel.sig Kind.scVector Space.vmem Cert.Kernel.S200x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable [FloatOps F]

set_option maxHeartbeats 1600000 in
/-- One trip of the row loop on buffer `b0`: the position row `p` is added to row `j`. -/
theorem inner_t2 (d : Dev nD) (L : grid0.Coords) (k : Fin k0_t1_loop.trips) (j : Fin k0_t2_loop.trips)
    (g : Buf (Elt F) ((b0).view.loc (thr d L))) (p : Fin 128 → F .f32)
    (v24 : Vec F S1x16 .f32) (v27 : Vec F S1x16 .f32) (v30 : Vec F S1x16 .f32) (v33 : Vec F S1x16 .f32) (v36 : Vec F S1x16 .f32) (v39 : Vec F S1x16 .f32) (v42 : Vec F S1x16 .f32) (v45 : Vec F S1x16 .f32)
    (h24 : ∀ i : Fin 16, v24 (ValueIdx.ix2 (0 : Fin 1) i) = p ⟨i.val, by omega⟩)
    (h27 : ∀ i : Fin 16, v27 (ValueIdx.ix2 (0 : Fin 1) i) = p ⟨16 + i.val, by omega⟩)
    (h30 : ∀ i : Fin 16, v30 (ValueIdx.ix2 (0 : Fin 1) i) = p ⟨32 + i.val, by omega⟩)
    (h33 : ∀ i : Fin 16, v33 (ValueIdx.ix2 (0 : Fin 1) i) = p ⟨48 + i.val, by omega⟩)
    (h36 : ∀ i : Fin 16, v36 (ValueIdx.ix2 (0 : Fin 1) i) = p ⟨64 + i.val, by omega⟩)
    (h39 : ∀ i : Fin 16, v39 (ValueIdx.ix2 (0 : Fin 1) i) = p ⟨80 + i.val, by omega⟩)
    (h42 : ∀ i : Fin 16, v42 (ValueIdx.ix2 (0 : Fin 1) i) = p ⟨96 + i.val, by omega⟩)
    (h45 : ∀ i : Fin 16, v45 (ValueIdx.ix2 (0 : Fin 1) i) = p ⟨112 + i.val, by omega⟩) :
    ((b0).view.loc (thr d L) ↦[(b0).view.set]{fullShare} (RowUpd g p j.val) : sProp 𝕄)
      ⊢ wp frame (wpE (defs₀ (F := F)) 𝒱₀ (thr d L) none) Set.univ
          (k0_t2_body (F := F) L iV (Memref.isWhole_whole _) tV (Memref.isWhole_whole _) pV (Memref.isWhole_whole _) oV (Memref.isWhole_whole _) s0 (Memref.isWhole_whole _) s1 (Memref.isWhole_whole _) b0 (Memref.isWhole_whole _) b1 (Memref.isWhole_whole _) b2 (Memref.isWhole_whole _) b3 (Memref.isWhole_whole _) cc0_scratch6 cc0_scratch7 cc0_scratch8 cc0_scratch9 cc0_scratch10 cc0_scratch11 cc0_scratch12 cc0_scratch13 cc0_scoped0 cc0_scoped1 0#32 1#32 k v24 v27 v30 v33 v36 v39 v42 v45 j ⟨⟩)
          (fun _ => ((b0).view.loc (thr d L) ↦[(b0).view.set]{fullShare} (RowUpd g p (j.val + 1)) : sProp 𝕄)) := by
  have hj : j.val < 128 := Nat.lt_of_lt_of_le j.isLt k0_t2_abs.2.1
  unfold k0_t2_body
  iintro Hb
  sl_exec
  sl_step
  istop
  refine Entails.of_eq (pointsTo_congr fun i _ => ?_)
  have e : ∀ X : Buf (Elt F) ((b0).view.loc (thr d L)), (b0).view.read (Elt F) X = X := fun _ => rfl
  refine (congrFun (e _).symm i).trans ?_
  rw [read_row8 (b0).view (RowUpd g p j.val) j.val _ _ (k0_off11_eq j) _ _ (k0_off12_eq j) _ _ (k0_off13_eq j) _ _ (k0_off14_eq j) _ _ (k0_off15_eq j) _ _ (k0_off16_eq j) _ _ (k0_off17_eq j) _ _ (k0_off18_eq j)
    (fun l => FloatOps.addf (RowUpd g p j.val (ValueIdx.ix2 (⟨j.val, hj⟩ : Fin 128) l)) (p l)) ?_ ?_ ?_ ?_ ?_ ?_ ?_ ?_ i]
  · exact RowUpd_succ g p j.val hj i
  · intro x
    show shapeCast S1x16 (addf (F := F) (shapeCast S16 (View.readAt (Elt F) (b0).view (Rect.unit (s := S128x128) (k0_off11 j) S1x16.size (k0_off11_inb j)).toLoadRect (RowUpd g p j.val)) shapeCasts_S1x16_S16) (shapeCast S16 v24 shapeCasts_S1x16_S16)) shapeCasts_S16_S1x16 (ValueIdx.ix2 (0 : Fin 1) x) = _
    rw [pay_lane]
    refine congrArg₂ FloatOps.addf ?_ ?_
    · exact readAt_lanes (b0).view _ _ hj (k0_off11_eq j) x _ (Nat.zero_add _).symm
    · exact (cast_lane _ x).trans (h24 x)
  · intro x
    show shapeCast S1x16 (addf (F := F) (shapeCast S16 (View.readAt (Elt F) (b0).view (Rect.unit (s := S128x128) (k0_off12 j) S1x16.size (k0_off12_inb j)).toLoadRect (RowUpd g p j.val)) shapeCasts_S1x16_S16) (shapeCast S16 v27 shapeCasts_S1x16_S16)) shapeCasts_S16_S1x16 (ValueIdx.ix2 (0 : Fin 1) x) = _
    rw [pay_lane]
    refine congrArg₂ FloatOps.addf ?_ ?_
    · exact readAt_lanes (b0).view _ _ hj (k0_off12_eq j) x _ rfl
    · exact (cast_lane _ x).trans (h27 x)
  · intro x
    show shapeCast S1x16 (addf (F := F) (shapeCast S16 (View.readAt (Elt F) (b0).view (Rect.unit (s := S128x128) (k0_off13 j) S1x16.size (k0_off13_inb j)).toLoadRect (RowUpd g p j.val)) shapeCasts_S1x16_S16) (shapeCast S16 v30 shapeCasts_S1x16_S16)) shapeCasts_S16_S1x16 (ValueIdx.ix2 (0 : Fin 1) x) = _
    rw [pay_lane]
    refine congrArg₂ FloatOps.addf ?_ ?_
    · exact readAt_lanes (b0).view _ _ hj (k0_off13_eq j) x _ rfl
    · exact (cast_lane _ x).trans (h30 x)
  · intro x
    show shapeCast S1x16 (addf (F := F) (shapeCast S16 (View.readAt (Elt F) (b0).view (Rect.unit (s := S128x128) (k0_off14 j) S1x16.size (k0_off14_inb j)).toLoadRect (RowUpd g p j.val)) shapeCasts_S1x16_S16) (shapeCast S16 v33 shapeCasts_S1x16_S16)) shapeCasts_S16_S1x16 (ValueIdx.ix2 (0 : Fin 1) x) = _
    rw [pay_lane]
    refine congrArg₂ FloatOps.addf ?_ ?_
    · exact readAt_lanes (b0).view _ _ hj (k0_off14_eq j) x _ rfl
    · exact (cast_lane _ x).trans (h33 x)
  · intro x
    show shapeCast S1x16 (addf (F := F) (shapeCast S16 (View.readAt (Elt F) (b0).view (Rect.unit (s := S128x128) (k0_off15 j) S1x16.size (k0_off15_inb j)).toLoadRect (RowUpd g p j.val)) shapeCasts_S1x16_S16) (shapeCast S16 v36 shapeCasts_S1x16_S16)) shapeCasts_S16_S1x16 (ValueIdx.ix2 (0 : Fin 1) x) = _
    rw [pay_lane]
    refine congrArg₂ FloatOps.addf ?_ ?_
    · exact readAt_lanes (b0).view _ _ hj (k0_off15_eq j) x _ rfl
    · exact (cast_lane _ x).trans (h36 x)
  · intro x
    show shapeCast S1x16 (addf (F := F) (shapeCast S16 (View.readAt (Elt F) (b0).view (Rect.unit (s := S128x128) (k0_off16 j) S1x16.size (k0_off16_inb j)).toLoadRect (RowUpd g p j.val)) shapeCasts_S1x16_S16) (shapeCast S16 v39 shapeCasts_S1x16_S16)) shapeCasts_S16_S1x16 (ValueIdx.ix2 (0 : Fin 1) x) = _
    rw [pay_lane]
    refine congrArg₂ FloatOps.addf ?_ ?_
    · exact readAt_lanes (b0).view _ _ hj (k0_off16_eq j) x _ rfl
    · exact (cast_lane _ x).trans (h39 x)
  · intro x
    show shapeCast S1x16 (addf (F := F) (shapeCast S16 (View.readAt (Elt F) (b0).view (Rect.unit (s := S128x128) (k0_off17 j) S1x16.size (k0_off17_inb j)).toLoadRect (RowUpd g p j.val)) shapeCasts_S1x16_S16) (shapeCast S16 v42 shapeCasts_S1x16_S16)) shapeCasts_S16_S1x16 (ValueIdx.ix2 (0 : Fin 1) x) = _
    rw [pay_lane]
    refine congrArg₂ FloatOps.addf ?_ ?_
    · exact readAt_lanes (b0).view _ _ hj (k0_off17_eq j) x _ rfl
    · exact (cast_lane _ x).trans (h42 x)
  · intro x
    show shapeCast S1x16 (addf (F := F) (shapeCast S16 (View.readAt (Elt F) (b0).view (Rect.unit (s := S128x128) (k0_off18 j) S1x16.size (k0_off18_inb j)).toLoadRect (RowUpd g p j.val)) shapeCasts_S1x16_S16) (shapeCast S16 v45 shapeCasts_S1x16_S16)) shapeCasts_S16_S1x16 (ValueIdx.ix2 (0 : Fin 1) x) = _
    rw [pay_lane]
    refine congrArg₂ FloatOps.addf ?_ ?_
    · exact readAt_lanes (b0).view _ _ hj (k0_off18_eq j) x _ rfl
    · exact (cast_lane _ x).trans (h45 x)

set_option maxHeartbeats 1600000 in
/-- One trip of the row loop on buffer `b1`: the position row `p` is added to row `j`. -/
theorem inner_t3 (d : Dev nD) (L : grid0.Coords) (k : Fin k0_t1_loop.trips) (a20 a19 : BitVec 32) (a52 : BitVec 1) (j : Fin k0_t3_loop.trips)
    (g : Buf (Elt F) ((b1).view.loc (thr d L))) (p : Fin 128 → F .f32)
    (v64 : Vec F S1x16 .f32) (v67 : Vec F S1x16 .f32) (v70 : Vec F S1x16 .f32) (v73 : Vec F S1x16 .f32) (v76 : Vec F S1x16 .f32) (v79 : Vec F S1x16 .f32) (v82 : Vec F S1x16 .f32) (v85 : Vec F S1x16 .f32)
    (h64 : ∀ i : Fin 16, v64 (ValueIdx.ix2 (0 : Fin 1) i) = p ⟨i.val, by omega⟩)
    (h67 : ∀ i : Fin 16, v67 (ValueIdx.ix2 (0 : Fin 1) i) = p ⟨16 + i.val, by omega⟩)
    (h70 : ∀ i : Fin 16, v70 (ValueIdx.ix2 (0 : Fin 1) i) = p ⟨32 + i.val, by omega⟩)
    (h73 : ∀ i : Fin 16, v73 (ValueIdx.ix2 (0 : Fin 1) i) = p ⟨48 + i.val, by omega⟩)
    (h76 : ∀ i : Fin 16, v76 (ValueIdx.ix2 (0 : Fin 1) i) = p ⟨64 + i.val, by omega⟩)
    (h79 : ∀ i : Fin 16, v79 (ValueIdx.ix2 (0 : Fin 1) i) = p ⟨80 + i.val, by omega⟩)
    (h82 : ∀ i : Fin 16, v82 (ValueIdx.ix2 (0 : Fin 1) i) = p ⟨96 + i.val, by omega⟩)
    (h85 : ∀ i : Fin 16, v85 (ValueIdx.ix2 (0 : Fin 1) i) = p ⟨112 + i.val, by omega⟩) :
    ((b1).view.loc (thr d L) ↦[(b1).view.set]{fullShare} (RowUpd g p j.val) : sProp 𝕄)
      ⊢ wp frame (wpE (defs₀ (F := F)) 𝒱₀ (thr d L) none) Set.univ
          (k0_t3_body (F := F) L iV (Memref.isWhole_whole _) tV (Memref.isWhole_whole _) pV (Memref.isWhole_whole _) oV (Memref.isWhole_whole _) s0 (Memref.isWhole_whole _) s1 (Memref.isWhole_whole _) b0 (Memref.isWhole_whole _) b1 (Memref.isWhole_whole _) b2 (Memref.isWhole_whole _) b3 (Memref.isWhole_whole _) cc0_scratch6 cc0_scratch7 cc0_scratch8 cc0_scratch9 cc0_scratch10 cc0_scratch11 cc0_scratch12 cc0_scratch13 cc0_scoped0 cc0_scoped1 k a20 a19 a52 v64 v67 v70 v73 v76 v79 v82 v85 j ⟨⟩)
          (fun _ => ((b1).view.loc (thr d L) ↦[(b1).view.set]{fullShare} (RowUpd g p (j.val + 1)) : sProp 𝕄)) := by
  have hj : j.val < 128 := Nat.lt_of_lt_of_le j.isLt k0_t3_abs.2.1
  unfold k0_t3_body
  iintro Hb
  sl_exec
  sl_step
  istop
  refine Entails.of_eq (pointsTo_congr fun i _ => ?_)
  have e : ∀ X : Buf (Elt F) ((b1).view.loc (thr d L)), (b1).view.read (Elt F) X = X := fun _ => rfl
  refine (congrFun (e _).symm i).trans ?_
  rw [read_row8 (b1).view (RowUpd g p j.val) j.val _ _ (k0_off22_eq j) _ _ (k0_off23_eq j) _ _ (k0_off24_eq j) _ _ (k0_off25_eq j) _ _ (k0_off26_eq j) _ _ (k0_off27_eq j) _ _ (k0_off28_eq j) _ _ (k0_off29_eq j)
    (fun l => FloatOps.addf (RowUpd g p j.val (ValueIdx.ix2 (⟨j.val, hj⟩ : Fin 128) l)) (p l)) ?_ ?_ ?_ ?_ ?_ ?_ ?_ ?_ i]
  · exact RowUpd_succ g p j.val hj i
  · intro x
    show shapeCast S1x16 (addf (F := F) (shapeCast S16 (View.readAt (Elt F) (b1).view (Rect.unit (s := S128x128) (k0_off22 j) S1x16.size (k0_off22_inb j)).toLoadRect (RowUpd g p j.val)) shapeCasts_S1x16_S16) (shapeCast S16 v64 shapeCasts_S1x16_S16)) shapeCasts_S16_S1x16 (ValueIdx.ix2 (0 : Fin 1) x) = _
    rw [pay_lane]
    refine congrArg₂ FloatOps.addf ?_ ?_
    · exact readAt_lanes (b1).view _ _ hj (k0_off22_eq j) x _ (Nat.zero_add _).symm
    · exact (cast_lane _ x).trans (h64 x)
  · intro x
    show shapeCast S1x16 (addf (F := F) (shapeCast S16 (View.readAt (Elt F) (b1).view (Rect.unit (s := S128x128) (k0_off23 j) S1x16.size (k0_off23_inb j)).toLoadRect (RowUpd g p j.val)) shapeCasts_S1x16_S16) (shapeCast S16 v67 shapeCasts_S1x16_S16)) shapeCasts_S16_S1x16 (ValueIdx.ix2 (0 : Fin 1) x) = _
    rw [pay_lane]
    refine congrArg₂ FloatOps.addf ?_ ?_
    · exact readAt_lanes (b1).view _ _ hj (k0_off23_eq j) x _ rfl
    · exact (cast_lane _ x).trans (h67 x)
  · intro x
    show shapeCast S1x16 (addf (F := F) (shapeCast S16 (View.readAt (Elt F) (b1).view (Rect.unit (s := S128x128) (k0_off24 j) S1x16.size (k0_off24_inb j)).toLoadRect (RowUpd g p j.val)) shapeCasts_S1x16_S16) (shapeCast S16 v70 shapeCasts_S1x16_S16)) shapeCasts_S16_S1x16 (ValueIdx.ix2 (0 : Fin 1) x) = _
    rw [pay_lane]
    refine congrArg₂ FloatOps.addf ?_ ?_
    · exact readAt_lanes (b1).view _ _ hj (k0_off24_eq j) x _ rfl
    · exact (cast_lane _ x).trans (h70 x)
  · intro x
    show shapeCast S1x16 (addf (F := F) (shapeCast S16 (View.readAt (Elt F) (b1).view (Rect.unit (s := S128x128) (k0_off25 j) S1x16.size (k0_off25_inb j)).toLoadRect (RowUpd g p j.val)) shapeCasts_S1x16_S16) (shapeCast S16 v73 shapeCasts_S1x16_S16)) shapeCasts_S16_S1x16 (ValueIdx.ix2 (0 : Fin 1) x) = _
    rw [pay_lane]
    refine congrArg₂ FloatOps.addf ?_ ?_
    · exact readAt_lanes (b1).view _ _ hj (k0_off25_eq j) x _ rfl
    · exact (cast_lane _ x).trans (h73 x)
  · intro x
    show shapeCast S1x16 (addf (F := F) (shapeCast S16 (View.readAt (Elt F) (b1).view (Rect.unit (s := S128x128) (k0_off26 j) S1x16.size (k0_off26_inb j)).toLoadRect (RowUpd g p j.val)) shapeCasts_S1x16_S16) (shapeCast S16 v76 shapeCasts_S1x16_S16)) shapeCasts_S16_S1x16 (ValueIdx.ix2 (0 : Fin 1) x) = _
    rw [pay_lane]
    refine congrArg₂ FloatOps.addf ?_ ?_
    · exact readAt_lanes (b1).view _ _ hj (k0_off26_eq j) x _ rfl
    · exact (cast_lane _ x).trans (h76 x)
  · intro x
    show shapeCast S1x16 (addf (F := F) (shapeCast S16 (View.readAt (Elt F) (b1).view (Rect.unit (s := S128x128) (k0_off27 j) S1x16.size (k0_off27_inb j)).toLoadRect (RowUpd g p j.val)) shapeCasts_S1x16_S16) (shapeCast S16 v79 shapeCasts_S1x16_S16)) shapeCasts_S16_S1x16 (ValueIdx.ix2 (0 : Fin 1) x) = _
    rw [pay_lane]
    refine congrArg₂ FloatOps.addf ?_ ?_
    · exact readAt_lanes (b1).view _ _ hj (k0_off27_eq j) x _ rfl
    · exact (cast_lane _ x).trans (h79 x)
  · intro x
    show shapeCast S1x16 (addf (F := F) (shapeCast S16 (View.readAt (Elt F) (b1).view (Rect.unit (s := S128x128) (k0_off28 j) S1x16.size (k0_off28_inb j)).toLoadRect (RowUpd g p j.val)) shapeCasts_S1x16_S16) (shapeCast S16 v82 shapeCasts_S1x16_S16)) shapeCasts_S16_S1x16 (ValueIdx.ix2 (0 : Fin 1) x) = _
    rw [pay_lane]
    refine congrArg₂ FloatOps.addf ?_ ?_
    · exact readAt_lanes (b1).view _ _ hj (k0_off28_eq j) x _ rfl
    · exact (cast_lane _ x).trans (h82 x)
  · intro x
    show shapeCast S1x16 (addf (F := F) (shapeCast S16 (View.readAt (Elt F) (b1).view (Rect.unit (s := S128x128) (k0_off29 j) S1x16.size (k0_off29_inb j)).toLoadRect (RowUpd g p j.val)) shapeCasts_S1x16_S16) (shapeCast S16 v85 shapeCasts_S1x16_S16)) shapeCasts_S16_S1x16 (ValueIdx.ix2 (0 : Fin 1) x) = _
    rw [pay_lane]
    refine congrArg₂ FloatOps.addf ?_ ?_
    · exact readAt_lanes (b1).view _ _ hj (k0_off29_eq j) x _ rfl
    · exact (cast_lane _ x).trans (h85 x)

set_option maxHeartbeats 1600000 in
/-- One trip of the row loop on buffer `b2`: the position row `p` is added to row `j`. -/
theorem inner_t4 (d : Dev nD) (L : grid0.Coords) (k : Fin k0_t1_loop.trips) (a20 a99 : BitVec 32) (j : Fin k0_t4_loop.trips)
    (g : Buf (Elt F) ((b2).view.loc (thr d L))) (p : Fin 128 → F .f32)
    (v105 : FVec F S16 .f32) (v108 : FVec F S16 .f32) (v111 : FVec F S16 .f32) (v114 : FVec F S16 .f32) (v117 : FVec F S16 .f32) (v120 : FVec F S16 .f32) (v123 : FVec F S16 .f32) (v125 : Vec F S1x16 .f32)
    (h105 : ∀ i : Fin 16, v105 (ValueIdx.ix1 i) = p ⟨i.val, by omega⟩)
    (h108 : ∀ i : Fin 16, v108 (ValueIdx.ix1 i) = p ⟨16 + i.val, by omega⟩)
    (h111 : ∀ i : Fin 16, v111 (ValueIdx.ix1 i) = p ⟨32 + i.val, by omega⟩)
    (h114 : ∀ i : Fin 16, v114 (ValueIdx.ix1 i) = p ⟨48 + i.val, by omega⟩)
    (h117 : ∀ i : Fin 16, v117 (ValueIdx.ix1 i) = p ⟨64 + i.val, by omega⟩)
    (h120 : ∀ i : Fin 16, v120 (ValueIdx.ix1 i) = p ⟨80 + i.val, by omega⟩)
    (h123 : ∀ i : Fin 16, v123 (ValueIdx.ix1 i) = p ⟨96 + i.val, by omega⟩)
    (h125 : ∀ i : Fin 16, v125 (ValueIdx.ix2 (0 : Fin 1) i) = p ⟨112 + i.val, by omega⟩) :
    ((b2).view.loc (thr d L) ↦[(b2).view.set]{fullShare} (RowUpd g p j.val) : sProp 𝕄)
      ⊢ wp frame (wpE (defs₀ (F := F)) 𝒱₀ (thr d L) none) Set.univ
          (k0_t4_body (F := F) L iV (Memref.isWhole_whole _) tV (Memref.isWhole_whole _) pV (Memref.isWhole_whole _) oV (Memref.isWhole_whole _) s0 (Memref.isWhole_whole _) s1 (Memref.isWhole_whole _) b0 (Memref.isWhole_whole _) b1 (Memref.isWhole_whole _) b2 (Memref.isWhole_whole _) b3 (Memref.isWhole_whole _) cc0_scratch6 cc0_scratch7 cc0_scratch8 cc0_scratch9 cc0_scratch10 cc0_scratch11 cc0_scratch12 cc0_scratch13 cc0_scoped0 cc0_scoped1 k a20 a99 v105 v108 v111 v114 v117 v120 v123 v125 j ⟨⟩)
          (fun _ => ((b2).view.loc (thr d L) ↦[(b2).view.set]{fullShare} (RowUpd g p (j.val + 1)) : sProp 𝕄)) := by
  have hj : j.val < 128 := Nat.lt_of_lt_of_le j.isLt k0_t4_abs.2.1
  unfold k0_t4_body
  iintro Hb
  sl_exec
  sl_step
  istop
  refine Entails.of_eq (pointsTo_congr fun i _ => ?_)
  have e : ∀ X : Buf (Elt F) ((b2).view.loc (thr d L)), (b2).view.read (Elt F) X = X := fun _ => rfl
  refine (congrFun (e _).symm i).trans ?_
  rw [read_row8 (b2).view (RowUpd g p j.val) j.val _ _ (k0_off32_eq j) _ _ (k0_off33_eq j) _ _ (k0_off34_eq j) _ _ (k0_off35_eq j) _ _ (k0_off36_eq j) _ _ (k0_off37_eq j) _ _ (k0_off38_eq j) _ _ (k0_off39_eq j)
    (fun l => FloatOps.addf (RowUpd g p j.val (ValueIdx.ix2 (⟨j.val, hj⟩ : Fin 128) l)) (p l)) ?_ ?_ ?_ ?_ ?_ ?_ ?_ ?_ i]
  · exact RowUpd_succ g p j.val hj i
  · intro x
    show shapeCast S1x16 (addf (F := F) (shapeCast S16 (View.readAt (Elt F) (b2).view (Rect.unit (s := S128x128) (k0_off32 j) S1x16.size (k0_off32_inb j)).toLoadRect (RowUpd g p j.val)) shapeCasts_S1x16_S16) v105) shapeCasts_S16_S1x16 (ValueIdx.ix2 (0 : Fin 1) x) = _
    rw [pay_lane]
    refine congrArg₂ FloatOps.addf ?_ ?_
    · exact readAt_lanes (b2).view _ _ hj (k0_off32_eq j) x _ (Nat.zero_add _).symm
    · exact h105 x
  · intro x
    show shapeCast S1x16 (addf (F := F) (shapeCast S16 (View.readAt (Elt F) (b2).view (Rect.unit (s := S128x128) (k0_off33 j) S1x16.size (k0_off33_inb j)).toLoadRect (RowUpd g p j.val)) shapeCasts_S1x16_S16) v108) shapeCasts_S16_S1x16 (ValueIdx.ix2 (0 : Fin 1) x) = _
    rw [pay_lane]
    refine congrArg₂ FloatOps.addf ?_ ?_
    · exact readAt_lanes (b2).view _ _ hj (k0_off33_eq j) x _ rfl
    · exact h108 x
  · intro x
    show shapeCast S1x16 (addf (F := F) (shapeCast S16 (View.readAt (Elt F) (b2).view (Rect.unit (s := S128x128) (k0_off34 j) S1x16.size (k0_off34_inb j)).toLoadRect (RowUpd g p j.val)) shapeCasts_S1x16_S16) v111) shapeCasts_S16_S1x16 (ValueIdx.ix2 (0 : Fin 1) x) = _
    rw [pay_lane]
    refine congrArg₂ FloatOps.addf ?_ ?_
    · exact readAt_lanes (b2).view _ _ hj (k0_off34_eq j) x _ rfl
    · exact h111 x
  · intro x
    show shapeCast S1x16 (addf (F := F) (shapeCast S16 (View.readAt (Elt F) (b2).view (Rect.unit (s := S128x128) (k0_off35 j) S1x16.size (k0_off35_inb j)).toLoadRect (RowUpd g p j.val)) shapeCasts_S1x16_S16) v114) shapeCasts_S16_S1x16 (ValueIdx.ix2 (0 : Fin 1) x) = _
    rw [pay_lane]
    refine congrArg₂ FloatOps.addf ?_ ?_
    · exact readAt_lanes (b2).view _ _ hj (k0_off35_eq j) x _ rfl
    · exact h114 x
  · intro x
    show shapeCast S1x16 (addf (F := F) (shapeCast S16 (View.readAt (Elt F) (b2).view (Rect.unit (s := S128x128) (k0_off36 j) S1x16.size (k0_off36_inb j)).toLoadRect (RowUpd g p j.val)) shapeCasts_S1x16_S16) v117) shapeCasts_S16_S1x16 (ValueIdx.ix2 (0 : Fin 1) x) = _
    rw [pay_lane]
    refine congrArg₂ FloatOps.addf ?_ ?_
    · exact readAt_lanes (b2).view _ _ hj (k0_off36_eq j) x _ rfl
    · exact h117 x
  · intro x
    show shapeCast S1x16 (addf (F := F) (shapeCast S16 (View.readAt (Elt F) (b2).view (Rect.unit (s := S128x128) (k0_off37 j) S1x16.size (k0_off37_inb j)).toLoadRect (RowUpd g p j.val)) shapeCasts_S1x16_S16) v120) shapeCasts_S16_S1x16 (ValueIdx.ix2 (0 : Fin 1) x) = _
    rw [pay_lane]
    refine congrArg₂ FloatOps.addf ?_ ?_
    · exact readAt_lanes (b2).view _ _ hj (k0_off37_eq j) x _ rfl
    · exact h120 x
  · intro x
    show shapeCast S1x16 (addf (F := F) (shapeCast S16 (View.readAt (Elt F) (b2).view (Rect.unit (s := S128x128) (k0_off38 j) S1x16.size (k0_off38_inb j)).toLoadRect (RowUpd g p j.val)) shapeCasts_S1x16_S16) v123) shapeCasts_S16_S1x16 (ValueIdx.ix2 (0 : Fin 1) x) = _
    rw [pay_lane]
    refine congrArg₂ FloatOps.addf ?_ ?_
    · exact readAt_lanes (b2).view _ _ hj (k0_off38_eq j) x _ rfl
    · exact h123 x
  · intro x
    show shapeCast S1x16 (addf (F := F) (shapeCast S16 (View.readAt (Elt F) (b2).view (Rect.unit (s := S128x128) (k0_off39 j) S1x16.size (k0_off39_inb j)).toLoadRect (RowUpd g p j.val)) shapeCasts_S1x16_S16) (shapeCast S16 v125 shapeCasts_S1x16_S16)) shapeCasts_S16_S1x16 (ValueIdx.ix2 (0 : Fin 1) x) = _
    rw [pay_lane]
    refine congrArg₂ FloatOps.addf ?_ ?_
    · exact readAt_lanes (b2).view _ _ hj (k0_off39_eq j) x _ rfl
    · exact (cast_lane _ x).trans (h125 x)

set_option maxHeartbeats 1600000 in
/-- One trip of the row loop on buffer `b3`: the position row `p` is added to row `j`. -/
theorem inner_t5 (d : Dev nD) (L : grid0.Coords) (j : Fin k0_t5_loop.trips)
    (g : Buf (Elt F) ((b3).view.loc (thr d L))) (p : Fin 128 → F .f32)
    (v145 : FVec F S16 .f32) (v148 : FVec F S16 .f32) (v151 : FVec F S16 .f32) (v154 : FVec F S16 .f32) (v157 : FVec F S16 .f32) (v159 : Vec F S1x16 .f32) (v162 : Vec F S1x16 .f32) (v165 : Vec F S1x16 .f32)
    (h145 : ∀ i : Fin 16, v145 (ValueIdx.ix1 i) = p ⟨i.val, by omega⟩)
    (h148 : ∀ i : Fin 16, v148 (ValueIdx.ix1 i) = p ⟨16 + i.val, by omega⟩)
    (h151 : ∀ i : Fin 16, v151 (ValueIdx.ix1 i) = p ⟨32 + i.val, by omega⟩)
    (h154 : ∀ i : Fin 16, v154 (ValueIdx.ix1 i) = p ⟨48 + i.val, by omega⟩)
    (h157 : ∀ i : Fin 16, v157 (ValueIdx.ix1 i) = p ⟨64 + i.val, by omega⟩)
    (h159 : ∀ i : Fin 16, v159 (ValueIdx.ix2 (0 : Fin 1) i) = p ⟨80 + i.val, by omega⟩)
    (h162 : ∀ i : Fin 16, v162 (ValueIdx.ix2 (0 : Fin 1) i) = p ⟨96 + i.val, by omega⟩)
    (h165 : ∀ i : Fin 16, v165 (ValueIdx.ix2 (0 : Fin 1) i) = p ⟨112 + i.val, by omega⟩) :
    ((b3).view.loc (thr d L) ↦[(b3).view.set]{fullShare} (RowUpd g p j.val) : sProp 𝕄)
      ⊢ wp frame (wpE (defs₀ (F := F)) 𝒱₀ (thr d L) none) Set.univ
          (k0_t5_body (F := F) L iV (Memref.isWhole_whole _) tV (Memref.isWhole_whole _) pV (Memref.isWhole_whole _) oV (Memref.isWhole_whole _) s0 (Memref.isWhole_whole _) s1 (Memref.isWhole_whole _) b0 (Memref.isWhole_whole _) b1 (Memref.isWhole_whole _) b2 (Memref.isWhole_whole _) b3 (Memref.isWhole_whole _) cc0_scratch6 cc0_scratch7 cc0_scratch8 cc0_scratch9 cc0_scratch10 cc0_scratch11 cc0_scratch12 cc0_scratch13 cc0_scoped0 cc0_scoped1 v145 v148 v151 v154 v157 v159 v162 v165 j ⟨⟩)
          (fun _ => ((b3).view.loc (thr d L) ↦[(b3).view.set]{fullShare} (RowUpd g p (j.val + 1)) : sProp 𝕄)) := by
  have hj : j.val < 128 := Nat.lt_of_lt_of_le j.isLt k0_t5_abs.2.1
  unfold k0_t5_body
  iintro Hb
  sl_exec
  sl_step
  istop
  refine Entails.of_eq (pointsTo_congr fun i _ => ?_)
  have e : ∀ X : Buf (Elt F) ((b3).view.loc (thr d L)), (b3).view.read (Elt F) X = X := fun _ => rfl
  refine (congrFun (e _).symm i).trans ?_
  rw [read_row8 (b3).view (RowUpd g p j.val) j.val _ _ (k0_off42_eq j) _ _ (k0_off43_eq j) _ _ (k0_off44_eq j) _ _ (k0_off45_eq j) _ _ (k0_off46_eq j) _ _ (k0_off47_eq j) _ _ (k0_off48_eq j) _ _ (k0_off49_eq j)
    (fun l => FloatOps.addf (RowUpd g p j.val (ValueIdx.ix2 (⟨j.val, hj⟩ : Fin 128) l)) (p l)) ?_ ?_ ?_ ?_ ?_ ?_ ?_ ?_ i]
  · exact RowUpd_succ g p j.val hj i
  · intro x
    show shapeCast S1x16 (addf (F := F) (shapeCast S16 (View.readAt (Elt F) (b3).view (Rect.unit (s := S128x128) (k0_off42 j) S1x16.size (k0_off42_inb j)).toLoadRect (RowUpd g p j.val)) shapeCasts_S1x16_S16) v145) shapeCasts_S16_S1x16 (ValueIdx.ix2 (0 : Fin 1) x) = _
    rw [pay_lane]
    refine congrArg₂ FloatOps.addf ?_ ?_
    · exact readAt_lanes (b3).view _ _ hj (k0_off42_eq j) x _ (Nat.zero_add _).symm
    · exact h145 x
  · intro x
    show shapeCast S1x16 (addf (F := F) (shapeCast S16 (View.readAt (Elt F) (b3).view (Rect.unit (s := S128x128) (k0_off43 j) S1x16.size (k0_off43_inb j)).toLoadRect (RowUpd g p j.val)) shapeCasts_S1x16_S16) v148) shapeCasts_S16_S1x16 (ValueIdx.ix2 (0 : Fin 1) x) = _
    rw [pay_lane]
    refine congrArg₂ FloatOps.addf ?_ ?_
    · exact readAt_lanes (b3).view _ _ hj (k0_off43_eq j) x _ rfl
    · exact h148 x
  · intro x
    show shapeCast S1x16 (addf (F := F) (shapeCast S16 (View.readAt (Elt F) (b3).view (Rect.unit (s := S128x128) (k0_off44 j) S1x16.size (k0_off44_inb j)).toLoadRect (RowUpd g p j.val)) shapeCasts_S1x16_S16) v151) shapeCasts_S16_S1x16 (ValueIdx.ix2 (0 : Fin 1) x) = _
    rw [pay_lane]
    refine congrArg₂ FloatOps.addf ?_ ?_
    · exact readAt_lanes (b3).view _ _ hj (k0_off44_eq j) x _ rfl
    · exact h151 x
  · intro x
    show shapeCast S1x16 (addf (F := F) (shapeCast S16 (View.readAt (Elt F) (b3).view (Rect.unit (s := S128x128) (k0_off45 j) S1x16.size (k0_off45_inb j)).toLoadRect (RowUpd g p j.val)) shapeCasts_S1x16_S16) v154) shapeCasts_S16_S1x16 (ValueIdx.ix2 (0 : Fin 1) x) = _
    rw [pay_lane]
    refine congrArg₂ FloatOps.addf ?_ ?_
    · exact readAt_lanes (b3).view _ _ hj (k0_off45_eq j) x _ rfl
    · exact h154 x
  · intro x
    show shapeCast S1x16 (addf (F := F) (shapeCast S16 (View.readAt (Elt F) (b3).view (Rect.unit (s := S128x128) (k0_off46 j) S1x16.size (k0_off46_inb j)).toLoadRect (RowUpd g p j.val)) shapeCasts_S1x16_S16) v157) shapeCasts_S16_S1x16 (ValueIdx.ix2 (0 : Fin 1) x) = _
    rw [pay_lane]
    refine congrArg₂ FloatOps.addf ?_ ?_
    · exact readAt_lanes (b3).view _ _ hj (k0_off46_eq j) x _ rfl
    · exact h157 x
  · intro x
    show shapeCast S1x16 (addf (F := F) (shapeCast S16 (View.readAt (Elt F) (b3).view (Rect.unit (s := S128x128) (k0_off47 j) S1x16.size (k0_off47_inb j)).toLoadRect (RowUpd g p j.val)) shapeCasts_S1x16_S16) (shapeCast S16 v159 shapeCasts_S1x16_S16)) shapeCasts_S16_S1x16 (ValueIdx.ix2 (0 : Fin 1) x) = _
    rw [pay_lane]
    refine congrArg₂ FloatOps.addf ?_ ?_
    · exact readAt_lanes (b3).view _ _ hj (k0_off47_eq j) x _ rfl
    · exact (cast_lane _ x).trans (h159 x)
  · intro x
    show shapeCast S1x16 (addf (F := F) (shapeCast S16 (View.readAt (Elt F) (b3).view (Rect.unit (s := S128x128) (k0_off48 j) S1x16.size (k0_off48_inb j)).toLoadRect (RowUpd g p j.val)) shapeCasts_S1x16_S16) (shapeCast S16 v162 shapeCasts_S1x16_S16)) shapeCasts_S16_S1x16 (ValueIdx.ix2 (0 : Fin 1) x) = _
    rw [pay_lane]
    refine congrArg₂ FloatOps.addf ?_ ?_
    · exact readAt_lanes (b3).view _ _ hj (k0_off48_eq j) x _ rfl
    · exact (cast_lane _ x).trans (h162 x)
  · intro x
    show shapeCast S1x16 (addf (F := F) (shapeCast S16 (View.readAt (Elt F) (b3).view (Rect.unit (s := S128x128) (k0_off49 j) S1x16.size (k0_off49_inb j)).toLoadRect (RowUpd g p j.val)) shapeCasts_S1x16_S16) (shapeCast S16 v165 shapeCasts_S1x16_S16)) shapeCasts_S16_S1x16 (ValueIdx.ix2 (0 : Fin 1) x) = _
    rw [pay_lane]
    refine congrArg₂ FloatOps.addf ?_ ?_
    · exact readAt_lanes (b3).view _ _ hj (k0_off49_eq j) x _ rfl
    · exact (cast_lane _ x).trans (h165 x)

end Cert.Proof.KB

end
-- ==== Proof.KBPos.lean ====
/-
  The position loads: the eight sixteen-lane loads of row `4 k + r` of the position scratch read that position's row,
  lanes [16 c, 16 c + 16).
-/
import proofs.«205233_g80668075753725_cont_9to1c4b_826_11_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S200x4096 EltTy.i32)
local notation "tV" => (Memref.whole Cert.Kernel.main_arg1_scv : Memref Cert.Kernel.sig Kind.scVector Space.hbm Cert.Kernel.S100000x128 EltTy.f32)
local notation "pV" => (Memref.whole Cert.Kernel.main_arg2_scv : Memref Cert.Kernel.sig Kind.scVector Space.hbm Cert.Kernel.S200x128 EltTy.f32)
local notation "oV" => (Memref.whole Cert.Kernel.main_v1_scv : Memref Cert.Kernel.sig Kind.scVector Space.hbm Cert.Kernel.S4096x200x128 EltTy.f32)
local notation "s0" => (Memref.whole Cert.Kernel.cc0_scratch0 : Memref Cert.Kernel.sig Kind.scVector Space.vmem Cert.Kernel.S200x128 EltTy.i32)
local notation "s1" => (Memref.whole Cert.Kernel.cc0_scratch1 : Memref Cert.Kernel.sig Kind.scVector Space.vmem Cert.Kernel.S200x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable [FloatOps F]

/-! ## The position loads -/

/-- The load of lanes [0, 16) of the position row of position `4 k + r`. -/
theorem posload_0 (d : Dev nD) (L : grid0.Coords) (PP : Buf (Elt F) ((s1).view.loc (thr d L))) (k : Fin k0_t1_loop.trips) (r : Fin 4) (i : Fin 16) :
    View.readAt (Elt F) (s1).view (Rect.unit (s := S200x128) (k0_off3 k (BitVec.ofNat 32 r.val)) S1x16.size (k0_off3_inb k r)).toLoadRect PP
        (ValueIdx.ix2 (0 : Fin 1) i)
      = posRow d L PP (4 * k.val + r.val) ⟨i.val, by omega⟩ := by
  have hk : k.val < 50 := Nat.lt_of_lt_of_le k.isLt k0_t1_abs.2.1
  have hs : 4 * k.val + r.val < 200 := by omega
  refine (readAt_lanes (s1).view PP (k0_off3_inb k r) hs (k0_off3_eq k r) i (⟨i.val, by omega⟩ : Fin 128) (Nat.zero_add _).symm).trans ?_
  exact congrArg (fun a : Fin 200 => PP (ValueIdx.ix2 a (⟨i.val, by omega⟩ : Fin 128))) (Fin.ext (Nat.mod_eq_of_lt hs).symm)

/-- The load of lanes [16, 32) of the position row of position `4 k + r`. -/
theorem posload_1 (d : Dev nD) (L : grid0.Coords) (PP : Buf (Elt F) ((s1).view.loc (thr d L))) (k : Fin k0_t1_loop.trips) (r : Fin 4) (i : Fin 16) :
    View.readAt (Elt F) (s1).view (Rect.unit (s := S200x128) (k0_off4 k (BitVec.ofNat 32 r.val)) S1x16.size (k0_off4_inb k r)).toLoadRect PP
        (ValueIdx.ix2 (0 : Fin 1) i)
      = posRow d L PP (4 * k.val + r.val) ⟨16 + i.val, by omega⟩ := by
  have hk : k.val < 50 := Nat.lt_of_lt_of_le k.isLt k0_t1_abs.2.1
  have hs : 4 * k.val + r.val < 200 := by omega
  refine (readAt_lanes (s1).view PP (k0_off4_inb k r) hs (k0_off4_eq k r) i (⟨16 + i.val, by omega⟩ : Fin 128) rfl).trans ?_
  exact congrArg (fun a : Fin 200 => PP (ValueIdx.ix2 a (⟨16 + i.val, by omega⟩ : Fin 128))) (Fin.ext (Nat.mod_eq_of_lt hs).symm)

/-- The load of lanes [32, 48) of the position row of position `4 k + r`. -/
theorem posload_2 (d : Dev nD) (L : grid0.Coords) (PP : Buf (Elt F) ((s1).view.loc (thr d L))) (k : Fin k0_t1_loop.trips) (r : Fin 4) (i : Fin 16) :
    View.readAt (Elt F) (s1).view (Rect.unit (s := S200x128) (k0_off5 k (BitVec.ofNat 32 r.val)) S1x16.size (k0_off5_inb k r)).toLoadRect PP
        (ValueIdx.ix2 (0 : Fin 1) i)
      = posRow d L PP (4 * k.val + r.val) ⟨32 + i.val, by omega⟩ := by
  have hk : k.val < 50 := Nat.lt_of_lt_of_le k.isLt k0_t1_abs.2.1
  have hs : 4 * k.val + r.val < 200 := by omega
  refine (readAt_lanes (s1).view PP (k0_off5_inb k r) hs (k0_off5_eq k r) i (⟨32 + i.val, by omega⟩ : Fin 128) rfl).trans ?_
  exact congrArg (fun a : Fin 200 => PP (ValueIdx.ix2 a (⟨32 + i.val, by omega⟩ : Fin 128))) (Fin.ext (Nat.mod_eq_of_lt hs).symm)

/-- The load of lanes [48, 64) of the position row of position `4 k + r`. -/
theorem posload_3 (d : Dev nD) (L : grid0.Coords) (PP : Buf (Elt F) ((s1).view.loc (thr d L))) (k : Fin k0_t1_loop.trips) (r : Fin 4) (i : Fin 16) :
    View.readAt (Elt F) (s1).view (Rect.unit (s := S200x128) (k0_off6 k (BitVec.ofNat 32 r.val)) S1x16.size (k0_off6_inb k r)).toLoadRect PP
        (ValueIdx.ix2 (0 : Fin 1) i)
      = posRow d L PP (4 * k.val + r.val) ⟨48 + i.val, by omega⟩ := by
  have hk : k.val < 50 := Nat.lt_of_lt_of_le k.isLt k0_t1_abs.2.1
  have hs : 4 * k.val + r.val < 200 := by omega
  refine (readAt_lanes (s1).view PP (k0_off6_inb k r) hs (k0_off6_eq k r) i (⟨48 + i.val, by omega⟩ : Fin 128) rfl).trans ?_
  exact congrArg (fun a : Fin 200 => PP (ValueIdx.ix2 a (⟨48 + i.val, by omega⟩ : Fin 128))) (Fin.ext (Nat.mod_eq_of_lt hs).symm)

/-- The load of lanes [64, 80) of the position row of position `4 k + r`. -/
theorem posload_4 (d : Dev nD) (L : grid0.Coords) (PP : Buf (Elt F) ((s1).view.loc (thr d L))) (k : Fin k0_t1_loop.trips) (r : Fin 4) (i : Fin 16) :
    View.readAt (Elt F) (s1).view (Rect.unit (s := S200x128) (k0_off7 k (BitVec.ofNat 32 r.val)) S1x16.size (k0_off7_inb k r)).toLoadRect PP
        (ValueIdx.ix2 (0 : Fin 1) i)
      = posRow d L PP (4 * k.val + r.val) ⟨64 + i.val, by omega⟩ := by
  have hk : k.val < 50 := Nat.lt_of_lt_of_le k.isLt k0_t1_abs.2.1
  have hs : 4 * k.val + r.val < 200 := by omega
  refine (readAt_lanes (s1).view PP (k0_off7_inb k r) hs (k0_off7_eq k r) i (⟨64 + i.val, by omega⟩ : Fin 128) rfl).trans ?_
  exact congrArg (fun a : Fin 200 => PP (ValueIdx.ix2 a (⟨64 + i.val, by omega⟩ : Fin 128))) (Fin.ext (Nat.mod_eq_of_lt hs).symm)

/-- The load of lanes [80, 96) of the position row of position `4 k + r`. -/
theorem posload_5 (d : Dev nD) (L : grid0.Coords) (PP : Buf (Elt F) ((s1).view.loc (thr d L))) (k : Fin k0_t1_loop.trips) (r : Fin 4) (i : Fin 16) :
    View.readAt (Elt F) (s1).view (Rect.unit (s := S200x128) (k0_off8 k (BitVec.ofNat 32 r.val)) S1x16.size (k0_off8_inb k r)).toLoadRect PP
        (ValueIdx.ix2 (0 : Fin 1) i)
      = posRow d L PP (4 * k.val + r.val) ⟨80 + i.val, by omega⟩ := by
  have hk : k.val < 50 := Nat.lt_of_lt_of_le k.isLt k0_t1_abs.2.1
  have hs : 4 * k.val + r.val < 200 := by omega
  refine (readAt_lanes (s1).view PP (k0_off8_inb k r) hs (k0_off8_eq k r) i (⟨80 + i.val, by omega⟩ : Fin 128) rfl).trans ?_
  exact congrArg (fun a : Fin 200 => PP (ValueIdx.ix2 a (⟨80 + i.val, by omega⟩ : Fin 128))) (Fin.ext (Nat.mod_eq_of_lt hs).symm)

/-- The load of lanes [96, 112) of the position row of position `4 k + r`. -/
theorem posload_6 (d : Dev nD) (L : grid0.Coords) (PP : Buf (Elt F) ((s1).view.loc (thr d L))) (k : Fin k0_t1_loop.trips) (r : Fin 4) (i : Fin 16) :
    View.readAt (Elt F) (s1).view (Rect.unit (s := S200x128) (k0_off9 k (BitVec.ofNat 32 r.val)) S1x16.size (k0_off9_inb k r)).toLoadRect PP
        (ValueIdx.ix2 (0 : Fin 1) i)
      = posRow d L PP (4 * k.val + r.val) ⟨96 + i.val, by omega⟩ := by
  have hk : k.val < 50 := Nat.lt_of_lt_of_le k.isLt k0_t1_abs.2.1
  have hs : 4 * k.val + r.val < 200 := by omega
  refine (readAt_lanes (s1).view PP (k0_off9_inb k r) hs (k0_off9_eq k r) i (⟨96 + i.val, by omega⟩ : Fin 128) rfl).trans ?_
  exact congrArg (fun a : Fin 200 => PP (ValueIdx.ix2 a (⟨96 + i.val, by omega⟩ : Fin 128))) (Fin.ext (Nat.mod_eq_of_lt hs).symm)

/-- The load of lanes [112, 128) of the position row of position `4 k + r`. -/
theorem posload_7 (d : Dev nD) (L : grid0.Coords) (PP : Buf (Elt F) ((s1).view.loc (thr d L))) (k : Fin k0_t1_loop.trips) (r : Fin 4) (i : Fin 16) :
    View.readAt (Elt F) (s1).view (Rect.unit (s := S200x128) (k0_off10 k (BitVec.ofNat 32 r.val)) S1x16.size (k0_off10_inb k r)).toLoadRect PP
        (ValueIdx.ix2 (0 : Fin 1) i)
      = posRow d L PP (4 * k.val + r.val) ⟨112 + i.val, by omega⟩ := by
  have hk : k.val < 50 := Nat.lt_of_lt_of_le k.isLt k0_t1_abs.2.1
  have hs : 4 * k.val + r.val < 200 := by omega
  refine (readAt_lanes (s1).view PP (k0_off10_inb k r) hs (k0_off10_eq k r) i (⟨112 + i.val, by omega⟩ : Fin 128) rfl).trans ?_
  exact congrArg (fun a : Fin 200 => PP (ValueIdx.ix2 a (⟨112 + i.val, by omega⟩ : Fin 128))) (Fin.ext (Nat.mod_eq_of_lt hs).symm)

end Cert.Proof.KB

end
-- ==== Proof.KBTrip0.lean ====
/-
  One trip of the position loop works on four positions, one per buffer of the ring; inside it each buffer's 128 rows
  get the position row added in an inner loop, whose state after n trips is the buffer with its first n rows updated.
-/
import proofs.«205233_g80668075753725_cont_9to1c4b_826_11_alg».proof.Proof.KBConv
import proofs.«205233_g80668075753725_cont_9to1c4b_826_11_alg».proof.Proof.KBInner
import proofs.«205233_g80668075753725_cont_9to1c4b_826_11_alg».proof.Proof.KBPos

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S200x4096 EltTy.i32)
local notation "tV" => (Memref.whole Cert.Kernel.main_arg1_scv : Memref Cert.Kernel.sig Kind.scVector Space.hbm Cert.Kernel.S100000x128 EltTy.f32)
local notation "pV" => (Memref.whole Cert.Kernel.main_arg2_scv : Memref Cert.Kernel.sig Kind.scVector Space.hbm Cert.Kernel.S200x128 EltTy.f32)
local notation "oV" => (Memref.whole Cert.Kernel.main_v1_scv : Memref Cert.Kernel.sig Kind.scVector Space.hbm Cert.Kernel.S4096x200x128 EltTy.f32)
local notation "s0" => (Memref.whole Cert.Kernel.cc0_scratch0 : Memref Cert.Kernel.sig Kind.scVector Space.vmem Cert.Kernel.S200x128 EltTy.i32)
local notation "s1" => (Memref.whole Cert.Kernel.cc0_scratch1 : Memref Cert.Kernel.sig Kind.scVector Space.vmem Cert.Kernel.S200x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable [FloatOps F]

section Trip

variable (d : Dev nD) (L : grid0.Coords)

abbrev invB0 (g : Buf (Elt F) ((b0).view.loc (thr d L))) (p : Fin 128 → F .f32) (n : Nat) (_ : PUnit) : sProp 𝕄 :=
  (b0).view.loc (thr d L) ↦[(b0).view.set]{fullShare} (RowUpd g p n)
abbrev invB1 (g : Buf (Elt F) ((b1).view.loc (thr d L))) (p : Fin 128 → F .f32) (n : Nat) (_ : PUnit) : sProp 𝕄 :=
  (b1).view.loc (thr d L) ↦[(b1).view.set]{fullShare} (RowUpd g p n)
abbrev invB2 (g : Buf (Elt F) ((b2).view.loc (thr d L))) (p : Fin 128 → F .f32) (n : Nat) (_ : PUnit) : sProp 𝕄 :=
  (b2).view.loc (thr d L) ↦[(b2).view.set]{fullShare} (RowUpd g p n)
abbrev invB3 (g : Buf (Elt F) ((b3).view.loc (thr d L))) (p : Fin 128 → F .f32) (n : Nat) (_ : PUnit) : sProp 𝕄 :=
  (b3).view.loc (thr d L) ↦[(b3).view.set]{fullShare} (RowUpd g p n)

end Trip

end Cert.Proof.KB

end
-- ==== Proof.KBTripA.lean ====
/-
  The first trip of the position loop (positions 0 … 3): as a middle trip, except that no copy-out is outstanding yet, so
  buffers 2 and 3 are taken as they stand.
-/
import proofs.«205233_g80668075753725_cont_9to1c4b_826_11_alg».proof.Proof.KBTrip0

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S200x4096 EltTy.i32)
local notation "tV" => (Memref.whole Cert.Kernel.main_arg1_scv : Memref Cert.Kernel.sig Kind.scVector Space.hbm Cert.Kernel.S100000x128 EltTy.f32)
local notation "pV" => (Memref.whole Cert.Kernel.main_arg2_scv : Memref Cert.Kernel.sig Kind.scVector Space.hbm Cert.Kernel.S200x128 EltTy.f32)
local notation "oV" => (Memref.whole Cert.Kernel.main_v1_scv : Memref Cert.Kernel.sig Kind.scVector Space.hbm Cert.Kernel.S4096x200x128 EltTy.f32)
local notation "s0" => (Memref.whole Cert.Kernel.cc0_scratch0 : Memref Cert.Kernel.sig Kind.scVector Space.vmem Cert.Kernel.S200x128 EltTy.i32)
local notation "s1" => (Memref.whole Cert.Kernel.cc0_scratch1 : Memref Cert.Kernel.sig Kind.scVector Space.vmem Cert.Kernel.S200x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable [FloatOps F]
section Trip

variable (d : Dev nD) (L : grid0.Coords) (qt : PosShare TreeShare)
  (ft : Buf (Elt F) ((tV).view.loc (thr d L))) (II : Buf (Elt F) ((s0).view.loc (thr d L))) (PP : Buf (Elt F) ((s1).view.loc (thr d L)))
  (fo go : Buf (Elt F) ((oV).view.loc (thr d L))) (O : CellTallies nD τ sig (HIx 1)) (W : Waits sig (HIx 1))

set_option maxHeartbeats 4000000 in
theorem trip_first (hII : ∀ i, (II i).toNat < 100000) (hgo : GoOK d L ft II PP go) (k : Fin k0_t1_loop.trips) (hk : k.val = 0) :
    inv d L qt ft II PP fo go O W k.val ⟨⟩
      ⊢ wp frame (wpE (defs₀ (F := F)) 𝒱₀ (thr d L) none) Set.univ (k0_t1_body (F := F) L iV (Memref.isWhole_whole _) tV (Memref.isWhole_whole _) pV (Memref.isWhole_whole _) oV (Memref.isWhole_whole _) s0 (Memref.isWhole_whole _) s1 (Memref.isWhole_whole _) b0 (Memref.isWhole_whole _) b1 (Memref.isWhole_whole _) b2 (Memref.isWhole_whole _) b3 (Memref.isWhole_whole _) cc0_scratch6 cc0_scratch7 cc0_scratch8 cc0_scratch9 cc0_scratch10 cc0_scratch11 cc0_scratch12 cc0_scratch13 cc0_scoped0 cc0_scoped1 k ⟨⟩)
          (fun a => inv d L qt ft II PP fo go O W (k.val + 1) a) := by
  have h1 : ¬ k0_cond1 k = 1#1 := fun h => by have := (cond1_iff k).mp h; omega
  have h2 : k0_cond2 k = 1#1 := cond2_iff k
  have h3 : ¬ k0_cond3 k = 1#1 := fun h => by have := (cond3_iff k).mp h; omega
  have h4 : k0_cond4 k = 1#1 := cond4_iff k
  have h5 : k0_cond5 k = 1#1 := cond5_iff k
  have h6 : k0_cond6 k = 1#1 := (cond6_iff k).mpr (by omega)
  have h7 : k0_cond7 k = 1#1 := cond7_iff k
  have h8 : k0_cond8 k = 1#1 := (cond8_iff k).mpr (by omega)
  have hin := hinM d L II hII
  unfold inv
  rw [if_pos (show k.val < 50 by omega), if_neg (show ¬ 0 < k.val by omega), if_pos (show k.val + 1 < 50 by omega), if_pos (show 0 < k.val + 1 by omega)]
  rw [Ico4 (RowP d L II) (4 * k.val + 2) (by omega), Ico4 (WinP d L fo) (4 * k.val) (by omega)]
  iintro ⟨Hmw, Hpos, HT2, HT3, Hc2, Hc3, Hc4, Hc5, ⟨HF0, HF1⟩, ⟨⟨%f2, HB2⟩, ⟨%f3, HB3⟩, Hc6, Hc7⟩, Hrd, ⟨Hr2, Hr3, Hr4, Hr5, Hrp⟩, Hwd, ⟨Hw0, Hw1, Hw2, Hw3, Hwp⟩, %W', %hW', HO⟩
  ihave Hr2 := (Entails.of_eq (pts_rowM d L (inb := k0_off21_inb k h2) (k0_off21_eq k) fullShare II).symm) $$ Hr2
  ihave Hr3 := (Entails.of_eq (pts_rowM d L (inb := k0_off31_inb k h4) (k0_off31_eq k) fullShare II).symm) $$ Hr3
  ihave Hr4 := (Entails.of_eq (pts_rowM d L (inb := k0_off41_inb k h6) (k0_off41_eq k) fullShare II).symm) $$ Hr4
  ihave Hr5 := (Entails.of_eq (pts_rowM d L (inb := k0_off51_inb k h8) (k0_off51_eq k) fullShare II).symm) $$ Hr5
  ihave Hw0 := (Entails.of_eq (pts_winM d L (inb := k0_off19_inb L k 0) (k0_off19_eq L k 0) fullShare fo).symm) $$ Hw0
  ihave Hw1 := (Entails.of_eq (pts_winM d L (inb := k0_off19_inb L k 1) (k0_off19_eq L k 1) fullShare fo).symm) $$ Hw1
  ihave Hw2 := (Entails.of_eq (pts_winM d L (inb := k0_off19_inb L k 2) (k0_off19_eq L k 2) fullShare fo).symm) $$ Hw2
  ihave Hw3 := (Entails.of_eq (pts_winM d L (inb := k0_off19_inb L k 3) (k0_off19_eq L k 3) fullShare fo).symm) $$ Hw3
  unfold k0_t1_body
  sl_exec
  icases HF0_dst with ⟨Hb0, Hrow0⟩
  sl_for (invB0 d L (Gath d L ft II (4 * k.val)) (posRow d L PP (4 * k.val))) $$ [Hb0]
  case region =>
    intro j _
    exact inner_t2 d L k j _ _ _ _ _ _ _ _ _ _ (posload_0 d L PP k 0) (posload_1 d L PP k 0) (posload_2 d L PP k 0) (posload_3 d L PP k 0)
      (posload_4 d L PP k 0) (posload_5 d L PP k 0) (posload_6 d L PP k 0) (posload_7 d L PP k 0)
  · unfold invB0; rw [RowUpd_zero]; iexact Hb0
  iintro %_ Hb0
  sl_exec
  icases HF1_dst with ⟨Hb1, Hrow1⟩
  sl_for (invB1 d L (Gath d L ft II (4 * k.val + 1)) (posRow d L PP (4 * k.val + 1))) $$ [Hb1]
  case region =>
    intro j _
    exact inner_t3 d L k _ _ _ j _ _ _ _ _ _ _ _ _ _ (posload_0 d L PP k 1) (posload_1 d L PP k 1) (posload_2 d L PP k 1) (posload_3 d L PP k 1)
      (posload_4 d L PP k 1) (posload_5 d L PP k 1) (posload_6 d L PP k 1) (posload_7 d L PP k 1)
  · unfold invB1; rw [RowUpd_zero]; iexact Hb1
  iintro %_ Hb1
  sl_exec
  -- position 4 k + 2
  ihave Hb2 := (gathP2 d L ft II (s := 4 * k.val + 2) (k0_off21_eq k) (by omega) _ (trip_first.sl.gather1 d L ft II k h2 hin) rfl) $$ HB2
  sl_for (invB2 d L (Gath d L ft II (4 * k.val + 2)) (posRow d L PP (4 * k.val + 2))) $$ [Hb2]
  case region =>
    intro j _
    exact inner_t4 d L k _ _ j _ _ _ _ _ _ _ _ _ _ (fun i => (cast_lane _ i).trans (posload_0 d L PP k 2 i)) (fun i => (cast_lane _ i).trans (posload_1 d L PP k 2 i))
      (fun i => (cast_lane _ i).trans (posload_2 d L PP k 2 i)) (fun i => (cast_lane _ i).trans (posload_3 d L PP k 2 i))
      (fun i => (cast_lane _ i).trans (posload_4 d L PP k 2 i)) (fun i => (cast_lane _ i).trans (posload_5 d L PP k 2 i))
      (fun i => (cast_lane _ i).trans (posload_6 d L PP k 2 i)) (posload_7 d L PP k 2)
  · unfold invB2; rw [RowUpd_zero]; iexact Hb2
  iintro %_ Hb2
  sl_exec
  -- position 4 k + 3
  ihave Hb3 := (gathP3 d L ft II (s := 4 * k.val + 3) (k0_off31_eq k) (by omega) _ (trip_first.sl.gather1_1 d L ft II k h4 hin) rfl) $$ HB3
  sl_for (invB3 d L (Gath d L ft II (4 * k.val + 3)) (posRow d L PP (4 * k.val + 3))) $$ [Hb3]
  case region =>
    intro j _
    exact inner_t5 d L j _ _ _ _ _ _ _ _ _ _ (fun i => (cast_lane _ i).trans (posload_0 d L PP k 3 i)) (fun i => (cast_lane _ i).trans (posload_1 d L PP k 3 i))
      (fun i => (cast_lane _ i).trans (posload_2 d L PP k 3 i)) (fun i => (cast_lane _ i).trans (posload_3 d L PP k 3 i))
      (fun i => (cast_lane _ i).trans (posload_4 d L PP k 3 i)) (posload_5 d L PP k 3) (posload_6 d L PP k 3) (posload_7 d L PP k 3)
  · unfold invB3; rw [RowUpd_zero]; iexact Hb3
  iintro %_ Hb3
  sl_exec
  sl_step
  ihave Hr2 := (Entails.of_eq (pts_rowM d L (k0_off21_eq k) fullShare II)) $$ Hr2
  ihave Hr3 := (Entails.of_eq (pts_rowM d L (k0_off31_eq k) fullShare II)) $$ Hr3
  rw [show 4 * (k.val + 1) - 2 = 4 * k.val + 2 by omega, show 4 * (k.val + 1) - 1 = 4 * k.val + 3 by omega, show 4 * (k.val + 1) + 2 = 4 * k.val + 2 + 4 by omega,
    show 4 * (k.val + 1) + 1 = 4 * k.val + 5 by omega, show 4 * (k.val + 1) = 4 * k.val + 4 by omega]
  rw [range4 (RowP d L II) (4 * k.val)]
  isplitl [Hmw]; · iexact Hmw
  isplitl [Hpos]; · iexact Hpos
  isplitl [HT2]; · iexact HT2
  isplitl [HT3]; · iexact HT3
  isplitl [Hc2]; · iexact Hc2
  isplitl [Hc3]; · iexact Hc3
  isplitl [Hc4]; · iexact Hc4
  isplitl [Hc5]; · iexact Hc5
  isplitl [HF0 HF1]
  · isplitl [HF0]
    · iapply (fg0 d L qt ft II (s := 4 * k.val + 4) (k0_off41_eq k) (by omega) _ (trip_first.sl.gather1_2 d L ft II k h6 hin) rfl); iexact HF0
    · iapply (fg1 d L qt ft II (s := 4 * k.val + 5) (k0_off51_eq k) (by omega) _ (trip_first.sl.gather1_3 d L ft II k h8 hin) rfl); iexact HF1
  isplitl [Hc6 Hc7]
  · isplitl [Hc6]
    · iapply (fs2 d L ft II PP fo go (s := 4 * k.val + 2) (k0_off19_eq L k 2) (by omega) hgo (Scf.trips k0_t4_loop.lb k0_t4_loop.ub k0_t4_loop.st) rfl (trip_first.sl.dma0_2 d L ft II PP k) rfl); iexact Hc6
    · iapply (fs3 d L ft II PP fo go (s := 4 * k.val + 3) (k0_off19_eq L k 3) (by omega) hgo (Scf.trips k0_t5_loop.lb k0_t5_loop.ub k0_t5_loop.st) rfl (trip_first.sl.dma0_3 d L ft II PP k) rfl); iexact Hc7
  isplitl [Hr3 Hr2 Hrow1 Hrow0 Hrd]
  · isplitl [Hr3]; · iexact Hr3
    isplitl [Hr2]; · iexact Hr2
    isplitl [Hrow1]; · iexact Hrow1
    isplitl [Hrow0]; · iexact Hrow0
    iexact Hrd
  isplitl [Hrp]; · iexact Hrp
  rw [winsDone_first (WinP d L go) k.val hk]
  isplitl [Hw1 Hw0 Hwd]
  · isplitl [Hw1]; · iapply (windone1 d L ft II PP _ go (s := 4 * k.val + 1) (k0_off19_eq L k 1) (by omega) hgo (Scf.trips k0_t3_loop.lb k0_t3_loop.ub k0_t3_loop.st) rfl (trip_first.sl.dma0_1 d L ft II PP k) rfl); iexact Hw1
    isplitl [Hw0]; · iapply (windone0 d L ft II PP _ go (s := 4 * k.val) (k0_off19_eq L k 0) (by omega) hgo (Scf.trips k0_t2_loop.lb k0_t2_loop.ub k0_t2_loop.st) rfl (trip_first.sl.dma0 d L ft II PP k) rfl); iexact Hw0
    iexact Hwd
  isplitl [Hwp]; · iexact Hwp
  iexists _; isplitr
  swap; · iexact HO
  ipureintro
  intro p hp
  simp only [Finset.mem_insert] at hp
  rcases hp with rfl | rfl | rfl | rfl | rfl | rfl | hp
  all_goals first | exact .inr rfl | exact hW' p hp

end Trip

end Cert.Proof.KB

end
-- ==== Proof.KBTripB.lean ====
/-
  A trip of the position loop in the middle of the run (positions 4 k … 4 k + 3, 0 < k < 49): the two gathers in flight
  land, each of the four buffers gets its position row added and is copied out, the copy-outs of two trips ago and of
  this trip's first two positions are waited for, and the next four gathers are issued; the ring is back in the state
  the next trip expects.
-/
import proofs.«205233_g80668075753725_cont_9to1c4b_826_11_alg».proof.Proof.KBTrip0

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S200x4096 EltTy.i32)
local notation "tV" => (Memref.whole Cert.Kernel.main_arg1_scv : Memref Cert.Kernel.sig Kind.scVector Space.hbm Cert.Kernel.S100000x128 EltTy.f32)
local notation "pV" => (Memref.whole Cert.Kernel.main_arg2_scv : Memref Cert.Kernel.sig Kind.scVector Space.hbm Cert.Kernel.S200x128 EltTy.f32)
local notation "oV" => (Memref.whole Cert.Kernel.main_v1_scv : Memref Cert.Kernel.sig Kind.scVector Space.hbm Cert.Kernel.S4096x200x128 EltTy.f32)
local notation "s0" => (Memref.whole Cert.Kernel.cc0_scratch0 : Memref Cert.Kernel.sig Kind.scVector Space.vmem Cert.Kernel.S200x128 EltTy.i32)
local notation "s1" => (Memref.whole Cert.Kernel.cc0_scratch1 : Memref Cert.Kernel.sig Kind.scVector Space.vmem Cert.Kernel.S200x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable [FloatOps F]
section Trip

variable (d : Dev nD) (L : grid0.Coords) (qt : PosShare TreeShare)
  (ft : Buf (Elt F) ((tV).view.loc (thr d L))) (II : Buf (Elt F) ((s0).view.loc (thr d L))) (PP : Buf (Elt F) ((s1).view.loc (thr d L)))
  (fo go : Buf (Elt F) ((oV).view.loc (thr d L))) (O : CellTallies nD τ sig (HIx 1)) (W : Waits sig (HIx 1))
set_option maxHeartbeats 4000000 in
theorem trip_mid (hII : ∀ i, (II i).toNat < 100000) (hgo : GoOK d L ft II PP go) (k : Fin k0_t1_loop.trips) (hk0 : 0 < k.val) (hk49 : k.val < 49) :
    inv d L qt ft II PP fo go O W k.val ⟨⟩
      ⊢ wp frame (wpE (defs₀ (F := F)) 𝒱₀ (thr d L) none) Set.univ (k0_t1_body (F := F) L iV (Memref.isWhole_whole _) tV (Memref.isWhole_whole _) pV (Memref.isWhole_whole _) oV (Memref.isWhole_whole _) s0 (Memref.isWhole_whole _) s1 (Memref.isWhole_whole _) b0 (Memref.isWhole_whole _) b1 (Memref.isWhole_whole _) b2 (Memref.isWhole_whole _) b3 (Memref.isWhole_whole _) cc0_scratch6 cc0_scratch7 cc0_scratch8 cc0_scratch9 cc0_scratch10 cc0_scratch11 cc0_scratch12 cc0_scratch13 cc0_scoped0 cc0_scoped1 k ⟨⟩)
          (fun a => inv d L qt ft II PP fo go O W (k.val + 1) a) := by
  have h1 : k0_cond1 k = 1#1 := (cond1_iff k).mpr hk0
  have h2 : k0_cond2 k = 1#1 := cond2_iff k
  have h3 : k0_cond3 k = 1#1 := (cond3_iff k).mpr hk0
  have h4 : k0_cond4 k = 1#1 := cond4_iff k
  have h5 : k0_cond5 k = 1#1 := cond5_iff k
  have h6 : k0_cond6 k = 1#1 := (cond6_iff k).mpr hk49
  have h7 : k0_cond7 k = 1#1 := cond7_iff k
  have h8 : k0_cond8 k = 1#1 := (cond8_iff k).mpr hk49
  have hin := hinM d L II hII
  unfold inv
  rw [if_pos (show k.val < 50 by omega), if_pos hk0, if_pos (show k.val + 1 < 50 by omega), if_pos (show 0 < k.val + 1 by omega)]
  rw [Ico4 (RowP d L II) (4 * k.val + 2) (by omega), Ico4 (WinP d L fo) (4 * k.val) (by omega)]
  iintro ⟨Hmw, Hpos, HT2, HT3, Hc2, Hc3, Hc4, Hc5, ⟨HF0, HF1⟩, ⟨HF6, HF7⟩, Hrd, ⟨Hr2, Hr3, Hr4, Hr5, Hrp⟩, Hwd, ⟨Hw0, Hw1, Hw2, Hw3, Hwp⟩, %W', %hW', HO⟩
  ihave Hr2 := (Entails.of_eq (pts_rowM d L (inb := k0_off21_inb k h2) (k0_off21_eq k) fullShare II).symm) $$ Hr2
  ihave Hr3 := (Entails.of_eq (pts_rowM d L (inb := k0_off31_inb k h4) (k0_off31_eq k) fullShare II).symm) $$ Hr3
  ihave Hr4 := (Entails.of_eq (pts_rowM d L (inb := k0_off41_inb k h6) (k0_off41_eq k) fullShare II).symm) $$ Hr4
  ihave Hr5 := (Entails.of_eq (pts_rowM d L (inb := k0_off51_inb k h8) (k0_off51_eq k) fullShare II).symm) $$ Hr5
  ihave Hw0 := (Entails.of_eq (pts_winM d L (inb := k0_off19_inb L k 0) (k0_off19_eq L k 0) fullShare fo).symm) $$ Hw0
  ihave Hw1 := (Entails.of_eq (pts_winM d L (inb := k0_off19_inb L k 1) (k0_off19_eq L k 1) fullShare fo).symm) $$ Hw1
  ihave Hw2 := (Entails.of_eq (pts_winM d L (inb := k0_off19_inb L k 2) (k0_off19_eq L k 2) fullShare fo).symm) $$ Hw2
  ihave Hw3 := (Entails.of_eq (pts_winM d L (inb := k0_off19_inb L k 3) (k0_off19_eq L k 3) fullShare fo).symm) $$ Hw3
  unfold k0_t1_body
  sl_exec
  icases HF0_dst with ⟨Hb0, Hrow0⟩
  sl_for (invB0 d L (Gath d L ft II (4 * k.val)) (posRow d L PP (4 * k.val))) $$ [Hb0]
  case region =>
    intro j _
    exact inner_t2 d L k j _ _ _ _ _ _ _ _ _ _ (posload_0 d L PP k 0) (posload_1 d L PP k 0) (posload_2 d L PP k 0) (posload_3 d L PP k 0)
      (posload_4 d L PP k 0) (posload_5 d L PP k 0) (posload_6 d L PP k 0) (posload_7 d L PP k 0)
  · unfold invB0; rw [RowUpd_zero]; iexact Hb0
  iintro %_ Hb0
  sl_exec
  -- position 4 k + 1
  icases HF1_dst with ⟨Hb1, Hrow1⟩
  sl_for (invB1 d L (Gath d L ft II (4 * k.val + 1)) (posRow d L PP (4 * k.val + 1))) $$ [Hb1]
  case region =>
    intro j _
    exact inner_t3 d L k _ _ _ j _ _ _ _ _ _ _ _ _ _ (posload_0 d L PP k 1) (posload_1 d L PP k 1) (posload_2 d L PP k 1) (posload_3 d L PP k 1)
      (posload_4 d L PP k 1) (posload_5 d L PP k 1) (posload_6 d L PP k 1) (posload_7 d L PP k 1)
  · unfold invB1; rw [RowUpd_zero]; iexact Hb1
  iintro %_ Hb1
  sl_exec
  -- position 4 k + 2
  ihave Hb2 := (gathP2 d L ft II (s := 4 * k.val + 2) (k0_off21_eq k) (by omega) _ (trip_mid.sl.gather1 d L ft II k h2 hin) rfl) $$ HF6_src
  sl_for (invB2 d L (Gath d L ft II (4 * k.val + 2)) (posRow d L PP (4 * k.val + 2))) $$ [Hb2]
  case region =>
    intro j _
    exact inner_t4 d L k _ _ j _ _ _ _ _ _ _ _ _ _ (fun i => (cast_lane _ i).trans (posload_0 d L PP k 2 i)) (fun i => (cast_lane _ i).trans (posload_1 d L PP k 2 i))
      (fun i => (cast_lane _ i).trans (posload_2 d L PP k 2 i)) (fun i => (cast_lane _ i).trans (posload_3 d L PP k 2 i))
      (fun i => (cast_lane _ i).trans (posload_4 d L PP k 2 i)) (fun i => (cast_lane _ i).trans (posload_5 d L PP k 2 i))
      (fun i => (cast_lane _ i).trans (posload_6 d L PP k 2 i)) (posload_7 d L PP k 2)
  · unfold invB2; rw [RowUpd_zero]; iexact Hb2
  iintro %_ Hb2
  sl_exec
  -- position 4 k + 3
  ihave Hb3 := (gathP3 d L ft II (s := 4 * k.val + 3) (k0_off31_eq k) (by omega) _ (trip_mid.sl.gather1_1 d L ft II k h4 hin) rfl) $$ HF7_src
  sl_for (invB3 d L (Gath d L ft II (4 * k.val + 3)) (posRow d L PP (4 * k.val + 3))) $$ [Hb3]
  case region =>
    intro j _
    exact inner_t5 d L j _ _ _ _ _ _ _ _ _ _ (fun i => (cast_lane _ i).trans (posload_0 d L PP k 3 i)) (fun i => (cast_lane _ i).trans (posload_1 d L PP k 3 i))
      (fun i => (cast_lane _ i).trans (posload_2 d L PP k 3 i)) (fun i => (cast_lane _ i).trans (posload_3 d L PP k 3 i))
      (fun i => (cast_lane _ i).trans (posload_4 d L PP k 3 i)) (posload_5 d L PP k 3) (posload_6 d L PP k 3) (posload_7 d L PP k 3)
  · unfold invB3; rw [RowUpd_zero]; iexact Hb3
  iintro %_ Hb3
  sl_exec
  sl_step
  ihave Hr2 := (Entails.of_eq (pts_rowM d L (k0_off21_eq k) fullShare II)) $$ Hr2
  ihave Hr3 := (Entails.of_eq (pts_rowM d L (k0_off31_eq k) fullShare II)) $$ Hr3
  rw [show 4 * (k.val + 1) - 2 = 4 * k.val + 2 by omega, show 4 * (k.val + 1) - 1 = 4 * k.val + 3 by omega, show 4 * (k.val + 1) + 2 = 4 * k.val + 2 + 4 by omega,
    show 4 * (k.val + 1) + 1 = 4 * k.val + 5 by omega, show 4 * (k.val + 1) = 4 * k.val + 4 by omega]
  rw [range4 (RowP d L II) (4 * k.val)]
  isplitl [Hmw]; · iexact Hmw
  isplitl [Hpos]; · iexact Hpos
  isplitl [HT2]; · iexact HT2
  isplitl [HT3]; · iexact HT3
  isplitl [Hc2]; · iexact Hc2
  isplitl [Hc3]; · iexact Hc3
  isplitl [Hc4]; · iexact Hc4
  isplitl [Hc5]; · iexact Hc5
  isplitl [HF0 HF1]
  · isplitl [HF0]
    · iapply (fg0 d L qt ft II (s := 4 * k.val + 4) (k0_off41_eq k) (by omega) _ (trip_mid.sl.gather1_2 d L ft II k h6 hin) rfl); iexact HF0
    · iapply (fg1 d L qt ft II (s := 4 * k.val + 5) (k0_off51_eq k) (by omega) _ (trip_mid.sl.gather1_3 d L ft II k h8 hin) rfl); iexact HF1
  isplitl [HF6 HF7]
  · isplitl [HF6]
    · iapply (fs2 d L ft II PP fo go (s := 4 * k.val + 2) (k0_off19_eq L k 2) (by omega) hgo (Scf.trips k0_t4_loop.lb k0_t4_loop.ub k0_t4_loop.st) rfl (trip_mid.sl.dma0_2 d L ft II PP k) rfl); iexact HF6
    · iapply (fs3 d L ft II PP fo go (s := 4 * k.val + 3) (k0_off19_eq L k 3) (by omega) hgo (Scf.trips k0_t5_loop.lb k0_t5_loop.ub k0_t5_loop.st) rfl (trip_mid.sl.dma0_3 d L ft II PP k) rfl); iexact HF7
  isplitl [Hr3 Hr2 Hrow1 Hrow0 Hrd]
  · isplitl [Hr3]; · iexact Hr3
    isplitl [Hr2]; · iexact Hr2
    isplitl [Hrow1]; · iexact Hrow1
    isplitl [Hrow0]; · iexact Hrow0
    iexact Hrd
  isplitl [Hrp]; · iexact Hrp
  rw [winsDone_mid (WinP d L go) k.val (by omega)]
  isplitl [Hw1 Hw0 HF7_dst HF6_dst Hwd]
  · isplitl [Hw1]; · iapply (windone1 d L ft II PP _ go (s := 4 * k.val + 1) (k0_off19_eq L k 1) (by omega) hgo (Scf.trips k0_t3_loop.lb k0_t3_loop.ub k0_t3_loop.st) rfl (trip_mid.sl.dma0_1 d L ft II PP k) rfl); iexact Hw1
    isplitl [Hw0]; · iapply (windone0 d L ft II PP _ go (s := 4 * k.val) (k0_off19_eq L k 0) (by omega) hgo (Scf.trips k0_t2_loop.lb k0_t2_loop.ub k0_t2_loop.st) rfl (trip_mid.sl.dma0 d L ft II PP k) rfl); iexact Hw0
    isplitl [HF7_dst]; · iexact HF7_dst
    isplitl [HF6_dst]; · iexact HF6_dst
    iexact Hwd
  isplitl [Hwp]; · iexact Hwp
  iexists _; isplitr
  swap; · iexact HO
  ipureintro
  intro p hp
  simp only [Finset.mem_insert] at hp
  rcases hp with rfl | rfl | rfl | rfl | rfl | rfl | rfl | rfl | hp
  all_goals first | exact .inr rfl | exact hW' p hp

end Trip

end Cert.Proof.KB

end
-- ==== Proof.KBTripC.lean ====
/-
  The last trip of the position loop (positions 196 … 199): as a middle trip, except that no further gather is issued, so
  buffers 0 and 1 come back free.
-/
import proofs.«205233_g80668075753725_cont_9to1c4b_826_11_alg».proof.Proof.KBTrip0

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S200x4096 EltTy.i32)
local notation "tV" => (Memref.whole Cert.Kernel.main_arg1_scv : Memref Cert.Kernel.sig Kind.scVector Space.hbm Cert.Kernel.S100000x128 EltTy.f32)
local notation "pV" => (Memref.whole Cert.Kernel.main_arg2_scv : Memref Cert.Kernel.sig Kind.scVector Space.hbm Cert.Kernel.S200x128 EltTy.f32)
local notation "oV" => (Memref.whole Cert.Kernel.main_v1_scv : Memref Cert.Kernel.sig Kind.scVector Space.hbm Cert.Kernel.S4096x200x128 EltTy.f32)
local notation "s0" => (Memref.whole Cert.Kernel.cc0_scratch0 : Memref Cert.Kernel.sig Kind.scVector Space.vmem Cert.Kernel.S200x128 EltTy.i32)
local notation "s1" => (Memref.whole Cert.Kernel.cc0_scratch1 : Memref Cert.Kernel.sig Kind.scVector Space.vmem Cert.Kernel.S200x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable [FloatOps F]
section Trip

variable (d : Dev nD) (L : grid0.Coords) (qt : PosShare TreeShare)
  (ft : Buf (Elt F) ((tV).view.loc (thr d L))) (II : Buf (Elt F) ((s0).view.loc (thr d L))) (PP : Buf (Elt F) ((s1).view.loc (thr d L)))
  (fo go : Buf (Elt F) ((oV).view.loc (thr d L))) (O : CellTallies nD τ sig (HIx 1)) (W : Waits sig (HIx 1))

set_option maxHeartbeats 4000000 in
theorem trip_last (hII : ∀ i, (II i).toNat < 100000) (hgo : GoOK d L ft II PP go) (k : Fin k0_t1_loop.trips) (hk : k.val = 49) :
    inv d L qt ft II PP fo go O W k.val ⟨⟩
      ⊢ wp frame (wpE (defs₀ (F := F)) 𝒱₀ (thr d L) none) Set.univ (k0_t1_body (F := F) L iV (Memref.isWhole_whole _) tV (Memref.isWhole_whole _) pV (Memref.isWhole_whole _) oV (Memref.isWhole_whole _) s0 (Memref.isWhole_whole _) s1 (Memref.isWhole_whole _) b0 (Memref.isWhole_whole _) b1 (Memref.isWhole_whole _) b2 (Memref.isWhole_whole _) b3 (Memref.isWhole_whole _) cc0_scratch6 cc0_scratch7 cc0_scratch8 cc0_scratch9 cc0_scratch10 cc0_scratch11 cc0_scratch12 cc0_scratch13 cc0_scoped0 cc0_scoped1 k ⟨⟩)
          (fun a => inv d L qt ft II PP fo go O W (k.val + 1) a) := by
  have h1 : k0_cond1 k = 1#1 := (cond1_iff k).mpr (by omega)
  have h2 : k0_cond2 k = 1#1 := cond2_iff k
  have h3 : k0_cond3 k = 1#1 := (cond3_iff k).mpr (by omega)
  have h4 : k0_cond4 k = 1#1 := cond4_iff k
  have h5 : k0_cond5 k = 1#1 := cond5_iff k
  have h6 : ¬ k0_cond6 k = 1#1 := fun h => by have := (cond6_iff k).mp h; omega
  have h7 : k0_cond7 k = 1#1 := cond7_iff k
  have h8 : ¬ k0_cond8 k = 1#1 := fun h => by have := (cond8_iff k).mp h; omega
  have hin := hinM d L II hII
  unfold inv
  rw [if_pos (show k.val < 50 by omega), if_pos (show 0 < k.val by omega), if_neg (show ¬ k.val + 1 < 50 by omega), if_pos (show 0 < k.val + 1 by omega)]
  rw [Ico2 (RowP d L II) (4 * k.val + 2) (by omega), Ico4 (WinP d L fo) (4 * k.val) (by omega)]
  iintro ⟨Hmw, Hpos, HT2, HT3, Hc2, Hc3, Hc4, Hc5, ⟨HF0, HF1⟩, ⟨HF6, HF7⟩, Hrd, ⟨Hr2, Hr3, Hrp⟩, Hwd, ⟨Hw0, Hw1, Hw2, Hw3, Hwp⟩, %W', %hW', HO⟩
  ihave Hr2 := (Entails.of_eq (pts_rowM d L (inb := k0_off21_inb k h2) (k0_off21_eq k) fullShare II).symm) $$ Hr2
  ihave Hr3 := (Entails.of_eq (pts_rowM d L (inb := k0_off31_inb k h4) (k0_off31_eq k) fullShare II).symm) $$ Hr3
  ihave Hw0 := (Entails.of_eq (pts_winM d L (inb := k0_off19_inb L k 0) (k0_off19_eq L k 0) fullShare fo).symm) $$ Hw0
  ihave Hw1 := (Entails.of_eq (pts_winM d L (inb := k0_off19_inb L k 1) (k0_off19_eq L k 1) fullShare fo).symm) $$ Hw1
  ihave Hw2 := (Entails.of_eq (pts_winM d L (inb := k0_off19_inb L k 2) (k0_off19_eq L k 2) fullShare fo).symm) $$ Hw2
  ihave Hw3 := (Entails.of_eq (pts_winM d L (inb := k0_off19_inb L k 3) (k0_off19_eq L k 3) fullShare fo).symm) $$ Hw3
  unfold k0_t1_body
  sl_exec
  icases HF0_dst with ⟨Hb0, Hrow0⟩
  sl_for (invB0 d L (Gath d L ft II (4 * k.val)) (posRow d L PP (4 * k.val))) $$ [Hb0]
  case region =>
    intro j _
    exact inner_t2 d L k j _ _ _ _ _ _ _ _ _ _ (posload_0 d L PP k 0) (posload_1 d L PP k 0) (posload_2 d L PP k 0) (posload_3 d L PP k 0)
      (posload_4 d L PP k 0) (posload_5 d L PP k 0) (posload_6 d L PP k 0) (posload_7 d L PP k 0)
  · unfold invB0; rw [RowUpd_zero]; iexact Hb0
  iintro %_ Hb0
  sl_exec
  icases HF1_dst with ⟨Hb1, Hrow1⟩
  sl_for (invB1 d L (Gath d L ft II (4 * k.val + 1)) (posRow d L PP (4 * k.val + 1))) $$ [Hb1]
  case region =>
    intro j _
    exact inner_t3 d L k _ _ _ j _ _ _ _ _ _ _ _ _ _ (posload_0 d L PP k 1) (posload_1 d L PP k 1) (posload_2 d L PP k 1) (posload_3 d L PP k 1)
      (posload_4 d L PP k 1) (posload_5 d L PP k 1) (posload_6 d L PP k 1) (posload_7 d L PP k 1)
  · unfold invB1; rw [RowUpd_zero]; iexact Hb1
  iintro %_ Hb1
  sl_exec
  -- position 4 k + 2
  ihave Hb2 := (gathP2 d L ft II (s := 4 * k.val + 2) (k0_off21_eq k) (by omega) _ (trip_last.sl.gather1 d L ft II k h2 hin) rfl) $$ HF6_src
  sl_for (invB2 d L (Gath d L ft II (4 * k.val + 2)) (posRow d L PP (4 * k.val + 2))) $$ [Hb2]
  case region =>
    intro j _
    exact inner_t4 d L k _ _ j _ _ _ _ _ _ _ _ _ _ (fun i => (cast_lane _ i).trans (posload_0 d L PP k 2 i)) (fun i => (cast_lane _ i).trans (posload_1 d L PP k 2 i))
      (fun i => (cast_lane _ i).trans (posload_2 d L PP k 2 i)) (fun i => (cast_lane _ i).trans (posload_3 d L PP k 2 i))
      (fun i => (cast_lane _ i).trans (posload_4 d L PP k 2 i)) (fun i => (cast_lane _ i).trans (posload_5 d L PP k 2 i))
      (fun i => (cast_lane _ i).trans (posload_6 d L PP k 2 i)) (posload_7 d L PP k 2)
  · unfold invB2; rw [RowUpd_zero]; iexact Hb2
  iintro %_ Hb2
  sl_exec
  -- position 4 k + 3
  ihave Hb3 := (gathP3 d L ft II (s := 4 * k.val + 3) (k0_off31_eq k) (by omega) _ (trip_last.sl.gather1_1 d L ft II k h4 hin) rfl) $$ HF7_src
  sl_for (invB3 d L (Gath d L ft II (4 * k.val + 3)) (posRow d L PP (4 * k.val + 3))) $$ [Hb3]
  case region =>
    intro j _
    exact inner_t5 d L j _ _ _ _ _ _ _ _ _ _ (fun i => (cast_lane _ i).trans (posload_0 d L PP k 3 i)) (fun i => (cast_lane _ i).trans (posload_1 d L PP k 3 i))
      (fun i => (cast_lane _ i).trans (posload_2 d L PP k 3 i)) (fun i => (cast_lane _ i).trans (posload_3 d L PP k 3 i))
      (fun i => (cast_lane _ i).trans (posload_4 d L PP k 3 i)) (posload_5 d L PP k 3) (posload_6 d L PP k 3) (posload_7 d L PP k 3)
  · unfold invB3; rw [RowUpd_zero]; iexact Hb3
  iintro %_ Hb3
  sl_exec
  sl_step
  ihave Hr2 := (Entails.of_eq (pts_rowM d L (k0_off21_eq k) fullShare II)) $$ Hr2
  ihave Hr3 := (Entails.of_eq (pts_rowM d L (k0_off31_eq k) fullShare II)) $$ Hr3
  try rw [show 4 * (k.val + 1) - 2 = 4 * k.val + 2 by omega]
  try rw [show 4 * (k.val + 1) - 1 = 4 * k.val + 3 by omega]
  try rw [show 4 * (k.val + 1) + 2 = 4 * k.val + 2 + 4 by omega]
  try rw [show 4 * (k.val + 1) + 1 = 4 * k.val + 5 by omega]
  try rw [show 4 * (k.val + 1) = 4 * k.val + 4 by omega]
  rw [range4 (RowP d L II) (4 * k.val)]
  isplitl [Hmw]; · iexact Hmw
  isplitl [Hpos]; · iexact Hpos
  isplitl [HT2]; · iexact HT2
  isplitl [HT3]; · iexact HT3
  isplitl [Hc2]; · iexact Hc2
  isplitl [Hc3]; · iexact Hc3
  isplitl [Hc4]; · iexact Hc4
  isplitl [Hc5]; · iexact Hc5
  isplitl [Hb0 Hb1 HF0_src HF1_src HF0 HF1]
  · isplitl [Hb0]; · iexists _; iexact Hb0
    isplitl [Hb1]; · iexists _; iexact Hb1
    isplitl [HF0_src]; · iexact HF0_src
    isplitl [HF1_src]; · iexact HF1_src
    isplitl [HF0]; · iexact HF0
    iexact HF1
  isplitl [HF6 HF7]
  · isplitl [HF6]
    · iapply (fs2 d L ft II PP fo go (s := 4 * k.val + 2) (k0_off19_eq L k 2) (by omega) hgo (Scf.trips k0_t4_loop.lb k0_t4_loop.ub k0_t4_loop.st) rfl (trip_last.sl.dma0_2 d L ft II PP k) rfl); iexact HF6
    · iapply (fs3 d L ft II PP fo go (s := 4 * k.val + 3) (k0_off19_eq L k 3) (by omega) hgo (Scf.trips k0_t5_loop.lb k0_t5_loop.ub k0_t5_loop.st) rfl (trip_last.sl.dma0_3 d L ft II PP k) rfl); iexact HF7
  isplitl [Hr3 Hr2 Hrow1 Hrow0 Hrd]
  · isplitl [Hr3]; · iexact Hr3
    isplitl [Hr2]; · iexact Hr2
    isplitl [Hrow1]; · iexact Hrow1
    isplitl [Hrow0]; · iexact Hrow0
    iexact Hrd
  rw [Ico_big (RowP d L II) (4 * k.val + 2 + 4) (by omega)]
  isplitr; · iempintro
  rw [winsDone_mid (WinP d L go) k.val (by omega)]
  isplitl [Hw1 Hw0 HF7_dst HF6_dst Hwd]
  · isplitl [Hw1]; · iapply (windone1 d L ft II PP _ go (s := 4 * k.val + 1) (k0_off19_eq L k 1) (by omega) hgo (Scf.trips k0_t3_loop.lb k0_t3_loop.ub k0_t3_loop.st) rfl (trip_last.sl.dma0_1 d L ft II PP k) rfl); iexact Hw1
    isplitl [Hw0]; · iapply (windone0 d L ft II PP _ go (s := 4 * k.val) (k0_off19_eq L k 0) (by omega) hgo (Scf.trips k0_t2_loop.lb k0_t2_loop.ub k0_t2_loop.st) rfl (trip_last.sl.dma0 d L ft II PP k) rfl); iexact Hw0
    isplitl [HF7_dst]; · iexact HF7_dst
    isplitl [HF6_dst]; · iexact HF6_dst
    iexact Hwd
  isplitl [Hwp]; · iexact Hwp
  iexists _; isplitr
  swap; · iexact HO
  ipureintro
  intro p hp
  simp only [Finset.mem_insert] at hp
  rcases hp with rfl | rfl | rfl | rfl | rfl | rfl | rfl | rfl | hp
  all_goals first | exact .inr rfl | exact hW' p hp

end Trip

end Cert.Proof.KB

end
-- ==== Proof.KBCore.lean ====
/-
  The tile's body: it fetches its column block of the transposed indices and the position table, starts the gathers of
  positions 0 and 1, runs the fifty trips of the position loop over the ring of four buffers, and waits for the last two
  copy-outs; its rows of the result end at the lookup, everything it borrowed comes back.
-/
import proofs.«205233_g80668075753725_cont_9to1c4b_826_11_alg».proof.Proof.KBGo
import proofs.«205233_g80668075753725_cont_9to1c4b_826_11_alg».proof.Proof.KBTripA
import proofs.«205233_g80668075753725_cont_9to1c4b_826_11_alg».proof.Proof.KBTripB
import proofs.«205233_g80668075753725_cont_9to1c4b_826_11_alg».proof.Proof.KBTripC
import proofs.«205233_g80668075753725_cont_9to1c4b_826_11_alg».proof.Proof.KBAsm

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S200x4096 EltTy.i32)
local notation "tV" => (Memref.whole Cert.Kernel.main_arg1_scv : Memref Cert.Kernel.sig Kind.scVector Space.hbm Cert.Kernel.S100000x128 EltTy.f32)
local notation "pV" => (Memref.whole Cert.Kernel.main_arg2_scv : Memref Cert.Kernel.sig Kind.scVector Space.hbm Cert.Kernel.S200x128 EltTy.f32)
local notation "oV" => (Memref.whole Cert.Kernel.main_v1_scv : Memref Cert.Kernel.sig Kind.scVector Space.hbm Cert.Kernel.S4096x200x128 EltTy.f32)
local notation "s0" => (Memref.whole Cert.Kernel.cc0_scratch0 : Memref Cert.Kernel.sig Kind.scVector Space.vmem Cert.Kernel.S200x128 EltTy.i32)
local notation "s1" => (Memref.whole Cert.Kernel.cc0_scratch1 : Memref Cert.Kernel.sig Kind.scVector Space.vmem Cert.Kernel.S200x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable [FloatOps F]

section Core
variable (m : (ℓ : Loc nD τ sig) → Buf (Elt F) ℓ)

theorem hin0 (hpre : PreOK m) (d : Dev nD) (L : grid0.Coords) (off : Fin 2 → ℕ) (inb) (g0 : Buf (Elt F) ((s0).view.loc (thr d L))) :
    ∀ x, ((rowM off inb).view.read (Elt F) (IIe m d L g0) x).toNat < 100000 :=
  hinM d L (IIe m d L g0) (hII_of m d L _ hpre (IIe_ok m d L g0)) off inb

set_option maxHeartbeats 4000000 in
theorem tile_core (hpre : PreOK m) : TileCore m := by
  intro d L O W g0 g1 h0 h1 h2 h3
  have hin := hin0 m hpre d L
  have hII := hII_of m d L _ hpre (IIe_ok m d L g0)
  have hgo := goOK_of m d L _ _ (IIe_ok m d L g0) (PPe_ok m d L g1)
  rw [cc0__body_eq_skeleton]; unfold cc0__body_skel
  iintro ⟨Hmw, Hi, Ht, Hp, Ho, Hs0, Hs1, Hb0, Hb1, Hb2, Hb3, Hc0, Hc1, Hg0, Hg1, Hg2, Hg3, Hz0, Hz1, Hz2, Hz3, HO⟩
  ihave Ht := (toks4 d L (tokq (cL L) (sL L)) (m (tLoc d))).1 $$ Ht
  icases Ht with ⟨Htd, HT0, HT1, HT2, HT3⟩
  sl_exec
  -- the ring before the first trip
  ihave Hwins := (Entails.of_eq (wins_all d L (m (oLoc d)))) $$ Ho
  ihave Hb2 := (Entails.of_eq (bf2_whole d L h2)) $$ Hb2
  ihave Hb3 := (Entails.of_eq (bf3_whole d L h3)) $$ Hb3
  sl_for (inv d L (tokq (cL L) (sL L)) (m (tLoc d)) (IIe m d L g0) (PPe m d L g1) (m (oLoc d)) (GT m d) O W) $$ [Hmw Hs1 HT2 HT3 Hg2 Hg3 Hz0 Hz1 Hg0 Hg1 Hb2 Hb3 Hz2 Hz3 Hs0 Hwins HO]
  case region =>
    intro k _
    have hk : k.val < 50 := lt_of_lt_of_eq k.isLt (by decide)
    by_cases hk0 : k.val = 0
    · exact trip_first d L _ _ _ _ _ _ O W hII hgo k hk0
    by_cases hk49 : k.val = 49
    · exact trip_last d L _ _ _ _ _ _ O W hII hgo k hk49
    · exact trip_mid d L _ _ _ _ _ _ O W hII hgo k (by omega) (by omega)
  · unfold inv
    rw [if_pos (show 0 < 50 by omega), if_neg (show ¬ 0 < 0 by omega)]
    rw [show 4 * 0 = 0 from rfl, show 0 + 2 = 2 from rfl, show 0 - 2 = 0 from rfl, show 0 + 1 = 1 from rfl, bigSep_range_zero, bigSep_range_zero]
    isplitl [Hmw]; · iexact Hmw
    isplitl [Hs1]; · iexact Hs1
    isplitl [HT2]; · iexact HT2
    isplitl [HT3]; · iexact HT3
    isplitl [Hg2]; · iexact Hg2
    isplitl [Hg3]; · iexact Hg3
    isplitl [Hz0]; · iexact Hz0
    isplitl [Hz1]; · iexact Hz1
    isplitl [Hg0 Hg1]
    · isplitl [Hg0]
      · iapply (fg0 d L (tokq (cL L) (sL L)) (m (tLoc d)) (IIe m d L g0) (s := 0) (off := ![0, 0]) rfl (by omega) _ (tile_core.sl.gather1 m d L g0 hin) rfl); iexact Hg0
      · iapply (fg1 d L (tokq (cL L) (sL L)) (m (tLoc d)) (IIe m d L g0) (s := 1) (off := ![1, 0]) rfl (by omega) _ (tile_core.sl.gather2 m d L g0 hin) rfl); iexact Hg1
    isplitl [Hb2 Hb3 Hz2 Hz3]
    · isplitl [Hb2]; · iexists _; iexact Hb2
      isplitl [Hb3]; · iexists _; iexact Hb3
      isplitl [Hz2] <;> iassumption
    isplitr; · iempintro
    isplitl [Hs0]; · iapply (Entails.of_eq (rows_rest d L (IIe m d L g0))); iexact Hs0
    isplitr; · iempintro
    isplitl [Hwins]; · iexact Hwins
    iexists _; isplitr
    swap; · iexact HO
    ipureintro
    intro p hp
    simp only [Finset.mem_insert] at hp
    rcases hp with rfl | rfl | hp
    all_goals first | exact .inr rfl | exact .inl hp
  iintro %_ HI
  unfold inv
  rw [if_neg (show ¬ (Scf.trips k0_t1_loop.lb k0_t1_loop.ub k0_t1_loop.st) < 50 by decide), if_pos (show 0 < (Scf.trips k0_t1_loop.lb k0_t1_loop.ub k0_t1_loop.st) by decide)]
  have e50 : Scf.trips k0_t1_loop.lb k0_t1_loop.ub k0_t1_loop.st = 50 := by decide
  rw [e50]
  rw [show 4 * 50 - 2 = 198 from rfl, show 4 * 50 - 1 = 199 from rfl, show 4 * 50 + 2 = 202 from rfl, show 4 * 50 = 200 from rfl]
  icases HI with ⟨Hmw, Hpos, HT2, HT3, Hc2, Hc3, Hc4, Hc5, ⟨⟨%e0, Hbf0⟩, ⟨%e1, Hbf1⟩, HT0', HT1', Hg0', Hg1'⟩, ⟨HF6, HF7⟩, Hrd, -, Hwd, -, %W', %hW', HO⟩
  sl_exec
  sl_step
  isplitl [Hi]; · iexact Hi
  isplitl [Htd HT0' HT1' HT2 HT3]
  · iapply (toks4 d L (tokq (cL L) (sL L)) (m (tLoc d))).2
    isplitl [Htd]; · iexact Htd
    isplitl [HT0']; · iexact HT0'
    isplitl [HT1']; · iexact HT1'
    isplitl [HT2]; · iexact HT2
    iexact HT3
  isplitl [Hp]; · iexact Hp
  isplitl [Hwd HF6_dst HF7_dst]
  · iapply (Entails.of_eq (wins_close d L (GT m d)).symm)
    isplitl [HF7_dst]; · iexact HF7_dst
    isplitl [HF6_dst]; · iexact HF6_dst
    iexact Hwd
  isplitl [Hrd]; · iexists _; iapply (Entails.of_eq (rows_all d L _).symm); iexact Hrd
  isplitl [Hpos]; · iexists _; iexact Hpos
  isplitl [Hbf0]; · iexists _; iapply (Entails.of_eq (bf0_whole d L _).symm); iexact Hbf0
  isplitl [Hbf1]; · iexists _; iapply (Entails.of_eq (bf1_whole d L _).symm); iexact Hbf1
  isplitl [HF6_src]; · iexists _; iapply (Entails.of_eq (bf2_whole d L _).symm); iexact HF6_src
  isplitl [HF7_src]; · iexists _; iapply (Entails.of_eq (bf3_whole d L _).symm); iexact HF7_src
  isplitl [Hc0]; · iexact Hc0
  isplitl [Hc1]; · iexact Hc1
  isplitl [Hg0']; · iexact Hg0'
  isplitl [Hg1']; · iexact Hg1'
  isplitl [Hc2]; · iexact Hc2
  isplitl [Hc3]; · iexact Hc3
  isplitl [Hc4]; · iexact Hc4
  isplitl [Hc5]; · iexact Hc5
  isplitl [HF6]; · iexact HF6
  isplitl [HF7]; · iexact HF7
  iexists _; isplitr
  swap; · iexact HO
  ipureintro
  intro p hp
  simp only [Finset.mem_insert] at hp
  rcases hp with rfl | rfl | hp
  all_goals first | exact .inr rfl | exact hW' p hp

end Core

end Cert.Proof.KB

end
-- ==== Proof.RefRun.lean ====
/-
  The reference program's run. @main is a straight line of fifty host operations once its two calls of the
  outlined lookup (and the select function each of them calls) are unfolded at their call sites: every weakly fair
  execution terminates with the result buffer at the operations' composed term of the three arguments' launch
  contents, and the arguments unchanged. The composed term is `out`: the position lookup, spread over the batch,
  plus the table lookup.
-/
import proofs.«205233_g80668075753725_cont_9to1c4b_826_11_alg».proof.Defs
import proofs.«205233_g80668075753725_cont_9to1c4b_826_11_alg».proof.Proof.Gen.ReferenceIdeal
import proofs.«205233_g80668075753725_cont_9to1c4b_826_11_alg».proof.Proof.RefTerm
import Idealize.ShloMosaic.Lib.StableHlo.Run

noncomputable section

namespace Cert.RefSide

open Cert.ReferenceIdeal Cert.ReferenceIdeal.Facts₀ Idealize.ShloMosaic Idealize.ShloMosaic.TcCoe Idealize.SL.Sem
  Idealize.ShloMosaic.StableHlo

variable {F : FTy → Type} [FloatOps F] [hF : Cert.ReferenceIdeal.Facts]

/-- @main's fifty operations in order, the calls unfolded, over the typed references the outlined functions are
    stated with: twenty-three per lookup (the select function's one among them), the iota and its broadcast between
    the two, the final broadcast and sum. -/
abbrev opsT : List (HloOp τ sig (Elt F)) :=
  [ TRef.nullary main_call0.c (constantI S_ 32 0#32),
    TRef.unary main_call0.c main_call0.v0 (broadcastInDim S4096x200 ![] bcast_S_S4096x200),
    TRef.binary (.of main_arg0 : TRef sig ⟨S4096x200, .i32⟩) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0 : TRef sig ⟨S4096x200, .i32⟩) main_call0.v2 main_call0.v3 addi,
    TRef.ternary main_call0.v1 main_call0.v3 (.of main_arg0 : TRef sig ⟨S4096x200, .i32⟩) main_call0.call0.v0 select,
    TRef.unary main_call0.call0.v0 main_call0.v5 (broadcastInDim S4096x200x1 ![0, 1] bcast_S4096x200_S4096x200x1_0_1),
    TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1 : TRef sig ⟨S100000x128, .f32⟩) main_call0.v5 main_call0.v13 (fun x i => Host.gather gather_S100000x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select,
    nullary main_v1 (iotaInDim S200 32 0),
    unary main_v1 main_v2 (broadcastInDim S1x200 ![1] bcast_S200_S1x200_1 : (⟨S200, .i32⟩ : BufTy).Contents (Elt F) → (⟨S1x200, .i32⟩ : BufTy).Contents (Elt F)),
    TRef.nullary main_call1.c (constantI S_ 32 0#32),
    TRef.unary main_call1.c main_call1.v0 (broadcastInDim S1x200 ![] bcast_S_S1x200),
    TRef.binary (.of main_v2 : TRef sig ⟨S1x200, .i32⟩) main_call1.v0 main_call1.v1 (cmpi .slt),
    TRef.nullary main_call1.c_0 (constantI S_ 32 200#32),
    TRef.unary main_call1.c_0 main_call1.v2 (broadcastInDim S1x200 ![] bcast_S_S1x200),
    TRef.binary (.of main_v2 : TRef sig ⟨S1x200, .i32⟩) main_call1.v2 main_call1.v3 addi,
    TRef.ternary main_call1.v1 main_call1.v3 (.of main_v2 : TRef sig ⟨S1x200, .i32⟩) main_call1.call0.v0 select,
    TRef.unary main_call1.call0.v0 main_call1.v5 (broadcastInDim S1x200x1 ![0, 1] bcast_S1x200_S1x200x1_0_1),
    TRef.nullary main_call1.c_1 (constantI S1 32 199#32),
    TRef.nullary main_call1.c_2 (constantI S_ 32 0#32),
    TRef.unary main_call1.c_2 main_call1.v6 (broadcastInDim S1x200x1 ![] bcast_S_S1x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S1x200x1 ![0, 1, 2] bcast_S1x1x1_S1x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1x200x1_S1x200_d2 h_S_),
    TRef.binary (.of main_arg2 : TRef sig ⟨S200x128, .f32⟩) main_call1.v5 main_call1.v13 (fun x i => Host.gather gather_S200x128_S1x200x1_S1x200x128_2_0_n_n_0_2_1128 x i),
    TRef.unary main_call1.v12 main_call1.v14 (broadcastInDim S1x200x128 ![0, 1] bcast_S1x200_S1x200x128_0_1),
    TRef.nullary main_call1.cst (constant S_ .f32 0x7FC00000#32),
    TRef.unary main_call1.cst main_call1.v15 (broadcastInDim S1x200x128 ![] bcast_S_S1x200x128),
    TRef.ternary main_call1.v14 main_call1.v13 main_call1.v15 main_call1.v16 select,
    unary main_v3 main_v4 (broadcastInDim S4096x200x128 ![0, 1, 2] bcast_S1x200x128_S4096x200x128_0_1_2 : (⟨S1x200x128, .f32⟩ : BufTy).Contents (Elt F) → (⟨S4096x200x128, .f32⟩ : BufTy).Contents (Elt F)),
    binary main_v4 main_v0 main_v5 (addf : (⟨S4096x200x128, .f32⟩ : BufTy).Contents (Elt F) → (⟨S4096x200x128, .f32⟩ : BufTy).Contents (Elt F) → (⟨S4096x200x128, .f32⟩ : BufTy).Contents (Elt F)) ]

/-- The same fifty operations over the bare references, each function at its buffers' types. -/
abbrev ops : List (HloOp τ sig (Elt F)) :=
  [ nullary main_call0_c (constantI S_ 32 0#32 : (⟨S_, .i32⟩ : BufTy).Contents (Elt F)),
    unary main_call0_c main_call0_v0 (broadcastInDim S4096x200 ![] bcast_S_S4096x200 : (⟨S_, .i32⟩ : BufTy).Contents (Elt F) → (⟨S4096x200, .i32⟩ : BufTy).Contents (Elt F)),
    binary main_arg0 main_call0_v0 main_call0_v1 (cmpi .slt : (⟨S4096x200, .i32⟩ : BufTy).Contents (Elt F) → (⟨S4096x200, .i32⟩ : BufTy).Contents (Elt F) → (⟨S4096x200, .i1⟩ : BufTy).Contents (Elt F)),
    nullary main_call0_c_0 (constantI S_ 32 100000#32 : (⟨S_, .i32⟩ : BufTy).Contents (Elt F)),
    unary main_call0_c_0 main_call0_v2 (broadcastInDim S4096x200 ![] bcast_S_S4096x200 : (⟨S_, .i32⟩ : BufTy).Contents (Elt F) → (⟨S4096x200, .i32⟩ : BufTy).Contents (Elt F)),
    binary main_arg0 main_call0_v2 main_call0_v3 (addi : (⟨S4096x200, .i32⟩ : BufTy).Contents (Elt F) → (⟨S4096x200, .i32⟩ : BufTy).Contents (Elt F) → (⟨S4096x200, .i32⟩ : BufTy).Contents (Elt F)),
    ternary main_call0_v1 main_call0_v3 main_arg0 main_call0_v4 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_call0_v4 main_call0_v5 (broadcastInDim S4096x200x1 ![0, 1] bcast_S4096x200_S4096x200x1_0_1 : (⟨S4096x200, .i32⟩ : BufTy).Contents (Elt F) → (⟨S4096x200x1, .i32⟩ : BufTy).Contents (Elt F)),
    nullary main_call0_c_1 (constantI S1 32 99999#32 : (⟨S1, .i32⟩ : BufTy).Contents (Elt F)),
    nullary main_call0_c_2 (constantI S_ 32 0#32 : (⟨S_, .i32⟩ : BufTy).Contents (Elt F)),
    unary main_call0_c_2 main_call0_v6 (broadcastInDim S4096x200x1 ![] bcast_S_S4096x200x1 : (⟨S_, .i32⟩ : BufTy).Contents (Elt F) → (⟨S4096x200x1, .i32⟩ : BufTy).Contents (Elt F)),
    binary main_call0_v5 main_call0_v6 main_call0_v7 (cmpi .sge : (⟨S4096x200x1, .i32⟩ : BufTy).Contents (Elt F) → (⟨S4096x200x1, .i32⟩ : BufTy).Contents (Elt F) → (⟨S4096x200x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S4096x200x1 ![0, 1, 2] bcast_S1x1x1_S4096x200x1_0_1_2 : (⟨S1x1x1, .i32⟩ : BufTy).Contents (Elt F) → (⟨S4096x200x1, .i32⟩ : BufTy).Contents (Elt F)),
    binary main_call0_v5 main_call0_v9 main_call0_v10 (cmpi .sle : (⟨S4096x200x1, .i32⟩ : BufTy).Contents (Elt F) → (⟨S4096x200x1, .i32⟩ : BufTy).Contents (Elt F) → (⟨S4096x200x1, .i1⟩ : BufTy).Contents (Elt F)),
    binary main_call0_v7 main_call0_v10 main_call0_v11 (andi : (⟨S4096x200x1, .i1⟩ : BufTy).Contents (Elt F) → (⟨S4096x200x1, .i1⟩ : BufTy).Contents (Elt F) → (⟨S4096x200x1, .i1⟩ : BufTy).Contents (Elt F)),
    nullary main_call0_c_3 (constantI S_ 1 1#1 : (⟨S_, .i1⟩ : BufTy).Contents (Elt F)),
    binary main_call0_v11 main_call0_c_3 main_call0_v12 (fun x v => Host.reduce IntOp.andi x v reducesTo_S4096x200x1_S4096x200_d2 h_S_ : (⟨S4096x200x1, .i1⟩ : BufTy).Contents (Elt F) → (⟨S_, .i1⟩ : BufTy).Contents (Elt F) → (⟨S4096x200, .i1⟩ : BufTy).Contents (Elt F)),
    binary main_arg1 main_call0_v5 main_call0_v13 (fun x i => Host.gather gather_S100000x128_S4096x200x1_S4096x200x128_2_0_n_n_0_2_1128 x i : (⟨S100000x128, .f32⟩ : BufTy).Contents (Elt F) → (⟨S4096x200x1, .i32⟩ : BufTy).Contents (Elt F) → (⟨S4096x200x128, .f32⟩ : BufTy).Contents (Elt F)),
    unary main_call0_v12 main_call0_v14 (broadcastInDim S4096x200x128 ![0, 1] bcast_S4096x200_S4096x200x128_0_1 : (⟨S4096x200, .i1⟩ : BufTy).Contents (Elt F) → (⟨S4096x200x128, .i1⟩ : BufTy).Contents (Elt F)),
    nullary main_call0_cst (constant S_ .f32 0x7FC00000#32 : (⟨S_, .f32⟩ : BufTy).Contents (Elt F)),
    unary main_call0_cst main_call0_v15 (broadcastInDim S4096x200x128 ![] bcast_S_S4096x200x128 : (⟨S_, .f32⟩ : BufTy).Contents (Elt F) → (⟨S4096x200x128, .f32⟩ : BufTy).Contents (Elt F)),
    ternary main_call0_v14 main_call0_v13 main_call0_v15 main_v0 (select : (⟨S4096x200x128, .i1⟩ : BufTy).Contents (Elt F) → (⟨S4096x200x128, .f32⟩ : BufTy).Contents (Elt F) → (⟨S4096x200x128, .f32⟩ : BufTy).Contents (Elt F) → (⟨S4096x200x128, .f32⟩ : BufTy).Contents (Elt F)),
    nullary main_v1 (iotaInDim S200 32 0 : (⟨S200, .i32⟩ : BufTy).Contents (Elt F)),
    unary main_v1 main_v2 (broadcastInDim S1x200 ![1] bcast_S200_S1x200_1 : (⟨S200, .i32⟩ : BufTy).Contents (Elt F) → (⟨S1x200, .i32⟩ : BufTy).Contents (Elt F)),
    nullary main_call1_c (constantI S_ 32 0#32 : (⟨S_, .i32⟩ : BufTy).Contents (Elt F)),
    unary main_call1_c main_call1_v0 (broadcastInDim S1x200 ![] bcast_S_S1x200 : (⟨S_, .i32⟩ : BufTy).Contents (Elt F) → (⟨S1x200, .i32⟩ : BufTy).Contents (Elt F)),
    binary main_v2 main_call1_v0 main_call1_v1 (cmpi .slt : (⟨S1x200, .i32⟩ : BufTy).Contents (Elt F) → (⟨S1x200, .i32⟩ : BufTy).Contents (Elt F) → (⟨S1x200, .i1⟩ : BufTy).Contents (Elt F)),
    nullary main_call1_c_0 (constantI S_ 32 200#32 : (⟨S_, .i32⟩ : BufTy).Contents (Elt F)),
    unary main_call1_c_0 main_call1_v2 (broadcastInDim S1x200 ![] bcast_S_S1x200 : (⟨S_, .i32⟩ : BufTy).Contents (Elt F) → (⟨S1x200, .i32⟩ : BufTy).Contents (Elt F)),
    binary main_v2 main_call1_v2 main_call1_v3 (addi : (⟨S1x200, .i32⟩ : BufTy).Contents (Elt F) → (⟨S1x200, .i32⟩ : BufTy).Contents (Elt F) → (⟨S1x200, .i32⟩ : BufTy).Contents (Elt F)),
    ternary main_call1_v1 main_call1_v3 main_v2 main_call1_v4 (select : (⟨S1x200, .i1⟩ : BufTy).Contents (Elt F) → (⟨S1x200, .i32⟩ : BufTy).Contents (Elt F) → (⟨S1x200, .i32⟩ : BufTy).Contents (Elt F) → (⟨S1x200, .i32⟩ : BufTy).Contents (Elt F)),
    unary main_call1_v4 main_call1_v5 (broadcastInDim S1x200x1 ![0, 1] bcast_S1x200_S1x200x1_0_1 : (⟨S1x200, .i32⟩ : BufTy).Contents (Elt F) → (⟨S1x200x1, .i32⟩ : BufTy).Contents (Elt F)),
    nullary main_call1_c_1 (constantI S1 32 199#32 : (⟨S1, .i32⟩ : BufTy).Contents (Elt F)),
    nullary main_call1_c_2 (constantI S_ 32 0#32 : (⟨S_, .i32⟩ : BufTy).Contents (Elt F)),
    unary main_call1_c_2 main_call1_v6 (broadcastInDim S1x200x1 ![] bcast_S_S1x200x1 : (⟨S_, .i32⟩ : BufTy).Contents (Elt F) → (⟨S1x200x1, .i32⟩ : BufTy).Contents (Elt F)),
    binary main_call1_v5 main_call1_v6 main_call1_v7 (cmpi .sge : (⟨S1x200x1, .i32⟩ : BufTy).Contents (Elt F) → (⟨S1x200x1, .i32⟩ : BufTy).Contents (Elt F) → (⟨S1x200x1, .i1⟩ : BufTy).Contents (Elt F)),
    unary main_call1_c_1 main_call1_v8 (broadcastInDim S1x1x1 ![2] bcast_S1_S1x1x1_2 : (⟨S1, .i32⟩ : BufTy).Contents (Elt F) → (⟨S1x1x1, .i32⟩ : BufTy).Contents (Elt F)),
    unary main_call1_v8 main_call1_v9 (broadcastInDim S1x200x1 ![0, 1, 2] bcast_S1x1x1_S1x200x1_0_1_2 : (⟨S1x1x1, .i32⟩ : BufTy).Contents (Elt F) → (⟨S1x200x1, .i32⟩ : BufTy).Contents (Elt F)),
    binary main_call1_v5 main_call1_v9 main_call1_v10 (cmpi .sle : (⟨S1x200x1, .i32⟩ : BufTy).Contents (Elt F) → (⟨S1x200x1, .i32⟩ : BufTy).Contents (Elt F) → (⟨S1x200x1, .i1⟩ : BufTy).Contents (Elt F)),
    binary main_call1_v7 main_call1_v10 main_call1_v11 (andi : (⟨S1x200x1, .i1⟩ : BufTy).Contents (Elt F) → (⟨S1x200x1, .i1⟩ : BufTy).Contents (Elt F) → (⟨S1x200x1, .i1⟩ : BufTy).Contents (Elt F)),
    nullary main_call1_c_3 (constantI S_ 1 1#1 : (⟨S_, .i1⟩ : BufTy).Contents (Elt F)),
    binary main_call1_v11 main_call1_c_3 main_call1_v12 (fun x v => Host.reduce IntOp.andi x v reducesTo_S1x200x1_S1x200_d2 h_S_ : (⟨S1x200x1, .i1⟩ : BufTy).Contents (Elt F) → (⟨S_, .i1⟩ : BufTy).Contents (Elt F) → (⟨S1x200, .i1⟩ : BufTy).Contents (Elt F)),
    binary main_arg2 main_call1_v5 main_call1_v13 (fun x i => Host.gather gather_S200x128_S1x200x1_S1x200x128_2_0_n_n_0_2_1128 x i : (⟨S200x128, .f32⟩ : BufTy).Contents (Elt F) → (⟨S1x200x1, .i32⟩ : BufTy).Contents (Elt F) → (⟨S1x200x128, .f32⟩ : BufTy).Contents (Elt F)),
    unary main_call1_v12 main_call1_v14 (broadcastInDim S1x200x128 ![0, 1] bcast_S1x200_S1x200x128_0_1 : (⟨S1x200, .i1⟩ : BufTy).Contents (Elt F) → (⟨S1x200x128, .i1⟩ : BufTy).Contents (Elt F)),
    nullary main_call1_cst (constant S_ .f32 0x7FC00000#32 : (⟨S_, .f32⟩ : BufTy).Contents (Elt F)),
    unary main_call1_cst main_call1_v15 (broadcastInDim S1x200x128 ![] bcast_S_S1x200x128 : (⟨S_, .f32⟩ : BufTy).Contents (Elt F) → (⟨S1x200x128, .f32⟩ : BufTy).Contents (Elt F)),
    ternary main_call1_v14 main_call1_v13 main_call1_v15 main_v3 (select : (⟨S1x200x128, .i1⟩ : BufTy).Contents (Elt F) → (⟨S1x200x128, .f32⟩ : BufTy).Contents (Elt F) → (⟨S1x200x128, .f32⟩ : BufTy).Contents (Elt F) → (⟨S1x200x128, .f32⟩ : BufTy).Contents (Elt F)),
    unary main_v3 main_v4 (broadcastInDim S4096x200x128 ![0, 1, 2] bcast_S1x200x128_S4096x200x128_0_1_2 : (⟨S1x200x128, .f32⟩ : BufTy).Contents (Elt F) → (⟨S4096x200x128, .f32⟩ : BufTy).Contents (Elt F)),
    binary main_v4 main_v0 main_v5 (addf : (⟨S4096x200x128, .f32⟩ : BufTy).Contents (Elt F) → (⟨S4096x200x128, .f32⟩ : BufTy).Contents (Elt F) → (⟨S4096x200x128, .f32⟩ : BufTy).Contents (Elt F)) ]

/-! Operation by operation the two lists agree: a typed reference's transport of contents is the identity at a
literal reference. The reduction and the gather stay folded meanwhile: the comparison never looks inside them. -/

attribute [local irreducible] Host.reduce Host.gather in
set_option maxRecDepth 8192 in
theorem op_0 : (TRef.nullary main_call0.c (constantI S_ 32 0#32) : HloOp τ sig (Elt F)) = nullary main_call0_c (constantI S_ 32 0#32 : (⟨S_, .i32⟩ : BufTy).Contents (Elt F)) := rfl
attribute [local irreducible] Host.reduce Host.gather in
theorem op_1 : (TRef.unary main_call0.c main_call0.v0 (broadcastInDim S4096x200 ![] bcast_S_S4096x200) : HloOp τ sig (Elt F)) = unary main_call0_c main_call0_v0 (broadcastInDim S4096x200 ![] bcast_S_S4096x200 : (⟨S_, .i32⟩ : BufTy).Contents (Elt F) → (⟨S4096x200, .i32⟩ : BufTy).Contents (Elt F)) := rfl
attribute [local irreducible] Host.reduce Host.gather in
theorem op_2 : (TRef.binary (.of main_arg0 : TRef sig ⟨S4096x200, .i32⟩) main_call0.v0 main_call0.v1 (cmpi .slt) : HloOp τ sig (Elt F)) = binary main_arg0 main_call0_v0 main_call0_v1 (cmpi .slt : (⟨S4096x200, .i32⟩ : BufTy).Contents (Elt F) → (⟨S4096x200, .i32⟩ : BufTy).Contents (Elt F) → (⟨S4096x200, .i1⟩ : BufTy).Contents (Elt F)) := rfl
attribute [local irreducible] Host.reduce Host.gather in
set_option maxRecDepth 8192 in
theorem op_3 : (TRef.nullary main_call0.c_0 (constantI S_ 32 100000#32) : HloOp τ sig (Elt F)) = nullary main_call0_c_0 (constantI S_ 32 100000#32 : (⟨S_, .i32⟩ : BufTy).Contents (Elt F)) := rfl
attribute [local irreducible] Host.reduce Host.gather in
theorem op_4 : (TRef.unary main_call0.c_0 main_call0.v2 (broadcastInDim S4096x200 ![] bcast_S_S4096x200) : HloOp τ sig (Elt F)) = unary main_call0_c_0 main_call0_v2 (broadcastInDim S4096x200 ![] bcast_S_S4096x200 : (⟨S_, .i32⟩ : BufTy).Contents (Elt F) → (⟨S4096x200, .i32⟩ : BufTy).Contents (Elt F)) := rfl
attribute [local irreducible] Host.reduce Host.gather in
theorem op_5 : (TRef.binary (.of main_arg0 : TRef sig ⟨S4096x200, .i32⟩) main_call0.v2 main_call0.v3 addi : HloOp τ sig (Elt F)) = binary main_arg0 main_call0_v2 main_call0_v3 (addi : (⟨S4096x200, .i32⟩ : BufTy).Contents (Elt F) → (⟨S4096x200, .i32⟩ : BufTy).Contents (Elt F) → (⟨S4096x200, .i32⟩ : BufTy).Contents (Elt F)) := rfl
attribute [local irreducible] Host.reduce Host.gather in
theorem op_6 : (TRef.ternary main_call0.v1 main_call0.v3 (.of main_arg0 : TRef sig ⟨S4096x200, .i32⟩) main_call0.call0.v0 select : HloOp τ sig (Elt F)) = ternary main_call0_v1 main_call0_v3 main_arg0 main_call0_v4 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)) := rfl
attribute [local irreducible] Host.reduce Host.gather in
theorem op_7 : (TRef.unary main_call0.call0.v0 main_call0.v5 (broadcastInDim S4096x200x1 ![0, 1] bcast_S4096x200_S4096x200x1_0_1) : HloOp τ sig (Elt F)) = unary main_call0_v4 main_call0_v5 (broadcastInDim S4096x200x1 ![0, 1] bcast_S4096x200_S4096x200x1_0_1 : (⟨S4096x200, .i32⟩ : BufTy).Contents (Elt F) → (⟨S4096x200x1, .i32⟩ : BufTy).Contents (Elt F)) := rfl
attribute [local irreducible] Host.reduce Host.gather in
set_option maxRecDepth 8192 in
theorem op_8 : (TRef.nullary main_call0.c_1 (constantI S1 32 99999#32) : HloOp τ sig (Elt F)) = nullary main_call0_c_1 (constantI S1 32 99999#32 : (⟨S1, .i32⟩ : BufTy).Contents (Elt F)) := rfl
attribute [local irreducible] Host.reduce Host.gather in
set_option maxRecDepth 8192 in
theorem op_9 : (TRef.nullary main_call0.c_2 (constantI S_ 32 0#32) : HloOp τ sig (Elt F)) = nullary main_call0_c_2 (constantI S_ 32 0#32 : (⟨S_, .i32⟩ : BufTy).Contents (Elt F)) := rfl
attribute [local irreducible] Host.reduce Host.gather in
theorem op_10 : (TRef.unary main_call0.c_2 main_call0.v6 (broadcastInDim S4096x200x1 ![] bcast_S_S4096x200x1) : HloOp τ sig (Elt F)) = unary main_call0_c_2 main_call0_v6 (broadcastInDim S4096x200x1 ![] bcast_S_S4096x200x1 : (⟨S_, .i32⟩ : BufTy).Contents (Elt F) → (⟨S4096x200x1, .i32⟩ : BufTy).Contents (Elt F)) := rfl
attribute [local irreducible] Host.reduce Host.gather in
theorem op_11 : (TRef.binary main_call0.v5 main_call0.v6 main_call0.v7 (cmpi .sge) : HloOp τ sig (Elt F)) = binary main_call0_v5 main_call0_v6 main_call0_v7 (cmpi .sge : (⟨S4096x200x1, .i32⟩ : BufTy).Contents (Elt F) → (⟨S4096x200x1, .i32⟩ : BufTy).Contents (Elt F) → (⟨S4096x200x1, .i1⟩ : BufTy).Contents (Elt F)) := rfl
attribute [local irreducible] Host.reduce Host.gather in
theorem op_12 : (TRef.unary main_call0.c_1 main_call0.v8 (broadcastInDim S1x1x1 ![2] bcast_S1_S1x1x1_2) : HloOp τ sig (Elt F)) = unary main_call0_c_1 main_call0_v8 (broadcastInDim S1x1x1 ![2] bcast_S1_S1x1x1_2 : (⟨S1, .i32⟩ : BufTy).Contents (Elt F) → (⟨S1x1x1, .i32⟩ : BufTy).Contents (Elt F)) := rfl
attribute [local irreducible] Host.reduce Host.gather in
theorem op_13 : (TRef.unary main_call0.v8 main_call0.v9 (broadcastInDim S4096x200x1 ![0, 1, 2] bcast_S1x1x1_S4096x200x1_0_1_2) : HloOp τ sig (Elt F)) = unary main_call0_v8 main_call0_v9 (broadcastInDim S4096x200x1 ![0, 1, 2] bcast_S1x1x1_S4096x200x1_0_1_2 : (⟨S1x1x1, .i32⟩ : BufTy).Contents (Elt F) → (⟨S4096x200x1, .i32⟩ : BufTy).Contents (Elt F)) := rfl
attribute [local irreducible] Host.reduce Host.gather in
theorem op_14 : (TRef.binary main_call0.v5 main_call0.v9 main_call0.v10 (cmpi .sle) : HloOp τ sig (Elt F)) = binary main_call0_v5 main_call0_v9 main_call0_v10 (cmpi .sle : (⟨S4096x200x1, .i32⟩ : BufTy).Contents (Elt F) → (⟨S4096x200x1, .i32⟩ : BufTy).Contents (Elt F) → (⟨S4096x200x1, .i1⟩ : BufTy).Contents (Elt F)) := rfl
attribute [local irreducible] Host.reduce Host.gather in
theorem op_15 : (TRef.binary main_call0.v7 main_call0.v10 main_call0.v11 andi : HloOp τ sig (Elt F)) = binary main_call0_v7 main_call0_v10 main_call0_v11 (andi : (⟨S4096x200x1, .i1⟩ : BufTy).Contents (Elt F) → (⟨S4096x200x1, .i1⟩ : BufTy).Contents (Elt F) → (⟨S4096x200x1, .i1⟩ : BufTy).Contents (Elt F)) := rfl
attribute [local irreducible] Host.reduce Host.gather in
set_option maxRecDepth 8192 in
theorem op_16 : (TRef.nullary main_call0.c_3 (constantI S_ 1 1#1) : HloOp τ sig (Elt F)) = nullary main_call0_c_3 (constantI S_ 1 1#1 : (⟨S_, .i1⟩ : BufTy).Contents (Elt F)) := rfl
attribute [local irreducible] Host.reduce Host.gather in
theorem op_17 : (TRef.binary main_call0.v11 main_call0.c_3 main_call0.v12 (fun x v => Host.reduce IntOp.andi x v reducesTo_S4096x200x1_S4096x200_d2 h_S_) : HloOp τ sig (Elt F)) = binary main_call0_v11 main_call0_c_3 main_call0_v12 (fun x v => Host.reduce IntOp.andi x v reducesTo_S4096x200x1_S4096x200_d2 h_S_ : (⟨S4096x200x1, .i1⟩ : BufTy).Contents (Elt F) → (⟨S_, .i1⟩ : BufTy).Contents (Elt F) → (⟨S4096x200, .i1⟩ : BufTy).Contents (Elt F)) := rfl
attribute [local irreducible] Host.reduce Host.gather in
theorem op_18 : (TRef.binary (.of main_arg1 : TRef sig ⟨S100000x128, .f32⟩) main_call0.v5 main_call0.v13 (fun x i => Host.gather gather_S100000x128_S4096x200x1_S4096x200x128_2_0_n_n_0_2_1128 x i) : HloOp τ sig (Elt F)) = binary main_arg1 main_call0_v5 main_call0_v13 (fun x i => Host.gather gather_S100000x128_S4096x200x1_S4096x200x128_2_0_n_n_0_2_1128 x i : (⟨S100000x128, .f32⟩ : BufTy).Contents (Elt F) → (⟨S4096x200x1, .i32⟩ : BufTy).Contents (Elt F) → (⟨S4096x200x128, .f32⟩ : BufTy).Contents (Elt F)) := rfl
attribute [local irreducible] Host.reduce Host.gather in
theorem op_19 : (TRef.unary main_call0.v12 main_call0.v14 (broadcastInDim S4096x200x128 ![0, 1] bcast_S4096x200_S4096x200x128_0_1) : HloOp τ sig (Elt F)) = unary main_call0_v12 main_call0_v14 (broadcastInDim S4096x200x128 ![0, 1] bcast_S4096x200_S4096x200x128_0_1 : (⟨S4096x200, .i1⟩ : BufTy).Contents (Elt F) → (⟨S4096x200x128, .i1⟩ : BufTy).Contents (Elt F)) := rfl
attribute [local irreducible] Host.reduce Host.gather in
set_option maxRecDepth 8192 in
theorem op_20 : (TRef.nullary main_call0.cst (constant S_ .f32 0x7FC00000#32) : HloOp τ sig (Elt F)) = nullary main_call0_cst (constant S_ .f32 0x7FC00000#32 : (⟨S_, .f32⟩ : BufTy).Contents (Elt F)) := rfl
attribute [local irreducible] Host.reduce Host.gather in
theorem op_21 : (TRef.unary main_call0.cst main_call0.v15 (broadcastInDim S4096x200x128 ![] bcast_S_S4096x200x128) : HloOp τ sig (Elt F)) = unary main_call0_cst main_call0_v15 (broadcastInDim S4096x200x128 ![] bcast_S_S4096x200x128 : (⟨S_, .f32⟩ : BufTy).Contents (Elt F) → (⟨S4096x200x128, .f32⟩ : BufTy).Contents (Elt F)) := rfl
attribute [local irreducible] Host.reduce Host.gather in
theorem op_22 : (TRef.ternary main_call0.v14 main_call0.v13 main_call0.v15 main_call0.v16 select : HloOp τ sig (Elt F)) = ternary main_call0_v14 main_call0_v13 main_call0_v15 main_v0 (select : (⟨S4096x200x128, .i1⟩ : BufTy).Contents (Elt F) → (⟨S4096x200x128, .f32⟩ : BufTy).Contents (Elt F) → (⟨S4096x200x128, .f32⟩ : BufTy).Contents (Elt F) → (⟨S4096x200x128, .f32⟩ : BufTy).Contents (Elt F)) := rfl
attribute [local irreducible] Host.reduce Host.gather in
set_option maxRecDepth 8192 in
theorem op_23 : (nullary main_v1 (iotaInDim S200 32 0) : HloOp τ sig (Elt F)) = nullary main_v1 (iotaInDim S200 32 0 : (⟨S200, .i32⟩ : BufTy).Contents (Elt F)) := rfl
attribute [local irreducible] Host.reduce Host.gather in
theorem op_24 : (unary main_v1 main_v2 (broadcastInDim S1x200 ![1] bcast_S200_S1x200_1 : (⟨S200, .i32⟩ : BufTy).Contents (Elt F) → (⟨S1x200, .i32⟩ : BufTy).Contents (Elt F)) : HloOp τ sig (Elt F)) = unary main_v1 main_v2 (broadcastInDim S1x200 ![1] bcast_S200_S1x200_1 : (⟨S200, .i32⟩ : BufTy).Contents (Elt F) → (⟨S1x200, .i32⟩ : BufTy).Contents (Elt F)) := rfl
attribute [local irreducible] Host.reduce Host.gather in
set_option maxRecDepth 8192 in
theorem op_25 : (TRef.nullary main_call1.c (constantI S_ 32 0#32) : HloOp τ sig (Elt F)) = nullary main_call1_c (constantI S_ 32 0#32 : (⟨S_, .i32⟩ : BufTy).Contents (Elt F)) := rfl
attribute [local irreducible] Host.reduce Host.gather in
theorem op_26 : (TRef.unary main_call1.c main_call1.v0 (broadcastInDim S1x200 ![] bcast_S_S1x200) : HloOp τ sig (Elt F)) = unary main_call1_c main_call1_v0 (broadcastInDim S1x200 ![] bcast_S_S1x200 : (⟨S_, .i32⟩ : BufTy).Contents (Elt F) → (⟨S1x200, .i32⟩ : BufTy).Contents (Elt F)) := rfl
attribute [local irreducible] Host.reduce Host.gather in
theorem op_27 : (TRef.binary (.of main_v2 : TRef sig ⟨S1x200, .i32⟩) main_call1.v0 main_call1.v1 (cmpi .slt) : HloOp τ sig (Elt F)) = binary main_v2 main_call1_v0 main_call1_v1 (cmpi .slt : (⟨S1x200, .i32⟩ : BufTy).Contents (Elt F) → (⟨S1x200, .i32⟩ : BufTy).Contents (Elt F) → (⟨S1x200, .i1⟩ : BufTy).Contents (Elt F)) := rfl
attribute [local irreducible] Host.reduce Host.gather in
set_option maxRecDepth 8192 in
theorem op_28 : (TRef.nullary main_call1.c_0 (constantI S_ 32 200#32) : HloOp τ sig (Elt F)) = nullary main_call1_c_0 (constantI S_ 32 200#32 : (⟨S_, .i32⟩ : BufTy).Contents (Elt F)) := rfl
attribute [local irreducible] Host.reduce Host.gather in
theorem op_29 : (TRef.unary main_call1.c_0 main_call1.v2 (broadcastInDim S1x200 ![] bcast_S_S1x200) : HloOp τ sig (Elt F)) = unary main_call1_c_0 main_call1_v2 (broadcastInDim S1x200 ![] bcast_S_S1x200 : (⟨S_, .i32⟩ : BufTy).Contents (Elt F) → (⟨S1x200, .i32⟩ : BufTy).Contents (Elt F)) := rfl
attribute [local irreducible] Host.reduce Host.gather in
theorem op_30 : (TRef.binary (.of main_v2 : TRef sig ⟨S1x200, .i32⟩) main_call1.v2 main_call1.v3 addi : HloOp τ sig (Elt F)) = binary main_v2 main_call1_v2 main_call1_v3 (addi : (⟨S1x200, .i32⟩ : BufTy).Contents (Elt F) → (⟨S1x200, .i32⟩ : BufTy).Contents (Elt F) → (⟨S1x200, .i32⟩ : BufTy).Contents (Elt F)) := rfl
attribute [local irreducible] Host.reduce Host.gather in
theorem op_31 : (TRef.ternary main_call1.v1 main_call1.v3 (.of main_v2 : TRef sig ⟨S1x200, .i32⟩) main_call1.call0.v0 select : HloOp τ sig (Elt F)) = ternary main_call1_v1 main_call1_v3 main_v2 main_call1_v4 (select : (⟨S1x200, .i1⟩ : BufTy).Contents (Elt F) → (⟨S1x200, .i32⟩ : BufTy).Contents (Elt F) → (⟨S1x200, .i32⟩ : BufTy).Contents (Elt F) → (⟨S1x200, .i32⟩ : BufTy).Contents (Elt F)) := rfl
attribute [local irreducible] Host.reduce Host.gather in
theorem op_32 : (TRef.unary main_call1.call0.v0 main_call1.v5 (broadcastInDim S1x200x1 ![0, 1] bcast_S1x200_S1x200x1_0_1) : HloOp τ sig (Elt F)) = unary main_call1_v4 main_call1_v5 (broadcastInDim S1x200x1 ![0, 1] bcast_S1x200_S1x200x1_0_1 : (⟨S1x200, .i32⟩ : BufTy).Contents (Elt F) → (⟨S1x200x1, .i32⟩ : BufTy).Contents (Elt F)) := rfl
attribute [local irreducible] Host.reduce Host.gather in
set_option maxRecDepth 8192 in
theorem op_33 : (TRef.nullary main_call1.c_1 (constantI S1 32 199#32) : HloOp τ sig (Elt F)) = nullary main_call1_c_1 (constantI S1 32 199#32 : (⟨S1, .i32⟩ : BufTy).Contents (Elt F)) := rfl
attribute [local irreducible] Host.reduce Host.gather in
set_option maxRecDepth 8192 in
theorem op_34 : (TRef.nullary main_call1.c_2 (constantI S_ 32 0#32) : HloOp τ sig (Elt F)) = nullary main_call1_c_2 (constantI S_ 32 0#32 : (⟨S_, .i32⟩ : BufTy).Contents (Elt F)) := rfl
attribute [local irreducible] Host.reduce Host.gather in
theorem op_35 : (TRef.unary main_call1.c_2 main_call1.v6 (broadcastInDim S1x200x1 ![] bcast_S_S1x200x1) : HloOp τ sig (Elt F)) = unary main_call1_c_2 main_call1_v6 (broadcastInDim S1x200x1 ![] bcast_S_S1x200x1 : (⟨S_, .i32⟩ : BufTy).Contents (Elt F) → (⟨S1x200x1, .i32⟩ : BufTy).Contents (Elt F)) := rfl
attribute [local irreducible] Host.reduce Host.gather in
theorem op_36 : (TRef.binary main_call1.v5 main_call1.v6 main_call1.v7 (cmpi .sge) : HloOp τ sig (Elt F)) = binary main_call1_v5 main_call1_v6 main_call1_v7 (cmpi .sge : (⟨S1x200x1, .i32⟩ : BufTy).Contents (Elt F) → (⟨S1x200x1, .i32⟩ : BufTy).Contents (Elt F) → (⟨S1x200x1, .i1⟩ : BufTy).Contents (Elt F)) := rfl
attribute [local irreducible] Host.reduce Host.gather in
theorem op_37 : (TRef.unary main_call1.c_1 main_call1.v8 (broadcastInDim S1x1x1 ![2] bcast_S1_S1x1x1_2) : HloOp τ sig (Elt F)) = unary main_call1_c_1 main_call1_v8 (broadcastInDim S1x1x1 ![2] bcast_S1_S1x1x1_2 : (⟨S1, .i32⟩ : BufTy).Contents (Elt F) → (⟨S1x1x1, .i32⟩ : BufTy).Contents (Elt F)) := rfl
attribute [local irreducible] Host.reduce Host.gather in
theorem op_38 : (TRef.unary main_call1.v8 main_call1.v9 (broadcastInDim S1x200x1 ![0, 1, 2] bcast_S1x1x1_S1x200x1_0_1_2) : HloOp τ sig (Elt F)) = unary main_call1_v8 main_call1_v9 (broadcastInDim S1x200x1 ![0, 1, 2] bcast_S1x1x1_S1x200x1_0_1_2 : (⟨S1x1x1, .i32⟩ : BufTy).Contents (Elt F) → (⟨S1x200x1, .i32⟩ : BufTy).Contents (Elt F)) := rfl
attribute [local irreducible] Host.reduce Host.gather in
theorem op_39 : (TRef.binary main_call1.v5 main_call1.v9 main_call1.v10 (cmpi .sle) : HloOp τ sig (Elt F)) = binary main_call1_v5 main_call1_v9 main_call1_v10 (cmpi .sle : (⟨S1x200x1, .i32⟩ : BufTy).Contents (Elt F) → (⟨S1x200x1, .i32⟩ : BufTy).Contents (Elt F) → (⟨S1x200x1, .i1⟩ : BufTy).Contents (Elt F)) := rfl
attribute [local irreducible] Host.reduce Host.gather in
theorem op_40 : (TRef.binary main_call1.v7 main_call1.v10 main_call1.v11 andi : HloOp τ sig (Elt F)) = binary main_call1_v7 main_call1_v10 main_call1_v11 (andi : (⟨S1x200x1, .i1⟩ : BufTy).Contents (Elt F) → (⟨S1x200x1, .i1⟩ : BufTy).Contents (Elt F) → (⟨S1x200x1, .i1⟩ : BufTy).Contents (Elt F)) := rfl
attribute [local irreducible] Host.reduce Host.gather in
set_option maxRecDepth 8192 in
theorem op_41 : (TRef.nullary main_call1.c_3 (constantI S_ 1 1#1) : HloOp τ sig (Elt F)) = nullary main_call1_c_3 (constantI S_ 1 1#1 : (⟨S_, .i1⟩ : BufTy).Contents (Elt F)) := rfl
attribute [local irreducible] Host.reduce Host.gather in
theorem op_42 : (TRef.binary main_call1.v11 main_call1.c_3 main_call1.v12 (fun x v => Host.reduce IntOp.andi x v reducesTo_S1x200x1_S1x200_d2 h_S_) : HloOp τ sig (Elt F)) = binary main_call1_v11 main_call1_c_3 main_call1_v12 (fun x v => Host.reduce IntOp.andi x v reducesTo_S1x200x1_S1x200_d2 h_S_ : (⟨S1x200x1, .i1⟩ : BufTy).Contents (Elt F) → (⟨S_, .i1⟩ : BufTy).Contents (Elt F) → (⟨S1x200, .i1⟩ : BufTy).Contents (Elt F)) := rfl
attribute [local irreducible] Host.reduce Host.gather in
theorem op_43 : (TRef.binary (.of main_arg2 : TRef sig ⟨S200x128, .f32⟩) main_call1.v5 main_call1.v13 (fun x i => Host.gather gather_S200x128_S1x200x1_S1x200x128_2_0_n_n_0_2_1128 x i) : HloOp τ sig (Elt F)) = binary main_arg2 main_call1_v5 main_call1_v13 (fun x i => Host.gather gather_S200x128_S1x200x1_S1x200x128_2_0_n_n_0_2_1128 x i : (⟨S200x128, .f32⟩ : BufTy).Contents (Elt F) → (⟨S1x200x1, .i32⟩ : BufTy).Contents (Elt F) → (⟨S1x200x128, .f32⟩ : BufTy).Contents (Elt F)) := rfl
attribute [local irreducible] Host.reduce Host.gather in
theorem op_44 : (TRef.unary main_call1.v12 main_call1.v14 (broadcastInDim S1x200x128 ![0, 1] bcast_S1x200_S1x200x128_0_1) : HloOp τ sig (Elt F)) = unary main_call1_v12 main_call1_v14 (broadcastInDim S1x200x128 ![0, 1] bcast_S1x200_S1x200x128_0_1 : (⟨S1x200, .i1⟩ : BufTy).Contents (Elt F) → (⟨S1x200x128, .i1⟩ : BufTy).Contents (Elt F)) := rfl
attribute [local irreducible] Host.reduce Host.gather in
set_option maxRecDepth 8192 in
theorem op_45 : (TRef.nullary main_call1.cst (constant S_ .f32 0x7FC00000#32) : HloOp τ sig (Elt F)) = nullary main_call1_cst (constant S_ .f32 0x7FC00000#32 : (⟨S_, .f32⟩ : BufTy).Contents (Elt F)) := rfl
attribute [local irreducible] Host.reduce Host.gather in
theorem op_46 : (TRef.unary main_call1.cst main_call1.v15 (broadcastInDim S1x200x128 ![] bcast_S_S1x200x128) : HloOp τ sig (Elt F)) = unary main_call1_cst main_call1_v15 (broadcastInDim S1x200x128 ![] bcast_S_S1x200x128 : (⟨S_, .f32⟩ : BufTy).Contents (Elt F) → (⟨S1x200x128, .f32⟩ : BufTy).Contents (Elt F)) := rfl
attribute [local irreducible] Host.reduce Host.gather in
theorem op_47 : (TRef.ternary main_call1.v14 main_call1.v13 main_call1.v15 main_call1.v16 select : HloOp τ sig (Elt F)) = ternary main_call1_v14 main_call1_v13 main_call1_v15 main_v3 (select : (⟨S1x200x128, .i1⟩ : BufTy).Contents (Elt F) → (⟨S1x200x128, .f32⟩ : BufTy).Contents (Elt F) → (⟨S1x200x128, .f32⟩ : BufTy).Contents (Elt F) → (⟨S1x200x128, .f32⟩ : BufTy).Contents (Elt F)) := rfl
attribute [local irreducible] Host.reduce Host.gather in
theorem op_48 : (unary main_v3 main_v4 (broadcastInDim S4096x200x128 ![0, 1, 2] bcast_S1x200x128_S4096x200x128_0_1_2 : (⟨S1x200x128, .f32⟩ : BufTy).Contents (Elt F) → (⟨S4096x200x128, .f32⟩ : BufTy).Contents (Elt F)) : HloOp τ sig (Elt F)) = unary main_v3 main_v4 (broadcastInDim S4096x200x128 ![0, 1, 2] bcast_S1x200x128_S4096x200x128_0_1_2 : (⟨S1x200x128, .f32⟩ : BufTy).Contents (Elt F) → (⟨S4096x200x128, .f32⟩ : BufTy).Contents (Elt F)) := rfl
attribute [local irreducible] Host.reduce Host.gather in
theorem op_49 : (binary main_v4 main_v0 main_v5 (addf : (⟨S4096x200x128, .f32⟩ : BufTy).Contents (Elt F) → (⟨S4096x200x128, .f32⟩ : BufTy).Contents (Elt F) → (⟨S4096x200x128, .f32⟩ : BufTy).Contents (Elt F)) : HloOp τ sig (Elt F)) = binary main_v4 main_v0 main_v5 (addf : (⟨S4096x200x128, .f32⟩ : BufTy).Contents (Elt F) → (⟨S4096x200x128, .f32⟩ : BufTy).Contents (Elt F) → (⟨S4096x200x128, .f32⟩ : BufTy).Contents (Elt F)) := rfl

/-- The two lists are one. -/
theorem opsT_eq : (opsT : List (HloOp τ sig (Elt F))) = ops :=
  (congrArg₂ List.cons op_0 (congrArg₂ List.cons op_1 (congrArg₂ List.cons op_2 (congrArg₂ List.cons op_3 (congrArg₂ List.cons op_4 (congrArg₂ List.cons op_5 (congrArg₂ List.cons op_6 (congrArg₂ List.cons op_7 (congrArg₂ List.cons op_8 (congrArg₂ List.cons op_9 (congrArg₂ List.cons op_10 (congrArg₂ List.cons op_11 (congrArg₂ List.cons op_12 (congrArg₂ List.cons op_13 (congrArg₂ List.cons op_14 (congrArg₂ List.cons op_15 (congrArg₂ List.cons op_16 (congrArg₂ List.cons op_17 (congrArg₂ List.cons op_18 (congrArg₂ List.cons op_19 (congrArg₂ List.cons op_20 (congrArg₂ List.cons op_21 (congrArg₂ List.cons op_22 (congrArg₂ List.cons op_23 (congrArg₂ List.cons op_24 (congrArg₂ List.cons op_25 (congrArg₂ List.cons op_26 (congrArg₂ List.cons op_27 (congrArg₂ List.cons op_28 (congrArg₂ List.cons op_29 (congrArg₂ List.cons op_30 (congrArg₂ List.cons op_31 (congrArg₂ List.cons op_32 (congrArg₂ List.cons op_33 (congrArg₂ List.cons op_34 (congrArg₂ List.cons op_35 (congrArg₂ List.cons op_36 (congrArg₂ List.cons op_37 (congrArg₂ List.cons op_38 (congrArg₂ List.cons op_39 (congrArg₂ List.cons op_40 (congrArg₂ List.cons op_41 (congrArg₂ List.cons op_42 (congrArg₂ List.cons op_43 (congrArg₂ List.cons op_44 (congrArg₂ List.cons op_45 (congrArg₂ List.cons op_46 (congrArg₂ List.cons op_47 (congrArg₂ List.cons op_48 (congrArg₂ List.cons op_49 rfl))))))))))))))))))))))))))))))))))))))))))))))))))

-- fifty binds re-associated
set_option maxRecDepth 2048 in
/-- @main is that straight line: the functions' definitions unfolded at their calls, sequencing re-associated. -/
theorem main_eqT (c : Dev nD) : main (F := F) c = seq opsT := by
  simp only [main, fn_take.body, fn_take_0.body, fn_where.body, fn_where_1.body, seq, bind_assoc, pure_bind]

theorem main_eq (c : Dev nD) : main (F := F) c = seq ops := (main_eqT c).trans (congrArg seq opsT_eq)

set_option maxRecDepth 8192 in
set_option maxHeartbeats 1000000 in
/-- The fold at the result buffer is `out` of the arguments: each operation's result read at its own buffer. -/
theorem out_eq (V : Valuation τ sig (Elt F)) :
    after ops V (main_v5 : DevRef τ sig)
      = out (V (main_arg0 : DevRef τ sig)) (V (main_arg1 : DevRef τ sig)) (V (main_arg2 : DevRef τ sig)) := by
  after_results_simp
  rfl

set_option maxRecDepth 8192 in
theorem arg0_eq (V : Valuation τ sig (Elt F)) : after ops V (main_arg0 : DevRef τ sig) = V (main_arg0 : DevRef τ sig) := by
  after_results_simp
set_option maxRecDepth 8192 in
theorem arg1_eq (V : Valuation τ sig (Elt F)) : after ops V (main_arg1 : DevRef τ sig) = V (main_arg1 : DevRef τ sig) := by
  after_results_simp
set_option maxRecDepth 8192 in
theorem arg2_eq (V : Valuation τ sig (Elt F)) : after ops V (main_arg2 : DevRef τ sig) = V (main_arg2 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub ..⟩

/-- On every device, for any float values, from any memory with zero counters: every weakly fair execution of @main
    terminates with the result at `out` of the arguments' launch contents and the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v5).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.RefSide

end
-- ==== Proof.RefSide.lean ====
/-
  The reference side, assembled: under the precondition the reference program runs to its end with the result
  buffer at the embedding lookup plus the position term, the arguments unchanged.
-/
import proofs.«205233_g80668075753725_cont_9to1c4b_826_11_alg».proof.Defs
import proofs.«205233_g80668075753725_cont_9to1c4b_826_11_alg».proof.Proof.Gen.ReferenceIdeal
import proofs.«205233_g80668075753725_cont_9to1c4b_826_11_alg».proof.Proof.Gen.Pre_input_domain
import proofs.«205233_g80668075753725_cont_9to1c4b_826_11_alg».proof.Proof.Spec
import proofs.«205233_g80668075753725_cont_9to1c4b_826_11_alg».proof.Proof.RefRun
import proofs.«205233_g80668075753725_cont_9to1c4b_826_11_alg».proof.Proof.RefValue

noncomputable section

open Idealize.ShloMosaic Idealize.SL.Sem

theorem Cert.RefSide.run [Cert.ReferenceIdeal.Facts] [Cert.Pre_input_domain.Facts]
    (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v5)
            = Cert.Spec.G (F := Ideal) (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run (Cert.ReferenceIdeal.defs (F := Ideal)) _ _).mono
    (fun _ h c => ⟨(h c).1.trans (Cert.RefSide.out_eq_G _ _ _ (Cert.RefSide.inRange_of_pre _ _ _ (hpre c))), (h c).2⟩)
    (Cert.RefSide.run_out (F := Ideal) m g)

end
-- ==== Proof.lean ====
/-
  The proof of the certificate's claim. The kernel is an embedding lookup on the two SparseCores: the TensorCore transposes
  the index array and starts them; each of the thirty-two tiles computes 128 batch rows of the result, a table row plus a
  position row per (batch row, position). Its run (the result at the lookup of the launch arrays, the arguments
  unchanged) is the launch theorem applied to the tiles' obligation, at the word-level instance and at the ideal one;
  each frame is that run with the result's value dropped. The reference's run ends with the same lookup of its own
  arrays, so from memories agreeing on the arguments the two results are equal.
-/
import proofs.«205233_g80668075753725_cont_9to1c4b_826_11_alg».proof.Defs
import proofs.«205233_g80668075753725_cont_9to1c4b_826_11_alg».proof.Proof.Gen.Kernel
import proofs.«205233_g80668075753725_cont_9to1c4b_826_11_alg».proof.Proof.Gen.Kernel.Skeleton
import proofs.«205233_g80668075753725_cont_9to1c4b_826_11_alg».proof.Proof.Gen.KernelIdeal
import proofs.«205233_g80668075753725_cont_9to1c4b_826_11_alg».proof.Proof.Gen.KernelIdeal.Skeleton
import proofs.«205233_g80668075753725_cont_9to1c4b_826_11_alg».proof.Proof.Gen.ReferenceIdeal
import proofs.«205233_g80668075753725_cont_9to1c4b_826_11_alg».proof.Proof.Gen.Pre_input_domain
import proofs.«205233_g80668075753725_cont_9to1c4b_826_11_alg».proof.Proof.KIAsm
import proofs.«205233_g80668075753725_cont_9to1c4b_826_11_alg».proof.Proof.KBAsm
import proofs.«205233_g80668075753725_cont_9to1c4b_826_11_alg».proof.Proof.KICore
import proofs.«205233_g80668075753725_cont_9to1c4b_826_11_alg».proof.Proof.KBCore
import proofs.«205233_g80668075753725_cont_9to1c4b_826_11_alg».proof.Proof.RefSide
import Idealize.ShloMosaic.Adequacy
import Idealize.ShloMosaic.Init

noncomputable section

namespace Cert.Proof

open Idealize.ShloMosaic Idealize.SL.Sem

/-- The kernel as printed runs, its arguments unchanged: its run with the result's value dropped. -/
theorem frame_Kernel : Cert.frame_Kernel (hKernel := Cert.Kernel.Gen.facts) (hPre_input_domain := Cert.Pre_input_domain.Gen.facts) := fun m g hpre =>
  (θ_run Cert.Kernel.defs _ _).mono (fun _ h c => (h c).2)
    (KB.frame_of_core (F := Bits) m g (KB.ok_of_pre m hpre) (KB.tile_core m (KB.ok_of_pre m hpre)))

/-- The same at the ideal instance. -/
theorem frame_KernelIdeal : Cert.frame_KernelIdeal (hKernelIdeal := Cert.KernelIdeal.Gen.facts) (hPre_input_domain := Cert.Pre_input_domain.Gen.facts) := fun m g hpre =>
  (θ_run Cert.KernelIdeal.defs _ _).mono (fun _ h c => (h c).2)
    (KI.frame_of_core (F := Ideal) m g (KI.ok_of_pre m hpre) (KI.tile_core m (KI.ok_of_pre m hpre)))

/-- The reference runs, its arguments unchanged: its run with the result's value dropped. -/
theorem frame_ReferenceIdeal : Cert.frame_ReferenceIdeal (hReferenceIdeal := Cert.ReferenceIdeal.Gen.facts) (hPre_input_domain := Cert.Pre_input_domain.Gen.facts) := fun m g hpre =>
  (θ_run Cert.ReferenceIdeal.defs _ _).mono (fun _ h c => (h c).2) (Cert.RefSide.run m g hpre)

/-- From memories agreeing on the arguments both programs run and end with the same result: the lookup of the kernel's
    launch arrays, which the reference computes of its own, equal, arrays. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m g m' g' hpre hagree
  refine ⟨fun c => KI.GT (F := Ideal) m c, ?_, ?_⟩
  · exact (θ_run Cert.KernelIdeal.defs _ _).mono (fun _ h c => h c)
      (KI.frame_of_core (F := Ideal) m g (KI.ok_of_pre m hpre) (KI.tile_core m (KI.ok_of_pre m hpre)))
  · have hpre' : Cert.Pre_ReferenceIdeal m' := fun c => by
      have h := hpre c
      rw [← (hagree c).1, ← (hagree c).2.1, ← (hagree c).2.2] at h
      exact h
    refine (θ_run Cert.ReferenceIdeal.defs _ _).mono (fun _ h c => ⟨?_, (h c).2⟩) (Cert.RefSide.run m' g' hpre')
    rw [(h c).1, (hagree c).1, (hagree c).2.1, (hagree c).2.2]
    rfl

theorem claim : Cert.Claim := ⟨Cert.Kernel.Gen.facts, Cert.KernelIdeal.Gen.facts, Cert.ReferenceIdeal.Gen.facts, Cert.Pre_input_domain.Gen.facts,
  frame_Kernel, frame_KernelIdeal, frame_ReferenceIdeal, trivial, algebraic⟩

end Cert.Proof

end
